-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x2048 : Shape := ⟨2, ![4096, 2048]⟩
abbrev S100002 : Shape := ⟨1, ![100002]⟩
abbrev S_ : Shape := ⟨0, ![]⟩

class Facts : Prop where
  bcast_S_S100002 : S_.BroadcastsInDim S100002 (![] : Fin 0 → Fin S100002.rank)
  reducesTo_S100002_S_d0 : S100002.ReducesTo [0] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : IVec S4096x2048 32) (main_arg1 : FVec F S100002 .f32) : IVec S_ 1 :=
  let main_v0 : FVec F S100002 .f32 := Host.absf main_arg1
  let main_cst : FVec F S_ .f32 := constant S_ .f32 0x7F800000#32
  let main_v1 : FVec F S100002 .f32 := broadcastInDim S100002 ![] bcast_S_S100002 main_cst
  let main_v2 : IVec S100002 1 := cmpf .olt main_v0 main_v1
  let main_c : IVec S_ 1 := constantI S_ 1 1#1
  let main_v3 : IVec S_ 1 := (fun x v => Host.reduce IntOp.andi x v reducesTo_S100002_S_d0 h_S_) main_v2 main_c
  let main_c_0 : IVec S_ 32 := constantI S_ 32 0#32
  let main_v4 : IVec S4096x2048 32 := broadcastInDim S4096x2048 ![] bcast_S_S4096x2048 main_c_0
  let main_v5 : IVec S4096x2048 1 := cmpi .sge main_arg0 main_v4
  let main_c_1 : IVec S_ 32 := constantI S_ 32 99999#32
  let main_v6 : IVec S4096x2048 32 := broadcastInDim S4096x2048 ![] bcast_S_S4096x2048 main_c_1
  let main_v7 : IVec S4096x2048 1 := cmpi .sle main_arg0 main_v6
  let main_v8 : IVec S4096x2048 1 := andi main_v5 main_v7
  let main_c_2 : IVec S_ 1 := constantI S_ 1 1#1
  let main_v9 : IVec S_ 1 := (fun x v => Host.reduce IntOp.andi x v reducesTo_S4096x2048_S_d0_1 h_S_) main_v8 main_c_2
  let main_v10 : IVec S_ 1 := andi main_v3 main_v9
  main_v10
-- ==== Kernel.lean ====
abbrev S4096x2048 : Shape := ⟨2, ![4096, 2048]⟩
abbrev S100002 : Shape := ⟨1, ![100002]⟩
abbrev S32x800x128 : Shape := ⟨3, ![32, 800, 128]⟩
abbrev S8x1024 : Shape := ⟨2, ![8, 1024]⟩
abbrev S800x128 : Shape := ⟨2, ![800, 128]⟩
abbrev S_ : Shape := ⟨0, ![]⟩
abbrev S16 : Shape := ⟨1, ![16]⟩
abbrev S1x16 : Shape := ⟨2, ![1, 16]⟩
abbrev S1x800x128 : Shape := ⟨3, ![1, 800, 128]⟩
abbrev S102400 : Shape := ⟨1, ![102400]⟩
abbrev S4x200x128 : Shape := ⟨3, ![4, 200, 128]⟩
abbrev S32x200x128 : Shape := ⟨3, ![32, 200, 128]⟩
abbrev S1x200x128 : Shape := ⟨3, ![1, 200, 128]⟩
abbrev S200x128 : Shape := ⟨2, ![200, 128]⟩

abbrev nBuf : Table → Nat
  | .hbm => 10
  | .local .tc .vmem => 6
  | .local .scVector .vmem => 4
  | _ => 0

abbrev bufTy : (tb : Table) → Fin (nBuf tb) → BufTy
  | .hbm, ⟨0, _⟩ => ⟨S4096x2048, .i32⟩
  | .hbm, ⟨1, _⟩ => ⟨S100002, .f32⟩
  | .hbm, ⟨2, _⟩ => ⟨S32x800x128, .i32⟩
  | .hbm, ⟨3, _⟩ => ⟨S_, .i32⟩
  | .hbm, ⟨4, _⟩ => ⟨S_, .f32⟩
  | .hbm, ⟨5, _⟩ => ⟨S102400, .f32⟩
  | .hbm, ⟨6, _⟩ => ⟨S4x200x128, .f32⟩
  | .hbm, ⟨7, _⟩ => ⟨S4x200x128, .f32⟩
  | .hbm, ⟨8, _⟩ => ⟨S102400, .f32⟩
  | .hbm, ⟨9, _⟩ => ⟨S100002, .f32⟩
  | .local .tc .vmem, ⟨0, _⟩ => ⟨S32x200x128, .i32⟩
  | .local .tc .vmem, ⟨1, _⟩ => ⟨S32x200x128, .i32⟩
  | .local .tc .vmem, ⟨2, _⟩ => ⟨S1x200x128, .f32⟩
  | .local .tc .vmem, ⟨3, _⟩ => ⟨S1x200x128, .f32⟩
  | .local .tc .vmem, ⟨4, _⟩ => ⟨S1x200x128, .f32⟩
  | .local .tc .vmem, ⟨5, _⟩ => ⟨S1x200x128, .f32⟩
  | .local .scVector .vmem, ⟨0, _⟩ => ⟨S8x1024, .i32⟩
  | .local .scVector .vmem, ⟨1, _⟩ => ⟨S8x1024, .i32⟩
  | .local .scVector .vmem, ⟨2, _⟩ => ⟨S8x1024, .i32⟩
  | .local .scVector .vmem, ⟨3, _⟩ => ⟨S800x128, .i32⟩
  | _, _ => ⟨S4096x2048, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg0_scv : Ref sig .scVector := ⟨.hbm, 0, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c6400_i32 : BitVec 32 := 6400#32
  let v4 : BitVec 32 := Scalar.addi c0_i32_1 c6400_i32
  let c1_i32 : BitVec 32 := 1#32
  ⟨c0_i32_1, v4, c1_i32⟩
def k0_off1 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c0_i32_30 : BitVec 32 := 0#32
  let v25 : BitVec 1 := Scalar.cmpi .sgt arg11 c0_i32_30
  let v26 : BitVec 32 := Scalar.extui v25
  let c0_i32_31 : BitVec 32 := 0#32
  let v27 : BitVec 1 := Scalar.cmpi .slt arg11 c0_i32_31
  let v28 : BitVec 32 := Scalar.extui v27
  let v29 : BitVec 32 := Scalar.subi v26 v28
  let c8_i32_29 : BitVec 32 := 8#32
  let c0_i32_32 : BitVec 32 := 0#32
  let v30 : BitVec 1 := Scalar.cmpi .sgt c8_i32_29 c0_i32_32
  let v31 : BitVec 32 := Scalar.extui v30
  let c0_i32_33 : BitVec 32 := 0#32
  let v32 : BitVec 1 := Scalar.cmpi .slt c8_i32_29 c0_i32_33
  let v33 : BitVec 32 := Scalar.extui v32
  let v34 : BitVec 32 := Scalar.subi v31 v33
  let v35 : BitVec 1 := Scalar.cmpi .ne v29 v34
  let v36 : BitVec 32 := Scalar.remsi arg11 c8_i32_29
  let c0_i32_34 : BitVec 32 := 0#32
  let v37 : BitVec 1 := Scalar.cmpi .ne v36 c0_i32_34
  let v38 : BitVec 1 := Scalar.andi v35 v37
  let v24 : BitVec 32 := Scalar.divsi arg11 c8_i32_29
  let c1_i32_35 : BitVec 32 := 1#32
  let v39 : BitVec 32 := Scalar.subi v24 c1_i32_35
  let v40 : BitVec 32 := Scalar.select v38 v39 v24
  let v52 : Index := Scalar.indexCast v40
  let c8_i32_36 : BitVec 32 := 8#32
  let c0_i32_37 : BitVec 32 := 0#32
  let v41 : BitVec 1 := Scalar.cmpi .eq c8_i32_36 c0_i32_37
  let c1_i32_38 : BitVec 32 := 1#32
  let v42 : BitVec 32 := Scalar.select v41 c1_i32_38 c8_i32_36
  let v43 : BitVec 32 := Scalar.remsi arg11 v42
  let c0_i32_40 : BitVec 32 := 0#32
  let v45 : BitVec 1 := Scalar.cmpi .slt v43 c0_i32_40
  let c0_i32_41 : BitVec 32 := 0#32
  let v46 : BitVec 1 := Scalar.cmpi .slt v42 c0_i32_41
  let v47 : BitVec 1 := Scalar.xori v45 v46
  let c0_i32_39 : BitVec 32 := 0#32
  let v44 : BitVec 1 := Scalar.cmpi .ne v43 c0_i32_39
  let v48 : BitVec 1 := Scalar.andi v47 v44
  let v49 : BitVec 32 := Scalar.addi v43 v42
  let v50 : BitVec 32 := Scalar.select v48 v49 v43
  let c16_i32 : BitVec 32 := 16#32
  let v51 : BitVec 32 := Scalar.muli v50 c16_i32
  let v53 : Index := Scalar.indexCast v51
  ![v52.toNat, v53.toNat]
def k0_off2 (i : grid0.Coords) (c0_i32_4 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v6 : BitVec 32 := Scalar.addi v2 c0_i32_4
  let c0_i32_5 : BitVec 32 := 0#32
  ![v6.toNat, 0]
def k0_off2_at (r : Fin 3) : BitVec 32 :=
  if r.val < 1 then
    0#32
  else
    if r.val < 2 then
      8#32
    else
      120#32
def k0_off3 (i : grid0.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v9 : BitVec 32 := Scalar.addi v2 c0_i32_7
  let c1024_i32 : BitVec 32 := 1024#32
  ![v9.toNat, 1024]
@[reducible] def k0_t2_loop : Scf.Loop 32 :=
  let c0_i32_12 : BitVec 32 := 0#32
  let c10_i32 : BitVec 32 := 10#32
  let v15 : BitVec 32 := Scalar.addi c0_i32_12 c10_i32
  let c1_i32_13 : BitVec 32 := 1#32
  ⟨c0_i32_12, v15, c1_i32_13⟩
def k0_off4 (i : grid0.Coords) (k0_t2 : Fin k0_t2_loop.trips) (c0_i32_29 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c3_i32 : BitVec 32 := 3#32
  let c0_i32_12 : BitVec 32 := 0#32
  let c1_i32_13 : BitVec 32 := 1#32
  let arg11 : BitVec 32 := Scf.iv c0_i32_12 c1_i32_13 k0_t2
  let v24 : BitVec 32 := Scalar.muli c3_i32 arg11
  let v25 : BitVec 32 := Scalar.addi v24 c0_i32_29
  let c0_i32_31 : BitVec 32 := 0#32
  let v27 : BitVec 1 := Scalar.cmpi .sgt v25 c0_i32_31
  let v28 : BitVec 32 := Scalar.extui v27
  let c0_i32_32 : BitVec 32 := 0#32
  let v29 : BitVec 1 := Scalar.cmpi .slt v25 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi v25 c2_i32_30
  let c0_i32_35 : BitVec 32 := 0#32
  let v39 : BitVec 1 := Scalar.cmpi .ne v38 c0_i32_35
  let v40 : BitVec 1 := Scalar.andi v37 v39
  let v26 : BitVec 32 := Scalar.divsi v25 c2_i32_30
  let c1_i32_36 : BitVec 32 := 1#32
  let v41 : BitVec 32 := Scalar.subi v26 c1_i32_36
  let v42 : BitVec 32 := Scalar.select v40 v41 v26
  let c8_i32_37 : BitVec 32 := 8#32
  let v43 : BitVec 32 := Scalar.muli v42 c8_i32_37
  let v44 : BitVec 32 := Scalar.addi v2 v43
  let c2_i32_38 : BitVec 32 := 2#32
  let c0_i32_39 : BitVec 32 := 0#32
  let v45 : BitVec 1 := Scalar.cmpi .eq c2_i32_38 c0_i32_39
  let c1_i32_40 : BitVec 32 := 1#32
  let v46 : BitVec 32 := Scalar.select v45 c1_i32_40 c2_i32_38
  let v47 : BitVec 32 := Scalar.remsi v25 v46
  let c0_i32_42 : BitVec 32 := 0#32
  let v49 : BitVec 1 := Scalar.cmpi .slt v47 c0_i32_42
  let c0_i32_43 : BitVec 32 := 0#32
  let v50 : BitVec 1 := Scalar.cmpi .slt v46 c0_i32_43
  let v51 : BitVec 1 := Scalar.xori v49 v50
  let c0_i32_41 : BitVec 32 := 0#32
  let v48 : BitVec 1 := Scalar.cmpi .ne v47 c0_i32_41
  let v52 : BitVec 1 := Scalar.andi v51 v48
  let v53 : BitVec 32 := Scalar.addi v47 v46
  let v54 : BitVec 32 := Scalar.select v52 v53 v47
  let c1024_i32_44 : BitVec 32 := 1024#32
  let v55 : BitVec 32 := Scalar.muli v54 c1024_i32_44
  ![v44.toNat, v55.toNat]
@[reducible] def k0_t3_loop : Scf.Loop 32 :=
  let c0_i32_46 : BitVec 32 := 0#32
  let c32_i32_47 : BitVec 32 := 32#32
  let v58 : BitVec 32 := Scalar.addi c0_i32_46 c32_i32_47
  let c1_i32_48 : BitVec 32 := 1#32
  ⟨c0_i32_46, v58, c1_i32_48⟩
def k0_off5 (k0_t3 : Fin k0_t3_loop.trips) (c0_i32_115 : BitVec 32) : Fin 2 → Nat :=
  let c0_i32_46 : BitVec 32 := 0#32
  let c1_i32_48 : BitVec 32 := 1#32
  let arg12 : BitVec 32 := Scf.iv c0_i32_46 c1_i32_48 k0_t3
  let c0_i32_103 : BitVec 32 := 0#32
  let v142 : BitVec 1 := Scalar.cmpi .sgt arg12 c0_i32_103
  let v143 : BitVec 32 := Scalar.extui v142
  let c0_i32_104 : BitVec 32 := 0#32
  let v144 : BitVec 1 := Scalar.cmpi .slt arg12 c0_i32_104
  let v145 : BitVec 32 := Scalar.extui v144
  let v146 : BitVec 32 := Scalar.subi v143 v145
  let c4_i32 : BitVec 32 := 4#32
  let c0_i32_105 : BitVec 32 := 0#32
  let v147 : BitVec 1 := Scalar.cmpi .sgt c4_i32 c0_i32_105
  let v148 : BitVec 32 := Scalar.extui v147
  let c0_i32_106 : BitVec 32 := 0#32
  let v149 : BitVec 1 := Scalar.cmpi .slt c4_i32 c0_i32_106
  let v150 : BitVec 32 := Scalar.extui v149
  let v151 : BitVec 32 := Scalar.subi v148 v150
  let v152 : BitVec 1 := Scalar.cmpi .ne v146 v151
  let v153 : BitVec 32 := Scalar.remsi arg12 c4_i32
  let c0_i32_107 : BitVec 32 := 0#32
  let v154 : BitVec 1 := Scalar.cmpi .ne v153 c0_i32_107
  let v155 : BitVec 1 := Scalar.andi v152 v154
  let v141 : BitVec 32 := Scalar.divsi arg12 c4_i32
  let c1_i32_108 : BitVec 32 := 1#32
  let v156 : BitVec 32 := Scalar.subi v141 c1_i32_108
  let v157 : BitVec 32 := Scalar.select v155 v156 v141
  let v170 : Index := Scalar.indexCast v157
  let c4_i32_109 : BitVec 32 := 4#32
  let c0_i32_110 : BitVec 32 := 0#32
  let v158 : BitVec 1 := Scalar.cmpi .eq c4_i32_109 c0_i32_110
  let c1_i32_111 : BitVec 32 := 1#32
  let v159 : BitVec 32 := Scalar.select v158 c1_i32_111 c4_i32_109
  let v160 : BitVec 32 := Scalar.remsi arg12 v159
  let c0_i32_113 : BitVec 32 := 0#32
  let v162 : BitVec 1 := Scalar.cmpi .slt v160 c0_i32_113
  let c0_i32_114 : BitVec 32 := 0#32
  let v163 : BitVec 1 := Scalar.cmpi .slt v159 c0_i32_114
  let v164 : BitVec 1 := Scalar.xori v162 v163
  let c0_i32_112 : BitVec 32 := 0#32
  let v161 : BitVec 1 := Scalar.cmpi .ne v160 c0_i32_112
  let v165 : BitVec 1 := Scalar.andi v164 v161
  let v166 : BitVec 32 := Scalar.addi v160 v159
  let v167 : BitVec 32 := Scalar.select v165 v166 v160
  let c256_i32 : BitVec 32 := 256#32
  let v168 : BitVec 32 := Scalar.muli v167 c256_i32
  let v169 : BitVec 32 := Scalar.addi v168 c0_i32_115
  let v171 : Index := Scalar.indexCast v169
  ![v170.toNat, v171.toNat]

def k0_chk1 (v234 : IVec S16 32) (v236 : IVec S16 32) : Prop :=
  (∀ a x, ((![v234, v236] : Fin 2 → IVec S16 32) a x).toNat < S800x128.size a)
instance k0_chk1.dec : ∀ (v234 : IVec S16 32) (v236 : IVec S16 32), Decidable (k0_chk1 v234 v236) := fun v234 v236 => decidable_of_iff' _ (Iff.of_eq (k0_chk1.eq_1 v234 v236))
theorem k0_idx1_inb : ∀ (v234 : IVec S16 32) (v236 : IVec S16 32) (k0_hw1 : k0_chk1 v234 v236), ∀ a x, ((![v234, v236] : Fin 2 → IVec S16 32) a x).toNat < S800x128.size a := fun v234 v236 k0_hw1 => k0_hw1

def k0_chk2 (v238 : IVec S16 32) (v240 : IVec S16 32) : Prop :=
  (∀ a x, ((![v238, v240] : Fin 2 → IVec S16 32) a x).toNat < S800x128.size a)
instance k0_chk2.dec : ∀ (v238 : IVec S16 32) (v240 : IVec S16 32), Decidable (k0_chk2 v238 v240) := fun v238 v240 => decidable_of_iff' _ (Iff.of_eq (k0_chk2.eq_1 v238 v240))
theorem k0_idx2_inb : ∀ (v238 : IVec S16 32) (v240 : IVec S16 32) (k0_hw2 : k0_chk2 v238 v240), ∀ a x, ((![v238, v240] : Fin 2 → IVec S16 32) a x).toNat < S800x128.size a := fun v238 v240 k0_hw2 => k0_hw2

def k0_chk3 (v242 : IVec S16 32) (v244 : IVec S16 32) : Prop :=
  (∀ a x, ((![v242, v244] : Fin 2 → IVec S16 32) a x).toNat < S800x128.size a)
instance k0_chk3.dec : ∀ (v242 : IVec S16 32) (v244 : IVec S16 32), Decidable (k0_chk3 v242 v244) := fun v242 v244 => decidable_of_iff' _ (Iff.of_eq (k0_chk3.eq_1 v242 v244))
theorem k0_idx3_inb : ∀ (v242 : IVec S16 32) (v244 : IVec S16 32) (k0_hw3 : k0_chk3 v242 v244), ∀ a x, ((![v242, v244] : Fin 2 → IVec S16 32) a x).toNat < S800x128.size a := fun v242 v244 k0_hw3 => k0_hw3

def k0_chk4 (v246 : IVec S16 32) (v248 : IVec S16 32) : Prop :=
  (∀ a x, ((![v246, v248] : Fin 2 → IVec S16 32) a x).toNat < S800x128.size a)
instance k0_chk4.dec : ∀ (v246 : IVec S16 32) (v248 : IVec S16 32), Decidable (k0_chk4 v246 v248) := fun v246 v248 => decidable_of_iff' _ (Iff.of_eq (k0_chk4.eq_1 v246 v248))
theorem k0_idx4_inb : ∀ (v246 : IVec S16 32) (v248 : IVec S16 32) (k0_hw4 : k0_chk4 v246 v248), ∀ a x, ((![v246, v248] : Fin 2 → IVec S16 32) a x).toNat < S800x128.size a := fun v246 v248 k0_hw4 => k0_hw4

def k0_chk5 (v250 : IVec S16 32) (v252 : IVec S16 32) : Prop :=
  (∀ a x, ((![v250, v252] : Fin 2 → IVec S16 32) a x).toNat < S800x128.size a)
instance k0_chk5.dec : ∀ (v250 : IVec S16 32) (v252 : IVec S16 32), Decidable (k0_chk5 v250 v252) := fun v250 v252 => decidable_of_iff' _ (Iff.of_eq (k0_chk5.eq_1 v250 v252))
theorem k0_idx5_inb : ∀ (v250 : IVec S16 32) (v252 : IVec S16 32) (k0_hw5 : k0_chk5 v250 v252), ∀ a x, ((![v250, v252] : Fin 2 → IVec S16 32) a x).toNat < S800x128.size a := fun v250 v252 k0_hw5 => k0_hw5

def k0_chk6 (v254 : IVec S16 32) (v256 : IVec S16 32) : Prop :=
  (∀ a x, ((![v254, v256] : Fin 2 → IVec S16 32) a x).toNat < S800x128.size a)
instance k0_chk6.dec : ∀ (v254 : IVec S16 32) (v256 : IVec S16 32), Decidable (k0_chk6 v254 v256) := fun v254 v256 => decidable_of_iff' _ (Iff.of_eq (k0_chk6.eq_1 v254 v256))
theorem k0_idx6_inb : ∀ (v254 : IVec S16 32) (v256 : IVec S16 32) (k0_hw6 : k0_chk6 v254 v256), ∀ a x, ((![v254, v256] : Fin 2 → IVec S16 32) a x).toNat < S800x128.size a := fun v254 v256 k0_hw6 => k0_hw6

def k0_chk7 (v258 : IVec S16 32) (v260 : IVec S16 32) : Prop :=
  (∀ a x, ((![v258, v260] : Fin 2 → IVec S16 32) a x).toNat < S800x128.size a)
instance k0_chk7.dec : ∀ (v258 : IVec S16 32) (v260 : IVec S16 32), Decidable (k0_chk7 v258 v260) := fun v258 v260 => decidable_of_iff' _ (Iff.of_eq (k0_chk7.eq_1 v258 v260))
theorem k0_idx7_inb : ∀ (v258 : IVec S16 32) (v260 : IVec S16 32) (k0_hw7 : k0_chk7 v258 v260), ∀ a x, ((![v258, v260] : Fin 2 → IVec S16 32) a x).toNat < S800x128.size a := fun v258 v260 k0_hw7 => k0_hw7

def k0_chk8 (v262 : IVec S16 32) (v264 : IVec S16 32) : Prop :=
  (∀ a x, ((![v262, v264] : Fin 2 → IVec S16 32) a x).toNat < S800x128.size a)
instance k0_chk8.dec : ∀ (v262 : IVec S16 32) (v264 : IVec S16 32), Decidable (k0_chk8 v262 v264) := fun v262 v264 => decidable_of_iff' _ (Iff.of_eq (k0_chk8.eq_1 v262 v264))
theorem k0_idx8_inb : ∀ (v262 : IVec S16 32) (v264 : IVec S16 32) (k0_hw8 : k0_chk8 v262 v264), ∀ a x, ((![v262, v264] : Fin 2 → IVec S16 32) a x).toNat < S800x128.size a := fun v262 v264 k0_hw8 => k0_hw8

def k0_chk9 (v266 : IVec S16 32) (v268 : IVec S16 32) : Prop :=
  (∀ a x, ((![v266, v268] : Fin 2 → IVec S16 32) a x).toNat < S800x128.size a)
instance k0_chk9.dec : ∀ (v266 : IVec S16 32) (v268 : IVec S16 32), Decidable (k0_chk9 v266 v268) := fun v266 v268 => decidable_of_iff' _ (Iff.of_eq (k0_chk9.eq_1 v266 v268))
theorem k0_idx9_inb : ∀ (v266 : IVec S16 32) (v268 : IVec S16 32) (k0_hw9 : k0_chk9 v266 v268), ∀ a x, ((![v266, v268] : Fin 2 → IVec S16 32) a x).toNat < S800x128.size a := fun v266 v268 k0_hw9 => k0_hw9

def k0_chk10 (v270 : IVec S16 32) (v272 : IVec S16 32) : Prop :=
  (∀ a x, ((![v270, v272] : Fin 2 → IVec S16 32) a x).toNat < S800x128.size a)
instance k0_chk10.dec : ∀ (v270 : IVec S16 32) (v272 : IVec S16 32), Decidable (k0_chk10 v270 v272) := fun v270 v272 => decidable_of_iff' _ (Iff.of_eq (k0_chk10.eq_1 v270 v272))
theorem k0_idx10_inb : ∀ (v270 : IVec S16 32) (v272 : IVec S16 32) (k0_hw10 : k0_chk10 v270 v272), ∀ a x, ((![v270, v272] : Fin 2 → IVec S16 32) a x).toNat < S800x128.size a := fun v270 v272 k0_hw10 => k0_hw10

def k0_chk11 (v274 : IVec S16 32) (v276 : IVec S16 32) : Prop :=
  (∀ a x, ((![v274, v276] : Fin 2 → IVec S16 32) a x).toNat < S800x128.size a)
instance k0_chk11.dec : ∀ (v274 : IVec S16 32) (v276 : IVec S16 32), Decidable (k0_chk11 v274 v276) := fun v274 v276 => decidable_of_iff' _ (Iff.of_eq (k0_chk11.eq_1 v274 v276))
theorem k0_idx11_inb : ∀ (v274 : IVec S16 32) (v276 : IVec S16 32) (k0_hw11 : k0_chk11 v274 v276), ∀ a x, ((![v274, v276] : Fin 2 → IVec S16 32) a x).toNat < S800x128.size a := fun v274 v276 k0_hw11 => k0_hw11

def k0_chk12 (v278 : IVec S16 32) (v280 : IVec S16 32) : Prop :=
  (∀ a x, ((![v278, v280] : Fin 2 → IVec S16 32) a x).toNat < S800x128.size a)
instance k0_chk12.dec : ∀ (v278 : IVec S16 32) (v280 : IVec S16 32), Decidable (k0_chk12 v278 v280) := fun v278 v280 => decidable_of_iff' _ (Iff.of_eq (k0_chk12.eq_1 v278 v280))
theorem k0_idx12_inb : ∀ (v278 : IVec S16 32) (v280 : IVec S16 32) (k0_hw12 : k0_chk12 v278 v280), ∀ a x, ((![v278, v280] : Fin 2 → IVec S16 32) a x).toNat < S800x128.size a := fun v278 v280 k0_hw12 => k0_hw12

def k0_chk13 (v282 : IVec S16 32) (v284 : IVec S16 32) : Prop :=
  (∀ a x, ((![v282, v284] : Fin 2 → IVec S16 32) a x).toNat < S800x128.size a)
instance k0_chk13.dec : ∀ (v282 : IVec S16 32) (v284 : IVec S16 32), Decidable (k0_chk13 v282 v284) := fun v282 v284 => decidable_of_iff' _ (Iff.of_eq (k0_chk13.eq_1 v282 v284))
theorem k0_idx13_inb : ∀ (v282 : IVec S16 32) (v284 : IVec S16 32) (k0_hw13 : k0_chk13 v282 v284), ∀ a x, ((![v282, v284] : Fin 2 → IVec S16 32) a x).toNat < S800x128.size a := fun v282 v284 k0_hw13 => k0_hw13

def k0_chk14 (v286 : IVec S16 32) (v288 : IVec S16 32) : Prop :=
  (∀ a x, ((![v286, v288] : Fin 2 → IVec S16 32) a x).toNat < S800x128.size a)
instance k0_chk14.dec : ∀ (v286 : IVec S16 32) (v288 : IVec S16 32), Decidable (k0_chk14 v286 v288) := fun v286 v288 => decidable_of_iff' _ (Iff.of_eq (k0_chk14.eq_1 v286 v288))
theorem k0_idx14_inb : ∀ (v286 : IVec S16 32) (v288 : IVec S16 32) (k0_hw14 : k0_chk14 v286 v288), ∀ a x, ((![v286, v288] : Fin 2 → IVec S16 32) a x).toNat < S800x128.size a := fun v286 v288 k0_hw14 => k0_hw14

def k0_chk15 (v290 : IVec S16 32) (v292 : IVec S16 32) : Prop :=
  (∀ a x, ((![v290, v292] : Fin 2 → IVec S16 32) a x).toNat < S800x128.size a)
instance k0_chk15.dec : ∀ (v290 : IVec S16 32) (v292 : IVec S16 32), Decidable (k0_chk15 v290 v292) := fun v290 v292 => decidable_of_iff' _ (Iff.of_eq (k0_chk15.eq_1 v290 v292))
theorem k0_idx15_inb : ∀ (v290 : IVec S16 32) (v292 : IVec S16 32) (k0_hw15 : k0_chk15 v290 v292), ∀ a x, ((![v290, v292] : Fin 2 → IVec S16 32) a x).toNat < S800x128.size a := fun v290 v292 k0_hw15 => k0_hw15

def k0_chk16 (v294 : IVec S16 32) (v296 : IVec S16 32) : Prop :=
  (∀ a x, ((![v294, v296] : Fin 2 → IVec S16 32) a x).toNat < S800x128.size a)
instance k0_chk16.dec : ∀ (v294 : IVec S16 32) (v296 : IVec S16 32), Decidable (k0_chk16 v294 v296) := fun v294 v296 => decidable_of_iff' _ (Iff.of_eq (k0_chk16.eq_1 v294 v296))
theorem k0_idx16_inb : ∀ (v294 : IVec S16 32) (v296 : IVec S16 32) (k0_hw16 : k0_chk16 v294 v296), ∀ a x, ((![v294, v296] : Fin 2 → IVec S16 32) a x).toNat < S800x128.size a := fun v294 v296 k0_hw16 => k0_hw16
def k0_cond1 (k0_t2 : Fin k0_t2_loop.trips) : BitVec 1 :=
  let c3_i32 : BitVec 32 := 3#32
  let c0_i32_12 : BitVec 32 := 0#32
  let c1_i32_13 : BitVec 32 := 1#32
  let arg11 : BitVec 32 := Scf.iv c0_i32_12 c1_i32_13 k0_t2
  let v24 : BitVec 32 := Scalar.muli c3_i32 arg11
  let c0_i32_29 : BitVec 32 := 0#32
  let v25 : BitVec 32 := Scalar.addi v24 c0_i32_29
  let c3_i32_50 : BitVec 32 := 3#32
  let v59 : BitVec 32 := Scalar.addi v25 c3_i32_50
  let c32_i32_51 : BitVec 32 := 32#32
  let v60 : BitVec 1 := Scalar.cmpi .slt v59 c32_i32_51
  let v61 : BitVec 32 := Scalar.extui v60
  let c0_i32_52 : BitVec 32 := 0#32
  let v62 : BitVec 1 := Scalar.cmpi .ne v61 c0_i32_52
  v62

def k0_off6 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c3_i32 : BitVec 32 := 3#32
  let c0_i32_12 : BitVec 32 := 0#32
  let c1_i32_13 : BitVec 32 := 1#32
  let arg11 : BitVec 32 := Scf.iv c0_i32_12 c1_i32_13 k0_t2
  let v24 : BitVec 32 := Scalar.muli c3_i32 arg11
  let c0_i32_29 : BitVec 32 := 0#32
  let v25 : BitVec 32 := Scalar.addi v24 c0_i32_29
  let c3_i32_103 : BitVec 32 := 3#32
  let v141 : BitVec 32 := Scalar.addi v25 c3_i32_103
  let c0_i32_105 : BitVec 32 := 0#32
  let v143 : BitVec 1 := Scalar.cmpi .sgt v141 c0_i32_105
  let v144 : BitVec 32 := Scalar.extui v143
  let c0_i32_106 : BitVec 32 := 0#32
  let v145 : BitVec 1 := Scalar.cmpi .slt v141 c0_i32_106
  let v146 : BitVec 32 := Scalar.extui v145
  let v147 : BitVec 32 := Scalar.subi v144 v146
  let c2_i32_104 : BitVec 32 := 2#32
  let c0_i32_107 : BitVec 32 := 0#32
  let v148 : BitVec 1 := Scalar.cmpi .sgt c2_i32_104 c0_i32_107
  let v149 : BitVec 32 := Scalar.extui v148
  let c0_i32_108 : BitVec 32 := 0#32
  let v150 : BitVec 1 := Scalar.cmpi .slt c2_i32_104 c0_i32_108
  let v151 : BitVec 32 := Scalar.extui v150
  let v152 : BitVec 32 := Scalar.subi v149 v151
  let v153 : BitVec 1 := Scalar.cmpi .ne v147 v152
  let v154 : BitVec 32 := Scalar.remsi v141 c2_i32_104
  let c0_i32_109 : BitVec 32 := 0#32
  let v155 : BitVec 1 := Scalar.cmpi .ne v154 c0_i32_109
  let v156 : BitVec 1 := Scalar.andi v153 v155
  let v142 : BitVec 32 := Scalar.divsi v141 c2_i32_104
  let c1_i32_110 : BitVec 32 := 1#32
  let v157 : BitVec 32 := Scalar.subi v142 c1_i32_110
  let v158 : BitVec 32 := Scalar.select v156 v157 v142
  let c8_i32_111 : BitVec 32 := 8#32
  let v159 : BitVec 32 := Scalar.muli v158 c8_i32_111
  let v160 : BitVec 32 := Scalar.addi v2 v159
  let c2_i32_112 : BitVec 32 := 2#32
  let c0_i32_113 : BitVec 32 := 0#32
  let v161 : BitVec 1 := Scalar.cmpi .eq c2_i32_112 c0_i32_113
  let c1_i32_114 : BitVec 32 := 1#32
  let v162 : BitVec 32 := Scalar.select v161 c1_i32_114 c2_i32_112
  let v163 : BitVec 32 := Scalar.remsi v141 v162
  let c0_i32_116 : BitVec 32 := 0#32
  let v165 : BitVec 1 := Scalar.cmpi .slt v163 c0_i32_116
  let c0_i32_117 : BitVec 32 := 0#32
  let v166 : BitVec 1 := Scalar.cmpi .slt v162 c0_i32_117
  let v167 : BitVec 1 := Scalar.xori v165 v166
  let c0_i32_115 : BitVec 32 := 0#32
  let v164 : BitVec 1 := Scalar.cmpi .ne v163 c0_i32_115
  let v168 : BitVec 1 := Scalar.andi v167 v164
  let v169 : BitVec 32 := Scalar.addi v163 v162
  let v170 : BitVec 32 := Scalar.select v168 v169 v163
  let c1024_i32_118 : BitVec 32 := 1024#32
  let v171 : BitVec 32 := Scalar.muli v170 c1024_i32_118
  ![v160.toNat, v171.toNat]
@[reducible] def k0_t4_loop : Scf.Loop 32 :=
  let c0_i32_71 : BitVec 32 := 0#32
  let c32_i32_72 : BitVec 32 := 32#32
  let v97 : BitVec 32 := Scalar.addi c0_i32_71 c32_i32_72
  let c1_i32_73 : BitVec 32 := 1#32
  ⟨c0_i32_71, v97, c1_i32_73⟩
def k0_off7 (k0_t4 : Fin k0_t4_loop.trips) (c0_i32_115 : BitVec 32) : Fin 2 → Nat :=
  let c0_i32_71 : BitVec 32 := 0#32
  let c1_i32_73 : BitVec 32 := 1#32
  let arg12 : BitVec 32 := Scf.iv c0_i32_71 c1_i32_73 k0_t4
  let c0_i32_103 : BitVec 32 := 0#32
  let v142 : BitVec 1 := Scalar.cmpi .sgt arg12 c0_i32_103
  let v143 : BitVec 32 := Scalar.extui v142
  let c0_i32_104 : BitVec 32 := 0#32
  let v144 : BitVec 1 := Scalar.cmpi .slt arg12 c0_i32_104
  let v145 : BitVec 32 := Scalar.extui v144
  let v146 : BitVec 32 := Scalar.subi v143 v145
  let c4_i32 : BitVec 32 := 4#32
  let c0_i32_105 : BitVec 32 := 0#32
  let v147 : BitVec 1 := Scalar.cmpi .sgt c4_i32 c0_i32_105
  let v148 : BitVec 32 := Scalar.extui v147
  let c0_i32_106 : BitVec 32 := 0#32
  let v149 : BitVec 1 := Scalar.cmpi .slt c4_i32 c0_i32_106
  let v150 : BitVec 32 := Scalar.extui v149
  let v151 : BitVec 32 := Scalar.subi v148 v150
  let v152 : BitVec 1 := Scalar.cmpi .ne v146 v151
  let v153 : BitVec 32 := Scalar.remsi arg12 c4_i32
  let c0_i32_107 : BitVec 32 := 0#32
  let v154 : BitVec 1 := Scalar.cmpi .ne v153 c0_i32_107
  let v155 : BitVec 1 := Scalar.andi v152 v154
  let v141 : BitVec 32 := Scalar.divsi arg12 c4_i32
  let c1_i32_108 : BitVec 32 := 1#32
  let v156 : BitVec 32 := Scalar.subi v141 c1_i32_108
  let v157 : BitVec 32 := Scalar.select v155 v156 v141
  let v170 : Index := Scalar.indexCast v157
  let c4_i32_109 : BitVec 32 := 4#32
  let c0_i32_110 : BitVec 32 := 0#32
  let v158 : BitVec 1 := Scalar.cmpi .eq c4_i32_109 c0_i32_110
  let c1_i32_111 : BitVec 32 := 1#32
  let v159 : BitVec 32 := Scalar.select v158 c1_i32_111 c4_i32_109
  let v160 : BitVec 32 := Scalar.remsi arg12 v159
  let c0_i32_113 : BitVec 32 := 0#32
  let v162 : BitVec 1 := Scalar.cmpi .slt v160 c0_i32_113
  let c0_i32_114 : BitVec 32 := 0#32
  let v163 : BitVec 1 := Scalar.cmpi .slt v159 c0_i32_114
  let v164 : BitVec 1 := Scalar.xori v162 v163
  let c0_i32_112 : BitVec 32 := 0#32
  let v161 : BitVec 1 := Scalar.cmpi .ne v160 c0_i32_112
  let v165 : BitVec 1 := Scalar.andi v164 v161
  let v166 : BitVec 32 := Scalar.addi v160 v159
  let v167 : BitVec 32 := Scalar.select v165 v166 v160
  let c256_i32 : BitVec 32 := 256#32
  let v168 : BitVec 32 := Scalar.muli v167 c256_i32
  let v169 : BitVec 32 := Scalar.addi v168 c0_i32_115
  let v171 : Index := Scalar.indexCast v169
  ![v170.toNat, v171.toNat]

def k0_chk17 (v234 : IVec S16 32) (v236 : IVec S16 32) : Prop :=
  (∀ a x, ((![v234, v236] : Fin 2 → IVec S16 32) a x).toNat < S800x128.size a)
instance k0_chk17.dec : ∀ (v234 : IVec S16 32) (v236 : IVec S16 32), Decidable (k0_chk17 v234 v236) := fun v234 v236 => decidable_of_iff' _ (Iff.of_eq (k0_chk17.eq_1 v234 v236))
theorem k0_idx17_inb : ∀ (v234 : IVec S16 32) (v236 : IVec S16 32) (k0_hw17 : k0_chk17 v234 v236), ∀ a x, ((![v234, v236] : Fin 2 → IVec S16 32) a x).toNat < S800x128.size a := fun v234 v236 k0_hw17 => k0_hw17

def k0_chk18 (v238 : IVec S16 32) (v240 : IVec S16 32) : Prop :=
  (∀ a x, ((![v238, v240] : Fin 2 → IVec S16 32) a x).toNat < S800x128.size a)
instance k0_chk18.dec : ∀ (v238 : IVec S16 32) (v240 : IVec S16 32), Decidable (k0_chk18 v238 v240) := fun v238 v240 => decidable_of_iff' _ (Iff.of_eq (k0_chk18.eq_1 v238 v240))
theorem k0_idx18_inb : ∀ (v238 : IVec S16 32) (v240 : IVec S16 32) (k0_hw18 : k0_chk18 v238 v240), ∀ a x, ((![v238, v240] : Fin 2 → IVec S16 32) a x).toNat < S800x128.size a := fun v238 v240 k0_hw18 => k0_hw18

def k0_chk19 (v242 : IVec S16 32) (v244 : IVec S16 32) : Prop :=
  (∀ a x, ((![v242, v244] : Fin 2 → IVec S16 32) a x).toNat < S800x128.size a)
instance k0_chk19.dec : ∀ (v242 : IVec S16 32) (v244 : IVec S16 32), Decidable (k0_chk19 v242 v244) := fun v242 v244 => decidable_of_iff' _ (Iff.of_eq (k0_chk19.eq_1 v242 v244))
theorem k0_idx19_inb : ∀ (v242 : IVec S16 32) (v244 : IVec S16 32) (k0_hw19 : k0_chk19 v242 v244), ∀ a x, ((![v242, v244] : Fin 2 → IVec S16 32) a x).toNat < S800x128.size a := fun v242 v244 k0_hw19 => k0_hw19

def k0_chk20 (v246 : IVec S16 32) (v248 : IVec S16 32) : Prop :=
  (∀ a x, ((![v246, v248] : Fin 2 → IVec S16 32) a x).toNat < S800x128.size a)
instance k0_chk20.dec : ∀ (v246 : IVec S16 32) (v248 : IVec S16 32), Decidable (k0_chk20 v246 v248) := fun v246 v248 => decidable_of_iff' _ (Iff.of_eq (k0_chk20.eq_1 v246 v248))
theorem k0_idx20_inb : ∀ (v246 : IVec S16 32) (v248 : IVec S16 32) (k0_hw20 : k0_chk20 v246 v248), ∀ a x, ((![v246, v248] : Fin 2 → IVec S16 32) a x).toNat < S800x128.size a := fun v246 v248 k0_hw20 => k0_hw20

def k0_chk21 (v250 : IVec S16 32) (v252 : IVec S16 32) : Prop :=
  (∀ a x, ((![v250, v252] : Fin 2 → IVec S16 32) a x).toNat < S800x128.size a)
instance k0_chk21.dec : ∀ (v250 : IVec S16 32) (v252 : IVec S16 32), Decidable (k0_chk21 v250 v252) := fun v250 v252 => decidable_of_iff' _ (Iff.of_eq (k0_chk21.eq_1 v250 v252))
theorem k0_idx21_inb : ∀ (v250 : IVec S16 32) (v252 : IVec S16 32) (k0_hw21 : k0_chk21 v250 v252), ∀ a x, ((![v250, v252] : Fin 2 → IVec S16 32) a x).toNat < S800x128.size a := fun v250 v252 k0_hw21 => k0_hw21

def k0_chk22 (v254 : IVec S16 32) (v256 : IVec S16 32) : Prop :=
  (∀ a x, ((![v254, v256] : Fin 2 → IVec S16 32) a x).toNat < S800x128.size a)
instance k0_chk22.dec : ∀ (v254 : IVec S16 32) (v256 : IVec S16 32), Decidable (k0_chk22 v254 v256) := fun v254 v256 => decidable_of_iff' _ (Iff.of_eq (k0_chk22.eq_1 v254 v256))
theorem k0_idx22_inb : ∀ (v254 : IVec S16 32) (v256 : IVec S16 32) (k0_hw22 : k0_chk22 v254 v256), ∀ a x, ((![v254, v256] : Fin 2 → IVec S16 32) a x).toNat < S800x128.size a := fun v254 v256 k0_hw22 => k0_hw22

def k0_chk23 (v258 : IVec S16 32) (v260 : IVec S16 32) : Prop :=
  (∀ a x, ((![v258, v260] : Fin 2 → IVec S16 32) a x).toNat < S800x128.size a)
instance k0_chk23.dec : ∀ (v258 : IVec S16 32) (v260 : IVec S16 32), Decidable (k0_chk23 v258 v260) := fun v258 v260 => decidable_of_iff' _ (Iff.of_eq (k0_chk23.eq_1 v258 v260))
theorem k0_idx23_inb : ∀ (v258 : IVec S16 32) (v260 : IVec S16 32) (k0_hw23 : k0_chk23 v258 v260), ∀ a x, ((![v258, v260] : Fin 2 → IVec S16 32) a x).toNat < S800x128.size a := fun v258 v260 k0_hw23 => k0_hw23

def k0_chk24 (v262 : IVec S16 32) (v264 : IVec S16 32) : Prop :=
  (∀ a x, ((![v262, v264] : Fin 2 → IVec S16 32) a x).toNat < S800x128.size a)
instance k0_chk24.dec : ∀ (v262 : IVec S16 32) (v264 : IVec S16 32), Decidable (k0_chk24 v262 v264) := fun v262 v264 => decidable_of_iff' _ (Iff.of_eq (k0_chk24.eq_1 v262 v264))
theorem k0_idx24_inb : ∀ (v262 : IVec S16 32) (v264 : IVec S16 32) (k0_hw24 : k0_chk24 v262 v264), ∀ a x, ((![v262, v264] : Fin 2 → IVec S16 32) a x).toNat < S800x128.size a := fun v262 v264 k0_hw24 => k0_hw24

def k0_chk25 (v266 : IVec S16 32) (v268 : IVec S16 32) : Prop :=
  (∀ a x, ((![v266, v268] : Fin 2 → IVec S16 32) a x).toNat < S800x128.size a)
instance k0_chk25.dec : ∀ (v266 : IVec S16 32) (v268 : IVec S16 32), Decidable (k0_chk25 v266 v268) := fun v266 v268 => decidable_of_iff' _ (Iff.of_eq (k0_chk25.eq_1 v266 v268))
theorem k0_idx25_inb : ∀ (v266 : IVec S16 32) (v268 : IVec S16 32) (k0_hw25 : k0_chk25 v266 v268), ∀ a x, ((![v266, v268] : Fin 2 → IVec S16 32) a x).toNat < S800x128.size a := fun v266 v268 k0_hw25 => k0_hw25

def k0_chk26 (v270 : IVec S16 32) (v272 : IVec S16 32) : Prop :=
  (∀ a x, ((![v270, v272] : Fin 2 → IVec S16 32) a x).toNat < S800x128.size a)
instance k0_chk26.dec : ∀ (v270 : IVec S16 32) (v272 : IVec S16 32), Decidable (k0_chk26 v270 v272) := fun v270 v272 => decidable_of_iff' _ (Iff.of_eq (k0_chk26.eq_1 v270 v272))
theorem k0_idx26_inb : ∀ (v270 : IVec S16 32) (v272 : IVec S16 32) (k0_hw26 : k0_chk26 v270 v272), ∀ a x, ((![v270, v272] : Fin 2 → IVec S16 32) a x).toNat < S800x128.size a := fun v270 v272 k0_hw26 => k0_hw26

def k0_chk27 (v274 : IVec S16 32) (v276 : IVec S16 32) : Prop :=
  (∀ a x, ((![v274, v276] : Fin 2 → IVec S16 32) a x).toNat < S800x128.size a)
instance k0_chk27.dec : ∀ (v274 : IVec S16 32) (v276 : IVec S16 32), Decidable (k0_chk27 v274 v276) := fun v274 v276 => decidable_of_iff' _ (Iff.of_eq (k0_chk27.eq_1 v274 v276))
theorem k0_idx27_inb : ∀ (v274 : IVec S16 32) (v276 : IVec S16 32) (k0_hw27 : k0_chk27 v274 v276), ∀ a x, ((![v274, v276] : Fin 2 → IVec S16 32) a x).toNat < S800x128.size a := fun v274 v276 k0_hw27 => k0_hw27

def k0_chk28 (v278 : IVec S16 32) (v280 : IVec S16 32) : Prop :=
  (∀ a x, ((![v278, v280] : Fin 2 → IVec S16 32) a x).toNat < S800x128.size a)
instance k0_chk28.dec : ∀ (v278 : IVec S16 32) (v280 : IVec S16 32), Decidable (k0_chk28 v278 v280) := fun v278 v280 => decidable_of_iff' _ (Iff.of_eq (k0_chk28.eq_1 v278 v280))
theorem k0_idx28_inb : ∀ (v278 : IVec S16 32) (v280 : IVec S16 32) (k0_hw28 : k0_chk28 v278 v280), ∀ a x, ((![v278, v280] : Fin 2 → IVec S16 32) a x).toNat < S800x128.size a := fun v278 v280 k0_hw28 => k0_hw28

def k0_chk29 (v282 : IVec S16 32) (v284 : IVec S16 32) : Prop :=
  (∀ a x, ((![v282, v284] : Fin 2 → IVec S16 32) a x).toNat < S800x128.size a)
instance k0_chk29.dec : ∀ (v282 : IVec S16 32) (v284 : IVec S16 32), Decidable (k0_chk29 v282 v284) := fun v282 v284 => decidable_of_iff' _ (Iff.of_eq (k0_chk29.eq_1 v282 v284))
theorem k0_idx29_inb : ∀ (v282 : IVec S16 32) (v284 : IVec S16 32) (k0_hw29 : k0_chk29 v282 v284), ∀ a x, ((![v282, v284] : Fin 2 → IVec S16 32) a x).toNat < S800x128.size a := fun v282 v284 k0_hw29 => k0_hw29

def k0_chk30 (v286 : IVec S16 32) (v288 : IVec S16 32) : Prop :=
  (∀ a x, ((![v286, v288] : Fin 2 → IVec S16 32) a x).toNat < S800x128.size a)
instance k0_chk30.dec : ∀ (v286 : IVec S16 32) (v288 : IVec S16 32), Decidable (k0_chk30 v286 v288) := fun v286 v288 => decidable_of_iff' _ (Iff.of_eq (k0_chk30.eq_1 v286 v288))
theorem k0_idx30_inb : ∀ (v286 : IVec S16 32) (v288 : IVec S16 32) (k0_hw30 : k0_chk30 v286 v288), ∀ a x, ((![v286, v288] : Fin 2 → IVec S16 32) a x).toNat < S800x128.size a := fun v286 v288 k0_hw30 => k0_hw30

def k0_chk31 (v290 : IVec S16 32) (v292 : IVec S16 32) : Prop :=
  (∀ a x, ((![v290, v292] : Fin 2 → IVec S16 32) a x).toNat < S800x128.size a)
instance k0_chk31.dec : ∀ (v290 : IVec S16 32) (v292 : IVec S16 32), Decidable (k0_chk31 v290 v292) := fun v290 v292 => decidable_of_iff' _ (Iff.of_eq (k0_chk31.eq_1 v290 v292))
theorem k0_idx31_inb : ∀ (v290 : IVec S16 32) (v292 : IVec S16 32) (k0_hw31 : k0_chk31 v290 v292), ∀ a x, ((![v290, v292] : Fin 2 → IVec S16 32) a x).toNat < S800x128.size a := fun v290 v292 k0_hw31 => k0_hw31

def k0_chk32 (v294 : IVec S16 32) (v296 : IVec S16 32) : Prop :=
  (∀ a x, ((![v294, v296] : Fin 2 → IVec S16 32) a x).toNat < S800x128.size a)
instance k0_chk32.dec : ∀ (v294 : IVec S16 32) (v296 : IVec S16 32), Decidable (k0_chk32 v294 v296) := fun v294 v296 => decidable_of_iff' _ (Iff.of_eq (k0_chk32.eq_1 v294 v296))
theorem k0_idx32_inb : ∀ (v294 : IVec S16 32) (v296 : IVec S16 32) (k0_hw32 : k0_chk32 v294 v296), ∀ a x, ((![v294, v296] : Fin 2 → IVec S16 32) a x).toNat < S800x128.size a := fun v294 v296 k0_hw32 => k0_hw32
def k0_cond2 (k0_t2 : Fin k0_t2_loop.trips) : BitVec 1 :=
  let c3_i32_53 : BitVec 32 := 3#32
  let c0_i32_12 : BitVec 32 := 0#32
  let c1_i32_13 : BitVec 32 := 1#32
  let arg11 : BitVec 32 := Scf.iv c0_i32_12 c1_i32_13 k0_t2
  let v63 : BitVec 32 := Scalar.muli c3_i32_53 arg11
  let c1_i32_54 : BitVec 32 := 1#32
  let v64 : BitVec 32 := Scalar.addi v63 c1_i32_54
  let c3_i32_75 : BitVec 32 := 3#32
  let v98 : BitVec 32 := Scalar.addi v64 c3_i32_75
  let c32_i32_76 : BitVec 32 := 32#32
  let v99 : BitVec 1 := Scalar.cmpi .slt v98 c32_i32_76
  let v100 : BitVec 32 := Scalar.extui v99
  let c0_i32_77 : BitVec 32 := 0#32
  let v101 : BitVec 1 := Scalar.cmpi .ne v100 c0_i32_77
  v101

def k0_off8 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c3_i32_53 : BitVec 32 := 3#32
  let c0_i32_12 : BitVec 32 := 0#32
  let c1_i32_13 : BitVec 32 := 1#32
  let arg11 : BitVec 32 := Scf.iv c0_i32_12 c1_i32_13 k0_t2
  let v63 : BitVec 32 := Scalar.muli c3_i32_53 arg11
  let c1_i32_54 : BitVec 32 := 1#32
  let v64 : BitVec 32 := Scalar.addi v63 c1_i32_54
  let c3_i32_103 : BitVec 32 := 3#32
  let v141 : BitVec 32 := Scalar.addi v64 c3_i32_103
  let c0_i32_105 : BitVec 32 := 0#32
  let v143 : BitVec 1 := Scalar.cmpi .sgt v141 c0_i32_105
  let v144 : BitVec 32 := Scalar.extui v143
  let c0_i32_106 : BitVec 32 := 0#32
  let v145 : BitVec 1 := Scalar.cmpi .slt v141 c0_i32_106
  let v146 : BitVec 32 := Scalar.extui v145
  let v147 : BitVec 32 := Scalar.subi v144 v146
  let c2_i32_104 : BitVec 32 := 2#32
  let c0_i32_107 : BitVec 32 := 0#32
  let v148 : BitVec 1 := Scalar.cmpi .sgt c2_i32_104 c0_i32_107
  let v149 : BitVec 32 := Scalar.extui v148
  let c0_i32_108 : BitVec 32 := 0#32
  let v150 : BitVec 1 := Scalar.cmpi .slt c2_i32_104 c0_i32_108
  let v151 : BitVec 32 := Scalar.extui v150
  let v152 : BitVec 32 := Scalar.subi v149 v151
  let v153 : BitVec 1 := Scalar.cmpi .ne v147 v152
  let v154 : BitVec 32 := Scalar.remsi v141 c2_i32_104
  let c0_i32_109 : BitVec 32 := 0#32
  let v155 : BitVec 1 := Scalar.cmpi .ne v154 c0_i32_109
  let v156 : BitVec 1 := Scalar.andi v153 v155
  let v142 : BitVec 32 := Scalar.divsi v141 c2_i32_104
  let c1_i32_110 : BitVec 32 := 1#32
  let v157 : BitVec 32 := Scalar.subi v142 c1_i32_110
  let v158 : BitVec 32 := Scalar.select v156 v157 v142
  let c8_i32_111 : BitVec 32 := 8#32
  let v159 : BitVec 32 := Scalar.muli v158 c8_i32_111
  let v160 : BitVec 32 := Scalar.addi v2 v159
  let c2_i32_112 : BitVec 32 := 2#32
  let c0_i32_113 : BitVec 32 := 0#32
  let v161 : BitVec 1 := Scalar.cmpi .eq c2_i32_112 c0_i32_113
  let c1_i32_114 : BitVec 32 := 1#32
  let v162 : BitVec 32 := Scalar.select v161 c1_i32_114 c2_i32_112
  let v163 : BitVec 32 := Scalar.remsi v141 v162
  let c0_i32_116 : BitVec 32 := 0#32
  let v165 : BitVec 1 := Scalar.cmpi .slt v163 c0_i32_116
  let c0_i32_117 : BitVec 32 := 0#32
  let v166 : BitVec 1 := Scalar.cmpi .slt v162 c0_i32_117
  let v167 : BitVec 1 := Scalar.xori v165 v166
  let c0_i32_115 : BitVec 32 := 0#32
  let v164 : BitVec 1 := Scalar.cmpi .ne v163 c0_i32_115
  let v168 : BitVec 1 := Scalar.andi v167 v164
  let v169 : BitVec 32 := Scalar.addi v163 v162
  let v170 : BitVec 32 := Scalar.select v168 v169 v163
  let c1024_i32_118 : BitVec 32 := 1024#32
  let v171 : BitVec 32 := Scalar.muli v170 c1024_i32_118
  ![v160.toNat, v171.toNat]
@[reducible] def k0_t5_loop : Scf.Loop 32 :=
  let c0_i32_96 : BitVec 32 := 0#32
  let c32_i32_97 : BitVec 32 := 32#32
  let v136 : BitVec 32 := Scalar.addi c0_i32_96 c32_i32_97
  let c1_i32_98 : BitVec 32 := 1#32
  ⟨c0_i32_96, v136, c1_i32_98⟩
def k0_off9 (k0_t5 : Fin k0_t5_loop.trips) (c0_i32_115 : BitVec 32) : Fin 2 → Nat :=
  let c0_i32_96 : BitVec 32 := 0#32
  let c1_i32_98 : BitVec 32 := 1#32
  let arg12 : BitVec 32 := Scf.iv c0_i32_96 c1_i32_98 k0_t5
  let c0_i32_103 : BitVec 32 := 0#32
  let v142 : BitVec 1 := Scalar.cmpi .sgt arg12 c0_i32_103
  let v143 : BitVec 32 := Scalar.extui v142
  let c0_i32_104 : BitVec 32 := 0#32
  let v144 : BitVec 1 := Scalar.cmpi .slt arg12 c0_i32_104
  let v145 : BitVec 32 := Scalar.extui v144
  let v146 : BitVec 32 := Scalar.subi v143 v145
  let c4_i32 : BitVec 32 := 4#32
  let c0_i32_105 : BitVec 32 := 0#32
  let v147 : BitVec 1 := Scalar.cmpi .sgt c4_i32 c0_i32_105
  let v148 : BitVec 32 := Scalar.extui v147
  let c0_i32_106 : BitVec 32 := 0#32
  let v149 : BitVec 1 := Scalar.cmpi .slt c4_i32 c0_i32_106
  let v150 : BitVec 32 := Scalar.extui v149
  let v151 : BitVec 32 := Scalar.subi v148 v150
  let v152 : BitVec 1 := Scalar.cmpi .ne v146 v151
  let v153 : BitVec 32 := Scalar.remsi arg12 c4_i32
  let c0_i32_107 : BitVec 32 := 0#32
  let v154 : BitVec 1 := Scalar.cmpi .ne v153 c0_i32_107
  let v155 : BitVec 1 := Scalar.andi v152 v154
  let v141 : BitVec 32 := Scalar.divsi arg12 c4_i32
  let c1_i32_108 : BitVec 32 := 1#32
  let v156 : BitVec 32 := Scalar.subi v141 c1_i32_108
  let v157 : BitVec 32 := Scalar.select v155 v156 v141
  let v170 : Index := Scalar.indexCast v157
  let c4_i32_109 : BitVec 32 := 4#32
  let c0_i32_110 : BitVec 32 := 0#32
  let v158 : BitVec 1 := Scalar.cmpi .eq c4_i32_109 c0_i32_110
  let c1_i32_111 : BitVec 32 := 1#32
  let v159 : BitVec 32 := Scalar.select v158 c1_i32_111 c4_i32_109
  let v160 : BitVec 32 := Scalar.remsi arg12 v159
  let c0_i32_113 : BitVec 32 := 0#32
  let v162 : BitVec 1 := Scalar.cmpi .slt v160 c0_i32_113
  let c0_i32_114 : BitVec 32 := 0#32
  let v163 : BitVec 1 := Scalar.cmpi .slt v159 c0_i32_114
  let v164 : BitVec 1 := Scalar.xori v162 v163
  let c0_i32_112 : BitVec 32 := 0#32
  let v161 : BitVec 1 := Scalar.cmpi .ne v160 c0_i32_112
  let v165 : BitVec 1 := Scalar.andi v164 v161
  let v166 : BitVec 32 := Scalar.addi v160 v159
  let v167 : BitVec 32 := Scalar.select v165 v166 v160
  let c256_i32 : BitVec 32 := 256#32
  let v168 : BitVec 32 := Scalar.muli v167 c256_i32
  let v169 : BitVec 32 := Scalar.addi v168 c0_i32_115
  let v171 : Index := Scalar.indexCast v169
  ![v170.toNat, v171.toNat]

def k0_chk33 (v234 : IVec S16 32) (v236 : IVec S16 32) : Prop :=
  (∀ a x, ((![v234, v236] : Fin 2 → IVec S16 32) a x).toNat < S800x128.size a)
instance k0_chk33.dec : ∀ (v234 : IVec S16 32) (v236 : IVec S16 32), Decidable (k0_chk33 v234 v236) := fun v234 v236 => decidable_of_iff' _ (Iff.of_eq (k0_chk33.eq_1 v234 v236))
theorem k0_idx33_inb : ∀ (v234 : IVec S16 32) (v236 : IVec S16 32) (k0_hw33 : k0_chk33 v234 v236), ∀ a x, ((![v234, v236] : Fin 2 → IVec S16 32) a x).toNat < S800x128.size a := fun v234 v236 k0_hw33 => k0_hw33

def k0_chk34 (v238 : IVec S16 32) (v240 : IVec S16 32) : Prop :=
  (∀ a x, ((![v238, v240] : Fin 2 → IVec S16 32) a x).toNat < S800x128.size a)
instance k0_chk34.dec : ∀ (v238 : IVec S16 32) (v240 : IVec S16 32), Decidable (k0_chk34 v238 v240) := fun v238 v240 => decidable_of_iff' _ (Iff.of_eq (k0_chk34.eq_1 v238 v240))
theorem k0_idx34_inb : ∀ (v238 : IVec S16 32) (v240 : IVec S16 32) (k0_hw34 : k0_chk34 v238 v240), ∀ a x, ((![v238, v240] : Fin 2 → IVec S16 32) a x).toNat < S800x128.size a := fun v238 v240 k0_hw34 => k0_hw34

def k0_chk35 (v242 : IVec S16 32) (v244 : IVec S16 32) : Prop :=
  (∀ a x, ((![v242, v244] : Fin 2 → IVec S16 32) a x).toNat < S800x128.size a)
instance k0_chk35.dec : ∀ (v242 : IVec S16 32) (v244 : IVec S16 32), Decidable (k0_chk35 v242 v244) := fun v242 v244 => decidable_of_iff' _ (Iff.of_eq (k0_chk35.eq_1 v242 v244))
theorem k0_idx35_inb : ∀ (v242 : IVec S16 32) (v244 : IVec S16 32) (k0_hw35 : k0_chk35 v242 v244), ∀ a x, ((![v242, v244] : Fin 2 → IVec S16 32) a x).toNat < S800x128.size a := fun v242 v244 k0_hw35 => k0_hw35

def k0_chk36 (v246 : IVec S16 32) (v248 : IVec S16 32) : Prop :=
  (∀ a x, ((![v246, v248] : Fin 2 → IVec S16 32) a x).toNat < S800x128.size a)
instance k0_chk36.dec : ∀ (v246 : IVec S16 32) (v248 : IVec S16 32), Decidable (k0_chk36 v246 v248) := fun v246 v248 => decidable_of_iff' _ (Iff.of_eq (k0_chk36.eq_1 v246 v248))
theorem k0_idx36_inb : ∀ (v246 : IVec S16 32) (v248 : IVec S16 32) (k0_hw36 : k0_chk36 v246 v248), ∀ a x, ((![v246, v248] : Fin 2 → IVec S16 32) a x).toNat < S800x128.size a := fun v246 v248 k0_hw36 => k0_hw36

def k0_chk37 (v250 : IVec S16 32) (v252 : IVec S16 32) : Prop :=
  (∀ a x, ((![v250, v252] : Fin 2 → IVec S16 32) a x).toNat < S800x128.size a)
instance k0_chk37.dec : ∀ (v250 : IVec S16 32) (v252 : IVec S16 32), Decidable (k0_chk37 v250 v252) := fun v250 v252 => decidable_of_iff' _ (Iff.of_eq (k0_chk37.eq_1 v250 v252))
theorem k0_idx37_inb : ∀ (v250 : IVec S16 32) (v252 : IVec S16 32) (k0_hw37 : k0_chk37 v250 v252), ∀ a x, ((![v250, v252] : Fin 2 → IVec S16 32) a x).toNat < S800x128.size a := fun v250 v252 k0_hw37 => k0_hw37

def k0_chk38 (v254 : IVec S16 32) (v256 : IVec S16 32) : Prop :=
  (∀ a x, ((![v254, v256] : Fin 2 → IVec S16 32) a x).toNat < S800x128.size a)
instance k0_chk38.dec : ∀ (v254 : IVec S16 32) (v256 : IVec S16 32), Decidable (k0_chk38 v254 v256) := fun v254 v256 => decidable_of_iff' _ (Iff.of_eq (k0_chk38.eq_1 v254 v256))
theorem k0_idx38_inb : ∀ (v254 : IVec S16 32) (v256 : IVec S16 32) (k0_hw38 : k0_chk38 v254 v256), ∀ a x, ((![v254, v256] : Fin 2 → IVec S16 32) a x).toNat < S800x128.size a := fun v254 v256 k0_hw38 => k0_hw38

def k0_chk39 (v258 : IVec S16 32) (v260 : IVec S16 32) : Prop :=
  (∀ a x, ((![v258, v260] : Fin 2 → IVec S16 32) a x).toNat < S800x128.size a)
instance k0_chk39.dec : ∀ (v258 : IVec S16 32) (v260 : IVec S16 32), Decidable (k0_chk39 v258 v260) := fun v258 v260 => decidable_of_iff' _ (Iff.of_eq (k0_chk39.eq_1 v258 v260))
theorem k0_idx39_inb : ∀ (v258 : IVec S16 32) (v260 : IVec S16 32) (k0_hw39 : k0_chk39 v258 v260), ∀ a x, ((![v258, v260] : Fin 2 → IVec S16 32) a x).toNat < S800x128.size a := fun v258 v260 k0_hw39 => k0_hw39

def k0_chk40 (v262 : IVec S16 32) (v264 : IVec S16 32) : Prop :=
  (∀ a x, ((![v262, v264] : Fin 2 → IVec S16 32) a x).toNat < S800x128.size a)
instance k0_chk40.dec : ∀ (v262 : IVec S16 32) (v264 : IVec S16 32), Decidable (k0_chk40 v262 v264) := fun v262 v264 => decidable_of_iff' _ (Iff.of_eq (k0_chk40.eq_1 v262 v264))
theorem k0_idx40_inb : ∀ (v262 : IVec S16 32) (v264 : IVec S16 32) (k0_hw40 : k0_chk40 v262 v264), ∀ a x, ((![v262, v264] : Fin 2 → IVec S16 32) a x).toNat < S800x128.size a := fun v262 v264 k0_hw40 => k0_hw40

def k0_chk41 (v266 : IVec S16 32) (v268 : IVec S16 32) : Prop :=
  (∀ a x, ((![v266, v268] : Fin 2 → IVec S16 32) a x).toNat < S800x128.size a)
instance k0_chk41.dec : ∀ (v266 : IVec S16 32) (v268 : IVec S16 32), Decidable (k0_chk41 v266 v268) := fun v266 v268 => decidable_of_iff' _ (Iff.of_eq (k0_chk41.eq_1 v266 v268))
theorem k0_idx41_inb : ∀ (v266 : IVec S16 32) (v268 : IVec S16 32) (k0_hw41 : k0_chk41 v266 v268), ∀ a x, ((![v266, v268] : Fin 2 → IVec S16 32) a x).toNat < S800x128.size a := fun v266 v268 k0_hw41 => k0_hw41

def k0_chk42 (v270 : IVec S16 32) (v272 : IVec S16 32) : Prop :=
  (∀ a x, ((![v270, v272] : Fin 2 → IVec S16 32) a x).toNat < S800x128.size a)
instance k0_chk42.dec : ∀ (v270 : IVec S16 32) (v272 : IVec S16 32), Decidable (k0_chk42 v270 v272) := fun v270 v272 => decidable_of_iff' _ (Iff.of_eq (k0_chk42.eq_1 v270 v272))
theorem k0_idx42_inb : ∀ (v270 : IVec S16 32) (v272 : IVec S16 32) (k0_hw42 : k0_chk42 v270 v272), ∀ a x, ((![v270, v272] : Fin 2 → IVec S16 32) a x).toNat < S800x128.size a := fun v270 v272 k0_hw42 => k0_hw42

def k0_chk43 (v274 : IVec S16 32) (v276 : IVec S16 32) : Prop :=
  (∀ a x, ((![v274, v276] : Fin 2 → IVec S16 32) a x).toNat < S800x128.size a)
instance k0_chk43.dec : ∀ (v274 : IVec S16 32) (v276 : IVec S16 32), Decidable (k0_chk43 v274 v276) := fun v274 v276 => decidable_of_iff' _ (Iff.of_eq (k0_chk43.eq_1 v274 v276))
theorem k0_idx43_inb : ∀ (v274 : IVec S16 32) (v276 : IVec S16 32) (k0_hw43 : k0_chk43 v274 v276), ∀ a x, ((![v274, v276] : Fin 2 → IVec S16 32) a x).toNat < S800x128.size a := fun v274 v276 k0_hw43 => k0_hw43

def k0_chk44 (v278 : IVec S16 32) (v280 : IVec S16 32) : Prop :=
  (∀ a x, ((![v278, v280] : Fin 2 → IVec S16 32) a x).toNat < S800x128.size a)
instance k0_chk44.dec : ∀ (v278 : IVec S16 32) (v280 : IVec S16 32), Decidable (k0_chk44 v278 v280) := fun v278 v280 => decidable_of_iff' _ (Iff.of_eq (k0_chk44.eq_1 v278 v280))
theorem k0_idx44_inb : ∀ (v278 : IVec S16 32) (v280 : IVec S16 32) (k0_hw44 : k0_chk44 v278 v280), ∀ a x, ((![v278, v280] : Fin 2 → IVec S16 32) a x).toNat < S800x128.size a := fun v278 v280 k0_hw44 => k0_hw44

def k0_chk45 (v282 : IVec S16 32) (v284 : IVec S16 32) : Prop :=
  (∀ a x, ((![v282, v284] : Fin 2 → IVec S16 32) a x).toNat < S800x128.size a)
instance k0_chk45.dec : ∀ (v282 : IVec S16 32) (v284 : IVec S16 32), Decidable (k0_chk45 v282 v284) := fun v282 v284 => decidable_of_iff' _ (Iff.of_eq (k0_chk45.eq_1 v282 v284))
theorem k0_idx45_inb : ∀ (v282 : IVec S16 32) (v284 : IVec S16 32) (k0_hw45 : k0_chk45 v282 v284), ∀ a x, ((![v282, v284] : Fin 2 → IVec S16 32) a x).toNat < S800x128.size a := fun v282 v284 k0_hw45 => k0_hw45

def k0_chk46 (v286 : IVec S16 32) (v288 : IVec S16 32) : Prop :=
  (∀ a x, ((![v286, v288] : Fin 2 → IVec S16 32) a x).toNat < S800x128.size a)
instance k0_chk46.dec : ∀ (v286 : IVec S16 32) (v288 : IVec S16 32), Decidable (k0_chk46 v286 v288) := fun v286 v288 => decidable_of_iff' _ (Iff.of_eq (k0_chk46.eq_1 v286 v288))
theorem k0_idx46_inb : ∀ (v286 : IVec S16 32) (v288 : IVec S16 32) (k0_hw46 : k0_chk46 v286 v288), ∀ a x, ((![v286, v288] : Fin 2 → IVec S16 32) a x).toNat < S800x128.size a := fun v286 v288 k0_hw46 => k0_hw46

def k0_chk47 (v290 : IVec S16 32) (v292 : IVec S16 32) : Prop :=
  (∀ a x, ((![v290, v292] : Fin 2 → IVec S16 32) a x).toNat < S800x128.size a)
instance k0_chk47.dec : ∀ (v290 : IVec S16 32) (v292 : IVec S16 32), Decidable (k0_chk47 v290 v292) := fun v290 v292 => decidable_of_iff' _ (Iff.of_eq (k0_chk47.eq_1 v290 v292))
theorem k0_idx47_inb : ∀ (v290 : IVec S16 32) (v292 : IVec S16 32) (k0_hw47 : k0_chk47 v290 v292), ∀ a x, ((![v290, v292] : Fin 2 → IVec S16 32) a x).toNat < S800x128.size a := fun v290 v292 k0_hw47 => k0_hw47

def k0_chk48 (v294 : IVec S16 32) (v296 : IVec S16 32) : Prop :=
  (∀ a x, ((![v294, v296] : Fin 2 → IVec S16 32) a x).toNat < S800x128.size a)
instance k0_chk48.dec : ∀ (v294 : IVec S16 32) (v296 : IVec S16 32), Decidable (k0_chk48 v294 v296) := fun v294 v296 => decidable_of_iff' _ (Iff.of_eq (k0_chk48.eq_1 v294 v296))
theorem k0_idx48_inb : ∀ (v294 : IVec S16 32) (v296 : IVec S16 32) (k0_hw48 : k0_chk48 v294 v296), ∀ a x, ((![v294, v296] : Fin 2 → IVec S16 32) a x).toNat < S800x128.size a := fun v294 v296 k0_hw48 => k0_hw48
def k0_cond3 (k0_t2 : Fin k0_t2_loop.trips) : BitVec 1 :=
  let c3_i32_78 : BitVec 32 := 3#32
  let c0_i32_12 : BitVec 32 := 0#32
  let c1_i32_13 : BitVec 32 := 1#32
  let arg11 : BitVec 32 := Scf.iv c0_i32_12 c1_i32_13 k0_t2
  let v102 : BitVec 32 := Scalar.muli c3_i32_78 arg11
  let c2_i32_79 : BitVec 32 := 2#32
  let v103 : BitVec 32 := Scalar.addi v102 c2_i32_79
  let c3_i32_100 : BitVec 32 := 3#32
  let v137 : BitVec 32 := Scalar.addi v103 c3_i32_100
  let c32_i32_101 : BitVec 32 := 32#32
  let v138 : BitVec 1 := Scalar.cmpi .slt v137 c32_i32_101
  let v139 : BitVec 32 := Scalar.extui v138
  let c0_i32_102 : BitVec 32 := 0#32
  let v140 : BitVec 1 := Scalar.cmpi .ne v139 c0_i32_102
  v140

def k0_off10 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c3_i32_78 : BitVec 32 := 3#32
  let c0_i32_12 : BitVec 32 := 0#32
  let c1_i32_13 : BitVec 32 := 1#32
  let arg11 : BitVec 32 := Scf.iv c0_i32_12 c1_i32_13 k0_t2
  let v102 : BitVec 32 := Scalar.muli c3_i32_78 arg11
  let c2_i32_79 : BitVec 32 := 2#32
  let v103 : BitVec 32 := Scalar.addi v102 c2_i32_79
  let c3_i32_103 : BitVec 32 := 3#32
  let v141 : BitVec 32 := Scalar.addi v103 c3_i32_103
  let c0_i32_105 : BitVec 32 := 0#32
  let v143 : BitVec 1 := Scalar.cmpi .sgt v141 c0_i32_105
  let v144 : BitVec 32 := Scalar.extui v143
  let c0_i32_106 : BitVec 32 := 0#32
  let v145 : BitVec 1 := Scalar.cmpi .slt v141 c0_i32_106
  let v146 : BitVec 32 := Scalar.extui v145
  let v147 : BitVec 32 := Scalar.subi v144 v146
  let c2_i32_104 : BitVec 32 := 2#32
  let c0_i32_107 : BitVec 32 := 0#32
  let v148 : BitVec 1 := Scalar.cmpi .sgt c2_i32_104 c0_i32_107
  let v149 : BitVec 32 := Scalar.extui v148
  let c0_i32_108 : BitVec 32 := 0#32
  let v150 : BitVec 1 := Scalar.cmpi .slt c2_i32_104 c0_i32_108
  let v151 : BitVec 32 := Scalar.extui v150
  let v152 : BitVec 32 := Scalar.subi v149 v151
  let v153 : BitVec 1 := Scalar.cmpi .ne v147 v152
  let v154 : BitVec 32 := Scalar.remsi v141 c2_i32_104
  let c0_i32_109 : BitVec 32 := 0#32
  let v155 : BitVec 1 := Scalar.cmpi .ne v154 c0_i32_109
  let v156 : BitVec 1 := Scalar.andi v153 v155
  let v142 : BitVec 32 := Scalar.divsi v141 c2_i32_104
  let c1_i32_110 : BitVec 32 := 1#32
  let v157 : BitVec 32 := Scalar.subi v142 c1_i32_110
  let v158 : BitVec 32 := Scalar.select v156 v157 v142
  let c8_i32_111 : BitVec 32 := 8#32
  let v159 : BitVec 32 := Scalar.muli v158 c8_i32_111
  let v160 : BitVec 32 := Scalar.addi v2 v159
  let c2_i32_112 : BitVec 32 := 2#32
  let c0_i32_113 : BitVec 32 := 0#32
  let v161 : BitVec 1 := Scalar.cmpi .eq c2_i32_112 c0_i32_113
  let c1_i32_114 : BitVec 32 := 1#32
  let v162 : BitVec 32 := Scalar.select v161 c1_i32_114 c2_i32_112
  let v163 : BitVec 32 := Scalar.remsi v141 v162
  let c0_i32_116 : BitVec 32 := 0#32
  let v165 : BitVec 1 := Scalar.cmpi .slt v163 c0_i32_116
  let c0_i32_117 : BitVec 32 := 0#32
  let v166 : BitVec 1 := Scalar.cmpi .slt v162 c0_i32_117
  let v167 : BitVec 1 := Scalar.xori v165 v166
  let c0_i32_115 : BitVec 32 := 0#32
  let v164 : BitVec 1 := Scalar.cmpi .ne v163 c0_i32_115
  let v168 : BitVec 1 := Scalar.andi v167 v164
  let v169 : BitVec 32 := Scalar.addi v163 v162
  let v170 : BitVec 32 := Scalar.select v168 v169 v163
  let c1024_i32_118 : BitVec 32 := 1024#32
  let v171 : BitVec 32 := Scalar.muli v170 c1024_i32_118
  ![v160.toNat, v171.toNat]
@[reducible] def k0_t6_loop : Scf.Loop 32 :=
  let c0_i32_18 : BitVec 32 := 0#32
  let c32_i32 : BitVec 32 := 32#32
  let v19 : BitVec 32 := Scalar.addi c0_i32_18 c32_i32
  let c1_i32_19 : BitVec 32 := 1#32
  ⟨c0_i32_18, v19, c1_i32_19⟩
def k0_off11 (k0_t6 : Fin k0_t6_loop.trips) (c0_i32_41 : BitVec 32) : Fin 2 → Nat :=
  let c0_i32_18 : BitVec 32 := 0#32
  let c1_i32_19 : BitVec 32 := 1#32
  let arg11 : BitVec 32 := Scf.iv c0_i32_18 c1_i32_19 k0_t6
  let c0_i32_29 : BitVec 32 := 0#32
  let v25 : BitVec 1 := Scalar.cmpi .sgt arg11 c0_i32_29
  let v26 : BitVec 32 := Scalar.extui v25
  let c0_i32_30 : BitVec 32 := 0#32
  let v27 : BitVec 1 := Scalar.cmpi .slt arg11 c0_i32_30
  let v28 : BitVec 32 := Scalar.extui v27
  let v29 : BitVec 32 := Scalar.subi v26 v28
  let c4_i32 : BitVec 32 := 4#32
  let c0_i32_31 : BitVec 32 := 0#32
  let v30 : BitVec 1 := Scalar.cmpi .sgt c4_i32 c0_i32_31
  let v31 : BitVec 32 := Scalar.extui v30
  let c0_i32_32 : BitVec 32 := 0#32
  let v32 : BitVec 1 := Scalar.cmpi .slt c4_i32 c0_i32_32
  let v33 : BitVec 32 := Scalar.extui v32
  let v34 : BitVec 32 := Scalar.subi v31 v33
  let v35 : BitVec 1 := Scalar.cmpi .ne v29 v34
  let v36 : BitVec 32 := Scalar.remsi arg11 c4_i32
  let c0_i32_33 : BitVec 32 := 0#32
  let v37 : BitVec 1 := Scalar.cmpi .ne v36 c0_i32_33
  let v38 : BitVec 1 := Scalar.andi v35 v37
  let v24 : BitVec 32 := Scalar.divsi arg11 c4_i32
  let c1_i32_34 : BitVec 32 := 1#32
  let v39 : BitVec 32 := Scalar.subi v24 c1_i32_34
  let v40 : BitVec 32 := Scalar.select v38 v39 v24
  let v53 : Index := Scalar.indexCast v40
  let c4_i32_35 : BitVec 32 := 4#32
  let c0_i32_36 : BitVec 32 := 0#32
  let v41 : BitVec 1 := Scalar.cmpi .eq c4_i32_35 c0_i32_36
  let c1_i32_37 : BitVec 32 := 1#32
  let v42 : BitVec 32 := Scalar.select v41 c1_i32_37 c4_i32_35
  let v43 : BitVec 32 := Scalar.remsi arg11 v42
  let c0_i32_39 : BitVec 32 := 0#32
  let v45 : BitVec 1 := Scalar.cmpi .slt v43 c0_i32_39
  let c0_i32_40 : BitVec 32 := 0#32
  let v46 : BitVec 1 := Scalar.cmpi .slt v42 c0_i32_40
  let v47 : BitVec 1 := Scalar.xori v45 v46
  let c0_i32_38 : BitVec 32 := 0#32
  let v44 : BitVec 1 := Scalar.cmpi .ne v43 c0_i32_38
  let v48 : BitVec 1 := Scalar.andi v47 v44
  let v49 : BitVec 32 := Scalar.addi v43 v42
  let v50 : BitVec 32 := Scalar.select v48 v49 v43
  let c256_i32 : BitVec 32 := 256#32
  let v51 : BitVec 32 := Scalar.muli v50 c256_i32
  let v52 : BitVec 32 := Scalar.addi v51 c0_i32_41
  let v54 : Index := Scalar.indexCast v52
  ![v53.toNat, v54.toNat]

def k0_chk49 (v117 : IVec S16 32) (v119 : IVec S16 32) : Prop :=
  (∀ a x, ((![v117, v119] : Fin 2 → IVec S16 32) a x).toNat < S800x128.size a)
instance k0_chk49.dec : ∀ (v117 : IVec S16 32) (v119 : IVec S16 32), Decidable (k0_chk49 v117 v119) := fun v117 v119 => decidable_of_iff' _ (Iff.of_eq (k0_chk49.eq_1 v117 v119))
theorem k0_idx49_inb : ∀ (v117 : IVec S16 32) (v119 : IVec S16 32) (k0_hw49 : k0_chk49 v117 v119), ∀ a x, ((![v117, v119] : Fin 2 → IVec S16 32) a x).toNat < S800x128.size a := fun v117 v119 k0_hw49 => k0_hw49

def k0_chk50 (v121 : IVec S16 32) (v123 : IVec S16 32) : Prop :=
  (∀ a x, ((![v121, v123] : Fin 2 → IVec S16 32) a x).toNat < S800x128.size a)
instance k0_chk50.dec : ∀ (v121 : IVec S16 32) (v123 : IVec S16 32), Decidable (k0_chk50 v121 v123) := fun v121 v123 => decidable_of_iff' _ (Iff.of_eq (k0_chk50.eq_1 v121 v123))
theorem k0_idx50_inb : ∀ (v121 : IVec S16 32) (v123 : IVec S16 32) (k0_hw50 : k0_chk50 v121 v123), ∀ a x, ((![v121, v123] : Fin 2 → IVec S16 32) a x).toNat < S800x128.size a := fun v121 v123 k0_hw50 => k0_hw50

def k0_chk51 (v125 : IVec S16 32) (v127 : IVec S16 32) : Prop :=
  (∀ a x, ((![v125, v127] : Fin 2 → IVec S16 32) a x).toNat < S800x128.size a)
instance k0_chk51.dec : ∀ (v125 : IVec S16 32) (v127 : IVec S16 32), Decidable (k0_chk51 v125 v127) := fun v125 v127 => decidable_of_iff' _ (Iff.of_eq (k0_chk51.eq_1 v125 v127))
theorem k0_idx51_inb : ∀ (v125 : IVec S16 32) (v127 : IVec S16 32) (k0_hw51 : k0_chk51 v125 v127), ∀ a x, ((![v125, v127] : Fin 2 → IVec S16 32) a x).toNat < S800x128.size a := fun v125 v127 k0_hw51 => k0_hw51

def k0_chk52 (v129 : IVec S16 32) (v131 : IVec S16 32) : Prop :=
  (∀ a x, ((![v129, v131] : Fin 2 → IVec S16 32) a x).toNat < S800x128.size a)
instance k0_chk52.dec : ∀ (v129 : IVec S16 32) (v131 : IVec S16 32), Decidable (k0_chk52 v129 v131) := fun v129 v131 => decidable_of_iff' _ (Iff.of_eq (k0_chk52.eq_1 v129 v131))
theorem k0_idx52_inb : ∀ (v129 : IVec S16 32) (v131 : IVec S16 32) (k0_hw52 : k0_chk52 v129 v131), ∀ a x, ((![v129, v131] : Fin 2 → IVec S16 32) a x).toNat < S800x128.size a := fun v129 v131 k0_hw52 => k0_hw52

def k0_chk53 (v133 : IVec S16 32) (v135 : IVec S16 32) : Prop :=
  (∀ a x, ((![v133, v135] : Fin 2 → IVec S16 32) a x).toNat < S800x128.size a)
instance k0_chk53.dec : ∀ (v133 : IVec S16 32) (v135 : IVec S16 32), Decidable (k0_chk53 v133 v135) := fun v133 v135 => decidable_of_iff' _ (Iff.of_eq (k0_chk53.eq_1 v133 v135))
theorem k0_idx53_inb : ∀ (v133 : IVec S16 32) (v135 : IVec S16 32) (k0_hw53 : k0_chk53 v133 v135), ∀ a x, ((![v133, v135] : Fin 2 → IVec S16 32) a x).toNat < S800x128.size a := fun v133 v135 k0_hw53 => k0_hw53

def k0_chk54 (v137 : IVec S16 32) (v139 : IVec S16 32) : Prop :=
  (∀ a x, ((![v137, v139] : Fin 2 → IVec S16 32) a x).toNat < S800x128.size a)
instance k0_chk54.dec : ∀ (v137 : IVec S16 32) (v139 : IVec S16 32), Decidable (k0_chk54 v137 v139) := fun v137 v139 => decidable_of_iff' _ (Iff.of_eq (k0_chk54.eq_1 v137 v139))
theorem k0_idx54_inb : ∀ (v137 : IVec S16 32) (v139 : IVec S16 32) (k0_hw54 : k0_chk54 v137 v139), ∀ a x, ((![v137, v139] : Fin 2 → IVec S16 32) a x).toNat < S800x128.size a := fun v137 v139 k0_hw54 => k0_hw54

def k0_chk55 (v141 : IVec S16 32) (v143 : IVec S16 32) : Prop :=
  (∀ a x, ((![v141, v143] : Fin 2 → IVec S16 32) a x).toNat < S800x128.size a)
instance k0_chk55.dec : ∀ (v141 : IVec S16 32) (v143 : IVec S16 32), Decidable (k0_chk55 v141 v143) := fun v141 v143 => decidable_of_iff' _ (Iff.of_eq (k0_chk55.eq_1 v141 v143))
theorem k0_idx55_inb : ∀ (v141 : IVec S16 32) (v143 : IVec S16 32) (k0_hw55 : k0_chk55 v141 v143), ∀ a x, ((![v141, v143] : Fin 2 → IVec S16 32) a x).toNat < S800x128.size a := fun v141 v143 k0_hw55 => k0_hw55

def k0_chk56 (v145 : IVec S16 32) (v147 : IVec S16 32) : Prop :=
  (∀ a x, ((![v145, v147] : Fin 2 → IVec S16 32) a x).toNat < S800x128.size a)
instance k0_chk56.dec : ∀ (v145 : IVec S16 32) (v147 : IVec S16 32), Decidable (k0_chk56 v145 v147) := fun v145 v147 => decidable_of_iff' _ (Iff.of_eq (k0_chk56.eq_1 v145 v147))
theorem k0_idx56_inb : ∀ (v145 : IVec S16 32) (v147 : IVec S16 32) (k0_hw56 : k0_chk56 v145 v147), ∀ a x, ((![v145, v147] : Fin 2 → IVec S16 32) a x).toNat < S800x128.size a := fun v145 v147 k0_hw56 => k0_hw56

def k0_chk57 (v149 : IVec S16 32) (v151 : IVec S16 32) : Prop :=
  (∀ a x, ((![v149, v151] : Fin 2 → IVec S16 32) a x).toNat < S800x128.size a)
instance k0_chk57.dec : ∀ (v149 : IVec S16 32) (v151 : IVec S16 32), Decidable (k0_chk57 v149 v151) := fun v149 v151 => decidable_of_iff' _ (Iff.of_eq (k0_chk57.eq_1 v149 v151))
theorem k0_idx57_inb : ∀ (v149 : IVec S16 32) (v151 : IVec S16 32) (k0_hw57 : k0_chk57 v149 v151), ∀ a x, ((![v149, v151] : Fin 2 → IVec S16 32) a x).toNat < S800x128.size a := fun v149 v151 k0_hw57 => k0_hw57

def k0_chk58 (v153 : IVec S16 32) (v155 : IVec S16 32) : Prop :=
  (∀ a x, ((![v153, v155] : Fin 2 → IVec S16 32) a x).toNat < S800x128.size a)
instance k0_chk58.dec : ∀ (v153 : IVec S16 32) (v155 : IVec S16 32), Decidable (k0_chk58 v153 v155) := fun v153 v155 => decidable_of_iff' _ (Iff.of_eq (k0_chk58.eq_1 v153 v155))
theorem k0_idx58_inb : ∀ (v153 : IVec S16 32) (v155 : IVec S16 32) (k0_hw58 : k0_chk58 v153 v155), ∀ a x, ((![v153, v155] : Fin 2 → IVec S16 32) a x).toNat < S800x128.size a := fun v153 v155 k0_hw58 => k0_hw58

def k0_chk59 (v157 : IVec S16 32) (v159 : IVec S16 32) : Prop :=
  (∀ a x, ((![v157, v159] : Fin 2 → IVec S16 32) a x).toNat < S800x128.size a)
instance k0_chk59.dec : ∀ (v157 : IVec S16 32) (v159 : IVec S16 32), Decidable (k0_chk59 v157 v159) := fun v157 v159 => decidable_of_iff' _ (Iff.of_eq (k0_chk59.eq_1 v157 v159))
theorem k0_idx59_inb : ∀ (v157 : IVec S16 32) (v159 : IVec S16 32) (k0_hw59 : k0_chk59 v157 v159), ∀ a x, ((![v157, v159] : Fin 2 → IVec S16 32) a x).toNat < S800x128.size a := fun v157 v159 k0_hw59 => k0_hw59

def k0_chk60 (v161 : IVec S16 32) (v163 : IVec S16 32) : Prop :=
  (∀ a x, ((![v161, v163] : Fin 2 → IVec S16 32) a x).toNat < S800x128.size a)
instance k0_chk60.dec : ∀ (v161 : IVec S16 32) (v163 : IVec S16 32), Decidable (k0_chk60 v161 v163) := fun v161 v163 => decidable_of_iff' _ (Iff.of_eq (k0_chk60.eq_1 v161 v163))
theorem k0_idx60_inb : ∀ (v161 : IVec S16 32) (v163 : IVec S16 32) (k0_hw60 : k0_chk60 v161 v163), ∀ a x, ((![v161, v163] : Fin 2 → IVec S16 32) a x).toNat < S800x128.size a := fun v161 v163 k0_hw60 => k0_hw60

def k0_chk61 (v165 : IVec S16 32) (v167 : IVec S16 32) : Prop :=
  (∀ a x, ((![v165, v167] : Fin 2 → IVec S16 32) a x).toNat < S800x128.size a)
instance k0_chk61.dec : ∀ (v165 : IVec S16 32) (v167 : IVec S16 32), Decidable (k0_chk61 v165 v167) := fun v165 v167 => decidable_of_iff' _ (Iff.of_eq (k0_chk61.eq_1 v165 v167))
theorem k0_idx61_inb : ∀ (v165 : IVec S16 32) (v167 : IVec S16 32) (k0_hw61 : k0_chk61 v165 v167), ∀ a x, ((![v165, v167] : Fin 2 → IVec S16 32) a x).toNat < S800x128.size a := fun v165 v167 k0_hw61 => k0_hw61

def k0_chk62 (v169 : IVec S16 32) (v171 : IVec S16 32) : Prop :=
  (∀ a x, ((![v169, v171] : Fin 2 → IVec S16 32) a x).toNat < S800x128.size a)
instance k0_chk62.dec : ∀ (v169 : IVec S16 32) (v171 : IVec S16 32), Decidable (k0_chk62 v169 v171) := fun v169 v171 => decidable_of_iff' _ (Iff.of_eq (k0_chk62.eq_1 v169 v171))
theorem k0_idx62_inb : ∀ (v169 : IVec S16 32) (v171 : IVec S16 32) (k0_hw62 : k0_chk62 v169 v171), ∀ a x, ((![v169, v171] : Fin 2 → IVec S16 32) a x).toNat < S800x128.size a := fun v169 v171 k0_hw62 => k0_hw62

def k0_chk63 (v173 : IVec S16 32) (v175 : IVec S16 32) : Prop :=
  (∀ a x, ((![v173, v175] : Fin 2 → IVec S16 32) a x).toNat < S800x128.size a)
instance k0_chk63.dec : ∀ (v173 : IVec S16 32) (v175 : IVec S16 32), Decidable (k0_chk63 v173 v175) := fun v173 v175 => decidable_of_iff' _ (Iff.of_eq (k0_chk63.eq_1 v173 v175))
theorem k0_idx63_inb : ∀ (v173 : IVec S16 32) (v175 : IVec S16 32) (k0_hw63 : k0_chk63 v173 v175), ∀ a x, ((![v173, v175] : Fin 2 → IVec S16 32) a x).toNat < S800x128.size a := fun v173 v175 k0_hw63 => k0_hw63

def k0_chk64 (v177 : IVec S16 32) (v179 : IVec S16 32) : Prop :=
  (∀ a x, ((![v177, v179] : Fin 2 → IVec S16 32) a x).toNat < S800x128.size a)
instance k0_chk64.dec : ∀ (v177 : IVec S16 32) (v179 : IVec S16 32), Decidable (k0_chk64 v177 v179) := fun v177 v179 => decidable_of_iff' _ (Iff.of_eq (k0_chk64.eq_1 v177 v179))
theorem k0_idx64_inb : ∀ (v177 : IVec S16 32) (v179 : IVec S16 32) (k0_hw64 : k0_chk64 v177 v179), ∀ a x, ((![v177, v179] : Fin 2 → IVec S16 32) a x).toNat < S800x128.size a := fun v177 v179 k0_hw64 => k0_hw64
@[reducible] def k0_t7_loop : Scf.Loop 32 :=
  let c0_i32_25 : BitVec 32 := 0#32
  let c32_i32_26 : BitVec 32 := 32#32
  let v23 : BitVec 32 := Scalar.addi c0_i32_25 c32_i32_26
  let c1_i32_27 : BitVec 32 := 1#32
  ⟨c0_i32_25, v23, c1_i32_27⟩
def k0_off12 (k0_t7 : Fin k0_t7_loop.trips) (c0_i32_41 : BitVec 32) : Fin 2 → Nat :=
  let c0_i32_25 : BitVec 32 := 0#32
  let c1_i32_27 : BitVec 32 := 1#32
  let arg11 : BitVec 32 := Scf.iv c0_i32_25 c1_i32_27 k0_t7
  let c0_i32_29 : BitVec 32 := 0#32
  let v25 : BitVec 1 := Scalar.cmpi .sgt arg11 c0_i32_29
  let v26 : BitVec 32 := Scalar.extui v25
  let c0_i32_30 : BitVec 32 := 0#32
  let v27 : BitVec 1 := Scalar.cmpi .slt arg11 c0_i32_30
  let v28 : BitVec 32 := Scalar.extui v27
  let v29 : BitVec 32 := Scalar.subi v26 v28
  let c4_i32 : BitVec 32 := 4#32
  let c0_i32_31 : BitVec 32 := 0#32
  let v30 : BitVec 1 := Scalar.cmpi .sgt c4_i32 c0_i32_31
  let v31 : BitVec 32 := Scalar.extui v30
  let c0_i32_32 : BitVec 32 := 0#32
  let v32 : BitVec 1 := Scalar.cmpi .slt c4_i32 c0_i32_32
  let v33 : BitVec 32 := Scalar.extui v32
  let v34 : BitVec 32 := Scalar.subi v31 v33
  let v35 : BitVec 1 := Scalar.cmpi .ne v29 v34
  let v36 : BitVec 32 := Scalar.remsi arg11 c4_i32
  let c0_i32_33 : BitVec 32 := 0#32
  let v37 : BitVec 1 := Scalar.cmpi .ne v36 c0_i32_33
  let v38 : BitVec 1 := Scalar.andi v35 v37
  let v24 : BitVec 32 := Scalar.divsi arg11 c4_i32
  let c1_i32_34 : BitVec 32 := 1#32
  let v39 : BitVec 32 := Scalar.subi v24 c1_i32_34
  let v40 : BitVec 32 := Scalar.select v38 v39 v24
  let v53 : Index := Scalar.indexCast v40
  let c4_i32_35 : BitVec 32 := 4#32
  let c0_i32_36 : BitVec 32 := 0#32
  let v41 : BitVec 1 := Scalar.cmpi .eq c4_i32_35 c0_i32_36
  let c1_i32_37 : BitVec 32 := 1#32
  let v42 : BitVec 32 := Scalar.select v41 c1_i32_37 c4_i32_35
  let v43 : BitVec 32 := Scalar.remsi arg11 v42
  let c0_i32_39 : BitVec 32 := 0#32
  let v45 : BitVec 1 := Scalar.cmpi .slt v43 c0_i32_39
  let c0_i32_40 : BitVec 32 := 0#32
  let v46 : BitVec 1 := Scalar.cmpi .slt v42 c0_i32_40
  let v47 : BitVec 1 := Scalar.xori v45 v46
  let c0_i32_38 : BitVec 32 := 0#32
  let v44 : BitVec 1 := Scalar.cmpi .ne v43 c0_i32_38
  let v48 : BitVec 1 := Scalar.andi v47 v44
  let v49 : BitVec 32 := Scalar.addi v43 v42
  let v50 : BitVec 32 := Scalar.select v48 v49 v43
  let c256_i32 : BitVec 32 := 256#32
  let v51 : BitVec 32 := Scalar.muli v50 c256_i32
  let v52 : BitVec 32 := Scalar.addi v51 c0_i32_41
  let v54 : Index := Scalar.indexCast v52
  ![v53.toNat, v54.toNat]

def k0_chk65 (v117 : IVec S16 32) (v119 : IVec S16 32) : Prop :=
  (∀ a x, ((![v117, v119] : Fin 2 → IVec S16 32) a x).toNat < S800x128.size a)
instance k0_chk65.dec : ∀ (v117 : IVec S16 32) (v119 : IVec S16 32), Decidable (k0_chk65 v117 v119) := fun v117 v119 => decidable_of_iff' _ (Iff.of_eq (k0_chk65.eq_1 v117 v119))
theorem k0_idx65_inb : ∀ (v117 : IVec S16 32) (v119 : IVec S16 32) (k0_hw65 : k0_chk65 v117 v119), ∀ a x, ((![v117, v119] : Fin 2 → IVec S16 32) a x).toNat < S800x128.size a := fun v117 v119 k0_hw65 => k0_hw65

def k0_chk66 (v121 : IVec S16 32) (v123 : IVec S16 32) : Prop :=
  (∀ a x, ((![v121, v123] : Fin 2 → IVec S16 32) a x).toNat < S800x128.size a)
instance k0_chk66.dec : ∀ (v121 : IVec S16 32) (v123 : IVec S16 32), Decidable (k0_chk66 v121 v123) := fun v121 v123 => decidable_of_iff' _ (Iff.of_eq (k0_chk66.eq_1 v121 v123))
theorem k0_idx66_inb : ∀ (v121 : IVec S16 32) (v123 : IVec S16 32) (k0_hw66 : k0_chk66 v121 v123), ∀ a x, ((![v121, v123] : Fin 2 → IVec S16 32) a x).toNat < S800x128.size a := fun v121 v123 k0_hw66 => k0_hw66

def k0_chk67 (v125 : IVec S16 32) (v127 : IVec S16 32) : Prop :=
  (∀ a x, ((![v125, v127] : Fin 2 → IVec S16 32) a x).toNat < S800x128.size a)
instance k0_chk67.dec : ∀ (v125 : IVec S16 32) (v127 : IVec S16 32), Decidable (k0_chk67 v125 v127) := fun v125 v127 => decidable_of_iff' _ (Iff.of_eq (k0_chk67.eq_1 v125 v127))
theorem k0_idx67_inb : ∀ (v125 : IVec S16 32) (v127 : IVec S16 32) (k0_hw67 : k0_chk67 v125 v127), ∀ a x, ((![v125, v127] : Fin 2 → IVec S16 32) a x).toNat < S800x128.size a := fun v125 v127 k0_hw67 => k0_hw67

def k0_chk68 (v129 : IVec S16 32) (v131 : IVec S16 32) : Prop :=
  (∀ a x, ((![v129, v131] : Fin 2 → IVec S16 32) a x).toNat < S800x128.size a)
instance k0_chk68.dec : ∀ (v129 : IVec S16 32) (v131 : IVec S16 32), Decidable (k0_chk68 v129 v131) := fun v129 v131 => decidable_of_iff' _ (Iff.of_eq (k0_chk68.eq_1 v129 v131))
theorem k0_idx68_inb : ∀ (v129 : IVec S16 32) (v131 : IVec S16 32) (k0_hw68 : k0_chk68 v129 v131), ∀ a x, ((![v129, v131] : Fin 2 → IVec S16 32) a x).toNat < S800x128.size a := fun v129 v131 k0_hw68 => k0_hw68

def k0_chk69 (v133 : IVec S16 32) (v135 : IVec S16 32) : Prop :=
  (∀ a x, ((![v133, v135] : Fin 2 → IVec S16 32) a x).toNat < S800x128.size a)
instance k0_chk69.dec : ∀ (v133 : IVec S16 32) (v135 : IVec S16 32), Decidable (k0_chk69 v133 v135) := fun v133 v135 => decidable_of_iff' _ (Iff.of_eq (k0_chk69.eq_1 v133 v135))
theorem k0_idx69_inb : ∀ (v133 : IVec S16 32) (v135 : IVec S16 32) (k0_hw69 : k0_chk69 v133 v135), ∀ a x, ((![v133, v135] : Fin 2 → IVec S16 32) a x).toNat < S800x128.size a := fun v133 v135 k0_hw69 => k0_hw69

def k0_chk70 (v137 : IVec S16 32) (v139 : IVec S16 32) : Prop :=
  (∀ a x, ((![v137, v139] : Fin 2 → IVec S16 32) a x).toNat < S800x128.size a)
instance k0_chk70.dec : ∀ (v137 : IVec S16 32) (v139 : IVec S16 32), Decidable (k0_chk70 v137 v139) := fun v137 v139 => decidable_of_iff' _ (Iff.of_eq (k0_chk70.eq_1 v137 v139))
theorem k0_idx70_inb : ∀ (v137 : IVec S16 32) (v139 : IVec S16 32) (k0_hw70 : k0_chk70 v137 v139), ∀ a x, ((![v137, v139] : Fin 2 → IVec S16 32) a x).toNat < S800x128.size a := fun v137 v139 k0_hw70 => k0_hw70

def k0_chk71 (v141 : IVec S16 32) (v143 : IVec S16 32) : Prop :=
  (∀ a x, ((![v141, v143] : Fin 2 → IVec S16 32) a x).toNat < S800x128.size a)
instance k0_chk71.dec : ∀ (v141 : IVec S16 32) (v143 : IVec S16 32), Decidable (k0_chk71 v141 v143) := fun v141 v143 => decidable_of_iff' _ (Iff.of_eq (k0_chk71.eq_1 v141 v143))
theorem k0_idx71_inb : ∀ (v141 : IVec S16 32) (v143 : IVec S16 32) (k0_hw71 : k0_chk71 v141 v143), ∀ a x, ((![v141, v143] : Fin 2 → IVec S16 32) a x).toNat < S800x128.size a := fun v141 v143 k0_hw71 => k0_hw71

def k0_chk72 (v145 : IVec S16 32) (v147 : IVec S16 32) : Prop :=
  (∀ a x, ((![v145, v147] : Fin 2 → IVec S16 32) a x).toNat < S800x128.size a)
instance k0_chk72.dec : ∀ (v145 : IVec S16 32) (v147 : IVec S16 32), Decidable (k0_chk72 v145 v147) := fun v145 v147 => decidable_of_iff' _ (Iff.of_eq (k0_chk72.eq_1 v145 v147))
theorem k0_idx72_inb : ∀ (v145 : IVec S16 32) (v147 : IVec S16 32) (k0_hw72 : k0_chk72 v145 v147), ∀ a x, ((![v145, v147] : Fin 2 → IVec S16 32) a x).toNat < S800x128.size a := fun v145 v147 k0_hw72 => k0_hw72

def k0_chk73 (v149 : IVec S16 32) (v151 : IVec S16 32) : Prop :=
  (∀ a x, ((![v149, v151] : Fin 2 → IVec S16 32) a x).toNat < S800x128.size a)
instance k0_chk73.dec : ∀ (v149 : IVec S16 32) (v151 : IVec S16 32), Decidable (k0_chk73 v149 v151) := fun v149 v151 => decidable_of_iff' _ (Iff.of_eq (k0_chk73.eq_1 v149 v151))
theorem k0_idx73_inb : ∀ (v149 : IVec S16 32) (v151 : IVec S16 32) (k0_hw73 : k0_chk73 v149 v151), ∀ a x, ((![v149, v151] : Fin 2 → IVec S16 32) a x).toNat < S800x128.size a := fun v149 v151 k0_hw73 => k0_hw73

def k0_chk74 (v153 : IVec S16 32) (v155 : IVec S16 32) : Prop :=
  (∀ a x, ((![v153, v155] : Fin 2 → IVec S16 32) a x).toNat < S800x128.size a)
instance k0_chk74.dec : ∀ (v153 : IVec S16 32) (v155 : IVec S16 32), Decidable (k0_chk74 v153 v155) := fun v153 v155 => decidable_of_iff' _ (Iff.of_eq (k0_chk74.eq_1 v153 v155))
theorem k0_idx74_inb : ∀ (v153 : IVec S16 32) (v155 : IVec S16 32) (k0_hw74 : k0_chk74 v153 v155), ∀ a x, ((![v153, v155] : Fin 2 → IVec S16 32) a x).toNat < S800x128.size a := fun v153 v155 k0_hw74 => k0_hw74

def k0_chk75 (v157 : IVec S16 32) (v159 : IVec S16 32) : Prop :=
  (∀ a x, ((![v157, v159] : Fin 2 → IVec S16 32) a x).toNat < S800x128.size a)
instance k0_chk75.dec : ∀ (v157 : IVec S16 32) (v159 : IVec S16 32), Decidable (k0_chk75 v157 v159) := fun v157 v159 => decidable_of_iff' _ (Iff.of_eq (k0_chk75.eq_1 v157 v159))
theorem k0_idx75_inb : ∀ (v157 : IVec S16 32) (v159 : IVec S16 32) (k0_hw75 : k0_chk75 v157 v159), ∀ a x, ((![v157, v159] : Fin 2 → IVec S16 32) a x).toNat < S800x128.size a := fun v157 v159 k0_hw75 => k0_hw75

def k0_chk76 (v161 : IVec S16 32) (v163 : IVec S16 32) : Prop :=
  (∀ a x, ((![v161, v163] : Fin 2 → IVec S16 32) a x).toNat < S800x128.size a)
instance k0_chk76.dec : ∀ (v161 : IVec S16 32) (v163 : IVec S16 32), Decidable (k0_chk76 v161 v163) := fun v161 v163 => decidable_of_iff' _ (Iff.of_eq (k0_chk76.eq_1 v161 v163))
theorem k0_idx76_inb : ∀ (v161 : IVec S16 32) (v163 : IVec S16 32) (k0_hw76 : k0_chk76 v161 v163), ∀ a x, ((![v161, v163] : Fin 2 → IVec S16 32) a x).toNat < S800x128.size a := fun v161 v163 k0_hw76 => k0_hw76

def k0_chk77 (v165 : IVec S16 32) (v167 : IVec S16 32) : Prop :=
  (∀ a x, ((![v165, v167] : Fin 2 → IVec S16 32) a x).toNat < S800x128.size a)
instance k0_chk77.dec : ∀ (v165 : IVec S16 32) (v167 : IVec S16 32), Decidable (k0_chk77 v165 v167) := fun v165 v167 => decidable_of_iff' _ (Iff.of_eq (k0_chk77.eq_1 v165 v167))
theorem k0_idx77_inb : ∀ (v165 : IVec S16 32) (v167 : IVec S16 32) (k0_hw77 : k0_chk77 v165 v167), ∀ a x, ((![v165, v167] : Fin 2 → IVec S16 32) a x).toNat < S800x128.size a := fun v165 v167 k0_hw77 => k0_hw77

def k0_chk78 (v169 : IVec S16 32) (v171 : IVec S16 32) : Prop :=
  (∀ a x, ((![v169, v171] : Fin 2 → IVec S16 32) a x).toNat < S800x128.size a)
instance k0_chk78.dec : ∀ (v169 : IVec S16 32) (v171 : IVec S16 32), Decidable (k0_chk78 v169 v171) := fun v169 v171 => decidable_of_iff' _ (Iff.of_eq (k0_chk78.eq_1 v169 v171))
theorem k0_idx78_inb : ∀ (v169 : IVec S16 32) (v171 : IVec S16 32) (k0_hw78 : k0_chk78 v169 v171), ∀ a x, ((![v169, v171] : Fin 2 → IVec S16 32) a x).toNat < S800x128.size a := fun v169 v171 k0_hw78 => k0_hw78

def k0_chk79 (v173 : IVec S16 32) (v175 : IVec S16 32) : Prop :=
  (∀ a x, ((![v173, v175] : Fin 2 → IVec S16 32) a x).toNat < S800x128.size a)
instance k0_chk79.dec : ∀ (v173 : IVec S16 32) (v175 : IVec S16 32), Decidable (k0_chk79 v173 v175) := fun v173 v175 => decidable_of_iff' _ (Iff.of_eq (k0_chk79.eq_1 v173 v175))
theorem k0_idx79_inb : ∀ (v173 : IVec S16 32) (v175 : IVec S16 32) (k0_hw79 : k0_chk79 v173 v175), ∀ a x, ((![v173, v175] : Fin 2 → IVec S16 32) a x).toNat < S800x128.size a := fun v173 v175 k0_hw79 => k0_hw79

def k0_chk80 (v177 : IVec S16 32) (v179 : IVec S16 32) : Prop :=
  (∀ a x, ((![v177, v179] : Fin 2 → IVec S16 32) a x).toNat < S800x128.size a)
instance k0_chk80.dec : ∀ (v177 : IVec S16 32) (v179 : IVec S16 32), Decidable (k0_chk80 v177 v179) := fun v177 v179 => decidable_of_iff' _ (Iff.of_eq (k0_chk80.eq_1 v177 v179))
theorem k0_idx80_inb : ∀ (v177 : IVec S16 32) (v179 : IVec S16 32) (k0_hw80 : k0_chk80 v177 v179), ∀ a x, ((![v177, v179] : Fin 2 → IVec S16 32) a x).toNat < S800x128.size a := fun v177 v179 k0_hw80 => k0_hw80
def k0_off13 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_29_r0 : BitVec 32 := 0#32
  let c0_i32_30_r0 : BitVec 32 := 0#32
  ![v1.toNat, 0, 0]
abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x200x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S1x16 : 0 < S1x16.numel
  shapeCasts_S1x16_S16 : S1x16.ShapeCasts S16
  shapeCasts_S16_S1x16 : S16.ShapeCasts S1x16
  h_S800x128 : 0 < S800x128.numel
  squeezes_S1x800x128_S800x128 : S1x800x128.Squeezes S800x128
  pads_S100002_S102400_023980 : S100002.Pads (![0] : Fin 1 → Nat) ![2398] ![0] S102400
  h_S_ : 0 < S_.numel
  shapeCasts_S102400_S4x200x128 : S102400.ShapeCasts S4x200x128
  inb_S32x200x128_S32x200x128_0_0_0 : ∀ a, (![0, 0, 0] : Fin 3 → Nat) a + S32x200x128.size a ≤ S32x200x128.size a
  h_S32x200x128 : 0 < S32x200x128.numel
  shapeCasts_S32x200x128_S32x200x128 : S32x200x128.ShapeCasts S32x200x128
  reduces_S32x200x128_S200x128 : S32x200x128.Reduces [0] S200x128
  inb_S1x200x128_S1x200x128_0_0_0 : ∀ a, (![0, 0, 0] : Fin 3 → Nat) a + S1x200x128.size a ≤ S1x200x128.size a
  h_S1x200x128 : 0 < S1x200x128.numel
  shapeCasts_S1x200x128_S200x128 : S1x200x128.ShapeCasts S200x128
  shapeCasts_S200x128_S1x200x128 : S200x128.ShapeCasts S1x200x128
  shapeCasts_S4x200x128_S102400 : S4x200x128.ShapeCasts S102400
  slices_S102400_S100002_0 : S102400.Slices ![0] S100002
  hcc0_scratch4 : 0 + S_.numel ≤ 10
  hcc0_scratch5 : 1 + S_.numel ≤ 10
  hcc0_scratch6 : 2 + S_.numel ≤ 10
  hcc0_scoped0 : 3 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S1x16.size a ≤ S800x128.size a
  k0_off2_inb : ∀ i : grid0.Coords, ∀ (r : Fin 3), ∀ a, (k0_off2 i (k0_off2_at r)) a + S8x1024.size a ≤ S4096x2048.size a
  k0_off3_inb : ∀ i : grid0.Coords, ∀ (r : Fin 2), ∀ a, (k0_off3 i (BitVec.ofNat 32 (120 * r.val))) a + S8x1024.size a ≤ S4096x2048.size a
  k0_t2_ok : k0_t2_loop.OK
  k0_off4_inb : ∀ (i : grid0.Coords) (k0_t2 : Fin k0_t2_loop.trips), ∀ (r : Fin 3), ∀ a, (k0_off4 i k0_t2 (BitVec.ofNat 32 r.val)) a + S8x1024.size a ≤ S4096x2048.size a
  k0_t3_ok : k0_t3_loop.OK
  k0_off5_inb : ∀ k0_t3 : Fin k0_t3_loop.trips, ∀ (r : Fin 16), ∀ a, (k0_off5 k0_t3 (BitVec.ofNat 32 (16 * r.val))) a + S1x16.size a ≤ S8x1024.size a
  k0_off6_inb : ∀ (i : grid0.Coords) (k0_t2 : Fin k0_t2_loop.trips), ∀ (k0_h1 : k0_cond1 k0_t2 = 1#1), ∀ a, (k0_off6 i k0_t2) a + S8x1024.size a ≤ S4096x2048.size a
  k0_t4_ok : k0_t4_loop.OK
  k0_off7_inb : ∀ k0_t4 : Fin k0_t4_loop.trips, ∀ (r : Fin 16), ∀ a, (k0_off7 k0_t4 (BitVec.ofNat 32 (16 * r.val))) a + S1x16.size a ≤ S8x1024.size a
  k0_off8_inb : ∀ (i : grid0.Coords) (k0_t2 : Fin k0_t2_loop.trips), ∀ (k0_h2 : k0_cond2 k0_t2 = 1#1), ∀ a, (k0_off8 i k0_t2) a + S8x1024.size a ≤ S4096x2048.size a
  k0_t5_ok : k0_t5_loop.OK
  k0_off9_inb : ∀ k0_t5 : Fin k0_t5_loop.trips, ∀ (r : Fin 16), ∀ a, (k0_off9 k0_t5 (BitVec.ofNat 32 (16 * r.val))) a + S1x16.size a ≤ S8x1024.size a
  k0_off10_inb : ∀ (i : grid0.Coords) (k0_t2 : Fin k0_t2_loop.trips), ∀ (k0_h3 : k0_cond3 k0_t2 = 1#1), ∀ a, (k0_off10 i k0_t2) a + S8x1024.size a ≤ S4096x2048.size a
  k0_t6_ok : k0_t6_loop.OK
  k0_off11_inb : ∀ k0_t6 : Fin k0_t6_loop.trips, ∀ (r : Fin 16), ∀ a, (k0_off11 k0_t6 (BitVec.ofNat 32 (16 * r.val))) a + S1x16.size a ≤ S8x1024.size a
  k0_t7_ok : k0_t7_loop.OK
  k0_off12_inb : ∀ k0_t7 : Fin k0_t7_loop.trips, ∀ (r : Fin 16), ∀ a, (k0_off12 k0_t7 (BitVec.ofNat 32 (16 * r.val))) a + S1x16.size a ≤ S8x1024.size a
  k0_off13_inb : ∀ i : grid0.Coords, ∀ a, (k0_off13 i) a + S1x800x128.size a ≤ S32x800x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x200x128.size a ≤ S32x800x128.size a
  hwx1_0 : ∀ i : grid1.Coords, EltTy.bits .i32 = 32 ∨ (Rect.block (s := S32x800x128) S32x200x128.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x200x128.size a ≤ S4x200x128.size a
  hwx1_1 : ∀ i : grid1.Coords, EltTy.bits .f32 = 32 ∨ (Rect.block (s := S4x200x128) S1x200x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x200x128.size a ≤ S4x200x128.size a
  hwx1_2 : ∀ i : grid1.Coords, EltTy.bits .f32 = 32 ∨ (Rect.block (s := S4x200x128) S1x200x128.size (cc1_transform_2 i) (hinb1_2 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scoped0 : DmaSems sig S_ := SemArray.consecutive 3 S_ hcc0_scoped0

abbrev win1_0 : Pipeline.Window sig grid1 :=
  Pipeline.Window.ofSpec (Memref.whole main_v0) S32x200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x200x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S100002 : Shape := ⟨1, ![100002]⟩
abbrev S8388608 : Shape := ⟨1, ![8388608]⟩
abbrev S_ : Shape := ⟨0, ![]⟩
abbrev S8388608x1 : Shape := ⟨2, ![8388608, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .i32⟩
  | .hbm, ⟨1, _⟩ => ⟨S100002, .f32⟩
  | .hbm, ⟨2, _⟩ => ⟨S8388608, .i32⟩
  | .hbm, ⟨3, _⟩ => ⟨S_, .i32⟩
  | .hbm, ⟨4, _⟩ => ⟨S100002, .i32⟩
  | .hbm, ⟨5, _⟩ => ⟨S_, .i32⟩
  | .hbm, ⟨6, _⟩ => ⟨S_, .i32⟩
  | .hbm, ⟨7, _⟩ => ⟨S8388608, .i32⟩
  | .hbm, ⟨8, _⟩ => ⟨S8388608, .i32⟩
  | .hbm, ⟨9, _⟩ => ⟨S_, .i32⟩
  | .hbm, ⟨10, _⟩ => ⟨S8388608, .i32⟩
  | .hbm, ⟨11, _⟩ => ⟨S8388608, .i1⟩
  | .hbm, ⟨12, _⟩ => ⟨S_, .i32⟩
  | .hbm, ⟨13, _⟩ => ⟨S8388608, .i32⟩
  | .hbm, ⟨14, _⟩ => ⟨S8388608, .i32⟩
  | .hbm, ⟨15, _⟩ => ⟨S8388608, .i32⟩
  | .hbm, ⟨16, _⟩ => ⟨S8388608x1, .i32⟩
  | .hbm, ⟨17, _⟩ => ⟨S_, .i32⟩
  | .hbm, ⟨18, _⟩ => ⟨S8388608, .i32⟩
  | .hbm, ⟨19, _⟩ => ⟨S100002, .i32⟩
  | .hbm, ⟨20, _⟩ => ⟨S100002, .f32⟩
  | .hbm, ⟨21, _⟩ => ⟨S100002, .f32⟩
  | _, _ => ⟨S4096x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_c_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  shapeCasts_S4096x2048_S8388608 : S4096x2048.ShapeCasts S8388608
  bcast_S_S100002 : S_.BroadcastsInDim S100002 (![] : Fin 0 → Fin S100002.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  scatter_S100002_S8388608x1_S8388608_n_0_0_1_wf : ScatterDims.WF S100002 S8388608x1 S8388608 [] [0] [0] 1

variable [Facts₀]

def scatter_S100002_S8388608x1_S8388608_n_0_0_1 : ScatterDims S100002 S8388608x1 S8388608 where
  updateWindowDims := []
  insertedWindowDims := [0]
  scatterDimsToOperandDims := [0]
  indexVectorDim := 1
  wf := scatter_S100002_S8388608x1_S8388608_n_0_0_1_wf

class Facts : Prop extends Facts₀ where

variable [Facts]
-- ==== Proof.Spec.lean ====
/-
  The function both programs compute. For a table `x` of 4096 × 2048 words and a word `v`, `cnt x v` is the number
  of positions of `x` that hold `v`, counted in 32-bit words (a sum of ones, so the order of counting is immaterial);
  `cntW x w v` counts only the 128 rows `128 w … 128 w + 127`, so that the thirty-two partial counts add up to the
  whole one (`cnt_eq_sum`). The result is `u v + (cnt x v as a float)` for every `v < 100002`.
-/
import Idealize.ShloMosaic.PureOps
import Idealize.ShloMosaic.Lib.ValueIdx
import Mathlib.Algebra.BigOperators.Group.Finset.Basic
import Mathlib.Data.BitVec

noncomputable section

namespace Cert.Hist

open Idealize.ShloMosaic

/-- The table of tokens, and the vector of counts. -/
abbrev ST : Shape := ⟨2, ![4096, 2048]⟩
abbrev SV : Shape := ⟨1, ![100002]⟩

/-- How many positions of `x` hold the word `v` (as a natural number), in 32-bit arithmetic. -/
def cnt (x : IVec ST 32) (v : Nat) : BitVec 32 :=
  ∑ p : ST.Idx, if (x p).toNat = v then 1#32 else 0#32

/-- The same, among the rows `128 w ≤ row < 128 (w + 1)` only. -/
def cntW (x : IVec ST 32) (w : Fin 32) (v : Nat) : BitVec 32 :=
  ∑ p : ST.Idx, if (p 0).val / 128 = w.val ∧ (x p).toNat = v then 1#32 else 0#32

/-- Every row lies in exactly one band of 128 rows: the partial counts add up. -/
theorem cnt_eq_sum (x : IVec ST 32) (v : Nat) : cnt x v = ∑ w : Fin 32, cntW x w v := by
  unfold cnt cntW
  rw [Finset.sum_comm]
  refine Finset.sum_congr rfl fun p _ => ?_
  have hp : (p 0).val / 128 < 32 := by
    have : (p 0).val < 4096 := (p 0).isLt
    omega
  rw [Finset.sum_eq_single (⟨(p 0).val / 128, hp⟩ : Fin 32)]
  · by_cases h : (x p).toNat = v <;> simp [h]
  · intro w _ hw
    have : ¬ ((p 0).val / 128 = w.val) := fun e => hw (Fin.ext e.symm)
    simp [this]
  · intro h; exact absurd (Finset.mem_univ _) h

variable {F : FTy → Type} [FloatOps F]

/-- The result: the running counts `u` plus the count of every word, converted to a float. -/
def G (x : IVec ST 32) (u : FVec F SV .f32) : FVec F SV .f32 :=
  addf u (sitofp .f32 (fun j : SV.Idx => cnt x (j 0).val))

end Cert.Hist

end
-- ==== Proof.CommonI.lean ====
/-
  The setting shared by the modules that prove the histogram program's run: the program as the launch theorem of
  the SparseCore library sees it, the ghost state (the launch handshakes' rounds, the TensorCore pipeline's rounds,
  the counters of local transfers), the arrays as locations, the bands of 128 rows of the token table and the
  thirty-two partial tables of counts, and what the launch handshakes carry to and from each vector subcore:
  subcore `s` of SparseCore `c` is worker `w = 2 s + c`; it is handed band `w` of the tokens (unchanged throughout) and
  partial table `w`, and hands the table back holding, at row `r` and lane `l`, the number of tokens of band `w`
  equal to `128 r + l`.
-/
import proofs.«217704_g70050916598121_cont_9to1_m_91_37_alg».proof.Defs
import proofs.«217704_g70050916598121_cont_9to1_m_91_37_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«217704_g70050916598121_cont_9to1_m_91_37_alg».proof.Proof.Gen.KernelIdeal
import proofs.«217704_g70050916598121_cont_9to1_m_91_37_alg».proof.Proof.Gen.KernelIdeal.Skeleton

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

/-- The handshakes' rounds library, the left factor; the pipeline's, the left factor of the right; the transfers'
    counters are found by instance. -/
abbrev EH : Emb UH (MT nD τ sig (HIx 1) (Elt F) ℕ UU ℕ) := embL
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance

/-! ## The launch memory and the arrays -/

variable (m : (ℓ : Loc nD τ sig) → Buf (Elt F) ℓ) (ρ : Dev nD → PrngReg)

/-- The token table, the running counts, the partial tables of counts, as locations of device `d`. -/
abbrev xLoc (d : Dev nD) : Loc nD τ sig := (SparseCore.T d).loc main_arg0
abbrev uLoc (d : Dev nD) : Loc nD τ sig := (SparseCore.T d).loc main_arg1
abbrev pLoc (d : Dev nD) : Loc nD τ sig := (SparseCore.T d).loc main_v0

/-- The token table at launch, as a table of words. -/
abbrev xTab (d : Dev nD) : IVec Cert.Hist.ST 32 := m (xLoc d)

/-- The worker of subcore `s` on SparseCore `c`. -/
def wid (c : Fin 2) (s : Fin 16) : Fin 32 := ⟨2 * s.val + c.val, by omega⟩

/-- Band `w` of the token table: rows `128 w … 128 w + 127`; partial table `w`: plane `w` of the partial counts. -/
def xBand (w : Fin 32) : Finset S4096x2048.Idx := Finset.univ.filter fun p => (p 0).val / 128 = w.val
def pPlane (w : Fin 32) : Finset S32x800x128.Idx := Finset.univ.filter fun p => (p 0).val = w.val

/-- The partial tables when every worker is done: plane `w`, row `r`, lane `l` holds the number of tokens of band `w`
    equal to `128 r + l`. -/
def partsDone (d : Dev nD) : Buf (Elt F) (pLoc d) :=
  fun p : S32x800x128.Idx => Cert.Hist.cntW (xTab m d) ⟨(p 0).val, (p 0).isLt⟩ (128 * (p 1).val + (p 2).val)

abbrev xPts (d : Dev nD) : sProp 𝕄 := xLoc d ↦{fullShare} m (xLoc d)
abbrev pPts (d : Dev nD) (f : Buf (Elt F) (pLoc d)) : sProp 𝕄 := pLoc d ↦{fullShare} f
abbrev xBandPts (d : Dev nD) (w : Fin 32) : sProp 𝕄 := xLoc d ↦[xBand w]{fullShare} m (xLoc d)
abbrev pPlanePts (d : Dev nD) (w : Fin 32) (f : Buf (Elt F) (pLoc d)) : sProp 𝕄 := pLoc d ↦[pPlane w]{fullShare} f

/-- What the one call carries: to a SparseCore the bands and planes of its sixteen workers, to a subcore its own; back,
    the same with the plane at the finished partial counts. -/
def P : (K (F := F)).Pay (nD := nD) (Val := Elt F) (Name := ℕ) (U := UU) where
  st := fun q d c => match q with
    | 0 => bigSep Finset.univ fun s : Fin 16 =>
      iprop(xBandPts m d (wid (Fin.cast nCore_zero c) s) ∗ ∃ f, pPlanePts d (wid (Fin.cast nCore_zero c) s) f)
  dn := fun q d c => match q with
    | 0 => bigSep Finset.univ fun s : Fin 16 =>
      iprop(xBandPts m d (wid (Fin.cast nCore_zero c) s) ∗ pPlanePts d (wid (Fin.cast nCore_zero c) s) (partsDone m d))
  go := fun q d c s => match q with
    | 0 => iprop(xBandPts m d (wid (Fin.cast nCore_zero c) (Fin.cast nSub_zero s))
      ∗ ∃ f, pPlanePts d (wid (Fin.cast nCore_zero c) (Fin.cast nSub_zero s)) f)
  td := fun q d c s => match q with
    | 0 => iprop(xBandPts m d (wid (Fin.cast nCore_zero c) (Fin.cast nSub_zero s))
      ∗ pPlanePts d (wid (Fin.cast nCore_zero c) (Fin.cast nSub_zero s)) (partsDone m d))
  x := fun _ _ => iprop(emp)

instance P_storable : (P (F := F) m).IsStorable where
  st q d c := match q with | 0 => by unfold P; infer_instance
  dn q d c := match q with | 0 => by unfold P; infer_instance
  go q d c s := match q with | 0 => by unfold P; infer_instance
  td q d c s := match q with | 0 => by unfold P; infer_instance

end Cert.Proof.HistI

end
-- ==== Proof.SplitI.lean ====
/-
  The launch of the histogram program, first part: how the token table and the partial tables of counts split among
  the two SparseCores and their sixteen vector subcores. The thirty-two bands of 128 rows of the token table are
  pairwise disjoint and cover it, and so do the thirty-two planes of the partial tables; worker `2 s + c` is a
  bijection of (SparseCore, subcore) onto the workers. So the two arrays whole are the call's operands, a
  SparseCore's operands are its subcores', and the results gather back to the arrays whole, the partial tables at
  the finished counts.
-/
import proofs.«217704_g70050916598121_cont_9to1_m_91_37_alg».proof.Proof.CommonI

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The thirty-two workers: subcore `s` of SparseCore `c` is worker `2 s + c` -/

/-- `(c, s) ↦ 2 s + c` is a bijection of SparseCore and subcore onto the workers. -/
def widEquiv : Fin 2 × Fin 16 ≃ Fin 32 where
  toFun cs := wid cs.1 cs.2
  invFun w := (⟨w.val % 2, Nat.mod_lt _ (by omega)⟩, ⟨w.val / 2, by omega⟩)
  left_inv cs := by
    obtain ⟨c, s⟩ := cs
    refine Prod.ext (Fin.ext ?_) (Fin.ext ?_)
    · show (2 * s.val + c.val) % 2 = c.val
      omega
    · show (2 * s.val + c.val) / 2 = s.val
      omega
  right_inv w := Fin.ext (by show 2 * (w.val / 2) + w.val % 2 = w.val; omega)

/-- A product over the SparseCores of the call's grid and their subcores is the product over the workers. -/
theorem bigSep_workers (Φ : Fin 32 → sProp 𝕄) :
    (bigSep Finset.univ fun c : Fin ((K (F := F)).nCore 0) => bigSep Finset.univ fun s : Fin 16 => Φ (wid (Fin.cast nCore_zero c) s))
      = bigSep Finset.univ Φ := by
  rw [bigSep_univ_equiv widEquiv Φ, bigSep_univ_prod]
  exact bigSep_congr fun _ _ => bigSep_congr fun _ _ => congrArg Φ (congrArg (fun c => wid c _) (Fin.ext rfl))

/-- A product over the subcores of the call's grid is the product over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The bands and the planes partition their arrays -/

theorem xBands_disjoint : ∀ i ∈ (Finset.univ : Finset (Fin 32)), ∀ j ∈ (Finset.univ : Finset (Fin 32)), i ≠ j → Disjoint (xBand i) (xBand j) := by
  intro i _ j _ h
  refine Finset.disjoint_left.mpr fun p hi hj => h (Fin.ext ?_)
  rw [← (Finset.mem_filter.mp hi).2, ← (Finset.mem_filter.mp hj).2]

theorem xBands_cover : (Finset.univ : Finset (Fin 32)).biUnion xBand = Finset.univ := by
  refine Finset.eq_univ_iff_forall.mpr fun p => Finset.mem_biUnion.mpr ⟨⟨(p 0).val / 128, ?_⟩, Finset.mem_univ _, Finset.mem_filter.mpr ⟨Finset.mem_univ _, rfl⟩⟩
  have h : (p 0).val < 4096 := (p 0).isLt
  omega

theorem pPlanes_disjoint : ∀ i ∈ (Finset.univ : Finset (Fin 32)), ∀ j ∈ (Finset.univ : Finset (Fin 32)), i ≠ j → Disjoint (pPlane i) (pPlane j) := by
  intro i _ j _ h
  refine Finset.disjoint_left.mpr fun p hi hj => h (Fin.ext ?_)
  rw [← (Finset.mem_filter.mp hi).2, ← (Finset.mem_filter.mp hj).2]

theorem pPlanes_cover : (Finset.univ : Finset (Fin 32)).biUnion pPlane = Finset.univ := by
  refine Finset.eq_univ_iff_forall.mpr fun p => Finset.mem_biUnion.mpr ⟨⟨(p 0).val, ?_⟩, Finset.mem_univ _, Finset.mem_filter.mpr ⟨Finset.mem_univ _, rfl⟩⟩
  exact (p 0).isLt

/-- The token table whole is its thirty-two bands; the partial tables whole are their thirty-two planes. -/
theorem xPts_bands (d : Dev nD) (f : Buf (Elt F) (xLoc d)) :
    (xLoc d ↦{fullShare} f : sProp 𝕄) = bigSep Finset.univ fun w : Fin 32 => xLoc d ↦[xBand w]{fullShare} f := by
  rw [← pointsTo_biUnion Finset.univ (ℓ := xLoc d) xBand xBands_disjoint, xBands_cover]; try rfl
theorem pPts_planes (d : Dev nD) (f : Buf (Elt F) (pLoc d)) :
    (pLoc d ↦{fullShare} f : sProp 𝕄) = bigSep Finset.univ fun w : Fin 32 => pLoc d ↦[pPlane w]{fullShare} f := by
  rw [← pointsTo_biUnion Finset.univ (ℓ := pLoc d) pPlane pPlanes_disjoint, pPlanes_cover]; try rfl

/-! ## What the handshakes carry, as equations -/

theorem P_st (d : Dev nD) (c : Fin ((K (F := F)).nCore 0)) :
    (P m).st 0 d c = bigSep Finset.univ fun s : Fin 16 =>
      iprop(xBandPts m d (wid (Fin.cast nCore_zero c) s) ∗ ∃ f, pPlanePts d (wid (Fin.cast nCore_zero c) s) f) := by unfold P; rfl
theorem P_dn (d : Dev nD) (c : Fin ((K (F := F)).nCore 0)) :
    (P m).dn 0 d c = bigSep Finset.univ fun s : Fin 16 =>
      iprop(xBandPts m d (wid (Fin.cast nCore_zero c) s) ∗ pPlanePts d (wid (Fin.cast nCore_zero c) s) (partsDone m d)) := by unfold P; rfl
theorem P_go (d : Dev nD) (c : Fin ((K (F := F)).nCore 0)) (s : Fin ((K (F := F)).nSub 0)) :
    (P m).go 0 d c s = iprop(xBandPts m d (wid (Fin.cast nCore_zero c) (Fin.cast nSub_zero s))
      ∗ ∃ f, pPlanePts d (wid (Fin.cast nCore_zero c) (Fin.cast nSub_zero s)) f) := by unfold P; rfl
theorem P_td (d : Dev nD) (c : Fin ((K (F := F)).nCore 0)) (s : Fin ((K (F := F)).nSub 0)) :
    (P m).td 0 d c s = iprop(xBandPts m d (wid (Fin.cast nCore_zero c) (Fin.cast nSub_zero s))
      ∗ pPlanePts d (wid (Fin.cast nCore_zero c) (Fin.cast nSub_zero s)) (partsDone m d)) := by unfold P; rfl

/-- A SparseCore's operands are its sixteen subcores' and its results theirs: nothing to do but rename the index. -/
theorem vecSplit : (K (F := F)).VecSplit' (P m) 0 := by
  intro d c
  simp only [P_st, P_dn, P_go, P_td]
  rw [bigSep_tasks (F := F) (fun s => iprop(xBandPts m d (wid (Fin.cast nCore_zero c) s) ∗ ∃ f, pPlanePts d (wid (Fin.cast nCore_zero c) s) f)),
    bigSep_tasks (F := F) (fun s => iprop(xBandPts m d (wid (Fin.cast nCore_zero c) s) ∗ pPlanePts d (wid (Fin.cast nCore_zero c) s) (partsDone m d)))]
  iintro H; imodintro
  isplitl [H]; · iexact H
  iintro H; iexact H

/-- The call's operands from the two arrays whole, and the arrays whole from its results. -/
theorem st_intro (d : Dev nD) (f : Buf (Elt F) (pLoc d)) :
    iprop(xPts m d ∗ pPts d f) ⊢ (bigSep Finset.univ fun c : Fin ((K (F := F)).nCore 0) => (P m).st 0 d c : sProp 𝕄) := by
  simp only [P_st]
  rw [bigSep_workers (F := F) (fun w => iprop(xBandPts m d w ∗ ∃ f, pPlanePts d w f)), bigSep_sep']
  unfold xPts pPts
  rw [xPts_bands, pPts_planes]
  iintro ⟨Hx, Hp⟩
  isplitl [Hx]; · iexact Hx
  iapply (SparseCore.ent (bigSep_mono fun w _ => (show (pLoc d ↦[pPlane w]{fullShare} f : sProp 𝕄) ⊢ iprop(∃ f, pPlanePts d w f) from by
    iintro H; iexists f; iexact H)))
  iexact Hp

theorem dn_elim (d : Dev nD) :
    (bigSep Finset.univ fun c : Fin ((K (F := F)).nCore 0) => (P m).dn 0 d c : sProp 𝕄) ⊢ iprop(xPts m d ∗ pPts d (partsDone m d)) := by
  simp only [P_dn]
  rw [bigSep_workers (F := F) (fun w => iprop(xBandPts m d w ∗ pPlanePts d w (partsDone m d))), bigSep_sep']
  unfold xPts pPts
  rw [xPts_bands, pPts_planes]

end Cert.Proof.HistI

end
-- ==== Proof.RegionI.lean ====
/-
  The TensorCore reduction of the histogram program as a kernel region: the pipeline over four points, each adding
  to a block of 200 x 128 running counts the sum, over the thirty-two partial tables, of the same block of counts
  converted to floats. The body reads its two input blocks whole, computes, and writes the output block whole; so
  what it leaves in the output's staging buffer is a closed function of the two input blocks, and the input blocks
  are left as found. The region is entered from the core's unscoped buffers at any contents and left with them
  updated at the result's array.
-/
import proofs.«217704_g70050916598121_cont_9to1_m_91_37_alg».proof.Proof.CommonI
import proofs.«217704_g70050916598121_cont_9to1_m_91_37_alg».proof.Proof.Gen.KernelIdeal.Launch
import proofs.«217704_g70050916598121_cont_9to1_m_91_37_alg».proof.Proof.Gen.KernelIdeal.Points
import Idealize.ShloMosaic.Lib.Pipeline.RegionsLoop
import Idealize.ShloMosaic.Lib.Pipeline.FrameBody
import Idealize.ShloMosaic.Lib.Tactic

noncomputable section

namespace Cert.Proof.HistI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ) (ρ : Dev nD → PrngReg)

variable [FloatOps F] [∀ e, Nonempty (Elt F e)]

set_option maxRecDepth 16384

/-! ## The body's accesses and what it leaves -/

abbrev rIn : Rect S32x200x128 := Rect.unit (s := S32x200x128) ![0, 0, 0] S32x200x128.size inb_S32x200x128_S32x200x128_0_0_0
abbrev rIO : Rect S1x200x128 := Rect.unit (s := S1x200x128) ![0, 0, 0] S1x200x128.size inb_S1x200x128_S1x200x128_0_0_0

/-- The output block from the two input blocks: the one store's payload over the whole block. -/
def outBlk (x0 : Vec F S32x200x128 .i32) (x1 : Vec F S1x200x128 .f32) : Vec F S1x200x128 .f32 :=
  View.canon [⟨rIO, k1_pay1 (View.ld x0 rIn) (View.ld x1 rIO)⟩]

omit [FloatOps F] in
/-- The one store covers the block. -/
theorem cover_out (p0 : Vec F S1x200x128 .f32) (y : S1x200x128.Idx) :
    ∃ pc ∈ ([⟨rIO, p0⟩] : List (View.Piece (Elt F) S1x200x128 .f32)), y ∈ pc.1.set :=
  View.cover_of_tiled [⟨rIO, p0⟩] S1x200x128.size (by rfl) y

set_option maxHeartbeats 1000000 in
/-- The body on whole staging buffers: the inputs' at read contents `x0`, `x1`, the output's at anything, to the
    inputs' as they were and the output's at `outBlk x0 x1`. -/
theorem sound_kernel (c : Dev nD) (E : Set ℕ) (i : grid1.Coords) (arg1 : Memref sig .tc .vmem S32x200x128 .i32) (harg1 : arg1.IsWhole)
    (arg2 : Memref sig .tc .vmem S1x200x128 .f32) (harg2 : arg2.IsWhole) (arg3 : Memref sig .tc .vmem S1x200x128 .f32) (harg3 : arg3.IsWhole)
    (x0 : Vec F S32x200x128 .i32) (x1 : Vec F S1x200x128 .f32) (Kk : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ Kk ⟨⟩))
      ⊢ wp frame (wpE (defs₀ (F := F)) Variants.none c none) E (cc1__reduce_body i arg1 harg1 arg2 harg2 arg3 harg3) Kk := by
  simp only [cc1__reduce_body_eq_skeleton]; unfold cc1__reduce_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data, from a region-entry valuation -/

variable (Vv : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

/-- Between points the body keeps nothing: the scoped buffers no window stages. -/
abbrev Φc (c : Dev nD) : sProp 𝕄 := Pipeline.scopedRest (Ix := HIx 1) (Name := ℕ) (U := UU) (Lvl := ℕ) (Val := Elt F) spec1 c

/-- The pairs the TensorCore's waits may have recorded when the region is entered: those at levels up to the first
    call's. -/
def recd (c : Dev nD) : Set (SemLoc sig × HIx 1) := {p | (K (F := F)).lev ((c : Thread nD τ), p.1) p.2 ≤ 8}

/-- The proof data on core `c`: the arrays as the region finds them; after the body each input's buffer at its block
    and the output's at `outBlk` of the input blocks; nothing kept, nothing owed, full shares. -/
def dats (_ : Fin 1) (c : Dev nD) : Dat τ (Elt F) (HIx 1) ℕ UU ℕ cfg1 c where
  A w := Vv c (Pipeline.arrRef spec1 w)
  after w t := match w with
    | ⟨0, _⟩ => iblk Vv c 0 t
    | ⟨1, _⟩ => iblk Vv c 1 t
    | ⟨2, _⟩ => outBlk (iblk Vv c 0 t) (iblk Vv c 1 t)
  Φ _ := Φc c
  q _ := fullShare
  owed _ := 0
  recorded _ := recd (F := F) c

theorem A_eq (c : Dev nD) (w : Fin cfg1.W) : (dats Vv 0 c).A w = Vv c (Pipeline.arrRef spec1 w) := by
  dsimp only [dats]
theorem after1_0 (c : Dev nD) (t : Fin cfg1.N) : (dats Vv 0 c).after 0 t = iblk Vv c 0 t := by dsimp only [dats]
theorem after1_1 (c : Dev nD) (t : Fin cfg1.N) : (dats Vv 0 c).after 1 t = iblk Vv c 1 t := by dsimp only [dats]
theorem after1_2 (c : Dev nD) (t : Fin cfg1.N) : (dats Vv 0 c).after 2 t = outBlk (iblk Vv c 0 t) (iblk Vv c 1 t) := by dsimp only [dats]

/-- Each input's current staging buffer holds its block at every point. -/
theorem before1_0 (c : Dev nD) (t : Fin cfg1.N) (d) : (dats Vv 0 c).before 0 t d = iblk Vv c 0 t :=
  ((dats Vv 0 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats Vv 0 c).before 1 t d = iblk Vv c 1 t :=
  ((dats Vv 0 c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)

abbrev 𝒱r : Variants := Variants.none

/-- The body at any point: the inputs' buffers hold their blocks, the body runs, the invariant and what the core owes
    pass through unread. -/
theorem body_obligation (c : Dev nD) : BodyObligation (dats Vv 0 c) (defs₀ (F := F)) 𝒱r (none : HIx 1) Set.univ := fun t => by
  rw [bigSep_W1, bigSep_W1]
  simp only [before1_0, before1_1]
  rw [show (dats Vv 0 c).Φ t.succ = (dats Vv 0 c).Φ t.castSucc from rfl,
    show (dats Vv 0 c).owesAt (none : HIx 1) t.succ = (dats Vv 0 c).owesAt (none : HIx 1) t.castSucc from rfl,
    after1_0, after1_1, after1_2]
  iintro ⟨HΦ, Ho, ⟨%d0, H0⟩, ⟨%d1, H1⟩, ⟨%d2, H2⟩⟩
  iapply (sound_kernel c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (iblk Vv c 0 t) (iblk Vv c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-! ## The region over the thread state -/

/-- What rides beside the buffers: what the TensorCore owes after the call — nothing — with its recorded pairs bounded. -/
abbrev Rr (c : Dev nD) : sProp 𝕄 :=
  iprop(∃ W, ⌜(K (F := F)).WBelow (SparseCore.T c) W 8⌝ ∗ owes (SparseCore.T c) (0 : CellTallies nD τ sig (HIx 1)) W)

/-- The admissible contents of the prefetched tables: there is none. -/
abbrev adm : (p : Fin 1) → (pcfgs (F := F) p).Adm := fun p => (cfgs p).toPCfg_adm

/-- The result's array after the region: its contents at the entry with every point's block written back, in point order. -/
def regOut (c : Dev nD) : Buf (Elt F) ((c : Thread nD τ).loc main_v3) := (dats Vv 0 c).arrAt 2 cfg1.N

variable (Vp : (c : Dev nD) → (b : Ref sig .tc) → Buf (Elt F) ((c : Thread nD τ).loc b))

set_option backward.isDefEq.respectTransparency.types false in
/-- The region, entered from every unscoped buffer at `Vv c` and left with them at any `Vp c` that has the result's
    array at `regOut` and agrees with `Vv c` elsewhere: the three arrays split out at the entry and put back at the
    exit, the rest bypassing; nothing enters the invariant; the kernel has no semaphore of its own. -/
def reg (hVp_out : ∀ c, Vp c main_v3 = regOut Vv c) (hVp_ne : ∀ c (b : Ref sig .tc), b ≠ main_v3 → Vp c b = Vv c b) :
    Pipeline.RegionSeg (pcfgs (F := F)) adm (dats Vv) (none : HIx 1) defs₀ 𝒱r (K (F := F)).L (K (F := F)).lev 0 where
  win := launch1.win.to₀
  block_pos := launch1.block_pos
  stage_whole := launch1.stage_whole
  K := PEmpty
  osem k := k.elim
  ho := Pipeline.OwnSemFacts.none _
  hbody c := (body_obligation Vv c).loose
  hwaits := Pipeline.hwaits_of_owed_zero _ _ _ _ (K (F := F)).L (K (F := F)).lev 0 fun _ _ => rfl
  pre c := iprop(unscopedBufs c (Vv c) ∗ Rr (F := F) c)
  post c := iprop(unscopedBufs c (Vp c) ∗ Rr (F := F) c)
  X _ := BI.emp
  Y _ := BI.emp
  Z c := Pipeline.unscopedRest (Ix := HIx 1) (Name := ℕ) (U := UU) (Lvl := ℕ) spec1 c (Vv c)
  hentry c := by
    rw [Pipeline.ownSems0_none]
    have hsplit := Pipeline.arrays_of_unscopedBufs (p := 0) (pcfgs (F := F)) adm (dats Vv) launch1.win launch1.arr_whole c
      ((dats Vv 0 c).share_full fun _ => rfl) (Vv c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (dats Vv 0 c).Φ 0 = Φc c from rfl]
    iintro ⟨-, -, Hr⟩; iexact Hr
  hout c := by
    rw [Pipeline.ownSems0_none, show (dats Vv 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (dats Vv) ((dats Vv 0 c).share_full fun _ => rfl) (Vv c) (Vp c) ((dats Vv 0 c).arrAt · cfg1.N)
      (fun w => by
        fin_cases w
        · exact ((dats Vv 0 c).arrAt_in 0 rfl _).trans (hVp_ne c main_v0 (by decide)).symm
        · exact ((dats Vv 0 c).arrAt_in 1 rfl _).trans (hVp_ne c main_v2 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.HistI

end
-- ==== Proof.MainI.lean ====
/-
  The launch of the histogram program, second part: the launch element of the ghost state, @main on the TensorCore,
  and the program's run from the vector subcores' task. @main hands the token table and the partial tables to the
  SparseCores and gets the tables back at the finished partial counts; pads the running counts with the float of
  the constant zero and reshapes them to 4 x 200 x 128; runs the reduction region, which leaves in its result
  array what the pipeline computes from the partial tables and the padded counts; reshapes that back and keeps
  its first 100002 entries: the result. The token table and the running counts are never written.
-/
import proofs.«217704_g70050916598121_cont_9to1_m_91_37_alg».proof.Proof.SplitI
import proofs.«217704_g70050916598121_cont_9to1_m_91_37_alg».proof.Proof.RegionI

noncomputable section

namespace Cert.Proof.HistI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held)
variable {F : FTy → Type}

local notation "𝕄" => MT nD τ sig (HIx 1) (Elt F) ℕ UU ℕ

variable (m : (ℓ : Loc nD τ sig) → Buf (Elt F) ℓ) (ρ : Dev nD → PrngReg)

variable [FloatOps F] [∀ e, Nonempty (Elt F e)]

/-! ## The launch element: the handshakes' rounds, the pipeline's staging cells; no counter yet -/

def u₀ : UU := (initOf (K (F := F)).hsCells (K (F := F)).hsToks, (initOf (Pipeline.cells cfgs cellOf_inj) (Pipeline.launchToks cfgs cellOf_inj), 1))

/-- What @main starts from beside what the launch deals: the ghost state of the pipeline's staging cells and the
    tokens of its transfers. -/
abbrev G (d : Dev nD) : sProp 𝕄 := iprop(Pipeline.cellsGhost cfgs ER 0 d ∗ Pipeline.toksInit cfgs ER 0 d)

omit [FloatOps F] [∀ e, Nonempty (Elt F e)] in
theorem bigSep_emp' {I : Type} (s : Finset I) : (bigSep s fun _ => iprop(emp)) = (iprop(emp) : sProp 𝕄) := bigSep_emp_const s

omit [FloatOps F] [∀ e, Nonempty (Elt F e)] in
theorem own_ER (a : UR) : (BI.own (((Emb.inl : Emb UR (UR × Counters)).trans (embR : Emb (UR × Counters) 𝕄)) a) : sProp 𝕄) ⊢ BI.own ((ER : Emb UR 𝕄) a) :=
  Entails.of_eq rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HR, -⟩
  ihave HR2 := (own_ER _) $$ HR
  imod (Pipeline.fund_ghost cfgs ER cellOf_inj) $$ HR2 with ⟨Hg, Ht⟩
  imodintro
  isplitl [HH]; · iexact HH
  isplitl [Hg Ht]
  · rw [bigSep_sep']
    isplitl [Hg]
    · ihave Hg2 := (Entails.of_eq (show (bigSep Finset.univ fun c : Dev nD => bigSep Finset.univ fun p : Fin 1 => (Pipeline.cellsGhost cfgs ER p c : sProp 𝕄))
          = bigSep Finset.univ fun c : Dev nD => Pipeline.cellsGhost cfgs ER 0 c from bigSep_congr fun d _ => bigSep_univ_of_subsingleton (0 : Fin 1))) $$ Hg
      iexact Hg2
    · ihave Ht2 := (Entails.of_eq (show (bigSep Finset.univ fun c : Dev nD => bigSep Finset.univ fun p : Fin 1 => (Pipeline.toksInit cfgs ER p c : sProp 𝕄))
          = bigSep Finset.univ fun c : Dev nD => Pipeline.toksInit cfgs ER 0 c from bigSep_congr fun d _ => bigSep_univ_of_subsingleton (0 : Fin 1))) $$ Ht
      iexact Ht2
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main's arrays and operations -/

abbrev x' : DevRef τ sig := Proc.devRef .tc (main_arg0 : Ref sig .tc)
abbrev u' : DevRef τ sig := Proc.devRef .tc (main_arg1 : Ref sig .tc)
abbrev p' : DevRef τ sig := Proc.devRef .tc (main_v0 : Ref sig .tc)
abbrev v3' : DevRef τ sig := Proc.devRef .tc (main_v3 : Ref sig .tc)
abbrev r' : DevRef τ sig := Proc.devRef .tc (main_v5 : Ref sig .tc)

/-- The TensorCore's unscoped references: every array of @main. -/
def ucRefs : Finset (DevRef τ sig) := (StableHlo.tcRefs τ sig).filter fun b => ¬ b.isScoped

omit [FloatOps F] [∀ e, Nonempty (Elt F e)] in
theorem unscopedBufs_held (d : Dev nD) (W : Valuation τ sig (Elt F)) :
    (unscopedBufs d (fun b => W b) : sProp 𝕄) = held (SparseCore.T d) ucRefs W := by
  unfold unscopedBufs held ucRefs StableHlo.tcRefs
  rw [Finset.filter_map, bigSep_map]
  rfl

omit [FloatOps F] [∀ e, Nonempty (Elt F e)] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

omit [FloatOps F] [∀ e, Nonempty (Elt F e)] in
/-- The call's two arrays out of the unscoped buffers. -/
theorem held_call (d : Dev nD) (W : Valuation τ sig (Elt F)) :
    (held (SparseCore.T d) ucRefs W : sProp 𝕄) = iprop(((xLoc d ↦{fullShare} W x') ∗ (pLoc d ↦{fullShare} W p')) ∗ held (SparseCore.T d) (ucRefs \ {x', p'}) W) := by
  rw [StableHlo.held_sub_split (SparseCore.T d) (show ({x', p'} : Finset (DevRef τ sig)) ⊆ ucRefs by decide) W]
  congr 1
  unfold held
  rw [SparseCore.bigSep_insert' (by decide), bigSep_singleton]

abbrev rLoc (d : Dev nD) : Loc nD τ sig := (SparseCore.T d).loc main_v5

omit [FloatOps F] [∀ e, Nonempty (Elt F e)] in
/-- The claim's three arrays out of the unscoped buffers. -/
theorem held_fin (d : Dev nD) (W : Valuation τ sig (Elt F)) :
    (held (SparseCore.T d) ucRefs W : sProp 𝕄) = iprop(((xLoc d ↦{fullShare} W x') ∗ (uLoc d ↦{fullShare} W u') ∗ (rLoc d ↦{fullShare} W r')) ∗ held (SparseCore.T d) (ucRefs \ {x', u', r'}) W) := by
  rw [StableHlo.held_sub_split (SparseCore.T d) (show ({x', u', r'} : Finset (DevRef τ sig)) ⊆ ucRefs by decide) W]
  congr 1
  unfold held
  rw [SparseCore.bigSep_insert' (by decide), SparseCore.bigSep_insert' (by decide), bigSep_singleton]

abbrev opC : HloOp τ sig (Elt F) := StableHlo.nullary main_c (constantI S_ 32 0#32)
abbrev opConv : HloOp τ sig (Elt F) :=
  (StableHlo.TRef.of main_c : StableHlo.TRef sig ⟨S_, .i32⟩).unary (StableHlo.TRef.of main_call0_v0 : StableHlo.TRef sig ⟨S_, .f32⟩) (sitofp .f32)
abbrev opPad : HloOp τ sig (Elt F) :=
  (StableHlo.TRef.of main_arg1 : StableHlo.TRef sig ⟨S100002, .f32⟩).binary (StableHlo.TRef.of main_call0_v0 : StableHlo.TRef sig ⟨S_, .f32⟩)
    (StableHlo.TRef.of main_v1 : StableHlo.TRef sig ⟨S102400, .f32⟩) (fun x v => pad S102400 ![0] ![2398] ![0] x v pads_S100002_S102400_023980 h_S_)
abbrev opR12 : HloOp τ sig (Elt F) := StableHlo.reshape main_v1 main_v2 rfl shapeCasts_S102400_S4x200x128
abbrev opR34 : HloOp τ sig (Elt F) := StableHlo.reshape main_v3 main_v4 rfl shapeCasts_S4x200x128_S102400
abbrev opSl : HloOp τ sig (Elt F) :=
  StableHlo.unary main_v4 main_v5 ((extractStridedSlice S100002 ![0] · slices_S102400_S100002_0) : (⟨S102400, .f32⟩ : BufTy).Contents (Elt F) → (⟨S100002, .f32⟩ : BufTy).Contents (Elt F))

theorem hC : (opC (F := F)).bufs ⊆ ucRefs := sub_ucRefs _ (by simp)
theorem hConv : (opConv (F := F)).bufs ⊆ ucRefs := sub_ucRefs _ (by simp)
theorem hPad : (opPad (F := F)).bufs ⊆ ucRefs := sub_ucRefs _ (by simp)
theorem hR12 : (opR12 (F := F)).bufs ⊆ ucRefs := sub_ucRefs _ (by simp)
theorem hR34 : (opR34 (F := F)).bufs ⊆ ucRefs := sub_ucRefs _ (by simp)
theorem hSl : (opSl (F := F)).bufs ⊆ ucRefs := sub_ucRefs _ (by simp)

/-! ## The contents of @main's arrays, stage by stage -/

/-- At launch; after the call; when the region is entered; when it is left; at the end. -/
def W0 (d : Dev nD) : Valuation τ sig (Elt F) := fun b => m (d, b)
def W1 (d : Dev nD) : Valuation τ sig (Elt F) := Function.update (W0 m d) p' (partsDone m d)
abbrev W5 (d : Dev nD) : Valuation τ sig (Elt F) := opR12.result (opPad.result (opConv.result (opC.result (W1 m d))))
abbrev Vv (d : Dev nD) (b : Ref sig .tc) : Buf (Elt F) ((d : Thread nD τ).loc b) := W5 m d b
def W6 (d : Dev nD) : Valuation τ sig (Elt F) := Function.update (W5 m d) v3' (regOut (Vv m) d)
abbrev Vp (d : Dev nD) (b : Ref sig .tc) : Buf (Elt F) ((d : Thread nD τ).loc b) := W6 m d b
abbrev W8 (d : Dev nD) : Valuation τ sig (Elt F) := opSl.result (opR34.result (W6 m d))

theorem hVp_out (d : Dev nD) : Vp m d main_v3 = regOut (Vv m) d := Function.update_self _ _ _
theorem hVp_ne (d : Dev nD) (b : Ref sig .tc) (h : b ≠ main_v3) : Vp m d b = Vv m d b :=
  Function.update_of_ne (StableHlo.devRef_ne_of_ne h) _ _

/-- The result: the first 100002 entries of the region's result array, flattened. -/
def res (d : Dev nD) : Buf (Elt F) (rLoc d) :=
  (extractStridedSlice S100002 ![0] (shapeCast S102400 (regOut (Vv m) d) shapeCasts_S4x200x128_S102400) slices_S102400_S100002_0 : FVec F S100002 .f32)

/-- An array no operation writes, and the region does not, holds at the end what it held after the call. -/
theorem W8_of_not_written (d : Dev nD) (b : DevRef τ sig)
    (hb : b ∉ ({Proc.devRef .tc (main_c : Ref sig .tc), Proc.devRef .tc (main_call0_v0 : Ref sig .tc), Proc.devRef .tc (main_v1 : Ref sig .tc),
      Proc.devRef .tc (main_v2 : Ref sig .tc), v3', Proc.devRef .tc (main_v4 : Ref sig .tc), r'} : Finset (DevRef τ sig))) :
    W8 m d b = W1 m d b := by
  simp only [Finset.mem_insert, Finset.mem_singleton, not_or] at hb
  obtain ⟨h1, h2, h3, h4, h5, h6, h7⟩ := hb
  show (opSl (F := F)).result ((opR34 (F := F)).result (W6 m d)) b = _
  rw [HloOp.result_of_not_mem _ _ (show b ∉ ({r'} : Finset (DevRef τ sig)) from fun h => h7 (Finset.mem_singleton.mp h)),
    HloOp.result_of_not_mem _ _ (show b ∉ ({Proc.devRef .tc (main_v4 : Ref sig .tc)} : Finset (DevRef τ sig)) from fun h => h6 (Finset.mem_singleton.mp h))]
  unfold W6
  rw [Function.update_of_ne h5]
  show (opR12 (F := F)).result ((opPad (F := F)).result ((opConv (F := F)).result ((opC (F := F)).result (W1 m d)))) b = _
  rw [HloOp.result_of_not_mem _ _ (show b ∉ ({Proc.devRef .tc (main_v2 : Ref sig .tc)} : Finset (DevRef τ sig)) from fun h => h4 (Finset.mem_singleton.mp h)),
    HloOp.result_of_not_mem _ _ (show b ∉ ({Proc.devRef .tc (main_v1 : Ref sig .tc)} : Finset (DevRef τ sig)) from fun h => h3 (Finset.mem_singleton.mp h)),
    HloOp.result_of_not_mem _ _ (show b ∉ ({Proc.devRef .tc (main_call0_v0 : Ref sig .tc)} : Finset (DevRef τ sig)) from fun h => h2 (Finset.mem_singleton.mp h)),
    HloOp.result_of_not_mem _ _ (show b ∉ ({Proc.devRef .tc (main_c : Ref sig .tc)} : Finset (DevRef τ sig)) from fun h => h1 (Finset.mem_singleton.mp h))]

theorem W8_x (d : Dev nD) : W8 m d x' = m (xLoc d) :=
  (W8_of_not_written m d x' (by decide)).trans (Function.update_of_ne (by decide) _ _)
theorem W8_u (d : Dev nD) : W8 m d u' = m (uLoc d) :=
  (W8_of_not_written m d u' (by decide)).trans (Function.update_of_ne (by decide) _ _)
theorem W8_r (d : Dev nD) : W8 m d r' = res m d := by
  show (opSl (F := F)).result ((opR34 (F := F)).result (W6 m d)) r' = _
  rw [StableHlo.unary_result, StableHlo.reshape_result]
  unfold W6
  rw [Function.update_self]
  rfl

omit [∀ e, Nonempty (Elt F e)] in
/-- After the call: the token table as launched, the partial tables at the finished counts, the rest as launched. -/
theorem held_W1 (d : Dev nD) :
    (held (SparseCore.T d) ucRefs (W1 m d) : sProp 𝕄) = iprop((xPts m d ∗ pPts d (partsDone m d)) ∗ held (SparseCore.T d) (ucRefs \ {x', p'}) (W0 m d)) := by
  rw [held_call, show W1 m d x' = m (xLoc d) from Function.update_of_ne (by decide) _ _, show W1 m d p' = partsDone m d from Function.update_self _ _ _,
    StableHlo.held_congr (SparseCore.T d) (V := W1 m d) (V' := W0 m d) fun b hb =>
      Function.update_of_ne (fun e => (Finset.mem_sdiff.mp hb).2 (e ▸ Finset.mem_insert_of_mem (Finset.mem_singleton_self _))) _ _]

/-! ## @main on the TensorCore -/

abbrev uPts (d : Dev nD) : sProp 𝕄 := uLoc d ↦{fullShare} m (uLoc d)
abbrev FIN (d : Dev nD) : sProp 𝕄 := iprop(xPts m d ∗ uPts m d ∗ rLoc d ↦{fullShare} res m d)

theorem lift_eq : (Prog.lift (.customCall (SparseCore.inner (Pipeline.entry 0)) ()) : Prog (TpuEff nD τ sig (Elt F) (SparseCore.Sig (ΛP (F := F)) 1) .tc) PUnit)
    = SparseCore.liftProg (Q := 1) (Prog.op (TpuEff.customCall (Pipeline.entry (0 : Fin 1)) ()) fun _ => Prog.ret ⟨⟩) := rfl

/-- The region's call in the program's own labels is the call @main makes. -/
theorem lift_wp (d : Dev nD) (Φ : PUnit → sProp 𝕄) :
    wp frame (wpE (D (F := F)) 𝒱 (SparseCore.T d) none) Set.univ (Prog.op (TpuEff.customCall (Pipeline.entry (0 : Fin 1)) ()) fun _ => Prog.ret ⟨⟩) Φ
      ⊢ wp frame (wpE ((K (F := F)).defs (D (F := F))) 𝒱 (SparseCore.T d) none) Set.univ
          (Prog.lift (.customCall (SparseCore.inner (Pipeline.entry 0)) ())) Φ := by
  rw [lift_eq]
  exact (K (F := F)).wp_liftProg (D (F := F)) 𝒱 (SparseCore.T d) Set.univ none _ Φ

/-- The region over the contents the reshape left. -/
def regS : Pipeline.RegionSeg (pcfgs (F := F)) adm (dats (Vv m)) (none : HIx 1) defs₀ 𝒱r (K (F := F)).L (K (F := F)).lev 0 :=
  reg (Vv m) (Vp m) (hVp_out m) (hVp_ne m)

theorem regS_pre (d : Dev nD) : (regS m).pre d = iprop(unscopedBufs d (Vv m d) ∗ Rr (F := F) d) := rfl
theorem regS_post (d : Dev nD) : (regS m).post d = iprop(unscopedBufs d (Vp m d) ∗ Rr (F := F) d) := rfl

set_option backward.isDefEq.respectTransparency.types false in
set_option maxHeartbeats 1000000 in
/-- The region's step: from the boundary, the region's entry state, the level facts and the staging cells' ghost state
    to the boundary and the region's exit state. -/
theorem wp_region (d : Dev nD) (Φ : PUnit → sProp 𝕄) :
    iprop((iprop(boundary (d.tc : Thread nD τ) ∗ (regS m).post d) -∗ wp frame (wpE (D (F := F)) 𝒱 (d.tc : Thread nD τ) none) Set.univ (Prog.ret ⟨⟩) Φ)
        ∗ boundary (d.tc : Thread nD τ) ∗ (regS m).pre d ∗ levAts (K (F := F)).L (K (F := F)).lev
        ∗ Pipeline.cellsGhost (Pipeline.pin (pcfgs (F := F)) adm) ER 0 d ∗ Pipeline.toksInit (Pipeline.pin (pcfgs (F := F)) adm) ER 0 d)
      ⊢ wp frame (wpE ((K (F := F)).defs (D (F := F))) 𝒱 (SparseCore.T d) none) Set.univ
          (Prog.lift (.customCall (SparseCore.inner (Pipeline.entry 0)) ())) Φ :=
  BI.Entails.trans (Pipeline.RegionSeg.wp (pcfgs (F := F)) adm (dats (Vv m)) (none : HIx 1) cellOf_inj ER defs₀ 𝒱r (K (F := F)).L (K (F := F)).lev
    (regS m) d none (fun _ h => nomatch h) (fun _ => Prog.ret ⟨⟩) Φ) (lift_wp d Φ)

/-- The TensorCore's handshake state after the one call, but what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

omit [FloatOps F] [∀ e, Nonempty (Elt F e)] in
theorem tcSt_one (d : Dev nD) : ((K (F := F)).tcSt EH d 1 : sProp 𝕄) = iprop(Rr (F := F) d ∗ tcRest (F := F) d) := by
  unfold SparseCore.Cfg.tcSt tcRest
  rw [(K (F := F)).Otc_end d le_rfl]
omit [FloatOps F] [∀ e, Nonempty (Elt F e)] in
theorem tcSt_one' (d : Dev nD) : ((K (F := F)).tcSt EH d ((0 : Fin 1).val + 1) : sProp 𝕄) = iprop(Rr (F := F) d ∗ tcRest (F := F) d) := tcSt_one d

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) ucRefs (W0 m d) from unscopedBufs_held d (W0 m d)]
  simp only [main, fn_pad.body, wp_bind, wp_pure]
  iintro ⟨#Hctx, Hst, ⟨Hb, Hheld, -, -⟩, ⟨Hcg, Htk⟩⟩
  ihave Hh := (Entails.of_eq (held_call (F := F) d _)) $$ Hheld
  icases Hh with ⟨⟨Hx, Hp⟩, Hrest⟩
  -- the call
  iapply ((K (F := F)).wp_run (D (F := F)) 𝒱 (EH := EH) (P := P m) κ d 0) $$ [Hst Hx Hp Hb Hrest Hcg Htk]
  isplitr; · iexact Hctx
  isplitl [Hst]; · iexact Hst
  isplitl [Hx Hp]
  · iapply (st_intro m d (W0 m d p'))
    isplitl [Hx]; · iexact Hx
    iexact Hp
  iintro ⟨Hst, Hdn⟩
  ihave Hdn' := (dn_elim m d) $$ Hdn
  icases Hdn' with ⟨Hx, Hp⟩
  ihave Hheld := (Entails.of_eq (held_W1 m d).symm) $$ [Hx Hp Hrest]
  · isplitl [Hx Hp]
    · isplitl [Hx]; · iexact Hx
      iexact Hp
    iexact Hrest
  -- the constant, its float, the padding, the reshape
  iapply (StableHlo.wp_hlo_within 𝒱 (SparseCore.T d) none Set.univ (op := opC) (S := ucRefs) hC (V := W1 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opConv) (S := ucRefs) hConv) $$ [Hb Hheld]
  · isplitl [Hb]; · iexact Hb
    iexact Hheld
  iintro ⟨Hb, Hheld⟩
  rw [wp_ret]; imodintro
  iapply (StableHlo.wp_hlo_within 𝒱 (SparseCore.T d) none Set.univ (op := opPad) (S := ucRefs) hPad) $$ [Hb Hheld]
  · isplitl [Hb]; · iexact Hb
    iexact Hheld
  iintro ⟨Hb, Hheld⟩
  rw [wp_ret]; imodintro; imodintro
  iapply (StableHlo.wp_hlo_within 𝒱 (SparseCore.T d) none Set.univ (op := opR12) (S := ucRefs) hR12) $$ [Hb Hheld]
  · isplitl [Hb]; · iexact Hb
    iexact Hheld
  iintro ⟨Hb, Hheld⟩
  rw [wp_ret]; imodintro
  -- the region
  ihave Hlev := (SparseCore.Cfg.ctx_levAts κ) $$ Hctx
  ihave Hst' := (Entails.of_eq (tcSt_one' (F := F) d)) $$ Hst
  icases Hst' with ⟨HR, Htc⟩
  ihave Hub := (Entails.of_eq (unscopedBufs_held d (W5 m d)).symm) $$ Hheld
  iapply (wp_region m d) $$ [Hb Hub HR Hlev Hcg Htk Htc]
  isplitr [Hb Hub HR Hlev Hcg Htk]
  swap
  · isplitl [Hb]; · iexact Hb
    isplitl [Hub HR]
    · rw [regS_pre]
      isplitl [Hub]; · iexact Hub
      iexact HR
    isplitl [Hlev]; · iexact Hlev
    isplitl [Hcg]; · iexact Hcg
    iexact Htk
  rw [regS_post, wp_ret]
  iintro ⟨Hb, Hub, HR⟩
  imodintro
  ihave Hheld := (Entails.of_eq (unscopedBufs_held d (W6 m d))) $$ Hub
  -- the reshape back, the slice
  iapply (StableHlo.wp_hlo_within 𝒱 (SparseCore.T d) none Set.univ (op := opR34) (S := ucRefs) hR34) $$ [Hb Hheld]
  · isplitl [Hb]; · iexact Hb
    iexact Hheld
  iintro ⟨Hb, Hheld⟩
  rw [wp_ret]; imodintro
  iapply (StableHlo.wp_hlo_within 𝒱 (SparseCore.T d) none Set.univ (op := opSl) (S := ucRefs) hSl) $$ [Hb Hheld]
  · isplitl [Hb]; · iexact Hb
    iexact Hheld
  iintro ⟨Hb, Hheld⟩
  rw [wp_ret]; imodintro; imodintro
  ihave Hh := (Entails.of_eq (held_fin (F := F) d (W8 m d))) $$ Hheld
  icases Hh with ⟨⟨Hx, Hu, Hr⟩, -⟩
  rw [W8_x, W8_u, W8_r]
  isplitl [HR Htc]
  · iapply (Entails.of_eq (tcSt_one (F := F) d).symm)
    isplitl [HR]; · iexact HR
    iexact Htc
  isplitl [Hx]; · iexact Hx
  isplitl [Hu]; · iexact Hu
  iexact Hr

/-! ## The final memory read, and the program's run -/

def fq (d : Dev nD) (s' : Phys nD τ sig (Elt F)) : Prop :=
  s'.mem.mem (rLoc d) = res m d ∧ s'.mem.mem (xLoc d) = m (xLoc d) ∧ s'.mem.mem (uLoc d) = m (uLoc d)

theorem hfin (d : Dev nD) (s' : Phys nD τ sig (Elt F)) : iprop(FIN m d ∗ SI s') ⊢ (⌜fq m d s'⌝ : sProp 𝕄) := by
  iintro ⟨⟨Hx, Hu, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := uLoc d) (I := Finset.univ) (q := fullShare) (f := m (uLoc d)))) $$ [HSI Hu]
  · isplitl [HSI] <;> iassumption
  icases H with ⟨%h2, HSI, -⟩
  ihave H := (SI_pointsTo_agree (st := s') (ℓ := rLoc d) (I := Finset.univ) (q := fullShare) (f := res m d)) $$ [HSI Hr]
  · isplitl [HSI] <;> iassumption
  icases H with %h3
  ipureintro; exact ⟨funext fun i => h3 i (Finset.mem_univ i), funext fun i => h1 i (Finset.mem_univ i), funext fun i => h2 i (Finset.mem_univ i)⟩

/-- What the claim reads of a final memory: the result at `res`, the token table and the running counts as launched. -/
def QC : PUnit × MemSt nD τ sig (Elt F) → Prop := fun r =>
  ∀ c : Dev nD, r.2.mem (rLoc c) = res m c ∧ r.2.mem (xLoc c) = m (xLoc c) ∧ r.2.mem (uLoc c) = m (uLoc c)

/-- The program's run, from the vector subcores' task: every weakly fair execution of the device's threads terminates,
    and every final memory has the result at `res` and the two arguments unchanged. -/
theorem run_main (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.Proof.HistI

end
-- ==== Proof.CommonB.lean ====
/-
  The setting shared by the modules that prove the histogram program's run: the program as the launch theorem of
  the SparseCore library sees it, the ghost state (the launch handshakes' rounds, the TensorCore pipeline's rounds,
  the counters of local transfers), the arrays as locations, the bands of 128 rows of the token table and the
  thirty-two partial tables of counts, and what the launch handshakes carry to and from each vector subcore:
  subcore `s` of SparseCore `c` is worker `w = 2 s + c`; it is handed band `w` of the tokens (unchanged throughout) and
  partial table `w`, and hands the table back holding, at row `r` and lane `l`, the number of tokens of band `w`
  equal to `128 r + l`.
-/
import proofs.«217704_g70050916598121_cont_9to1_m_91_37_alg».proof.Defs
import proofs.«217704_g70050916598121_cont_9to1_m_91_37_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«217704_g70050916598121_cont_9to1_m_91_37_alg».proof.Proof.Gen.Kernel
import proofs.«217704_g70050916598121_cont_9to1_m_91_37_alg».proof.Proof.Gen.Kernel.Skeleton

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

/-- The handshakes' rounds library, the left factor; the pipeline's, the left factor of the right; the transfers'
    counters are found by instance. -/
abbrev EH : Emb UH (MT nD τ sig (HIx 1) (Elt F) ℕ UU ℕ) := embL
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance

/-! ## The launch memory and the arrays -/

variable (m : (ℓ : Loc nD τ sig) → Buf (Elt F) ℓ) (ρ : Dev nD → PrngReg)

/-- The token table, the running counts, the partial tables of counts, as locations of device `d`. -/
abbrev xLoc (d : Dev nD) : Loc nD τ sig := (SparseCore.T d).loc main_arg0
abbrev uLoc (d : Dev nD) : Loc nD τ sig := (SparseCore.T d).loc main_arg1
abbrev pLoc (d : Dev nD) : Loc nD τ sig := (SparseCore.T d).loc main_v0

/-- The token table at launch, as a table of words. -/
abbrev xTab (d : Dev nD) : IVec Cert.Hist.ST 32 := m (xLoc d)

/-- The worker of subcore `s` on SparseCore `c`. -/
def wid (c : Fin 2) (s : Fin 16) : Fin 32 := ⟨2 * s.val + c.val, by omega⟩

/-- Band `w` of the token table: rows `128 w … 128 w + 127`; partial table `w`: plane `w` of the partial counts. -/
def xBand (w : Fin 32) : Finset S4096x2048.Idx := Finset.univ.filter fun p => (p 0).val / 128 = w.val
def pPlane (w : Fin 32) : Finset S32x800x128.Idx := Finset.univ.filter fun p => (p 0).val = w.val

/-- The partial tables when every worker is done: plane `w`, row `r`, lane `l` holds the number of tokens of band `w`
    equal to `128 r + l`. -/
def partsDone (d : Dev nD) : Buf (Elt F) (pLoc d) :=
  fun p : S32x800x128.Idx => Cert.Hist.cntW (xTab m d) ⟨(p 0).val, (p 0).isLt⟩ (128 * (p 1).val + (p 2).val)

abbrev xPts (d : Dev nD) : sProp 𝕄 := xLoc d ↦{fullShare} m (xLoc d)
abbrev pPts (d : Dev nD) (f : Buf (Elt F) (pLoc d)) : sProp 𝕄 := pLoc d ↦{fullShare} f
abbrev xBandPts (d : Dev nD) (w : Fin 32) : sProp 𝕄 := xLoc d ↦[xBand w]{fullShare} m (xLoc d)
abbrev pPlanePts (d : Dev nD) (w : Fin 32) (f : Buf (Elt F) (pLoc d)) : sProp 𝕄 := pLoc d ↦[pPlane w]{fullShare} f

/-- What the one call carries: to a SparseCore the bands and planes of its sixteen workers, to a subcore its own; back,
    the same with the plane at the finished partial counts. -/
def P : (K (F := F)).Pay (nD := nD) (Val := Elt F) (Name := ℕ) (U := UU) where
  st := fun q d c => match q with
    | 0 => bigSep Finset.univ fun s : Fin 16 =>
      iprop(xBandPts m d (wid (Fin.cast nCore_zero c) s) ∗ ∃ f, pPlanePts d (wid (Fin.cast nCore_zero c) s) f)
  dn := fun q d c => match q with
    | 0 => bigSep Finset.univ fun s : Fin 16 =>
      iprop(xBandPts m d (wid (Fin.cast nCore_zero c) s) ∗ pPlanePts d (wid (Fin.cast nCore_zero c) s) (partsDone m d))
  go := fun q d c s => match q with
    | 0 => iprop(xBandPts m d (wid (Fin.cast nCore_zero c) (Fin.cast nSub_zero s))
      ∗ ∃ f, pPlanePts d (wid (Fin.cast nCore_zero c) (Fin.cast nSub_zero s)) f)
  td := fun q d c s => match q with
    | 0 => iprop(xBandPts m d (wid (Fin.cast nCore_zero c) (Fin.cast nSub_zero s))
      ∗ pPlanePts d (wid (Fin.cast nCore_zero c) (Fin.cast nSub_zero s)) (partsDone m d))
  x := fun _ _ => iprop(emp)

instance P_storable : (P (F := F) m).IsStorable where
  st q d c := match q with | 0 => by unfold P; infer_instance
  dn q d c := match q with | 0 => by unfold P; infer_instance
  go q d c s := match q with | 0 => by unfold P; infer_instance
  td q d c s := match q with | 0 => by unfold P; infer_instance

end Cert.Proof.HistB

end
-- ==== Proof.SplitB.lean ====
/-
  The launch of the histogram program, first part: how the token table and the partial tables of counts split among
  the two SparseCores and their sixteen vector subcores. The thirty-two bands of 128 rows of the token table are
  pairwise disjoint and cover it, and so do the thirty-two planes of the partial tables; worker `2 s + c` is a
  bijection of (SparseCore, subcore) onto the workers. So the two arrays whole are the call's operands, a
  SparseCore's operands are its subcores', and the results gather back to the arrays whole, the partial tables at
  the finished counts.
-/
import proofs.«217704_g70050916598121_cont_9to1_m_91_37_alg».proof.Proof.CommonB

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The thirty-two workers: subcore `s` of SparseCore `c` is worker `2 s + c` -/

/-- `(c, s) ↦ 2 s + c` is a bijection of SparseCore and subcore onto the workers. -/
def widEquiv : Fin 2 × Fin 16 ≃ Fin 32 where
  toFun cs := wid cs.1 cs.2
  invFun w := (⟨w.val % 2, Nat.mod_lt _ (by omega)⟩, ⟨w.val / 2, by omega⟩)
  left_inv cs := by
    obtain ⟨c, s⟩ := cs
    refine Prod.ext (Fin.ext ?_) (Fin.ext ?_)
    · show (2 * s.val + c.val) % 2 = c.val
      omega
    · show (2 * s.val + c.val) / 2 = s.val
      omega
  right_inv w := Fin.ext (by show 2 * (w.val / 2) + w.val % 2 = w.val; omega)

/-- A product over the SparseCores of the call's grid and their subcores is the product over the workers. -/
theorem bigSep_workers (Φ : Fin 32 → sProp 𝕄) :
    (bigSep Finset.univ fun c : Fin ((K (F := F)).nCore 0) => bigSep Finset.univ fun s : Fin 16 => Φ (wid (Fin.cast nCore_zero c) s))
      = bigSep Finset.univ Φ := by
  rw [bigSep_univ_equiv widEquiv Φ, bigSep_univ_prod]
  exact bigSep_congr fun _ _ => bigSep_congr fun _ _ => congrArg Φ (congrArg (fun c => wid c _) (Fin.ext rfl))

/-- A product over the subcores of the call's grid is the product over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The bands and the planes partition their arrays -/

theorem xBands_disjoint : ∀ i ∈ (Finset.univ : Finset (Fin 32)), ∀ j ∈ (Finset.univ : Finset (Fin 32)), i ≠ j → Disjoint (xBand i) (xBand j) := by
  intro i _ j _ h
  refine Finset.disjoint_left.mpr fun p hi hj => h (Fin.ext ?_)
  rw [← (Finset.mem_filter.mp hi).2, ← (Finset.mem_filter.mp hj).2]

theorem xBands_cover : (Finset.univ : Finset (Fin 32)).biUnion xBand = Finset.univ := by
  refine Finset.eq_univ_iff_forall.mpr fun p => Finset.mem_biUnion.mpr ⟨⟨(p 0).val / 128, ?_⟩, Finset.mem_univ _, Finset.mem_filter.mpr ⟨Finset.mem_univ _, rfl⟩⟩
  have h : (p 0).val < 4096 := (p 0).isLt
  omega

theorem pPlanes_disjoint : ∀ i ∈ (Finset.univ : Finset (Fin 32)), ∀ j ∈ (Finset.univ : Finset (Fin 32)), i ≠ j → Disjoint (pPlane i) (pPlane j) := by
  intro i _ j _ h
  refine Finset.disjoint_left.mpr fun p hi hj => h (Fin.ext ?_)
  rw [← (Finset.mem_filter.mp hi).2, ← (Finset.mem_filter.mp hj).2]

theorem pPlanes_cover : (Finset.univ : Finset (Fin 32)).biUnion pPlane = Finset.univ := by
  refine Finset.eq_univ_iff_forall.mpr fun p => Finset.mem_biUnion.mpr ⟨⟨(p 0).val, ?_⟩, Finset.mem_univ _, Finset.mem_filter.mpr ⟨Finset.mem_univ _, rfl⟩⟩
  exact (p 0).isLt

/-- The token table whole is its thirty-two bands; the partial tables whole are their thirty-two planes. -/
theorem xPts_bands (d : Dev nD) (f : Buf (Elt F) (xLoc d)) :
    (xLoc d ↦{fullShare} f : sProp 𝕄) = bigSep Finset.univ fun w : Fin 32 => xLoc d ↦[xBand w]{fullShare} f := by
  rw [← pointsTo_biUnion Finset.univ (ℓ := xLoc d) xBand xBands_disjoint, xBands_cover]; try rfl
theorem pPts_planes (d : Dev nD) (f : Buf (Elt F) (pLoc d)) :
    (pLoc d ↦{fullShare} f : sProp 𝕄) = bigSep Finset.univ fun w : Fin 32 => pLoc d ↦[pPlane w]{fullShare} f := by
  rw [← pointsTo_biUnion Finset.univ (ℓ := pLoc d) pPlane pPlanes_disjoint, pPlanes_cover]; try rfl

/-! ## What the handshakes carry, as equations -/

theorem P_st (d : Dev nD) (c : Fin ((K (F := F)).nCore 0)) :
    (P m).st 0 d c = bigSep Finset.univ fun s : Fin 16 =>
      iprop(xBandPts m d (wid (Fin.cast nCore_zero c) s) ∗ ∃ f, pPlanePts d (wid (Fin.cast nCore_zero c) s) f) := by unfold P; rfl
theorem P_dn (d : Dev nD) (c : Fin ((K (F := F)).nCore 0)) :
    (P m).dn 0 d c = bigSep Finset.univ fun s : Fin 16 =>
      iprop(xBandPts m d (wid (Fin.cast nCore_zero c) s) ∗ pPlanePts d (wid (Fin.cast nCore_zero c) s) (partsDone m d)) := by unfold P; rfl
theorem P_go (d : Dev nD) (c : Fin ((K (F := F)).nCore 0)) (s : Fin ((K (F := F)).nSub 0)) :
    (P m).go 0 d c s = iprop(xBandPts m d (wid (Fin.cast nCore_zero c) (Fin.cast nSub_zero s))
      ∗ ∃ f, pPlanePts d (wid (Fin.cast nCore_zero c) (Fin.cast nSub_zero s)) f) := by unfold P; rfl
theorem P_td (d : Dev nD) (c : Fin ((K (F := F)).nCore 0)) (s : Fin ((K (F := F)).nSub 0)) :
    (P m).td 0 d c s = iprop(xBandPts m d (wid (Fin.cast nCore_zero c) (Fin.cast nSub_zero s))
      ∗ pPlanePts d (wid (Fin.cast nCore_zero c) (Fin.cast nSub_zero s)) (partsDone m d)) := by unfold P; rfl

/-- A SparseCore's operands are its sixteen subcores' and its results theirs: nothing to do but rename the index. -/
theorem vecSplit : (K (F := F)).VecSplit' (P m) 0 := by
  intro d c
  simp only [P_st, P_dn, P_go, P_td]
  rw [bigSep_tasks (F := F) (fun s => iprop(xBandPts m d (wid (Fin.cast nCore_zero c) s) ∗ ∃ f, pPlanePts d (wid (Fin.cast nCore_zero c) s) f)),
    bigSep_tasks (F := F) (fun s => iprop(xBandPts m d (wid (Fin.cast nCore_zero c) s) ∗ pPlanePts d (wid (Fin.cast nCore_zero c) s) (partsDone m d)))]
  iintro H; imodintro
  isplitl [H]; · iexact H
  iintro H; iexact H

/-- The call's operands from the two arrays whole, and the arrays whole from its results. -/
theorem st_intro (d : Dev nD) (f : Buf (Elt F) (pLoc d)) :
    iprop(xPts m d ∗ pPts d f) ⊢ (bigSep Finset.univ fun c : Fin ((K (F := F)).nCore 0) => (P m).st 0 d c : sProp 𝕄) := by
  simp only [P_st]
  rw [bigSep_workers (F := F) (fun w => iprop(xBandPts m d w ∗ ∃ f, pPlanePts d w f)), bigSep_sep']
  unfold xPts pPts
  rw [xPts_bands, pPts_planes]
  iintro ⟨Hx, Hp⟩
  isplitl [Hx]; · iexact Hx
  iapply (SparseCore.ent (bigSep_mono fun w _ => (show (pLoc d ↦[pPlane w]{fullShare} f : sProp 𝕄) ⊢ iprop(∃ f, pPlanePts d w f) from by
    iintro H; iexists f; iexact H)))
  iexact Hp

theorem dn_elim (d : Dev nD) :
    (bigSep Finset.univ fun c : Fin ((K (F := F)).nCore 0) => (P m).dn 0 d c : sProp 𝕄) ⊢ iprop(xPts m d ∗ pPts d (partsDone m d)) := by
  simp only [P_dn]
  rw [bigSep_workers (F := F) (fun w => iprop(xBandPts m d w ∗ pPlanePts d w (partsDone m d))), bigSep_sep']
  unfold xPts pPts
  rw [xPts_bands, pPts_planes]

end Cert.Proof.HistB

end
-- ==== Proof.RegionB.lean ====
/-
  The TensorCore reduction of the histogram program as a kernel region: the pipeline over four points, each adding
  to a block of 200 x 128 running counts the sum, over the thirty-two partial tables, of the same block of counts
  converted to floats. The body reads its two input blocks whole, computes, and writes the output block whole; so
  what it leaves in the output's staging buffer is a closed function of the two input blocks, and the input blocks
  are left as found. The region is entered from the core's unscoped buffers at any contents and left with them
  updated at the result's array.
-/
import proofs.«217704_g70050916598121_cont_9to1_m_91_37_alg».proof.Proof.CommonB
import proofs.«217704_g70050916598121_cont_9to1_m_91_37_alg».proof.Proof.Gen.Kernel.Launch
import proofs.«217704_g70050916598121_cont_9to1_m_91_37_alg».proof.Proof.Gen.Kernel.Points
import Idealize.ShloMosaic.Lib.Pipeline.RegionsLoop
import Idealize.ShloMosaic.Lib.Pipeline.FrameBody
import Idealize.ShloMosaic.Lib.Tactic

noncomputable section

namespace Cert.Proof.HistB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ) (ρ : Dev nD → PrngReg)

variable [FloatOps F] [∀ e, Nonempty (Elt F e)]

set_option maxRecDepth 16384

/-! ## The body's accesses and what it leaves -/

abbrev rIn : Rect S32x200x128 := Rect.unit (s := S32x200x128) ![0, 0, 0] S32x200x128.size inb_S32x200x128_S32x200x128_0_0_0
abbrev rIO : Rect S1x200x128 := Rect.unit (s := S1x200x128) ![0, 0, 0] S1x200x128.size inb_S1x200x128_S1x200x128_0_0_0

/-- The output block from the two input blocks: the one store's payload over the whole block. -/
def outBlk (x0 : Vec F S32x200x128 .i32) (x1 : Vec F S1x200x128 .f32) : Vec F S1x200x128 .f32 :=
  View.canon [⟨rIO, k1_pay1 (View.ld x0 rIn) (View.ld x1 rIO)⟩]

omit [FloatOps F] in
/-- The one store covers the block. -/
theorem cover_out (p0 : Vec F S1x200x128 .f32) (y : S1x200x128.Idx) :
    ∃ pc ∈ ([⟨rIO, p0⟩] : List (View.Piece (Elt F) S1x200x128 .f32)), y ∈ pc.1.set :=
  View.cover_of_tiled [⟨rIO, p0⟩] S1x200x128.size (by rfl) y

set_option maxHeartbeats 1000000 in
/-- The body on whole staging buffers: the inputs' at read contents `x0`, `x1`, the output's at anything, to the
    inputs' as they were and the output's at `outBlk x0 x1`. -/
theorem sound_kernel (c : Dev nD) (E : Set ℕ) (i : grid1.Coords) (arg1 : Memref sig .tc .vmem S32x200x128 .i32) (harg1 : arg1.IsWhole)
    (arg2 : Memref sig .tc .vmem S1x200x128 .f32) (harg2 : arg2.IsWhole) (arg3 : Memref sig .tc .vmem S1x200x128 .f32) (harg3 : arg3.IsWhole)
    (x0 : Vec F S32x200x128 .i32) (x1 : Vec F S1x200x128 .f32) (Kk : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ Kk ⟨⟩))
      ⊢ wp frame (wpE (defs₀ (F := F)) Variants.none c none) E (cc1__reduce_body i arg1 harg1 arg2 harg2 arg3 harg3) Kk := by
  simp only [cc1__reduce_body_eq_skeleton]; unfold cc1__reduce_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data, from a region-entry valuation -/

variable (Vv : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

/-- Between points the body keeps nothing: the scoped buffers no window stages. -/
abbrev Φc (c : Dev nD) : sProp 𝕄 := Pipeline.scopedRest (Ix := HIx 1) (Name := ℕ) (U := UU) (Lvl := ℕ) (Val := Elt F) spec1 c

/-- The pairs the TensorCore's waits may have recorded when the region is entered: those at levels up to the first
    call's. -/
def recd (c : Dev nD) : Set (SemLoc sig × HIx 1) := {p | (K (F := F)).lev ((c : Thread nD τ), p.1) p.2 ≤ 8}

/-- The proof data on core `c`: the arrays as the region finds them; after the body each input's buffer at its block
    and the output's at `outBlk` of the input blocks; nothing kept, nothing owed, full shares. -/
def dats (_ : Fin 1) (c : Dev nD) : Dat τ (Elt F) (HIx 1) ℕ UU ℕ cfg1 c where
  A w := Vv c (Pipeline.arrRef spec1 w)
  after w t := match w with
    | ⟨0, _⟩ => iblk Vv c 0 t
    | ⟨1, _⟩ => iblk Vv c 1 t
    | ⟨2, _⟩ => outBlk (iblk Vv c 0 t) (iblk Vv c 1 t)
  Φ _ := Φc c
  q _ := fullShare
  owed _ := 0
  recorded _ := recd (F := F) c

theorem A_eq (c : Dev nD) (w : Fin cfg1.W) : (dats Vv 0 c).A w = Vv c (Pipeline.arrRef spec1 w) := by
  dsimp only [dats]
theorem after1_0 (c : Dev nD) (t : Fin cfg1.N) : (dats Vv 0 c).after 0 t = iblk Vv c 0 t := by dsimp only [dats]
theorem after1_1 (c : Dev nD) (t : Fin cfg1.N) : (dats Vv 0 c).after 1 t = iblk Vv c 1 t := by dsimp only [dats]
theorem after1_2 (c : Dev nD) (t : Fin cfg1.N) : (dats Vv 0 c).after 2 t = outBlk (iblk Vv c 0 t) (iblk Vv c 1 t) := by dsimp only [dats]

/-- Each input's current staging buffer holds its block at every point. -/
theorem before1_0 (c : Dev nD) (t : Fin cfg1.N) (d) : (dats Vv 0 c).before 0 t d = iblk Vv c 0 t :=
  ((dats Vv 0 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats Vv 0 c).before 1 t d = iblk Vv c 1 t :=
  ((dats Vv 0 c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)

abbrev 𝒱r : Variants := Variants.none

/-- The body at any point: the inputs' buffers hold their blocks, the body runs, the invariant and what the core owes
    pass through unread. -/
theorem body_obligation (c : Dev nD) : BodyObligation (dats Vv 0 c) (defs₀ (F := F)) 𝒱r (none : HIx 1) Set.univ := fun t => by
  rw [bigSep_W1, bigSep_W1]
  simp only [before1_0, before1_1]
  rw [show (dats Vv 0 c).Φ t.succ = (dats Vv 0 c).Φ t.castSucc from rfl,
    show (dats Vv 0 c).owesAt (none : HIx 1) t.succ = (dats Vv 0 c).owesAt (none : HIx 1) t.castSucc from rfl,
    after1_0, after1_1, after1_2]
  iintro ⟨HΦ, Ho, ⟨%d0, H0⟩, ⟨%d1, H1⟩, ⟨%d2, H2⟩⟩
  iapply (sound_kernel c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (iblk Vv c 0 t) (iblk Vv c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-! ## The region over the thread state -/

/-- What rides beside the buffers: what the TensorCore owes after the call — nothing — with its recorded pairs bounded. -/
abbrev Rr (c : Dev nD) : sProp 𝕄 :=
  iprop(∃ W, ⌜(K (F := F)).WBelow (SparseCore.T c) W 8⌝ ∗ owes (SparseCore.T c) (0 : CellTallies nD τ sig (HIx 1)) W)

/-- The admissible contents of the prefetched tables: there is none. -/
abbrev adm : (p : Fin 1) → (pcfgs (F := F) p).Adm := fun p => (cfgs p).toPCfg_adm

/-- The result's array after the region: its contents at the entry with every point's block written back, in point order. -/
def regOut (c : Dev nD) : Buf (Elt F) ((c : Thread nD τ).loc main_v3) := (dats Vv 0 c).arrAt 2 cfg1.N

variable (Vp : (c : Dev nD) → (b : Ref sig .tc) → Buf (Elt F) ((c : Thread nD τ).loc b))

set_option backward.isDefEq.respectTransparency.types false in
/-- The region, entered from every unscoped buffer at `Vv c` and left with them at any `Vp c` that has the result's
    array at `regOut` and agrees with `Vv c` elsewhere: the three arrays split out at the entry and put back at the
    exit, the rest bypassing; nothing enters the invariant; the kernel has no semaphore of its own. -/
def reg (hVp_out : ∀ c, Vp c main_v3 = regOut Vv c) (hVp_ne : ∀ c (b : Ref sig .tc), b ≠ main_v3 → Vp c b = Vv c b) :
    Pipeline.RegionSeg (pcfgs (F := F)) adm (dats Vv) (none : HIx 1) defs₀ 𝒱r (K (F := F)).L (K (F := F)).lev 0 where
  win := launch1.win.to₀
  block_pos := launch1.block_pos
  stage_whole := launch1.stage_whole
  K := PEmpty
  osem k := k.elim
  ho := Pipeline.OwnSemFacts.none _
  hbody c := (body_obligation Vv c).loose
  hwaits := Pipeline.hwaits_of_owed_zero _ _ _ _ (K (F := F)).L (K (F := F)).lev 0 fun _ _ => rfl
  pre c := iprop(unscopedBufs c (Vv c) ∗ Rr (F := F) c)
  post c := iprop(unscopedBufs c (Vp c) ∗ Rr (F := F) c)
  X _ := BI.emp
  Y _ := BI.emp
  Z c := Pipeline.unscopedRest (Ix := HIx 1) (Name := ℕ) (U := UU) (Lvl := ℕ) spec1 c (Vv c)
  hentry c := by
    rw [Pipeline.ownSems0_none]
    have hsplit := Pipeline.arrays_of_unscopedBufs (p := 0) (pcfgs (F := F)) adm (dats Vv) launch1.win launch1.arr_whole c
      ((dats Vv 0 c).share_full fun _ => rfl) (Vv c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (dats Vv 0 c).Φ 0 = Φc c from rfl]
    iintro ⟨-, -, Hr⟩; iexact Hr
  hout c := by
    rw [Pipeline.ownSems0_none, show (dats Vv 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (dats Vv) ((dats Vv 0 c).share_full fun _ => rfl) (Vv c) (Vp c) ((dats Vv 0 c).arrAt · cfg1.N)
      (fun w => by
        fin_cases w
        · exact ((dats Vv 0 c).arrAt_in 0 rfl _).trans (hVp_ne c main_v0 (by decide)).symm
        · exact ((dats Vv 0 c).arrAt_in 1 rfl _).trans (hVp_ne c main_v2 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.HistB

end
-- ==== Proof.MainB.lean ====
/-
  The launch of the histogram program, second part: the launch element of the ghost state, @main on the TensorCore,
  and the program's run from the vector subcores' task. @main hands the token table and the partial tables to the
  SparseCores and gets the tables back at the finished partial counts; pads the running counts with the float of
  the constant zero and reshapes them to 4 x 200 x 128; runs the reduction region, which leaves in its result
  array what the pipeline computes from the partial tables and the padded counts; reshapes that back and keeps
  its first 100002 entries: the result. The token table and the running counts are never written.
-/
import proofs.«217704_g70050916598121_cont_9to1_m_91_37_alg».proof.Proof.SplitB
import proofs.«217704_g70050916598121_cont_9to1_m_91_37_alg».proof.Proof.RegionB

noncomputable section

namespace Cert.Proof.HistB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held)
variable {F : FTy → Type}

local notation "𝕄" => MT nD τ sig (HIx 1) (Elt F) ℕ UU ℕ

variable (m : (ℓ : Loc nD τ sig) → Buf (Elt F) ℓ) (ρ : Dev nD → PrngReg)

variable [FloatOps F] [∀ e, Nonempty (Elt F e)]

/-! ## The launch element: the handshakes' rounds, the pipeline's staging cells; no counter yet -/

def u₀ : UU := (initOf (K (F := F)).hsCells (K (F := F)).hsToks, (initOf (Pipeline.cells cfgs cellOf_inj) (Pipeline.launchToks cfgs cellOf_inj), 1))

/-- What @main starts from beside what the launch deals: the ghost state of the pipeline's staging cells and the
    tokens of its transfers. -/
abbrev G (d : Dev nD) : sProp 𝕄 := iprop(Pipeline.cellsGhost cfgs ER 0 d ∗ Pipeline.toksInit cfgs ER 0 d)

omit [FloatOps F] [∀ e, Nonempty (Elt F e)] in
theorem bigSep_emp' {I : Type} (s : Finset I) : (bigSep s fun _ => iprop(emp)) = (iprop(emp) : sProp 𝕄) := bigSep_emp_const s

omit [FloatOps F] [∀ e, Nonempty (Elt F e)] in
theorem own_ER (a : UR) : (BI.own (((Emb.inl : Emb UR (UR × Counters)).trans (embR : Emb (UR × Counters) 𝕄)) a) : sProp 𝕄) ⊢ BI.own ((ER : Emb UR 𝕄) a) :=
  Entails.of_eq rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HR, -⟩
  ihave HR2 := (own_ER _) $$ HR
  imod (Pipeline.fund_ghost cfgs ER cellOf_inj) $$ HR2 with ⟨Hg, Ht⟩
  imodintro
  isplitl [HH]; · iexact HH
  isplitl [Hg Ht]
  · rw [bigSep_sep']
    isplitl [Hg]
    · ihave Hg2 := (Entails.of_eq (show (bigSep Finset.univ fun c : Dev nD => bigSep Finset.univ fun p : Fin 1 => (Pipeline.cellsGhost cfgs ER p c : sProp 𝕄))
          = bigSep Finset.univ fun c : Dev nD => Pipeline.cellsGhost cfgs ER 0 c from bigSep_congr fun d _ => bigSep_univ_of_subsingleton (0 : Fin 1))) $$ Hg
      iexact Hg2
    · ihave Ht2 := (Entails.of_eq (show (bigSep Finset.univ fun c : Dev nD => bigSep Finset.univ fun p : Fin 1 => (Pipeline.toksInit cfgs ER p c : sProp 𝕄))
          = bigSep Finset.univ fun c : Dev nD => Pipeline.toksInit cfgs ER 0 c from bigSep_congr fun d _ => bigSep_univ_of_subsingleton (0 : Fin 1))) $$ Ht
      iexact Ht2
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main's arrays and operations -/

abbrev x' : DevRef τ sig := Proc.devRef .tc (main_arg0 : Ref sig .tc)
abbrev u' : DevRef τ sig := Proc.devRef .tc (main_arg1 : Ref sig .tc)
abbrev p' : DevRef τ sig := Proc.devRef .tc (main_v0 : Ref sig .tc)
abbrev v3' : DevRef τ sig := Proc.devRef .tc (main_v3 : Ref sig .tc)
abbrev r' : DevRef τ sig := Proc.devRef .tc (main_v5 : Ref sig .tc)

/-- The TensorCore's unscoped references: every array of @main. -/
def ucRefs : Finset (DevRef τ sig) := (StableHlo.tcRefs τ sig).filter fun b => ¬ b.isScoped

omit [FloatOps F] [∀ e, Nonempty (Elt F e)] in
theorem unscopedBufs_held (d : Dev nD) (W : Valuation τ sig (Elt F)) :
    (unscopedBufs d (fun b => W b) : sProp 𝕄) = held (SparseCore.T d) ucRefs W := by
  unfold unscopedBufs held ucRefs StableHlo.tcRefs
  rw [Finset.filter_map, bigSep_map]
  rfl

omit [FloatOps F] [∀ e, Nonempty (Elt F e)] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

omit [FloatOps F] [∀ e, Nonempty (Elt F e)] in
/-- The call's two arrays out of the unscoped buffers. -/
theorem held_call (d : Dev nD) (W : Valuation τ sig (Elt F)) :
    (held (SparseCore.T d) ucRefs W : sProp 𝕄) = iprop(((xLoc d ↦{fullShare} W x') ∗ (pLoc d ↦{fullShare} W p')) ∗ held (SparseCore.T d) (ucRefs \ {x', p'}) W) := by
  rw [StableHlo.held_sub_split (SparseCore.T d) (show ({x', p'} : Finset (DevRef τ sig)) ⊆ ucRefs by decide) W]
  congr 1
  unfold held
  rw [SparseCore.bigSep_insert' (by decide), bigSep_singleton]

abbrev rLoc (d : Dev nD) : Loc nD τ sig := (SparseCore.T d).loc main_v5

omit [FloatOps F] [∀ e, Nonempty (Elt F e)] in
/-- The claim's three arrays out of the unscoped buffers. -/
theorem held_fin (d : Dev nD) (W : Valuation τ sig (Elt F)) :
    (held (SparseCore.T d) ucRefs W : sProp 𝕄) = iprop(((xLoc d ↦{fullShare} W x') ∗ (uLoc d ↦{fullShare} W u') ∗ (rLoc d ↦{fullShare} W r')) ∗ held (SparseCore.T d) (ucRefs \ {x', u', r'}) W) := by
  rw [StableHlo.held_sub_split (SparseCore.T d) (show ({x', u', r'} : Finset (DevRef τ sig)) ⊆ ucRefs by decide) W]
  congr 1
  unfold held
  rw [SparseCore.bigSep_insert' (by decide), SparseCore.bigSep_insert' (by decide), bigSep_singleton]

abbrev opC : HloOp τ sig (Elt F) := StableHlo.nullary main_c (constantI S_ 32 0#32)
abbrev opConv : HloOp τ sig (Elt F) :=
  (StableHlo.TRef.of main_c : StableHlo.TRef sig ⟨S_, .i32⟩).unary (StableHlo.TRef.of main_call0_v0 : StableHlo.TRef sig ⟨S_, .f32⟩) (sitofp .f32)
abbrev opPad : HloOp τ sig (Elt F) :=
  (StableHlo.TRef.of main_arg1 : StableHlo.TRef sig ⟨S100002, .f32⟩).binary (StableHlo.TRef.of main_call0_v0 : StableHlo.TRef sig ⟨S_, .f32⟩)
    (StableHlo.TRef.of main_v1 : StableHlo.TRef sig ⟨S102400, .f32⟩) (fun x v => pad S102400 ![0] ![2398] ![0] x v pads_S100002_S102400_023980 h_S_)
abbrev opR12 : HloOp τ sig (Elt F) := StableHlo.reshape main_v1 main_v2 rfl shapeCasts_S102400_S4x200x128
abbrev opR34 : HloOp τ sig (Elt F) := StableHlo.reshape main_v3 main_v4 rfl shapeCasts_S4x200x128_S102400
abbrev opSl : HloOp τ sig (Elt F) :=
  StableHlo.unary main_v4 main_v5 ((extractStridedSlice S100002 ![0] · slices_S102400_S100002_0) : (⟨S102400, .f32⟩ : BufTy).Contents (Elt F) → (⟨S100002, .f32⟩ : BufTy).Contents (Elt F))

theorem hC : (opC (F := F)).bufs ⊆ ucRefs := sub_ucRefs _ (by simp)
theorem hConv : (opConv (F := F)).bufs ⊆ ucRefs := sub_ucRefs _ (by simp)
theorem hPad : (opPad (F := F)).bufs ⊆ ucRefs := sub_ucRefs _ (by simp)
theorem hR12 : (opR12 (F := F)).bufs ⊆ ucRefs := sub_ucRefs _ (by simp)
theorem hR34 : (opR34 (F := F)).bufs ⊆ ucRefs := sub_ucRefs _ (by simp)
theorem hSl : (opSl (F := F)).bufs ⊆ ucRefs := sub_ucRefs _ (by simp)

/-! ## The contents of @main's arrays, stage by stage -/

/-- At launch; after the call; when the region is entered; when it is left; at the end. -/
def W0 (d : Dev nD) : Valuation τ sig (Elt F) := fun b => m (d, b)
def W1 (d : Dev nD) : Valuation τ sig (Elt F) := Function.update (W0 m d) p' (partsDone m d)
abbrev W5 (d : Dev nD) : Valuation τ sig (Elt F) := opR12.result (opPad.result (opConv.result (opC.result (W1 m d))))
abbrev Vv (d : Dev nD) (b : Ref sig .tc) : Buf (Elt F) ((d : Thread nD τ).loc b) := W5 m d b
def W6 (d : Dev nD) : Valuation τ sig (Elt F) := Function.update (W5 m d) v3' (regOut (Vv m) d)
abbrev Vp (d : Dev nD) (b : Ref sig .tc) : Buf (Elt F) ((d : Thread nD τ).loc b) := W6 m d b
abbrev W8 (d : Dev nD) : Valuation τ sig (Elt F) := opSl.result (opR34.result (W6 m d))

theorem hVp_out (d : Dev nD) : Vp m d main_v3 = regOut (Vv m) d := Function.update_self _ _ _
theorem hVp_ne (d : Dev nD) (b : Ref sig .tc) (h : b ≠ main_v3) : Vp m d b = Vv m d b :=
  Function.update_of_ne (StableHlo.devRef_ne_of_ne h) _ _

/-- The result: the first 100002 entries of the region's result array, flattened. -/
def res (d : Dev nD) : Buf (Elt F) (rLoc d) :=
  (extractStridedSlice S100002 ![0] (shapeCast S102400 (regOut (Vv m) d) shapeCasts_S4x200x128_S102400) slices_S102400_S100002_0 : FVec F S100002 .f32)

/-- An array no operation writes, and the region does not, holds at the end what it held after the call. -/
theorem W8_of_not_written (d : Dev nD) (b : DevRef τ sig)
    (hb : b ∉ ({Proc.devRef .tc (main_c : Ref sig .tc), Proc.devRef .tc (main_call0_v0 : Ref sig .tc), Proc.devRef .tc (main_v1 : Ref sig .tc),
      Proc.devRef .tc (main_v2 : Ref sig .tc), v3', Proc.devRef .tc (main_v4 : Ref sig .tc), r'} : Finset (DevRef τ sig))) :
    W8 m d b = W1 m d b := by
  simp only [Finset.mem_insert, Finset.mem_singleton, not_or] at hb
  obtain ⟨h1, h2, h3, h4, h5, h6, h7⟩ := hb
  show (opSl (F := F)).result ((opR34 (F := F)).result (W6 m d)) b = _
  rw [HloOp.result_of_not_mem _ _ (show b ∉ ({r'} : Finset (DevRef τ sig)) from fun h => h7 (Finset.mem_singleton.mp h)),
    HloOp.result_of_not_mem _ _ (show b ∉ ({Proc.devRef .tc (main_v4 : Ref sig .tc)} : Finset (DevRef τ sig)) from fun h => h6 (Finset.mem_singleton.mp h))]
  unfold W6
  rw [Function.update_of_ne h5]
  show (opR12 (F := F)).result ((opPad (F := F)).result ((opConv (F := F)).result ((opC (F := F)).result (W1 m d)))) b = _
  rw [HloOp.result_of_not_mem _ _ (show b ∉ ({Proc.devRef .tc (main_v2 : Ref sig .tc)} : Finset (DevRef τ sig)) from fun h => h4 (Finset.mem_singleton.mp h)),
    HloOp.result_of_not_mem _ _ (show b ∉ ({Proc.devRef .tc (main_v1 : Ref sig .tc)} : Finset (DevRef τ sig)) from fun h => h3 (Finset.mem_singleton.mp h)),
    HloOp.result_of_not_mem _ _ (show b ∉ ({Proc.devRef .tc (main_call0_v0 : Ref sig .tc)} : Finset (DevRef τ sig)) from fun h => h2 (Finset.mem_singleton.mp h)),
    HloOp.result_of_not_mem _ _ (show b ∉ ({Proc.devRef .tc (main_c : Ref sig .tc)} : Finset (DevRef τ sig)) from fun h => h1 (Finset.mem_singleton.mp h))]

theorem W8_x (d : Dev nD) : W8 m d x' = m (xLoc d) :=
  (W8_of_not_written m d x' (by decide)).trans (Function.update_of_ne (by decide) _ _)
theorem W8_u (d : Dev nD) : W8 m d u' = m (uLoc d) :=
  (W8_of_not_written m d u' (by decide)).trans (Function.update_of_ne (by decide) _ _)
theorem W8_r (d : Dev nD) : W8 m d r' = res m d := by
  show (opSl (F := F)).result ((opR34 (F := F)).result (W6 m d)) r' = _
  rw [StableHlo.unary_result, StableHlo.reshape_result]
  unfold W6
  rw [Function.update_self]
  rfl

omit [∀ e, Nonempty (Elt F e)] in
/-- After the call: the token table as launched, the partial tables at the finished counts, the rest as launched. -/
theorem held_W1 (d : Dev nD) :
    (held (SparseCore.T d) ucRefs (W1 m d) : sProp 𝕄) = iprop((xPts m d ∗ pPts d (partsDone m d)) ∗ held (SparseCore.T d) (ucRefs \ {x', p'}) (W0 m d)) := by
  rw [held_call, show W1 m d x' = m (xLoc d) from Function.update_of_ne (by decide) _ _, show W1 m d p' = partsDone m d from Function.update_self _ _ _,
    StableHlo.held_congr (SparseCore.T d) (V := W1 m d) (V' := W0 m d) fun b hb =>
      Function.update_of_ne (fun e => (Finset.mem_sdiff.mp hb).2 (e ▸ Finset.mem_insert_of_mem (Finset.mem_singleton_self _))) _ _]

/-! ## @main on the TensorCore -/

abbrev uPts (d : Dev nD) : sProp 𝕄 := uLoc d ↦{fullShare} m (uLoc d)
abbrev FIN (d : Dev nD) : sProp 𝕄 := iprop(xPts m d ∗ uPts m d ∗ rLoc d ↦{fullShare} res m d)

theorem lift_eq : (Prog.lift (.customCall (SparseCore.inner (Pipeline.entry 0)) ()) : Prog (TpuEff nD τ sig (Elt F) (SparseCore.Sig (ΛP (F := F)) 1) .tc) PUnit)
    = SparseCore.liftProg (Q := 1) (Prog.op (TpuEff.customCall (Pipeline.entry (0 : Fin 1)) ()) fun _ => Prog.ret ⟨⟩) := rfl

/-- The region's call in the program's own labels is the call @main makes. -/
theorem lift_wp (d : Dev nD) (Φ : PUnit → sProp 𝕄) :
    wp frame (wpE (D (F := F)) 𝒱 (SparseCore.T d) none) Set.univ (Prog.op (TpuEff.customCall (Pipeline.entry (0 : Fin 1)) ()) fun _ => Prog.ret ⟨⟩) Φ
      ⊢ wp frame (wpE ((K (F := F)).defs (D (F := F))) 𝒱 (SparseCore.T d) none) Set.univ
          (Prog.lift (.customCall (SparseCore.inner (Pipeline.entry 0)) ())) Φ := by
  rw [lift_eq]
  exact (K (F := F)).wp_liftProg (D (F := F)) 𝒱 (SparseCore.T d) Set.univ none _ Φ

/-- The region over the contents the reshape left. -/
def regS : Pipeline.RegionSeg (pcfgs (F := F)) adm (dats (Vv m)) (none : HIx 1) defs₀ 𝒱r (K (F := F)).L (K (F := F)).lev 0 :=
  reg (Vv m) (Vp m) (hVp_out m) (hVp_ne m)

theorem regS_pre (d : Dev nD) : (regS m).pre d = iprop(unscopedBufs d (Vv m d) ∗ Rr (F := F) d) := rfl
theorem regS_post (d : Dev nD) : (regS m).post d = iprop(unscopedBufs d (Vp m d) ∗ Rr (F := F) d) := rfl

set_option backward.isDefEq.respectTransparency.types false in
set_option maxHeartbeats 1000000 in
/-- The region's step: from the boundary, the region's entry state, the level facts and the staging cells' ghost state
    to the boundary and the region's exit state. -/
theorem wp_region (d : Dev nD) (Φ : PUnit → sProp 𝕄) :
    iprop((iprop(boundary (d.tc : Thread nD τ) ∗ (regS m).post d) -∗ wp frame (wpE (D (F := F)) 𝒱 (d.tc : Thread nD τ) none) Set.univ (Prog.ret ⟨⟩) Φ)
        ∗ boundary (d.tc : Thread nD τ) ∗ (regS m).pre d ∗ levAts (K (F := F)).L (K (F := F)).lev
        ∗ Pipeline.cellsGhost (Pipeline.pin (pcfgs (F := F)) adm) ER 0 d ∗ Pipeline.toksInit (Pipeline.pin (pcfgs (F := F)) adm) ER 0 d)
      ⊢ wp frame (wpE ((K (F := F)).defs (D (F := F))) 𝒱 (SparseCore.T d) none) Set.univ
          (Prog.lift (.customCall (SparseCore.inner (Pipeline.entry 0)) ())) Φ :=
  BI.Entails.trans (Pipeline.RegionSeg.wp (pcfgs (F := F)) adm (dats (Vv m)) (none : HIx 1) cellOf_inj ER defs₀ 𝒱r (K (F := F)).L (K (F := F)).lev
    (regS m) d none (fun _ h => nomatch h) (fun _ => Prog.ret ⟨⟩) Φ) (lift_wp d Φ)

/-- The TensorCore's handshake state after the one call, but what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

omit [FloatOps F] [∀ e, Nonempty (Elt F e)] in
theorem tcSt_one (d : Dev nD) : ((K (F := F)).tcSt EH d 1 : sProp 𝕄) = iprop(Rr (F := F) d ∗ tcRest (F := F) d) := by
  unfold SparseCore.Cfg.tcSt tcRest
  rw [(K (F := F)).Otc_end d le_rfl]
omit [FloatOps F] [∀ e, Nonempty (Elt F e)] in
theorem tcSt_one' (d : Dev nD) : ((K (F := F)).tcSt EH d ((0 : Fin 1).val + 1) : sProp 𝕄) = iprop(Rr (F := F) d ∗ tcRest (F := F) d) := tcSt_one d

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) ucRefs (W0 m d) from unscopedBufs_held d (W0 m d)]
  simp only [main, fn_pad.body, wp_bind, wp_pure]
  iintro ⟨#Hctx, Hst, ⟨Hb, Hheld, -, -⟩, ⟨Hcg, Htk⟩⟩
  ihave Hh := (Entails.of_eq (held_call (F := F) d _)) $$ Hheld
  icases Hh with ⟨⟨Hx, Hp⟩, Hrest⟩
  -- the call
  iapply ((K (F := F)).wp_run (D (F := F)) 𝒱 (EH := EH) (P := P m) κ d 0) $$ [Hst Hx Hp Hb Hrest Hcg Htk]
  isplitr; · iexact Hctx
  isplitl [Hst]; · iexact Hst
  isplitl [Hx Hp]
  · iapply (st_intro m d (W0 m d p'))
    isplitl [Hx]; · iexact Hx
    iexact Hp
  iintro ⟨Hst, Hdn⟩
  ihave Hdn' := (dn_elim m d) $$ Hdn
  icases Hdn' with ⟨Hx, Hp⟩
  ihave Hheld := (Entails.of_eq (held_W1 m d).symm) $$ [Hx Hp Hrest]
  · isplitl [Hx Hp]
    · isplitl [Hx]; · iexact Hx
      iexact Hp
    iexact Hrest
  -- the constant, its float, the padding, the reshape
  iapply (StableHlo.wp_hlo_within 𝒱 (SparseCore.T d) none Set.univ (op := opC) (S := ucRefs) hC (V := W1 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opConv) (S := ucRefs) hConv) $$ [Hb Hheld]
  · isplitl [Hb]; · iexact Hb
    iexact Hheld
  iintro ⟨Hb, Hheld⟩
  rw [wp_ret]; imodintro
  iapply (StableHlo.wp_hlo_within 𝒱 (SparseCore.T d) none Set.univ (op := opPad) (S := ucRefs) hPad) $$ [Hb Hheld]
  · isplitl [Hb]; · iexact Hb
    iexact Hheld
  iintro ⟨Hb, Hheld⟩
  rw [wp_ret]; imodintro; imodintro
  iapply (StableHlo.wp_hlo_within 𝒱 (SparseCore.T d) none Set.univ (op := opR12) (S := ucRefs) hR12) $$ [Hb Hheld]
  · isplitl [Hb]; · iexact Hb
    iexact Hheld
  iintro ⟨Hb, Hheld⟩
  rw [wp_ret]; imodintro
  -- the region
  ihave Hlev := (SparseCore.Cfg.ctx_levAts κ) $$ Hctx
  ihave Hst' := (Entails.of_eq (tcSt_one' (F := F) d)) $$ Hst
  icases Hst' with ⟨HR, Htc⟩
  ihave Hub := (Entails.of_eq (unscopedBufs_held d (W5 m d)).symm) $$ Hheld
  iapply (wp_region m d) $$ [Hb Hub HR Hlev Hcg Htk Htc]
  isplitr [Hb Hub HR Hlev Hcg Htk]
  swap
  · isplitl [Hb]; · iexact Hb
    isplitl [Hub HR]
    · rw [regS_pre]
      isplitl [Hub]; · iexact Hub
      iexact HR
    isplitl [Hlev]; · iexact Hlev
    isplitl [Hcg]; · iexact Hcg
    iexact Htk
  rw [regS_post, wp_ret]
  iintro ⟨Hb, Hub, HR⟩
  imodintro
  ihave Hheld := (Entails.of_eq (unscopedBufs_held d (W6 m d))) $$ Hub
  -- the reshape back, the slice
  iapply (StableHlo.wp_hlo_within 𝒱 (SparseCore.T d) none Set.univ (op := opR34) (S := ucRefs) hR34) $$ [Hb Hheld]
  · isplitl [Hb]; · iexact Hb
    iexact Hheld
  iintro ⟨Hb, Hheld⟩
  rw [wp_ret]; imodintro
  iapply (StableHlo.wp_hlo_within 𝒱 (SparseCore.T d) none Set.univ (op := opSl) (S := ucRefs) hSl) $$ [Hb Hheld]
  · isplitl [Hb]; · iexact Hb
    iexact Hheld
  iintro ⟨Hb, Hheld⟩
  rw [wp_ret]; imodintro; imodintro
  ihave Hh := (Entails.of_eq (held_fin (F := F) d (W8 m d))) $$ Hheld
  icases Hh with ⟨⟨Hx, Hu, Hr⟩, -⟩
  rw [W8_x, W8_u, W8_r]
  isplitl [HR Htc]
  · iapply (Entails.of_eq (tcSt_one (F := F) d).symm)
    isplitl [HR]; · iexact HR
    iexact Htc
  isplitl [Hx]; · iexact Hx
  isplitl [Hu]; · iexact Hu
  iexact Hr

/-! ## The final memory read, and the program's run -/

def fq (d : Dev nD) (s' : Phys nD τ sig (Elt F)) : Prop :=
  s'.mem.mem (rLoc d) = res m d ∧ s'.mem.mem (xLoc d) = m (xLoc d) ∧ s'.mem.mem (uLoc d) = m (uLoc d)

theorem hfin (d : Dev nD) (s' : Phys nD τ sig (Elt F)) : iprop(FIN m d ∗ SI s') ⊢ (⌜fq m d s'⌝ : sProp 𝕄) := by
  iintro ⟨⟨Hx, Hu, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := uLoc d) (I := Finset.univ) (q := fullShare) (f := m (uLoc d)))) $$ [HSI Hu]
  · isplitl [HSI] <;> iassumption
  icases H with ⟨%h2, HSI, -⟩
  ihave H := (SI_pointsTo_agree (st := s') (ℓ := rLoc d) (I := Finset.univ) (q := fullShare) (f := res m d)) $$ [HSI Hr]
  · isplitl [HSI] <;> iassumption
  icases H with %h3
  ipureintro; exact ⟨funext fun i => h3 i (Finset.mem_univ i), funext fun i => h1 i (Finset.mem_univ i), funext fun i => h2 i (Finset.mem_univ i)⟩

/-- What the claim reads of a final memory: the result at `res`, the token table and the running counts as launched. -/
def QC : PUnit × MemSt nD τ sig (Elt F) → Prop := fun r =>
  ∀ c : Dev nD, r.2.mem (rLoc c) = res m c ∧ r.2.mem (xLoc c) = m (xLoc c) ∧ r.2.mem (uLoc c) = m (uLoc c)

/-- The program's run, from the vector subcores' task: every weakly fair execution of the device's threads terminates,
    and every final memory has the result at `res` and the two arguments unchanged. -/
theorem run_main (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.Proof.HistB

end
-- ==== Proof.KernelValue.lean ====
/-
  The kernel's side, as pure mathematics. The thirty-two partial tables `parts w` hold, at row `r` and lane `l`,
  the count of the word `128 r + l` among the rows `128 w … 128 w + 127` of the table. The TensorCore stage adds
  the thirty-two tables (a sum over the leading axis), converts the sum to a float and adds it to `u` padded with
  zeros to 102400 entries and laid out as 4 × 200 × 128; flattening that and keeping the first 100002 entries gives
  the specification: entry `j` is entry `(j / 25600, (j mod 25600) / 128, j mod 128)` of the 4 × 200 × 128 array,
  whose row `200 (j / 25600) + (j mod 25600) / 128` and lane `j mod 128` are those of the word `j`.
-/
import proofs.«217704_g70050916598121_cont_9to1_m_91_37_alg».proof.Proof.Spec
import Idealize.ShloMosaic.Lib.KernelVsHost
import Idealize.ShloMosaic.PureOps.Reduce

noncomputable section

namespace Cert.Hist

open Idealize.ShloMosaic ValueIdx

/-- The shapes of the kernel's side: the padded vector, its 4 × 200 × 128 layout, the partial tables, one block of
    them, one block's sum, the rank-zero shape of the padding value, and one block of the 4 × 200 × 128 layout. -/
abbrev SP : Shape := ⟨1, ![102400]⟩
abbrev SO : Shape := ⟨3, ![4, 200, 128]⟩
abbrev SParts : Shape := ⟨3, ![32, 800, 128]⟩
abbrev SBlk : Shape := ⟨3, ![32, 200, 128]⟩
abbrev SRow : Shape := ⟨2, ![200, 128]⟩
abbrev S0 : Shape := ⟨0, ![]⟩
abbrev SOne : Shape := ⟨3, ![1, 200, 128]⟩

section Layout
variable {α : Type}

/-- The padded vector at a position below 100002 is the vector there. -/
theorem pad_read (u : SV.Idx → α) (v : S0.Idx → α) (h : SV.Pads (![0] : Fin 1 → Nat) ![2398] ![0] SP) (hu : 0 < S0.numel)
    (n : Nat) (hn : n < 100002) :
    pad SP ![0] ![2398] ![0] u v h hu (ix1 ⟨n, by omega⟩) = u (ix1 ⟨n, hn⟩) := by
  refine pad_apply_of_inside _ _ _ u v h hu _ (ix1 ⟨n, hn⟩) fun a => ?_
  have : a = 0 := Subsingleton.elim _ _
  subst this
  show n = 0 + n * (0 + 1)
  omega

/-- The 4 × 200 × 128 layout of a vector of 102400 entries, at `(i, r, l)`: entry `25600 i + 128 r + l`. -/
theorem reshape_read (y : SP.Idx → α) (h : SP.ShapeCasts SO) (i : Fin 4) (r : Fin 200) (l : Fin 128) :
    shapeCast SO y h (ix3 i r l) = y (ix1 ⟨25600 * i.val + 128 * r.val + l.val, by omega⟩) := by
  refine shapeCast_apply y h _ _ ?_
  rw [Shape.rowMajor_val_one, Shape.rowMajor_val_three]
  show 25600 * i.val + 128 * r.val + l.val = (i.val * 200 + r.val) * 128 + l.val
  omega

/-- The flattening of a 4 × 200 × 128 array, cut to its first 100002 entries, at `j`: the entry
    `(j / 25600, (j mod 25600) / 128, j mod 128)`. -/
theorem flatten_slice_read (o : SO.Idx → α) (h : SO.ShapeCasts SP) (hs : SP.Slices (![0] : Fin 1 → Nat) SV) (j : SV.Idx) :
    extractStridedSlice SV ![0] (shapeCast SP o h) hs j
      = o (ix3 ⟨(j 0).val / 25600, by have hj : (j 0).val < 100002 := (j 0).isLt; omega⟩ ⟨(j 0).val % 25600 / 128, by omega⟩ ⟨(j 0).val % 128, by omega⟩) := by
  have hj : (j 0).val < 100002 := (j 0).isLt
  refine (extractStridedSlice_apply _ _ hs j (ix1 ⟨(j 0).val, by omega⟩) fun a => ?_).trans ?_
  · have : a = 0 := Subsingleton.elim _ _
    subst this
    show (j 0).val = 0 + (j 0).val
    omega
  · refine shapeCast_apply o h _ _ ?_
    rw [Shape.rowMajor_val_one, Shape.rowMajor_val_three]
    show ((j 0).val / 25600 * 200 + (j 0).val % 25600 / 128) * 128 + (j 0).val % 128 = (j 0).val
    omega

/-- A cast to the same shape changes nothing. -/
theorem shapeCast_same {s : Shape} (y : s.Idx → α) (h : s.ShapeCasts s) : shapeCast s y h = y := by
  funext j
  unfold shapeCast
  rw [Shape.reshapeEquiv_self]

/-- A block `1 × 200 × 128` seen as `200 × 128`, at `(r, l)`. -/
theorem dropOne_read (y : SOne.Idx → α) (h : SOne.ShapeCasts SRow) (r : Fin 200) (l : Fin 128) :
    shapeCast SRow y h (ix2 r l) = y (ix3 0 r l) := by
  refine shapeCast_apply y h _ _ ?_
  rw [Shape.rowMajor_val_two, Shape.rowMajor_val_three]
  show (0 * 200 + r.val) * 128 + l.val = r.val * 128 + l.val
  omega

/-- A `200 × 128` array seen as a block `1 × 200 × 128`, at `(0, r, l)`. -/
theorem addOne_read (y : SRow.Idx → α) (h : SRow.ShapeCasts SOne) (r : Fin 200) (l : Fin 128) :
    shapeCast SOne y h (ix3 0 r l) = y (ix2 r l) := by
  refine shapeCast_apply y h _ _ ?_
  rw [Shape.rowMajor_val_two, Shape.rowMajor_val_three]
  show r.val * 128 + l.val = (0 * 200 + r.val) * 128 + l.val
  omega

end Layout

/-- The sum of a block of thirty-two 200 × 128 tables over the leading axis, at `(r, l)`. -/
theorem block_sum (v : IVec SBlk 32) (h : SBlk.Reduces [0] SRow) (r : Fin 200) (l : Fin 128) :
    multiReductionI .add [0] SRow v 0#32 h rfl (ix2 r l) = ∑ w : Fin 32, v (ix3 w r l) := by
  have e : multiReductionI .add [0] SRow v 0#32 h rfl = reduceFold h (· + ·) 0#32 v := rfl
  rw [e, reduceFold_add_eq_sum, BitVec.zero_add]
  symm
  refine Finset.sum_bij (fun w _ => ix3 w r l) ?_ ?_ ?_ ?_
  · intro w _
    rw [Finset.mem_filter]
    refine ⟨Finset.mem_univ _, ?_⟩
    funext b
    match b with
    | ⟨0, _⟩ => rfl
    | ⟨1, _⟩ => rfl
  · intro w _ w' _ e
    exact congrFun e 0
  · intro i hi
    rw [Finset.mem_filter] at hi
    refine ⟨i 0, Finset.mem_univ _, ?_⟩
    have h1 : i 1 = r := congrFun hi.2 0
    have h2 : i 2 = l := congrFun hi.2 1
    rw [← h1, ← h2]
    exact (eq_ix3 i).symm
  · intro w _
    rfl

variable {F : FTy → Type} [FloatOps F]

/-- The thirty-two partial counts of a word, one per band of 128 rows, add up to its count. -/
theorem parts_sum (x : IVec ST 32) (parts : IVec SParts 32)
    (hparts : ∀ (w : Fin 32) (r : Fin 800) (l : Fin 128), parts (ix3 w r l) = cntW x w (128 * r.val + l.val))
    (r : Fin 800) (l : Fin 128) : ∑ w : Fin 32, parts (ix3 w r l) = cnt x (128 * r.val + l.val) := by
  rw [cnt_eq_sum]
  exact Finset.sum_congr rfl fun w _ => hparts w r l

/-- The sum over the leading axis of the block `i` of the partial tables (rows `200 i … 200 i + 199`), at `(r, l)`: the
    count of the word at row `200 i + r` and lane `l`. -/
theorem block_count (x : IVec ST 32) (parts : IVec SParts 32)
    (hparts : ∀ (w : Fin 32) (r : Fin 800) (l : Fin 128), parts (ix3 w r l) = cntW x w (128 * r.val + l.val))
    (i : Fin 4) (v : IVec SBlk 32)
    (hv : ∀ (w : Fin 32) (r : Fin 200) (l : Fin 128), v (ix3 w r l) = parts (ix3 w ⟨200 * i.val + r.val, by omega⟩ l))
    (h : SBlk.Reduces [0] SRow) (r : Fin 200) (l : Fin 128) :
    multiReductionI .add [0] SRow v 0#32 h rfl (ix2 r l) = cnt x (128 * (200 * i.val + r.val) + l.val) := by
  rw [block_sum, ← parts_sum x parts hparts ⟨200 * i.val + r.val, by omega⟩ l]
  exact Finset.sum_congr rfl fun w _ => hv w r l

/-- One grid step's stored value, at `(0, r, l)`: the block of the padded `u` there plus the float of the sum of the
    thirty-two tables of the loaded block at `(r, l)`. -/
theorem body_read (v0 : IVec SBlk 32) (v4 : FVec F SOne .f32) (h1 : SBlk.ShapeCasts SBlk) (h2 : SBlk.Reduces [0] SRow)
    (h3 : SOne.ShapeCasts SRow) (h4 : SRow.ShapeCasts SOne) (r : Fin 200) (l : Fin 128) :
    shapeCast SOne (addf (shapeCast SRow v4 h3) (sitofp .f32 (multiReductionI .add [0] SRow (shapeCast SBlk v0 h1) 0#32 h2 rfl))) h4 (ix3 0 r l)
      = FloatOps.addf (v4 (ix3 0 r l)) (FloatOps.sitofp .f32 (∑ w : Fin 32, v0 (ix3 w r l))) := by
  rw [addOne_read]
  show FloatOps.addf (shapeCast SRow v4 h3 (ix2 r l)) (FloatOps.sitofp .f32 (multiReductionI .add [0] SRow (shapeCast SBlk v0 h1) 0#32 h2 rfl (ix2 r l))) = _
  rw [dropOne_read, shapeCast_same, block_sum]

/-- The vector `u`, padded to 102400 entries and laid out as 4 × 200 × 128, at `(i, r, l)` below 100002: `u` there. -/
theorem upad_read {α : Type} (u : SV.Idx → α) (v : S0.Idx → α) (hp : SV.Pads (![0] : Fin 1 → Nat) ![2398] ![0] SP)
    (hu : 0 < S0.numel) (hc : SP.ShapeCasts SO) (i : Fin 4) (r : Fin 200) (l : Fin 128)
    (hn : 25600 * i.val + 128 * r.val + l.val < 100002) :
    shapeCast SO (pad SP ![0] ![2398] ![0] u v hp hu) hc (ix3 i r l) = u (ix1 ⟨25600 * i.val + 128 * r.val + l.val, hn⟩) := by
  rw [reshape_read]
  exact pad_read u v hp hu _ hn

/-- The kernel's value is the specification's: an array `out` of 4 × 200 × 128 floats whose entry `(i, r, l)` is the
    padded `u` there plus the float of the sum of the partial tables at row `200 i + r` and lane `l`, flattened and
    cut to its first 100002 entries. -/
theorem kernel_value (x : IVec ST 32) (u : FVec F SV .f32) (parts : IVec SParts 32)
    (hparts : ∀ (w : Fin 32) (r : Fin 800) (l : Fin 128), parts (ix3 w r l) = cntW x w (128 * r.val + l.val))
    (upad : FVec F SO .f32)
    (hupad : ∀ (i : Fin 4) (r : Fin 200) (l : Fin 128) (hn : 25600 * i.val + 128 * r.val + l.val < 100002),
      upad (ix3 i r l) = u (ix1 ⟨25600 * i.val + 128 * r.val + l.val, hn⟩))
    (out : FVec F SO .f32)
    (hout : ∀ (i : Fin 4) (r : Fin 200) (l : Fin 128), out (ix3 i r l)
      = FloatOps.addf (upad (ix3 i r l)) (FloatOps.sitofp .f32 (∑ w : Fin 32, parts (ix3 w ⟨200 * i.val + r.val, by omega⟩ l))))
    (hc : SO.ShapeCasts SP) (hs : SP.Slices (![0] : Fin 1 → Nat) SV) :
    extractStridedSlice SV ![0] (shapeCast SP out hc) hs = G x u := by
  funext j
  have hj : (j 0).val < 100002 := (j 0).isLt
  have hn : 25600 * ((j 0).val / 25600) + 128 * ((j 0).val % 25600 / 128) + (j 0).val % 128 = (j 0).val := by omega
  have hv : 128 * (200 * ((j 0).val / 25600) + (j 0).val % 25600 / 128) + (j 0).val % 128 = (j 0).val := by omega
  rw [flatten_slice_read, hout, parts_sum x parts hparts, hupad _ _ _ (by show 25600 * ((j 0).val / 25600) + 128 * ((j 0).val % 25600 / 128) + (j 0).val % 128 < 100002; omega)]
  show _ = FloatOps.addf (u j) (FloatOps.sitofp .f32 (cnt x (j 0).val))
  have e1 : (ix1 ⟨25600 * ((j 0).val / 25600) + 128 * ((j 0).val % 25600 / 128) + (j 0).val % 128, by omega⟩ : SV.Idx) = j := by
    funext a
    have : a = 0 := Subsingleton.elim _ _
    subst this
    exact Fin.ext hn
  have e2 : 128 * (200 * ((j 0).val / 25600) + (j 0).val % 25600 / 128) + (j 0).val % 128 = (j 0).val := hv
  exact congrArg₂ FloatOps.addf (congrArg u e1) (congrArg (fun n => FloatOps.sitofp .f32 (cnt x n)) e2)

end Cert.Hist

end
-- ==== Proof.ValueI.lean ====
/-
  What the reduction region leaves in its result array, index by index: entry `(i, r, l)` is the padded running
  count there plus the float of the sum, over the thirty-two partial tables, of their entry at row `200 i + r` and
  lane `l`. Point `t` of the grid writes back block `t` of that one function of the region-entry arrays — its
  two input blocks are the blocks of the partial tables at rows `200 t … 200 t + 199` and of the padded counts at
  plane `t` — and the four blocks cover the array.
-/
import proofs.«217704_g70050916598121_cont_9to1_m_91_37_alg».proof.Proof.RegionI
import proofs.«217704_g70050916598121_cont_9to1_m_91_37_alg».proof.Proof.KernelValue
import Idealize.ShloMosaic.Lib.Pipeline.Value

noncomputable section

namespace Cert.Proof.HistI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type}

local notation "𝕄" => MT nD τ sig (HIx 1) (Elt F) ℕ UU ℕ

variable (m : (ℓ : Loc nD τ sig) → Buf (Elt F) ℓ) (ρ : Dev nD → PrngReg)

variable [FloatOps F] [∀ e, Nonempty (Elt F e)]

set_option maxRecDepth 16384

variable (Vv : (c : Dev nD) → (b : Ref sig .tc) → Buf (Elt F) ((c : Thread nD τ).loc b))

omit [FloatOps F] [∀ e, Nonempty (Elt F e)] in
theorem hz3 : (![0, 0, 0] : Fin 3 → Nat) = fun _ => 0 := funext fun a => by fin_cases a <;> rfl

/-- What the result's array ends holding, as one function of the region-entry arrays. -/
def G3 (c : Dev nD) : Buf (Elt F) ((c : Thread nD τ).loc main_v3) :=
  fun i : S4x200x128.Idx => FloatOps.addf ((Vv c main_v2 : S4x200x128.Idx → Elt F .f32) i)
    (FloatOps.sitofp .f32 (∑ w : Fin 32, (Vv c main_v0 : S32x800x128.Idx → Elt F .i32)
      (ix3 w (⟨200 * (i 0).val + (i 1).val, by have h0 : (i 0).val < 4 := (i 0).isLt; have h1 : (i 1).val < 200 := (i 1).isLt; omega⟩ : Fin 800) ((i 2 : Fin 128)))))

/-- The printed index maps, decided over the grid: the partial tables' window moves along rows with the result's
    plane; the padded counts' window is the result's. -/
theorem idx_facts : ∀ t : Fin cfg1.N,
    win1_0.index t (0 : Fin 3) = 0 ∧ win1_0.index t (1 : Fin 3) = win1_2.index t (0 : Fin 3) ∧ win1_0.index t (2 : Fin 3) = 0
    ∧ win1_1.index t (0 : Fin 3) = win1_2.index t (0 : Fin 3) ∧ win1_1.index t (1 : Fin 3) = 0 ∧ win1_1.index t (2 : Fin 3) = 0
    ∧ win1_2.index t (1 : Fin 3) = 0 ∧ win1_2.index t (2 : Fin 3) = 0 ∧ win1_2.index t (0 : Fin 3) ≤ 3 :=
  (by decide +kernel : ∀ t : Fin grid1.N, _)

/-- Every plane of the result is some point's block. -/
theorem idx_onto : ∀ q0 : Fin 4, ∃ t : Fin cfg1.N, win1_2.index t = ![q0.val, 0, 0] :=
  (by decide +kernel : ∀ q0 : Fin 4, ∃ t : Fin grid1.N, win1_2.index t = ![q0.val, 0, 0])

/-- The body's stored value at an index of the block: the padded counts there plus the float of the sum of the
    thirty-two tables of the loaded block at the same row and lane. -/
theorem out_at (x0 : IVec S32x200x128 32) (x1 : FVec F S1x200x128 .f32) (j : S1x200x128.Idx) :
    k1_pay1 x0 x1 j = FloatOps.addf (x1 j) (FloatOps.sitofp .f32 (∑ w : Fin 32, x0 (ix3 w (j 1 : Fin 200) (j 2 : Fin 128)))) := by
  obtain ⟨r, l, rfl⟩ : ∃ (r : Fin 200) (l : Fin 128), j = ix3 (0 : Fin 1) r l :=
    ⟨j 1, j 2, by
      funext a
      match a with
      | ⟨0, _⟩ => exact Fin.ext (by have h : (j 0).val < 1 := (j 0).isLt; show (j 0).val = 0; omega)
      | ⟨1, _⟩ => rfl
      | ⟨2, _⟩ => rfl⟩
  exact Cert.Hist.body_read x0 x1 _ _ _ _ r l

/-- What point `t` writes back is block `t` of `G3`. -/
theorem flushed_eq (c : Dev nD) (t : Fin cfg1.N) :
    (dats Vv 0 c).flushed 2 t = ((cfg1.win 2).blk t).view.read (Elt F) (G3 Vv c) := by
  show (cfg1.win 2).cut (grid1.coords t) ((dats Vv 0 c).after 2 t) = _
  rw [after1_2]
  unfold outBlk
  rw [View.canon_unit_zero hz3]
  simp only [View.ld_unit_zero (S := S32x200x128) hz3, View.ld_unit_zero (S := S1x200x128) hz3]
  obtain ⟨e0, e1, e2, e3, e4, e5, e6, e7, e8⟩ := idx_facts t
  funext j
  show k1_pay1 (iblk Vv c 0 t) (iblk Vv c 1 t) j = G3 Vv c (((cfg1.win 2).blk t).view.emb j)
  refine (out_at (iblk Vv c 0 t) (iblk Vv c 1 t) j).trans ?_
  have hj0 : (j 0).val < 1 := (j 0).isLt
  have hj1 : (j 1).val < 200 := (j 1).isLt
  have hj2 : (j 2).val < 128 := (j 2).isLt
  have h1 : ((cfg1.win 1).blk t).view.emb j = ((cfg1.win 2).blk t).view.emb j := by
    funext a; apply Fin.ext
    match a with
    | ⟨0, _⟩ => show win1_1.index t (0 : Fin 3) * 1 + 1 * (j 0).val = win1_2.index t (0 : Fin 3) * 1 + 1 * (j 0).val; omega
    | ⟨1, _⟩ => show win1_1.index t (1 : Fin 3) * 200 + 1 * (j 1).val = win1_2.index t (1 : Fin 3) * 200 + 1 * (j 1).val; omega
    | ⟨2, _⟩ => show win1_1.index t (2 : Fin 3) * 128 + 1 * (j 2).val = win1_2.index t (2 : Fin 3) * 128 + 1 * (j 2).val; omega
  have h0 : ∀ w : Fin 32, ((cfg1.win 0).blk t).view.emb (ix3 w (j 1 : Fin 200) (j 2 : Fin 128))
      = (ix3 w (⟨200 * ((((cfg1.win 2).blk t).view.emb j) 0).val + ((((cfg1.win 2).blk t).view.emb j) 1).val, by
          have a0 : ((((cfg1.win 2).blk t).view.emb j) 0).val = win1_2.index t (0 : Fin 3) * 1 + 1 * (j 0).val := rfl
          have a1 : ((((cfg1.win 2).blk t).view.emb j) 1).val = win1_2.index t (1 : Fin 3) * 200 + 1 * (j 1).val := rfl
          omega⟩ : Fin 800) ((((cfg1.win 2).blk t).view.emb j) 2 : Fin 128) : S32x800x128.Idx) := by
    intro w
    funext a; apply Fin.ext
    match a with
    | ⟨0, _⟩ => show win1_0.index t (0 : Fin 3) * 32 + 1 * w.val = w.val; omega
    | ⟨1, _⟩ => show win1_0.index t (1 : Fin 3) * 200 + 1 * (j 1).val = 200 * (win1_2.index t (0 : Fin 3) * 1 + 1 * (j 0).val) + (win1_2.index t (1 : Fin 3) * 200 + 1 * (j 1).val); omega
    | ⟨2, _⟩ => show win1_0.index t (2 : Fin 3) * 128 + 1 * (j 2).val = win1_2.index t (2 : Fin 3) * 128 + 1 * (j 2).val; omega
  show FloatOps.addf ((Vv c main_v2 : S4x200x128.Idx → Elt F .f32) (((cfg1.win 1).blk t).view.emb j))
      (FloatOps.sitofp .f32 (∑ w : Fin 32, (Vv c main_v0 : S32x800x128.Idx → Elt F .i32) (((cfg1.win 0).blk t).view.emb (ix3 w (j 1 : Fin 200) (j 2 : Fin 128)))))
    = G3 Vv c (((cfg1.win 2).blk t).view.emb j)
  rw [h1]
  simp only [h0]
  rfl

omit [FloatOps F] [∀ e, Nonempty (Elt F e)] in
/-- An index of the result's array is in point `t`'s block iff each coordinate is in the block's range on its axis. -/
theorem mem_blk (t : Fin cfg1.N) (i : S4x200x128.Idx) :
    i ∈ ((cfg1.win 2).blk t).view.set ↔ ∀ a : Fin 3, win1_2.index t a * S1x200x128.size a ≤ (i a).val ∧ (i a).val < win1_2.index t a * S1x200x128.size a + S1x200x128.size a := by
  show i ∈ ((View.whole main_v3).slice (win1_2.rect t)).set ↔ _
  rw [View.set_slice_whole, Rect.mem_set_unit]
  exact Iff.rfl

omit [FloatOps F] [∀ e, Nonempty (Elt F e)] in
/-- The four blocks cover the array: plane `i` is point `i`'s. -/
theorem cover (i : S4x200x128.Idx) : ∃ t : Fin cfg1.N, (cfg1.win 2).flush t = true ∧ i ∈ ((cfg1.win 2).blk t).view.set := by
  have hi0 : (i 0).val < 4 := (i 0).isLt
  have hi1 : (i 1).val < 200 := (i 1).isLt
  have hi2 : (i 2).val < 128 := (i 2).isLt
  obtain ⟨t, ht⟩ := idx_onto ⟨(i 0).val, hi0⟩
  have q0 : win1_2.index t (0 : Fin 3) = (i 0).val := congrFun ht 0
  have q1 : win1_2.index t (1 : Fin 3) = 0 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 200 ≤ (i 1).val ∧ (i 1).val < win1_2.index t (1 : Fin 3) * 200 + 200; omega
  | ⟨2, _⟩ => show win1_2.index t (2 : Fin 3) * 128 ≤ (i 2).val ∧ (i 2).val < win1_2.index t (2 : Fin 3) * 128 + 128; omega

/-- The result's array after the region: `G3` of the region-entry arrays. -/
theorem regOut_eq (c : Dev nD) : regOut Vv c = G3 Vv c :=
  (dats Vv 0 c).arrAt_eq_of_cover 2 (G3 Vv c) (fun t _ => flushed_eq Vv c t) cover

/-- At `(i, r, l)`. -/
theorem regOut_apply (c : Dev nD) (i : Fin 4) (r : Fin 200) (l : Fin 128) :
    (regOut Vv c : S4x200x128.Idx → Elt F .f32) (ix3 i r l)
      = FloatOps.addf ((Vv c main_v2 : S4x200x128.Idx → Elt F .f32) (ix3 i r l))
          (FloatOps.sitofp .f32 (∑ w : Fin 32, (Vv c main_v0 : S32x800x128.Idx → Elt F .i32) (ix3 w (⟨200 * i.val + r.val, by omega⟩ : Fin 800) l))) := by
  rw [regOut_eq]; rfl

end Cert.Proof.HistI

end
-- ==== Proof.ResI.lean ====
/-
  The result of the histogram program is the specification's: the region's result array holds, at `(i, r, l)`, the
  padded running count there plus the float of the sum of the thirty-two partial counts of the word at row
  `200 i + r` and lane `l`; the partial tables hold the per-band counts; the padded counts below 100002 are the
  running counts; so flattening and keeping the first 100002 entries gives `u v + (cnt x v as a float)`.
-/
import proofs.«217704_g70050916598121_cont_9to1_m_91_37_alg».proof.Proof.MainI
import proofs.«217704_g70050916598121_cont_9to1_m_91_37_alg».proof.Proof.ValueI

noncomputable section

namespace Cert.Proof.HistI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type}

local notation "𝕄" => MT nD τ sig (HIx 1) (Elt F) ℕ UU ℕ

variable (m : (ℓ : Loc nD τ sig) → Buf (Elt F) ℓ) (ρ : Dev nD → PrngReg)

variable [FloatOps F] [∀ e, Nonempty (Elt F e)]

/-- When the region is entered the partial tables hold the finished counts, -/
theorem Vv_parts (d : Dev nD) : Vv m d main_v0 = partsDone m d := by
  show (opR12 (F := F)).result ((opPad (F := F)).result ((opConv (F := F)).result ((opC (F := F)).result (W1 m d)))) p' = _
  rw [HloOp.result_of_not_mem _ _ (show p' ∉ ({Proc.devRef .tc (main_v2 : Ref sig .tc)} : Finset (DevRef τ sig)) by decide),
    HloOp.result_of_not_mem _ _ (show p' ∉ ({Proc.devRef .tc (main_v1 : Ref sig .tc)} : Finset (DevRef τ sig)) by decide),
    HloOp.result_of_not_mem _ _ (show p' ∉ ({Proc.devRef .tc (main_call0_v0 : Ref sig .tc)} : Finset (DevRef τ sig)) by decide),
    HloOp.result_of_not_mem _ _ (show p' ∉ ({Proc.devRef .tc (main_c : Ref sig .tc)} : Finset (DevRef τ sig)) by decide)]
  exact Function.update_self _ _ _

/-- and the padded counts are the running counts padded with the float of zero, laid out as 4 x 200 x 128. -/
theorem Vv_upad (d : Dev nD) : (Vv m d main_v2 : S4x200x128.Idx → Elt F .f32)
    = shapeCast S4x200x128 (pad S102400 ![0] ![2398] ![0] (m (uLoc d) : S100002.Idx → Elt F .f32) (sitofp .f32 (constantI S_ 32 0#32)) pads_S100002_S102400_023980 h_S_) shapeCasts_S102400_S4x200x128 := by
  show (opR12 (F := F)).result ((opPad (F := F)).result ((opConv (F := F)).result ((opC (F := F)).result (W1 m d)))) (Proc.devRef .tc (main_v2 : Ref sig .tc)) = _
  rw [StableHlo.reshape_result, StableHlo.binary_result, StableHlo.unary_result, StableHlo.nullary_result]
  rw [HloOp.result_of_not_mem _ _ (show u' ∉ ({Proc.devRef .tc (main_call0_v0 : Ref sig .tc)} : Finset (DevRef τ sig)) by decide),
    HloOp.result_of_not_mem _ _ (show u' ∉ ({Proc.devRef .tc (main_c : Ref sig .tc)} : Finset (DevRef τ sig)) by decide),
    show W1 m d u' = m (uLoc d) from Function.update_of_ne (by decide) _ _]
  rfl

/-- The partial tables at `(w, r, l)`: the count of the word `128 r + l` in band `w`. -/
theorem parts_apply (d : Dev nD) (w : Fin 32) (r : Fin 800) (l : Fin 128) :
    (partsDone m d : S32x800x128.Idx → Elt F .i32) (ix3 w r l) = Cert.Hist.cntW (xTab m d) w (128 * r.val + l.val) := rfl

/-- **The result is the specification's.** -/
theorem res_eq (d : Dev nD) : (res m d : S100002.Idx → Elt F .f32) = Cert.Hist.G (F := F) (xTab m d) (m (uLoc d)) := by
  unfold res
  refine Cert.Hist.kernel_value (F := F) (xTab m d) (m (uLoc d)) (partsDone m d) (parts_apply m d) (Vv m d main_v2) ?_ (regOut (Vv m) d) ?_ _ _
  · intro i r l hn
    rw [Vv_upad]
    exact Cert.Hist.upad_read _ _ _ _ _ i r l hn
  · intro i r l
    rw [regOut_apply, Vv_parts]

end Cert.Proof.HistI

end
-- ==== Proof.ValueB.lean ====
/-
  What the reduction region leaves in its result array, index by index: entry `(i, r, l)` is the padded running
  count there plus the float of the sum, over the thirty-two partial tables, of their entry at row `200 i + r` and
  lane `l`. Point `t` of the grid writes back block `t` of that one function of the region-entry arrays — its
  two input blocks are the blocks of the partial tables at rows `200 t … 200 t + 199` and of the padded counts at
  plane `t` — and the four blocks cover the array.
-/
import proofs.«217704_g70050916598121_cont_9to1_m_91_37_alg».proof.Proof.RegionB
import proofs.«217704_g70050916598121_cont_9to1_m_91_37_alg».proof.Proof.KernelValue
import Idealize.ShloMosaic.Lib.Pipeline.Value

noncomputable section

namespace Cert.Proof.HistB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type}

local notation "𝕄" => MT nD τ sig (HIx 1) (Elt F) ℕ UU ℕ

variable (m : (ℓ : Loc nD τ sig) → Buf (Elt F) ℓ) (ρ : Dev nD → PrngReg)

variable [FloatOps F] [∀ e, Nonempty (Elt F e)]

set_option maxRecDepth 16384

variable (Vv : (c : Dev nD) → (b : Ref sig .tc) → Buf (Elt F) ((c : Thread nD τ).loc b))

omit [FloatOps F] [∀ e, Nonempty (Elt F e)] in
theorem hz3 : (![0, 0, 0] : Fin 3 → Nat) = fun _ => 0 := funext fun a => by fin_cases a <;> rfl

/-- What the result's array ends holding, as one function of the region-entry arrays. -/
def G3 (c : Dev nD) : Buf (Elt F) ((c : Thread nD τ).loc main_v3) :=
  fun i : S4x200x128.Idx => FloatOps.addf ((Vv c main_v2 : S4x200x128.Idx → Elt F .f32) i)
    (FloatOps.sitofp .f32 (∑ w : Fin 32, (Vv c main_v0 : S32x800x128.Idx → Elt F .i32)
      (ix3 w (⟨200 * (i 0).val + (i 1).val, by have h0 : (i 0).val < 4 := (i 0).isLt; have h1 : (i 1).val < 200 := (i 1).isLt; omega⟩ : Fin 800) ((i 2 : Fin 128)))))

/-- The printed index maps, decided over the grid: the partial tables' window moves along rows with the result's
    plane; the padded counts' window is the result's. -/
theorem idx_facts : ∀ t : Fin cfg1.N,
    win1_0.index t (0 : Fin 3) = 0 ∧ win1_0.index t (1 : Fin 3) = win1_2.index t (0 : Fin 3) ∧ win1_0.index t (2 : Fin 3) = 0
    ∧ win1_1.index t (0 : Fin 3) = win1_2.index t (0 : Fin 3) ∧ win1_1.index t (1 : Fin 3) = 0 ∧ win1_1.index t (2 : Fin 3) = 0
    ∧ win1_2.index t (1 : Fin 3) = 0 ∧ win1_2.index t (2 : Fin 3) = 0 ∧ win1_2.index t (0 : Fin 3) ≤ 3 :=
  (by decide +kernel : ∀ t : Fin grid1.N, _)

/-- Every plane of the result is some point's block. -/
theorem idx_onto : ∀ q0 : Fin 4, ∃ t : Fin cfg1.N, win1_2.index t = ![q0.val, 0, 0] :=
  (by decide +kernel : ∀ q0 : Fin 4, ∃ t : Fin grid1.N, win1_2.index t = ![q0.val, 0, 0])

/-- The body's stored value at an index of the block: the padded counts there plus the float of the sum of the
    thirty-two tables of the loaded block at the same row and lane. -/
theorem out_at (x0 : IVec S32x200x128 32) (x1 : FVec F S1x200x128 .f32) (j : S1x200x128.Idx) :
    k1_pay1 x0 x1 j = FloatOps.addf (x1 j) (FloatOps.sitofp .f32 (∑ w : Fin 32, x0 (ix3 w (j 1 : Fin 200) (j 2 : Fin 128)))) := by
  obtain ⟨r, l, rfl⟩ : ∃ (r : Fin 200) (l : Fin 128), j = ix3 (0 : Fin 1) r l :=
    ⟨j 1, j 2, by
      funext a
      match a with
      | ⟨0, _⟩ => exact Fin.ext (by have h : (j 0).val < 1 := (j 0).isLt; show (j 0).val = 0; omega)
      | ⟨1, _⟩ => rfl
      | ⟨2, _⟩ => rfl⟩
  exact Cert.Hist.body_read x0 x1 _ _ _ _ r l

/-- What point `t` writes back is block `t` of `G3`. -/
theorem flushed_eq (c : Dev nD) (t : Fin cfg1.N) :
    (dats Vv 0 c).flushed 2 t = ((cfg1.win 2).blk t).view.read (Elt F) (G3 Vv c) := by
  show (cfg1.win 2).cut (grid1.coords t) ((dats Vv 0 c).after 2 t) = _
  rw [after1_2]
  unfold outBlk
  rw [View.canon_unit_zero hz3]
  simp only [View.ld_unit_zero (S := S32x200x128) hz3, View.ld_unit_zero (S := S1x200x128) hz3]
  obtain ⟨e0, e1, e2, e3, e4, e5, e6, e7, e8⟩ := idx_facts t
  funext j
  show k1_pay1 (iblk Vv c 0 t) (iblk Vv c 1 t) j = G3 Vv c (((cfg1.win 2).blk t).view.emb j)
  refine (out_at (iblk Vv c 0 t) (iblk Vv c 1 t) j).trans ?_
  have hj0 : (j 0).val < 1 := (j 0).isLt
  have hj1 : (j 1).val < 200 := (j 1).isLt
  have hj2 : (j 2).val < 128 := (j 2).isLt
  have h1 : ((cfg1.win 1).blk t).view.emb j = ((cfg1.win 2).blk t).view.emb j := by
    funext a; apply Fin.ext
    match a with
    | ⟨0, _⟩ => show win1_1.index t (0 : Fin 3) * 1 + 1 * (j 0).val = win1_2.index t (0 : Fin 3) * 1 + 1 * (j 0).val; omega
    | ⟨1, _⟩ => show win1_1.index t (1 : Fin 3) * 200 + 1 * (j 1).val = win1_2.index t (1 : Fin 3) * 200 + 1 * (j 1).val; omega
    | ⟨2, _⟩ => show win1_1.index t (2 : Fin 3) * 128 + 1 * (j 2).val = win1_2.index t (2 : Fin 3) * 128 + 1 * (j 2).val; omega
  have h0 : ∀ w : Fin 32, ((cfg1.win 0).blk t).view.emb (ix3 w (j 1 : Fin 200) (j 2 : Fin 128))
      = (ix3 w (⟨200 * ((((cfg1.win 2).blk t).view.emb j) 0).val + ((((cfg1.win 2).blk t).view.emb j) 1).val, by
          have a0 : ((((cfg1.win 2).blk t).view.emb j) 0).val = win1_2.index t (0 : Fin 3) * 1 + 1 * (j 0).val := rfl
          have a1 : ((((cfg1.win 2).blk t).view.emb j) 1).val = win1_2.index t (1 : Fin 3) * 200 + 1 * (j 1).val := rfl
          omega⟩ : Fin 800) ((((cfg1.win 2).blk t).view.emb j) 2 : Fin 128) : S32x800x128.Idx) := by
    intro w
    funext a; apply Fin.ext
    match a with
    | ⟨0, _⟩ => show win1_0.index t (0 : Fin 3) * 32 + 1 * w.val = w.val; omega
    | ⟨1, _⟩ => show win1_0.index t (1 : Fin 3) * 200 + 1 * (j 1).val = 200 * (win1_2.index t (0 : Fin 3) * 1 + 1 * (j 0).val) + (win1_2.index t (1 : Fin 3) * 200 + 1 * (j 1).val); omega
    | ⟨2, _⟩ => show win1_0.index t (2 : Fin 3) * 128 + 1 * (j 2).val = win1_2.index t (2 : Fin 3) * 128 + 1 * (j 2).val; omega
  show FloatOps.addf ((Vv c main_v2 : S4x200x128.Idx → Elt F .f32) (((cfg1.win 1).blk t).view.emb j))
      (FloatOps.sitofp .f32 (∑ w : Fin 32, (Vv c main_v0 : S32x800x128.Idx → Elt F .i32) (((cfg1.win 0).blk t).view.emb (ix3 w (j 1 : Fin 200) (j 2 : Fin 128)))))
    = G3 Vv c (((cfg1.win 2).blk t).view.emb j)
  rw [h1]
  simp only [h0]
  rfl

omit [FloatOps F] [∀ e, Nonempty (Elt F e)] in
/-- An index of the result's array is in point `t`'s block iff each coordinate is in the block's range on its axis. -/
theorem mem_blk (t : Fin cfg1.N) (i : S4x200x128.Idx) :
    i ∈ ((cfg1.win 2).blk t).view.set ↔ ∀ a : Fin 3, win1_2.index t a * S1x200x128.size a ≤ (i a).val ∧ (i a).val < win1_2.index t a * S1x200x128.size a + S1x200x128.size a := by
  show i ∈ ((View.whole main_v3).slice (win1_2.rect t)).set ↔ _
  rw [View.set_slice_whole, Rect.mem_set_unit]
  exact Iff.rfl

omit [FloatOps F] [∀ e, Nonempty (Elt F e)] in
/-- The four blocks cover the array: plane `i` is point `i`'s. -/
theorem cover (i : S4x200x128.Idx) : ∃ t : Fin cfg1.N, (cfg1.win 2).flush t = true ∧ i ∈ ((cfg1.win 2).blk t).view.set := by
  have hi0 : (i 0).val < 4 := (i 0).isLt
  have hi1 : (i 1).val < 200 := (i 1).isLt
  have hi2 : (i 2).val < 128 := (i 2).isLt
  obtain ⟨t, ht⟩ := idx_onto ⟨(i 0).val, hi0⟩
  have q0 : win1_2.index t (0 : Fin 3) = (i 0).val := congrFun ht 0
  have q1 : win1_2.index t (1 : Fin 3) = 0 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 200 ≤ (i 1).val ∧ (i 1).val < win1_2.index t (1 : Fin 3) * 200 + 200; omega
  | ⟨2, _⟩ => show win1_2.index t (2 : Fin 3) * 128 ≤ (i 2).val ∧ (i 2).val < win1_2.index t (2 : Fin 3) * 128 + 128; omega

/-- The result's array after the region: `G3` of the region-entry arrays. -/
theorem regOut_eq (c : Dev nD) : regOut Vv c = G3 Vv c :=
  (dats Vv 0 c).arrAt_eq_of_cover 2 (G3 Vv c) (fun t _ => flushed_eq Vv c t) cover

/-- At `(i, r, l)`. -/
theorem regOut_apply (c : Dev nD) (i : Fin 4) (r : Fin 200) (l : Fin 128) :
    (regOut Vv c : S4x200x128.Idx → Elt F .f32) (ix3 i r l)
      = FloatOps.addf ((Vv c main_v2 : S4x200x128.Idx → Elt F .f32) (ix3 i r l))
          (FloatOps.sitofp .f32 (∑ w : Fin 32, (Vv c main_v0 : S32x800x128.Idx → Elt F .i32) (ix3 w (⟨200 * i.val + r.val, by omega⟩ : Fin 800) l))) := by
  rw [regOut_eq]; rfl

end Cert.Proof.HistB

end
-- ==== Proof.ResB.lean ====
/-
  The result of the histogram program is the specification's: the region's result array holds, at `(i, r, l)`, the
  padded running count there plus the float of the sum of the thirty-two partial counts of the word at row
  `200 i + r` and lane `l`; the partial tables hold the per-band counts; the padded counts below 100002 are the
  running counts; so flattening and keeping the first 100002 entries gives `u v + (cnt x v as a float)`.
-/
import proofs.«217704_g70050916598121_cont_9to1_m_91_37_alg».proof.Proof.MainB
import proofs.«217704_g70050916598121_cont_9to1_m_91_37_alg».proof.Proof.ValueB

noncomputable section

namespace Cert.Proof.HistB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type}

local notation "𝕄" => MT nD τ sig (HIx 1) (Elt F) ℕ UU ℕ

variable (m : (ℓ : Loc nD τ sig) → Buf (Elt F) ℓ) (ρ : Dev nD → PrngReg)

variable [FloatOps F] [∀ e, Nonempty (Elt F e)]

/-- When the region is entered the partial tables hold the finished counts, -/
theorem Vv_parts (d : Dev nD) : Vv m d main_v0 = partsDone m d := by
  show (opR12 (F := F)).result ((opPad (F := F)).result ((opConv (F := F)).result ((opC (F := F)).result (W1 m d)))) p' = _
  rw [HloOp.result_of_not_mem _ _ (show p' ∉ ({Proc.devRef .tc (main_v2 : Ref sig .tc)} : Finset (DevRef τ sig)) by decide),
    HloOp.result_of_not_mem _ _ (show p' ∉ ({Proc.devRef .tc (main_v1 : Ref sig .tc)} : Finset (DevRef τ sig)) by decide),
    HloOp.result_of_not_mem _ _ (show p' ∉ ({Proc.devRef .tc (main_call0_v0 : Ref sig .tc)} : Finset (DevRef τ sig)) by decide),
    HloOp.result_of_not_mem _ _ (show p' ∉ ({Proc.devRef .tc (main_c : Ref sig .tc)} : Finset (DevRef τ sig)) by decide)]
  exact Function.update_self _ _ _

/-- and the padded counts are the running counts padded with the float of zero, laid out as 4 x 200 x 128. -/
theorem Vv_upad (d : Dev nD) : (Vv m d main_v2 : S4x200x128.Idx → Elt F .f32)
    = shapeCast S4x200x128 (pad S102400 ![0] ![2398] ![0] (m (uLoc d) : S100002.Idx → Elt F .f32) (sitofp .f32 (constantI S_ 32 0#32)) pads_S100002_S102400_023980 h_S_) shapeCasts_S102400_S4x200x128 := by
  show (opR12 (F := F)).result ((opPad (F := F)).result ((opConv (F := F)).result ((opC (F := F)).result (W1 m d)))) (Proc.devRef .tc (main_v2 : Ref sig .tc)) = _
  rw [StableHlo.reshape_result, StableHlo.binary_result, StableHlo.unary_result, StableHlo.nullary_result]
  rw [HloOp.result_of_not_mem _ _ (show u' ∉ ({Proc.devRef .tc (main_call0_v0 : Ref sig .tc)} : Finset (DevRef τ sig)) by decide),
    HloOp.result_of_not_mem _ _ (show u' ∉ ({Proc.devRef .tc (main_c : Ref sig .tc)} : Finset (DevRef τ sig)) by decide),
    show W1 m d u' = m (uLoc d) from Function.update_of_ne (by decide) _ _]
  rfl

/-- The partial tables at `(w, r, l)`: the count of the word `128 r + l` in band `w`. -/
theorem parts_apply (d : Dev nD) (w : Fin 32) (r : Fin 800) (l : Fin 128) :
    (partsDone m d : S32x800x128.Idx → Elt F .i32) (ix3 w r l) = Cert.Hist.cntW (xTab m d) w (128 * r.val + l.val) := rfl

/-- **The result is the specification's.** -/
theorem res_eq (d : Dev nD) : (res m d : S100002.Idx → Elt F .f32) = Cert.Hist.G (F := F) (xTab m d) (m (uLoc d)) := by
  unfold res
  refine Cert.Hist.kernel_value (F := F) (xTab m d) (m (uLoc d)) (partsDone m d) (parts_apply m d) (Vv m d main_v2) ?_ (regOut (Vv m) d) ?_ _ _
  · intro i r l hn
    rw [Vv_upad]
    exact Cert.Hist.upad_read _ _ _ _ _ i r l hn
  · intro i r l
    rw [regOut_apply, Vv_parts]

end Cert.Proof.HistB

end
-- ==== Proof.TileResI.lean ====
/-
  One vector subcore's view of its task: the subcore at grid point `L` is worker `w = 2 (L 1) + (L 0)`; its share of the
  token table is cut into thirty-two chunks of 8 rows × 1024 columns, chunk `ch` at rows `128 w + 8 (ch / 2)`, columns
  `1024 (ch % 2)`; every slice of the table the printed body takes is one of these chunks (the offset chains decided
  once over the grid and the trips); the subcore's own scratch buffers and DMA semaphores taken out of its scoped
  storage.
-/
import proofs.«217704_g70050916598121_cont_9to1_m_91_37_alg».proof.Proof.CommonI

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The subcore and its worker number -/

abbrev cV (L : grid0.Coords) : Fin τ.nSC := (L 0).castLE hcore0
abbrev jV (L : grid0.Coords) : Fin τ.nSub := (L 1).castLE hsub0

theorem L0_lt (L : grid0.Coords) : (L 0).val < 2 := (L 0).isLt
theorem L1_lt (L : grid0.Coords) : (L 1).val < 16 := (L 1).isLt

/-- The worker number of the subcore at `L`. -/
def wOf (L : grid0.Coords) : Fin 32 := ⟨2 * (L 1).val + (L 0).val, by have := L0_lt L; have := L1_lt L; omega⟩

local notation "xW" => (Memref.whole Cert.KernelIdeal.main_arg0_scv : Memref Cert.KernelIdeal.sig Kind.scVector Space.hbm Cert.KernelIdeal.S4096x2048 EltTy.i32)
local notation "pW" => (Memref.whole Cert.KernelIdeal.main_v0_scv : Memref Cert.KernelIdeal.sig Kind.scVector Space.hbm Cert.KernelIdeal.S32x800x128 EltTy.i32)
local notation "b0" => (Memref.whole Cert.KernelIdeal.cc0_scratch0 : Memref Cert.KernelIdeal.sig Kind.scVector Space.vmem Cert.KernelIdeal.S8x1024 EltTy.i32)
local notation "b1" => (Memref.whole Cert.KernelIdeal.cc0_scratch1 : Memref Cert.KernelIdeal.sig Kind.scVector Space.vmem Cert.KernelIdeal.S8x1024 EltTy.i32)
local notation "b2" => (Memref.whole Cert.KernelIdeal.cc0_scratch2 : Memref Cert.KernelIdeal.sig Kind.scVector Space.vmem Cert.KernelIdeal.S8x1024 EltTy.i32)
local notation "hW" => (Memref.whole Cert.KernelIdeal.cc0_scratch3 : Memref Cert.KernelIdeal.sig Kind.scVector Space.vmem Cert.KernelIdeal.S800x128 EltTy.i32)

/-! ## The chunks of a worker's share -/

/-- Where chunk `ch` of the worker at `L` starts. -/
def coff (L : grid0.Coords) (ch : Fin 32) : Fin 2 → Nat :=
  ![256 * (L 1).val + 128 * (L 0).val + 8 * (ch.val / 2), 1024 * (ch.val % 2)]

theorem coff_inb (L : grid0.Coords) (ch : Fin 32) : ∀ a, coff L ch a + S8x1024.size a ≤ S4096x2048.size a := by
  have := L0_lt L; have := L1_lt L; have := ch.isLt
  intro a; fin_cases a
  · show 256 * (L 1).val + 128 * (L 0).val + 8 * (ch.val / 2) + 8 ≤ 4096; omega
  · show 1024 * (ch.val % 2) + 1024 ≤ 2048; omega

/-- Chunk `ch` of the token table, as the worker at `L` addresses it. -/
abbrev xChunk (L : grid0.Coords) (ch : Fin 32) : Memref sig .scVector .hbm S8x1024 .i32 :=
  (xW).slice (Rect.unit (s := S4096x2048) (coff L ch) S8x1024.size (coff_inb L ch)) (fun _ => rfl)

/-! ## The printed offset chains are these chunks -/

theorem off2_eq : ∀ (L : grid0.Coords) (r : Fin 3), k0_off2 L (k0_off2_at r) = coff L (![0, 2, 30] r) := by decide +kernel
theorem off3_eq : ∀ (L : grid0.Coords) (r : Fin 2), k0_off3 L (BitVec.ofNat 32 (120 * r.val)) = coff L (![1, 31] r) := by decide +kernel
theorem off4_eq : ∀ (L : grid0.Coords) (t : Fin k0_t2_loop.trips) (r : Fin 3),
    k0_off4 L t (BitVec.ofNat 32 r.val) = coff L ⟨(3 * t.val + r.val) % 32, Nat.mod_lt _ (by decide)⟩ := by decide +kernel
theorem off6_eq : ∀ (L : grid0.Coords) (t : Fin k0_t2_loop.trips), k0_off6 L t = coff L ⟨(3 * t.val + 3) % 32, Nat.mod_lt _ (by decide)⟩ := by decide +kernel
theorem off8_eq : ∀ (L : grid0.Coords) (t : Fin k0_t2_loop.trips), k0_off8 L t = coff L ⟨(3 * t.val + 4) % 32, Nat.mod_lt _ (by decide)⟩ := by decide +kernel
theorem off10_eq : ∀ (L : grid0.Coords) (t : Fin k0_t2_loop.trips), k0_cond3 t = 1#1 → k0_off10 L t = coff L ⟨(3 * t.val + 5) % 32, Nat.mod_lt _ (by decide)⟩ := by decide +kernel

theorem cond1_all : ∀ t : Fin k0_t2_loop.trips, k0_cond1 t = 1#1 := by decide +kernel
theorem cond2_all : ∀ t : Fin k0_t2_loop.trips, k0_cond2 t = 1#1 := by decide +kernel
theorem cond3_iff : ∀ t : Fin k0_t2_loop.trips, k0_cond3 t = 1#1 ↔ t.val < 9 := by decide +kernel

/-- Chunk number `n` (taken modulo 32, so that it is a chunk for every `n`). -/
def chOf (n : Nat) : Fin 32 := ⟨n % 32, Nat.mod_lt _ (by decide)⟩

@[sl_canon] theorem canon_c0 (L : grid0.Coords) :
    (xW).slice (Rect.unit (s := S4096x2048) (k0_off2 L 0#32) S8x1024.size (k0_off2_inb L 0)) (fun _ => rfl) = xChunk L 0 :=
  Memref.slice_unit_congr _ (off2_eq L 0) _ _ (fun _ => rfl) (fun _ => rfl)
@[sl_canon] theorem canon_c1 (L : grid0.Coords) :
    (xW).slice (Rect.unit (s := S4096x2048) (k0_off3 L 0#32) S8x1024.size (k0_off3_inb L 0)) (fun _ => rfl) = xChunk L 1 :=
  Memref.slice_unit_congr _ (off3_eq L 0) _ _ (fun _ => rfl) (fun _ => rfl)
@[sl_canon] theorem canon_c2 (L : grid0.Coords) :
    (xW).slice (Rect.unit (s := S4096x2048) (k0_off2 L 8#32) S8x1024.size (k0_off2_inb L 1)) (fun _ => rfl) = xChunk L 2 :=
  Memref.slice_unit_congr _ (off2_eq L 1) _ _ (fun _ => rfl) (fun _ => rfl)
@[sl_canon] theorem canon_c30 (L : grid0.Coords) :
    (xW).slice (Rect.unit (s := S4096x2048) (k0_off2 L 120#32) S8x1024.size (k0_off2_inb L 2)) (fun _ => rfl) = xChunk L 30 :=
  Memref.slice_unit_congr _ (off2_eq L 2) _ _ (fun _ => rfl) (fun _ => rfl)
@[sl_canon] theorem canon_c31 (L : grid0.Coords) :
    (xW).slice (Rect.unit (s := S4096x2048) (k0_off3 L 120#32) S8x1024.size (k0_off3_inb L 1)) (fun _ => rfl) = xChunk L 31 :=
  Memref.slice_unit_congr _ (off3_eq L 1) _ _ (fun _ => rfl) (fun _ => rfl)
@[sl_canon] theorem canon_w0 (L : grid0.Coords) (t : Fin k0_t2_loop.trips) :
    (xW).slice (Rect.unit (s := S4096x2048) (k0_off4 L t 0#32) S8x1024.size (k0_off4_inb L t 0)) (fun _ => rfl) = xChunk L (chOf (3 * t.val + 0)) :=
  Memref.slice_unit_congr _ (off4_eq L t 0) _ _ (fun _ => rfl) (fun _ => rfl)
@[sl_canon] theorem canon_w1 (L : grid0.Coords) (t : Fin k0_t2_loop.trips) :
    (xW).slice (Rect.unit (s := S4096x2048) (k0_off4 L t 1#32) S8x1024.size (k0_off4_inb L t 1)) (fun _ => rfl) = xChunk L (chOf (3 * t.val + 1)) :=
  Memref.slice_unit_congr _ (off4_eq L t 1) _ _ (fun _ => rfl) (fun _ => rfl)
@[sl_canon] theorem canon_w2 (L : grid0.Coords) (t : Fin k0_t2_loop.trips) :
    (xW).slice (Rect.unit (s := S4096x2048) (k0_off4 L t 2#32) S8x1024.size (k0_off4_inb L t 2)) (fun _ => rfl) = xChunk L (chOf (3 * t.val + 2)) :=
  Memref.slice_unit_congr _ (off4_eq L t 2) _ _ (fun _ => rfl) (fun _ => rfl)
@[sl_canon] theorem canon_s0 (L : grid0.Coords) (t : Fin k0_t2_loop.trips) (h : k0_cond1 t = 1#1) :
    (xW).slice (Rect.unit (s := S4096x2048) (k0_off6 L t) S8x1024.size (k0_off6_inb L t h)) (fun _ => rfl) = xChunk L (chOf (3 * t.val + 3)) :=
  Memref.slice_unit_congr _ (off6_eq L t) _ _ (fun _ => rfl) (fun _ => rfl)
@[sl_canon] theorem canon_s1 (L : grid0.Coords) (t : Fin k0_t2_loop.trips) (h : k0_cond2 t = 1#1) :
    (xW).slice (Rect.unit (s := S4096x2048) (k0_off8 L t) S8x1024.size (k0_off8_inb L t h)) (fun _ => rfl) = xChunk L (chOf (3 * t.val + 4)) :=
  Memref.slice_unit_congr _ (off8_eq L t) _ _ (fun _ => rfl) (fun _ => rfl)
@[sl_canon] theorem canon_s2 (L : grid0.Coords) (t : Fin k0_t2_loop.trips) (h : k0_cond3 t = 1#1) :
    (xW).slice (Rect.unit (s := S4096x2048) (k0_off10 L t) S8x1024.size (k0_off10_inb L t h)) (fun _ => rfl) = xChunk L (chOf (3 * t.val + 5)) :=
  Memref.slice_unit_congr _ (off10_eq L t h) _ _ (fun _ => rfl) (fun _ => rfl)

/-! ## The subcore's own scratch and semaphores -/

section Own
variable (d : Dev nD) (L : grid0.Coords)

abbrev thr : Thread nD τ := V d (cV L) (jV L)

abbrev cell0 : GSem nD τ sig := (V d (cV L) (jV L), .dma cc0_scratch4.sem)
abbrev cell1 : GSem nD τ sig := (V d (cV L) (jV L), .dma cc0_scratch5.sem)
abbrev cell2 : GSem nD τ sig := (V d (cV L) (jV L), .dma cc0_scratch6.sem)
abbrev cell3 : GSem nD τ sig := (V d (cV L) (jV L), .dma cc0_scoped0.sem)

omit [FloatOps F] in
theorem ownSems0_V :
    (ownSems0 (V d (cV L) (jV L)) : sProp 𝕄)
      = iprop(semVal (cell0 d L) 0 ∗ semVal (cell1 d L) 0 ∗ semVal (cell2 d L) 0 ∗ semVal (cell3 d L) 0
          ∗ bigSep (((((ownCells (V d (cV L) (jV L))).erase (cell0 d L)).erase (cell1 d L)).erase (cell2 d L)).erase (cell3 d L))
              fun g => semVal g 0) := by
  unfold SparseCore.Cfg.ownSems0
  rw [SparseCore.bigSep_erase' ((mem_ownCells (g := cell0 d L)).mpr ⟨rfl, by
      show (SemLoc.dma cc0_scratch4.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scratch5.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scratch6.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d L)).mpr ⟨rfl, by show (SemLoc.dma cc0_scoped0.sem : SemLoc sig).isScoped .scVector = true; decide⟩⟩⟩⟩)]

omit [FloatOps F] in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

end Own

end Cert.Proof.HistI

end
-- ==== Proof.HistSet.lean ====
/-
  Counting by sets of positions. For a table `x` of tokens and a set `A` of its positions, `histOf x A` is the
  800 × 128 table whose entry at row `r`, lane `l` is the number of positions of `A` that hold the word `128 r + l`
  (in 32-bit words). The empty set gives the zero table; adding sixteen fresh positions whose words are at most
  99999 is one indexed add of sixteen ones at rows `word >>> 7`, lanes `word &&& 127`.
-/
import proofs.«217704_g70050916598121_cont_9to1_m_91_37_alg».proof.Proof.Spec

noncomputable section

namespace Cert.Hist

open Idealize.ShloMosaic

/-- The table of counts a worker keeps, a row of sixteen lanes. -/
abbrev SH : Shape := ⟨2, ![800, 128]⟩
abbrev SL : Shape := ⟨1, ![16]⟩

/-- The counts of the positions of `A`. -/
def histOf (x : IVec ST 32) (A : Finset ST.Idx) : IVec SH 32 :=
  fun q => ∑ p ∈ A, if (x p).toNat = 128 * (q 0).val + (q 1).val then 1#32 else 0#32

end Cert.Hist

end
-- ==== Proof.ShareSets.lean ====
/-
  The positions of one worker's share of the table, in the order the kernel walks them. Worker `w` owns the rows
  `128 w … 128 w + 127` (its band), cut into 32 chunks: chunk `ch` is the rows `128 w + 8 (ch / 2) + r` (`r < 8`) and the
  columns `1024 (ch % 2) + c` (`c < 1024`). Within a chunk, positions are numbered row by row (`1024 r + c`); trip `k`,
  vector `j`, lane `l` is the position numbered `256 k + 16 j + l`. `doneSet w n` is the chunks before `n`;
  `tripPart w ch k j` the positions of chunk `ch` numbered below `256 k + 16 j`; `laneSet w ch k j` the sixteen positions
  of one vector. The sets are cut out by conditions on the two coordinates of a position.
-/
import proofs.«217704_g70050916598121_cont_9to1_m_91_37_alg».proof.Proof.HistSet

noncomputable section

namespace Cert.Hist

open Idealize.ShloMosaic Idealize.ShloMosaic.ValueIdx

/-- The positions of the 128 rows of worker `w`. -/
def band (w : Fin 32) : Finset ST.Idx := Finset.univ.filter fun p => (p 0).val / 128 = w.val

/-- One chunk: eight rows of 1024 columns. -/
abbrev SC : Shape := ⟨2, ![8, 1024]⟩

/-- Position `q` of chunk `ch` of worker `w`, as a position of the table. -/
def cpos (w ch : Fin 32) (q : SC.Idx) : ST.Idx :=
  ix2 ⟨128 * w.val + 8 * (ch.val / 2) + (q 0).val, by
        have := idx2_lt0 q; have := w.isLt; have := ch.isLt; omega⟩
      ⟨1024 * (ch.val % 2) + (q 1).val, by have := idx2_lt1 q; omega⟩

theorem cpos_row (w ch : Fin 32) (q : SC.Idx) :
    ((cpos w ch q) 0).val = 128 * w.val + 8 * (ch.val / 2) + (q 0).val := rfl

theorem cpos_col (w ch : Fin 32) (q : SC.Idx) :
    ((cpos w ch q) 1).val = 1024 * (ch.val % 2) + (q 1).val := rfl

/-- Lane `l` of vector `j` of trip `k`: row `k / 4` of the chunk, column `256 (k % 4) + 16 j + l`. -/
def lanePos (w ch k : Fin 32) (j : Fin 16) : SL.Idx → ST.Idx := fun l =>
  cpos w ch (ix2 ⟨k.val / 4, by have := k.isLt; omega⟩
    ⟨256 * (k.val % 4) + 16 * j.val + (l 0).val, by
      have : (l 0).val < 16 := (l 0).isLt
      have := j.isLt; omega⟩)

theorem lanePos_row (w ch k : Fin 32) (j : Fin 16) (l : SL.Idx) :
    ((lanePos w ch k j l) 0).val = 128 * w.val + 8 * (ch.val / 2) + k.val / 4 := rfl

theorem lanePos_col (w ch k : Fin 32) (j : Fin 16) (l : SL.Idx) :
    ((lanePos w ch k j l) 1).val = 1024 * (ch.val % 2) + (256 * (k.val % 4) + 16 * j.val + (l 0).val) := rfl

/-- The sixteen positions of one vector. -/
def laneSet (w ch k : Fin 32) (j : Fin 16) : Finset ST.Idx := Finset.univ.image (lanePos w ch k j)

/-- The positions of chunk `ch` numbered below `256 k + 16 j`. -/
def tripPart (w ch : Fin 32) (k j : Nat) : Finset ST.Idx :=
  Finset.univ.filter fun p => (p 0).val / 128 = w.val
    ∧ 2 * ((p 0).val % 128 / 8) + (p 1).val / 1024 = ch.val
    ∧ 1024 * ((p 0).val % 8) + (p 1).val % 1024 < 256 * k + 16 * j

/-- The positions of the chunks before `n`. -/
def doneSet (w : Fin 32) (n : Nat) : Finset ST.Idx :=
  Finset.univ.filter fun p => (p 0).val / 128 = w.val
    ∧ 2 * ((p 0).val % 128 / 8) + (p 1).val / 1024 < n

end Cert.Hist

end
-- ==== Proof.RingSepI.lean ====
/-
  Thirty-two resources, three at a time. For resources `Φ ch` indexed by the chunk, `ringHeld Φ g` is all of them but
  the three numbered `3 g, 3 g + 1, 3 g + 2`, and `ringRest Φ g` all but the six from `3 g` on. Taking three out of the
  whole, passing from one window of three to the next, and putting the last two back are identities between iterated
  separating conjunctions: each splits an index set into a few named members and the rest.
-/
import proofs.«217704_g70050916598121_cont_9to1_m_91_37_alg».proof.Proof.TileResI

noncomputable section

namespace Cert.Proof.HistI

open Idealize.SL Idealize.SL.RA Idealize.SL.BI
open scoped Idealize.SL.BI
open Idealize.SL.BI.BIBase Idealize.SL.BI.Laws Idealize.SL.ProofMode Idealize.SL.Sem

variable {M : Type} [URA M]

/-- Every chunk's resource but those of the three chunks `3 g, 3 g + 1, 3 g + 2`. -/
def ringHeld (Φ : Fin 32 → sProp M) (g : Nat) : sProp M :=
  bigSep Finset.univ fun ch : Fin 32 => if 3 * g ≤ ch.val ∧ ch.val < 3 * g + 3 then iprop(emp) else Φ ch

/-- Every chunk's resource but those of the six chunks `3 g … 3 g + 5`. -/
def ringRest (Φ : Fin 32 → sProp M) (g : Nat) : sProp M :=
  bigSep (Finset.univ.filter fun ch : Fin 32 => ¬ (3 * g ≤ ch.val ∧ ch.val < 3 * g + 6)) Φ

theorem chOf_val (n : Nat) : (chOf n).val = n % 32 := rfl

/-- Three named members and the rest. -/
theorem bigSep_ins3 {S T : Finset (Fin 32)} {a b c : Fin 32} (Φ : Fin 32 → sProp M)
    (h : S = insert a (insert b (insert c T))) (ha : a ∉ insert b (insert c T)) (hb : b ∉ insert c T) (hc : c ∉ T) :
    bigSep S Φ = iprop(Φ a ∗ Φ b ∗ Φ c ∗ bigSep T Φ) := by
  rw [h, bigSep_insert ha, bigSep_insert hb, bigSep_insert hc]; rfl

/-- Two named members and the rest. -/
theorem bigSep_ins2 {S T : Finset (Fin 32)} {a b : Fin 32} (Φ : Fin 32 → sProp M)
    (h : S = insert a (insert b T)) (ha : a ∉ insert b T) (hb : b ∉ T) :
    bigSep S Φ = iprop(Φ a ∗ Φ b ∗ bigSep T Φ) := by
  rw [h, bigSep_insert ha, bigSep_insert hb]; rfl

/-- The held resources are those of the chunks outside the window of three. -/
theorem ringHeld_eq (Φ : Fin 32 → sProp M) (g : Nat) :
    ringHeld Φ g = bigSep (Finset.univ.filter fun ch : Fin 32 => ¬ (3 * g ≤ ch.val ∧ ch.val < 3 * g + 3)) Φ := by
  unfold ringHeld
  rw [bigSep_filter]
  refine bigSep_congr fun ch _ => ?_
  by_cases hc : 3 * g ≤ ch.val ∧ ch.val < 3 * g + 3
  · rw [if_pos hc, if_neg (not_not.mpr hc)]; rfl
  · rw [if_neg hc, if_pos hc]

theorem ring_take (Φ : Fin 32 → sProp M) :
    bigSep Finset.univ Φ = iprop(Φ 0 ∗ Φ 1 ∗ Φ 2 ∗ ringHeld Φ 0) := by
  rw [ringHeld_eq]
  have e0 : ((0 : Fin 32)).val = 0 := rfl
  have e1 : ((1 : Fin 32)).val = 1 := rfl
  have e2 : ((2 : Fin 32)).val = 2 := rfl
  refine bigSep_ins3 Φ ?_ ?_ ?_ ?_
  · ext ch
    simp only [Finset.mem_univ, Finset.mem_insert, Finset.mem_filter, _root_.true_and, _root_.true_iff, Fin.ext_iff, e0, e1, e2]
    omega
  · simp only [Finset.mem_univ, Finset.mem_insert, Finset.mem_filter, _root_.true_and, Fin.ext_iff, e0, e1, e2]
    omega
  · simp only [Finset.mem_univ, Finset.mem_insert, Finset.mem_filter, _root_.true_and, Fin.ext_iff, e0, e1, e2]
    omega
  · simp only [Finset.mem_univ, Finset.mem_insert, Finset.mem_filter, _root_.true_and, Fin.ext_iff, e0, e1, e2]
    omega

theorem ring_next (Φ : Fin 32 → sProp M) (g : Nat) (hg : g < 9) :
    ringHeld Φ g = iprop(Φ (chOf (3 * g + 3)) ∗ Φ (chOf (3 * g + 4)) ∗ Φ (chOf (3 * g + 5)) ∗ ringRest Φ g) := by
  rw [ringHeld_eq]
  unfold ringRest
  refine bigSep_ins3 Φ ?_ ?_ ?_ ?_
  · ext ch
    simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega

theorem ring_next_last (Φ : Fin 32 → sProp M) :
    ringHeld Φ 9 = iprop(Φ (chOf 30) ∗ Φ (chOf 31) ∗ ringRest Φ 9) := by
  rw [ringHeld_eq]
  unfold ringRest
  refine bigSep_ins2 Φ ?_ ?_ ?_
  · ext ch
    have := ch.isLt
    simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega

theorem ring_back (Φ : Fin 32 → sProp M) (g : Nat) (hg : g < 10) :
    ringHeld Φ (g + 1) = iprop(Φ (chOf (3 * g)) ∗ Φ (chOf (3 * g + 1)) ∗ Φ (chOf (3 * g + 2)) ∗ ringRest Φ g) := by
  rw [ringHeld_eq]
  unfold ringRest
  refine bigSep_ins3 Φ ?_ ?_ ?_ ?_
  · ext ch
    simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega

theorem ring_done (Φ : Fin 32 → sProp M) :
    iprop(Φ (chOf 30) ∗ Φ (chOf 31) ∗ ringHeld Φ 10) = bigSep Finset.univ Φ := by
  rw [ringHeld_eq]
  refine (bigSep_ins2 Φ ?_ ?_ ?_).symm
  · ext ch
    have := ch.isLt
    simp only [Finset.mem_univ, Finset.mem_insert, Finset.mem_filter, _root_.true_and, _root_.true_iff, Fin.ext_iff, chOf_val]
    omega
  · simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega

end Cert.Proof.HistI

end
-- ==== Proof.TileInvI.lean ====
/-
  The invariants of one vector subcore's task. A slot that a chunk has landed in holds the chunk's tokens (over
  whatever it held before); a transfer in flight on a slot's semaphore carries the slot at those contents and the
  chunk of the table back; while a slot is being counted, the table of counts holds the counts of the chunks already
  done and of the tokens of this chunk before the current trip.
-/
import proofs.«217704_g70050916598121_cont_9to1_m_91_37_alg».proof.Proof.TileResI
import proofs.«217704_g70050916598121_cont_9to1_m_91_37_alg».proof.Proof.ShareSets
import proofs.«217704_g70050916598121_cont_9to1_m_91_37_alg».proof.Proof.RingSepI

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.KernelIdeal.main_arg0_scv : Memref Cert.KernelIdeal.sig Kind.scVector Space.hbm Cert.KernelIdeal.S4096x2048 EltTy.i32)
local notation "pW" => (Memref.whole Cert.KernelIdeal.main_v0_scv : Memref Cert.KernelIdeal.sig Kind.scVector Space.hbm Cert.KernelIdeal.S32x800x128 EltTy.i32)
local notation "b0" => (Memref.whole Cert.KernelIdeal.cc0_scratch0 : Memref Cert.KernelIdeal.sig Kind.scVector Space.vmem Cert.KernelIdeal.S8x1024 EltTy.i32)
local notation "b1" => (Memref.whole Cert.KernelIdeal.cc0_scratch1 : Memref Cert.KernelIdeal.sig Kind.scVector Space.vmem Cert.KernelIdeal.S8x1024 EltTy.i32)
local notation "b2" => (Memref.whole Cert.KernelIdeal.cc0_scratch2 : Memref Cert.KernelIdeal.sig Kind.scVector Space.vmem Cert.KernelIdeal.S8x1024 EltTy.i32)
local notation "hW" => (Memref.whole Cert.KernelIdeal.cc0_scratch3 : Memref Cert.KernelIdeal.sig Kind.scVector Space.vmem Cert.KernelIdeal.S800x128 EltTy.i32)

section Inv
variable (d : Dev nD) (L : grid0.Coords)

/-- A view held by exactly its own elements, by the subcore at `L`. -/
abbrev heldOwn {sp : Space} {S : Shape} {e : EltTy} (M : Memref sig .scVector sp S e) (f : Buf (Elt F) (M.view.loc (V d (cV L) (jV L)))) : sProp 𝕄 :=
  M.view.loc (V d (cV L) (jV L)) ↦[M.view.set]{fullShare} f

/-- What a slot holds once chunk `ch` has landed in it, over its prior contents `dp`. -/
abbrev landed (b : Memref sig .scVector .vmem S8x1024 .i32) (ch : Fin 32) (dp : Buf (Elt F) (b.view.loc (V d (cV L) (jV L)))) :
    Buf (Elt F) (b.view.loc (V d (cV L) (jV L))) :=
  b.view.writes (Elt F) dp [⟨Rect.whole S8x1024, ReadAs.same.apply ((xChunk L ch).view.read (Elt F) (m (xLoc d)))⟩]

/-- Chunk `ch` in flight into slot `b` on semaphore `sem`. -/
def inflight (b : Memref sig .scVector .vmem S8x1024 .i32) (sem : DmaSem sig) (ch : Fin 32) : sProp 𝕄 :=
  iprop(∃ dp, Transfers.Flight (countersEmb (U := UU)) (V d (cV L) (jV L)) (SemLoc.dma sem) (default : HIx 1) 262144
    iprop(heldOwn (F := F) d L b (landed m d L b ch dp) ∗ heldOwn (F := F) d L (xChunk L ch) (m (xLoc d))))

/-- The tokens of chunk `ch`, as a slot holds them. -/
def chunkTab (ch : Fin 32) : S8x1024.Idx → BitVec 32 := fun q => m (xLoc d) ((xChunk L ch).view.emb q)

/-- The table of counts as a buffer of the subcore's fourth scratch. -/
abbrev histBuf (A : Finset Cert.Hist.ST.Idx) : Buf (Elt F) ((hW).view.loc (V d (cV L) (jV L))) :=
  Cert.Hist.histOf (xTab m d) A

/-- While slot `b` (holding chunk `ch`) is counted: before trip `k`. -/
def procInv (b : Memref sig .scVector .vmem S8x1024 .i32) (ch : Fin 32) (cb : Buf (Elt F) (b.view.loc (V d (cV L) (jV L))))
    (k : Nat) (_ : Unit) : sProp 𝕄 :=
  iprop(((hW).view.loc (V d (cV L) (jV L)) ↦{fullShare} histBuf m d L (Cert.Hist.doneSet (wOf L) ch.val ∪ Cert.Hist.tripPart (wOf L) ch k 0))
    ∗ heldOwn (F := F) d L b cb)

/-- Between two trips of the loop over the chunks, three at a time: before trip `g` the chunks before `3 g` are counted,
    chunks `3 g`, `3 g + 1` (and `3 g + 2`, while there is one) are in flight into the three slots, every other chunk
    of the share is held. -/
def outInv (O : CellTallies nD τ sig (HIx 1)) (W : Waits sig (HIx 1)) (g : Nat) (_ : Unit) : sProp 𝕄 :=
  iprop(Transfers.MayWaits (V d (cV L) (jV L)) (none : HIx 1) O
    ∗ ((hW).view.loc (V d (cV L) (jV L)) ↦{fullShare} histBuf m d L (Cert.Hist.doneSet (wOf L) (3 * g)))
    ∗ ringHeld (fun ch => heldOwn (F := F) d L (xChunk L ch) (m (xLoc d))) g
    ∗ inflight m d L b0 cc0_scratch4.sem (chOf (3 * g)) ∗ inflight m d L b1 cc0_scratch5.sem (chOf (3 * g + 1))
    ∗ (if 3 * g + 2 < 32 then inflight m d L b2 cc0_scratch6.sem (chOf (3 * g + 2))
        else iprop((∃ f, heldOwn (F := F) d L b2 f) ∗ semVal (cell2 d L) 0))
    ∗ ∃ W', ⌜∀ p ∈ W', p ∈ W ∨ p.2 = none⌝ ∗ owes (V d (cV L) (jV L)) O W')

end Inv

/-- What the proofs ask of the launch memory: every token is at most 99999 (the precondition says so). -/
def PreOK : Prop := ∀ (d : Dev nD) (p : Cert.Hist.ST.Idx), (xTab m d p).toNat ≤ 99999

end Cert.Proof.HistI

end
-- ==== Proof.ChunkSetsI.lean ====
/-
  One worker's share as sets of positions. Chunk `ch` of worker `w` is the 8 rows from `128 w + 8 (ch / 2)` and the
  1024 columns from `1024 (ch % 2)` of the token table; the thirty-two chunks are pairwise disjoint and make up the
  band of rows `128 w … 128 w + 127`, so holding the band is holding the thirty-two chunks. The worker's partial
  table is plane `w` of the partial counts; writing the finished table of counts through it gives the finished
  plane. A scratch buffer a chunk has landed in reads as the table under the chunk.
-/
import proofs.«217704_g70050916598121_cont_9to1_m_91_37_alg».proof.Proof.TileResI

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Chunk
variable (d : Dev nD) (L : grid0.Coords) (ch : Fin 32)

omit [FloatOps F] in
/-- The row of the table under position `q` of a chunk. -/
theorem xChunk_emb0 (q : S8x1024.Idx) :
    (((xChunk L ch).view.emb q) 0 : Fin 4096).val = 128 * (wOf L).val + 8 * (ch.val / 2) + (q 0).val := by
  show (coff L ch 0) + 1 * (q 0).val = _
  show 256 * (L 1).val + 128 * (L 0).val + 8 * (ch.val / 2) + 1 * (q 0).val = 128 * (2 * (L 1).val + (L 0).val) + 8 * (ch.val / 2) + (q 0).val
  omega

omit [FloatOps F] in
/-- The column of the table under position `q` of a chunk. -/
theorem xChunk_emb1 (q : S8x1024.Idx) :
    (((xChunk L ch).view.emb q) 1 : Fin 2048).val = 1024 * (ch.val % 2) + (q 1).val := by
  show (coff L ch 1) + 1 * (q 1).val = _
  show 1024 * (ch.val % 2) + 1 * (q 1).val = _
  omega

omit [FloatOps F] in
/-- Reading a chunk reads the table under it. -/
theorem xChunk_read (f : Buf (Elt F) (xLoc d)) (q : S8x1024.Idx) :
    (xChunk L ch).view.read (Elt F) f q = f ((xChunk L ch).view.emb q) :=
  (View.read_apply _ _).trans (cast_eq _ _)

omit [FloatOps F] in
/-- A chunk's positions: 8 rows from `128 w + 8 (ch / 2)`, 1024 columns from `1024 (ch % 2)`. -/
theorem mem_xChunk_set (p : S4096x2048.Idx) :
    p ∈ (xChunk L ch).view.set ↔
      (128 * (wOf L).val + 8 * (ch.val / 2) ≤ (p 0).val ∧ (p 0).val < 128 * (wOf L).val + 8 * (ch.val / 2) + 8)
      ∧ (1024 * (ch.val % 2) ≤ (p 1).val ∧ (p 1).val < 1024 * (ch.val % 2) + 1024) := by
  have hs : (xChunk L ch).view.set = (Rect.unit (s := S4096x2048) (coff L ch) S8x1024.size (coff_inb L ch)).set := by
    show ((View.whole (main_arg0_scv : Ref sig .scVector)).slice _).set = _
    rw [View.set_slice]; exact Finset.map_refl
  rw [hs, LoadRect.mem_set]
  constructor
  · intro h
    obtain ⟨j0, hj0, e0⟩ := h 0
    obtain ⟨j1, hj1, e1⟩ := h 1
    have hj0' : j0 < 8 := hj0
    have hj1' : j1 < 1024 := hj1
    have e0' : (p 0).val = 256 * (L 1).val + 128 * (L 0).val + 8 * (ch.val / 2) + 1 * j0 := e0
    have e1' : (p 1).val = 1024 * (ch.val % 2) + 1 * j1 := e1
    show (128 * (2 * (L 1).val + (L 0).val) + 8 * (ch.val / 2) ≤ (p 0).val ∧ (p 0).val < 128 * (2 * (L 1).val + (L 0).val) + 8 * (ch.val / 2) + 8) ∧ _
    omega
  · intro h a
    have h' : (128 * (2 * (L 1).val + (L 0).val) + 8 * (ch.val / 2) ≤ (p 0).val ∧ (p 0).val < 128 * (2 * (L 1).val + (L 0).val) + 8 * (ch.val / 2) + 8)
      ∧ (1024 * (ch.val % 2) ≤ (p 1).val ∧ (p 1).val < 1024 * (ch.val % 2) + 1024) := h
    match a with
    | ⟨0, _⟩ =>
      refine ⟨(p 0).val - (256 * (L 1).val + 128 * (L 0).val + 8 * (ch.val / 2)), ?_, ?_⟩
      · show _ < 8; omega
      · show (p 0).val = 256 * (L 1).val + 128 * (L 0).val + 8 * (ch.val / 2) + 1 * _; omega
    | ⟨1, _⟩ =>
      refine ⟨(p 1).val - 1024 * (ch.val % 2), ?_, ?_⟩
      · show _ < 1024; omega
      · show (p 1).val = 1024 * (ch.val % 2) + 1 * _; omega

omit [FloatOps F] in
/-- Two different chunks of one worker share no position. -/
theorem xChunk_disjoint : ∀ ch ∈ (Finset.univ : Finset (Fin 32)), ∀ ch' ∈ (Finset.univ : Finset (Fin 32)), ch ≠ ch' →
    Disjoint (xChunk L ch).view.set (xChunk L ch').view.set := by
  intro ch _ ch' _ hne
  rw [Finset.disjoint_left]
  intro p h1 h2
  rw [mem_xChunk_set] at h1 h2
  have : ch.val ≠ ch'.val := fun e => hne (Fin.ext e)
  omega

omit [FloatOps F] in
/-- The thirty-two chunks of a worker make up its band of 128 rows. -/
theorem xChunk_cover : (Finset.univ : Finset (Fin 32)).biUnion (fun ch => (xChunk L ch).view.set) = xBand (wOf L) := by
  ext p
  rw [Finset.mem_biUnion]
  unfold xBand
  rw [Finset.mem_filter]
  constructor
  · rintro ⟨ch, _, h⟩
    rw [mem_xChunk_set] at h
    refine ⟨Finset.mem_univ _, ?_⟩
    have := ch.isLt
    omega
  · rintro ⟨_, h⟩
    have hp1 : (p 1).val < 2048 := (p 1).isLt
    refine ⟨⟨2 * ((p 0).val % 128 / 8) + (p 1).val / 1024, by omega⟩, Finset.mem_univ _, ?_⟩
    rw [mem_xChunk_set]
    show (128 * (wOf L).val + 8 * ((2 * ((p 0).val % 128 / 8) + (p 1).val / 1024) / 2) ≤ (p 0).val ∧ (p 0).val < 128 * (wOf L).val + 8 * ((2 * ((p 0).val % 128 / 8) + (p 1).val / 1024) / 2) + 8)
      ∧ (1024 * ((2 * ((p 0).val % 128 / 8) + (p 1).val / 1024) % 2) ≤ (p 1).val ∧ (p 1).val < 1024 * ((2 * ((p 0).val % 128 / 8) + (p 1).val / 1024) % 2) + 1024)
    omega

omit [FloatOps F] in
/-- A worker's band of the token table, as its thirty-two chunks. -/
theorem xBand_chunks (f : Buf (Elt F) (xLoc d)) :
    (xLoc d ↦[xBand (wOf L)]{fullShare} f : sProp 𝕄)
      = bigSep Finset.univ fun ch : Fin 32 => (xChunk L ch).view.loc (V d (cV L) (jV L)) ↦[(xChunk L ch).view.set]{fullShare} f := by
  rw [← xChunk_cover L]
  exact pointsTo_biUnion Finset.univ (ℓ := xLoc d) (fun ch => (xChunk L ch).view.set) (xChunk_disjoint L)

end Chunk

open ValueIdx

local notation "pW" => (Memref.whole Cert.KernelIdeal.main_v0_scv : Memref Cert.KernelIdeal.sig Kind.scVector Space.hbm Cert.KernelIdeal.S32x800x128 EltTy.i32)

/-- The worker's partial table, as its write-out addresses it: plane `w` of the partial counts, as 800 × 128. -/
abbrev pOut (L : grid0.Coords) : Memref sig .scVector .hbm S800x128 .i32 :=
  ((pW).slice (Rect.unit (s := S32x800x128) (k0_off13 L) S1x800x128.size (k0_off13_inb L)) (fun _ => rfl)).squeeze S800x128 squeezes_S1x800x128_S800x128

section Plane
variable (d : Dev nD) (L : grid0.Coords)

omit [FloatOps F] in
/-- Position `q` of the worker's partial table is plane `w`, row `q 0`, lane `q 1` of the partial counts. -/
theorem pOut_emb (q : S800x128.Idx) :
    ((pOut L).view.emb q : S32x800x128.Idx) = ix3 (wOf L) (q 0 : Fin 800) (q 1 : Fin 128) := by
  have hq : Shape.reshapeEquiv (s := S1x800x128) (s' := S800x128) squeezes_S1x800x128_S800x128.numel_eq q
      = (ix3 (0 : Fin 1) (q 0 : Fin 800) (q 1 : Fin 128) : S1x800x128.Idx) := by
    refine Shape.reshapeEquiv_eq_of_rowMajor _ ?_
    refine (Shape.rowMajor_val_three (d := ![1, 800, 128]) _).trans ((Shape.rowMajor_val_two (d := ![800, 128]) q).symm ▸ ?_)
    show (0 * 800 + (q 0).val) * 128 + (q 1).val = (q 0).val * 128 + (q 1).val
    omega
  show (Rect.unit (s := S32x800x128) (k0_off13 L) S1x800x128.size (k0_off13_inb L)).emb
    (Shape.reshapeEquiv (s := S1x800x128) (s' := S800x128) squeezes_S1x800x128_S800x128.numel_eq q) = _
  rw [hq]
  funext a
  apply Fin.ext
  show k0_off13 L a + 1 * ((ix3 (0 : Fin 1) (q 0 : Fin 800) (q 1 : Fin 128) : S1x800x128.Idx) a).val = _
  rw [k0_off13_eq]
  match a with
  | ⟨0, _⟩ => show 2 * (L 1).val + (L 0).val + 1 * 0 = 2 * (L 1).val + (L 0).val; omega
  | ⟨1, _⟩ => show 0 + 1 * (q 0).val = (q 0).val; omega
  | ⟨2, _⟩ => show 0 + 1 * (q 1).val = (q 1).val; omega

omit [FloatOps F] in
/-- The worker's partial table covers exactly plane `w`. -/
theorem pOut_set : (pOut L).view.set = pPlane (wOf L) := by
  ext p
  unfold pPlane
  rw [Finset.mem_filter]
  show p ∈ Finset.univ.map (pOut L).view.emb ↔ _
  rw [Finset.mem_map]
  constructor
  · rintro ⟨q, _, rfl⟩
    refine ⟨Finset.mem_univ _, ?_⟩
    rw [pOut_emb]
  · rintro ⟨_, h⟩
    refine ⟨ix2 (p 1 : Fin 800) (p 2 : Fin 128), Finset.mem_univ _, ?_⟩
    rw [pOut_emb]
    funext a
    match a with
    | ⟨0, _⟩ => exact Fin.ext h.symm
    | ⟨1, _⟩ => rfl
    | ⟨2, _⟩ => rfl

omit [FloatOps F] in
/-- The finished table of counts, written through the worker's plane, is the finished plane there. -/
theorem pOut_write_emb (g : Buf (Elt F) (pLoc d)) (h : IVec S800x128 32)
    (hh : ∀ q : S800x128.Idx, h q = Cert.Hist.cntW (xTab m d) (wOf L) (128 * (q 0).val + (q 1).val)) (q : S800x128.Idx) :
    (pOut L).view.write (Elt F) g h Finset.univ ((pOut L).view.emb q) = partsDone m d ((pOut L).view.emb q) := by
  rw [View.write_emb_of_mem _ _ (Finset.mem_univ _), cast_eq, hh]
  have e := pOut_emb L q
  unfold partsDone
  show _ = Cert.Hist.cntW (xTab m d) ⟨(((pOut L).view.emb q : S32x800x128.Idx) 0).val, _⟩
    (128 * (((pOut L).view.emb q : S32x800x128.Idx) 1).val + (((pOut L).view.emb q : S32x800x128.Idx) 2).val)
  rw [e]
  rfl

omit [FloatOps F] in
/-- Holding the worker's plane at the finished table written through it is holding it at the finished partial counts. -/
theorem pOut_done (g : Buf (Elt F) (pLoc d)) (h : IVec S800x128 32)
    (hh : ∀ q : S800x128.Idx, h q = Cert.Hist.cntW (xTab m d) (wOf L) (128 * (q 0).val + (q 1).val)) :
    (pLoc d ↦[pPlane (wOf L)]{fullShare} ((pOut L).view.write (Elt F) g h Finset.univ) : sProp 𝕄)
      = pLoc d ↦[pPlane (wOf L)]{fullShare} partsDone m d := by
  refine pointsTo_congr fun p hp => ?_
  rw [← pOut_set L] at hp
  obtain ⟨q, -, rfl⟩ := Finset.mem_map.mp hp
  exact pOut_write_emb m d L g h hh q

omit [FloatOps F] in
/-- The same, with the write spelt as one piece over the whole table. -/
theorem pOut_done_writes (g : Buf (Elt F) (pLoc d)) (h : IVec S800x128 32)
    (hh : ∀ q : S800x128.Idx, h q = Cert.Hist.cntW (xTab m d) (wOf L) (128 * (q 0).val + (q 1).val)) :
    (pLoc d ↦[pPlane (wOf L)]{fullShare} ((pOut L).view.writes (Elt F) g [⟨Rect.whole S800x128, h⟩]) : sProp 𝕄)
      = pLoc d ↦[pPlane (wOf L)]{fullShare} partsDone m d := by
  rw [← View.write_univ_eq_writes_whole (pOut L).view g [] h]
  exact pOut_done m d L g h hh

end Plane

section Landed
variable (d : Dev nD) (L : grid0.Coords) (ch : Fin 32)

local notation "b0" => (Memref.whole Cert.KernelIdeal.cc0_scratch0 : Memref Cert.KernelIdeal.sig Kind.scVector Space.vmem Cert.KernelIdeal.S8x1024 EltTy.i32)
local notation "b1" => (Memref.whole Cert.KernelIdeal.cc0_scratch1 : Memref Cert.KernelIdeal.sig Kind.scVector Space.vmem Cert.KernelIdeal.S8x1024 EltTy.i32)
local notation "b2" => (Memref.whole Cert.KernelIdeal.cc0_scratch2 : Memref Cert.KernelIdeal.sig Kind.scVector Space.vmem Cert.KernelIdeal.S8x1024 EltTy.i32)

omit [FloatOps F] in
/-- A scratch buffer a chunk has landed in holds, at `q`, the table under position `q` of the chunk. -/
theorem landed0 (dp : Buf (Elt F) ((V d (cV L) (jV L)).loc cc0_scratch0)) (xm : Buf (Elt F) (xLoc d)) (q : S8x1024.Idx) :
    ((b0).view.writes (Elt F) dp [⟨Rect.whole S8x1024, ReadAs.same.apply ((xChunk L ch).view.read (Elt F) xm)⟩]) q
      = xm ((xChunk L ch).view.emb q) := by
  refine (congrFun (View.write_univ_eq_writes_whole (b0).view dp [] ((xChunk L ch).view.read (Elt F) xm)).symm q).trans ?_
  refine (congrFun (View.write_whole_univ (cc0_scratch0 : Ref sig .scVector) dp ((xChunk L ch).view.read (Elt F) xm)) q).trans ?_
  exact (View.read_apply _ _).trans (cast_eq _ _)

omit [FloatOps F] in
/-- The same for the second scratch buffer. -/
theorem landed1 (dp : Buf (Elt F) ((V d (cV L) (jV L)).loc cc0_scratch1)) (xm : Buf (Elt F) (xLoc d)) (q : S8x1024.Idx) :
    ((b1).view.writes (Elt F) dp [⟨Rect.whole S8x1024, ReadAs.same.apply ((xChunk L ch).view.read (Elt F) xm)⟩]) q
      = xm ((xChunk L ch).view.emb q) := by
  refine (congrFun (View.write_univ_eq_writes_whole (b1).view dp [] ((xChunk L ch).view.read (Elt F) xm)).symm q).trans ?_
  refine (congrFun (View.write_whole_univ (cc0_scratch1 : Ref sig .scVector) dp ((xChunk L ch).view.read (Elt F) xm)) q).trans ?_
  exact (View.read_apply _ _).trans (cast_eq _ _)

omit [FloatOps F] in
/-- The same for the third scratch buffer. -/
theorem landed2 (dp : Buf (Elt F) ((V d (cV L) (jV L)).loc cc0_scratch2)) (xm : Buf (Elt F) (xLoc d)) (q : S8x1024.Idx) :
    ((b2).view.writes (Elt F) dp [⟨Rect.whole S8x1024, ReadAs.same.apply ((xChunk L ch).view.read (Elt F) xm)⟩]) q
      = xm ((xChunk L ch).view.emb q) := by
  refine (congrFun (View.write_univ_eq_writes_whole (b2).view dp [] ((xChunk L ch).view.read (Elt F) xm)).symm q).trans ?_
  refine (congrFun (View.write_whole_univ (cc0_scratch2 : Ref sig .scVector) dp ((xChunk L ch).view.read (Elt F) xm)) q).trans ?_
  exact (View.read_apply _ _).trans (cast_eq _ _)

end Landed

end Cert.Proof.HistI

end
-- ==== Proof.TileOffsI.lean ====
/-
  The printed offset chains of the loops, in closed form, decided once over all trips: trip `k` of the zeroing loop
  addresses row `k / 8`, lanes `16 (k % 8) …`; trip `k` of a counting loop, vector `j`, addresses row `k / 4` of the slot,
  columns `256 (k % 4) + 16 j …`.
-/
import proofs.«217704_g70050916598121_cont_9to1_m_91_37_alg».proof.Proof.TileResI

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

set_option maxRecDepth 100000 in
theorem off1_eq : ∀ k : Fin k0_t1_loop.trips, k0_off1 k = ![k.val / 8, 16 * (k.val % 8)] := by decide +kernel
theorem trips1 : k0_t1_loop.trips = 6400 := by decide +kernel
theorem trips2 : k0_t2_loop.trips = 10 := by decide +kernel
theorem trips3 : k0_t3_loop.trips = 32 := by decide +kernel
theorem trips4 : k0_t4_loop.trips = 32 := by decide +kernel
theorem trips5 : k0_t5_loop.trips = 32 := by decide +kernel
theorem trips6 : k0_t6_loop.trips = 32 := by decide +kernel
theorem trips7 : k0_t7_loop.trips = 32 := by decide +kernel
theorem off5_eq : ∀ (k : Fin k0_t3_loop.trips) (r : Fin 16), k0_off5 k (BitVec.ofNat 32 (16 * r.val)) = ![k.val / 4, 256 * (k.val % 4) + 16 * r.val] := by decide +kernel
theorem off7_eq : ∀ (k : Fin k0_t4_loop.trips) (r : Fin 16), k0_off7 k (BitVec.ofNat 32 (16 * r.val)) = ![k.val / 4, 256 * (k.val % 4) + 16 * r.val] := by decide +kernel
theorem off9_eq : ∀ (k : Fin k0_t5_loop.trips) (r : Fin 16), k0_off9 k (BitVec.ofNat 32 (16 * r.val)) = ![k.val / 4, 256 * (k.val % 4) + 16 * r.val] := by decide +kernel
theorem off11_eq : ∀ (k : Fin k0_t6_loop.trips) (r : Fin 16), k0_off11 k (BitVec.ofNat 32 (16 * r.val)) = ![k.val / 4, 256 * (k.val % 4) + 16 * r.val] := by decide +kernel
theorem off12_eq : ∀ (k : Fin k0_t7_loop.trips) (r : Fin 16), k0_off12 k (BitVec.ofNat 32 (16 * r.val)) = ![k.val / 4, 256 * (k.val % 4) + 16 * r.val] := by decide +kernel

end Cert.Proof.HistI

end
-- ==== Proof.IdxArith.lean ====
/-
  The arithmetic of one word of the table. A word `w` with `w ≤ 99999` is non-negative, so its arithmetic shift
  right by 7 is the quotient `w / 128`, at most 781; its bitwise and with 127 is the remainder `w % 128`. Hence
  the two index vectors `v >>> 7`, `v &&& 127` of sixteen such words name entries of the 800 × 128 table.
-/
import proofs.«217704_g70050916598121_cont_9to1_m_91_37_alg».proof.Proof.HistSet

noncomputable section

namespace Cert.Hist

open Idealize.ShloMosaic

/-- A non-negative word shifted right arithmetically by 7 is its quotient by 128. -/
theorem word_shr (w : BitVec 32) (hw : w.toNat ≤ 99999) :
    (IntOp.shrsi .vector w 7#32).toNat = w.toNat / 128 := by
  have hm : w.msb = false := by
    rw [BitVec.msb_eq_false_iff_two_mul_lt]; omega
  unfold IntOp.shrsi
  rw [if_pos (by decide), BitVec.toNat_sshiftRight'_of_msb_false hm, Nat.shiftRight_eq_div_pow]
  rfl

/-- A word's bitwise and with 127 is its remainder modulo 128. -/
theorem word_and (w : BitVec 32) :
    (IntOp.andi w 127#32).toNat = w.toNat % 128 := by
  unfold IntOp.andi
  rw [BitVec.toNat_and]
  exact Nat.and_two_pow_sub_one_eq_mod w.toNat 7

theorem shr_lane (v : IVec SL 32) (l : SL.Idx) (hv : (v l).toNat ≤ 99999) :
    (shrsi v (broadcast SL 7#32) l).toNat = (v l).toNat / 128 := word_shr (v l) hv

theorem and_lane (v : IVec SL 32) (l : SL.Idx) :
    (andi v (broadcast SL 127#32) l).toNat = (v l).toNat % 128 := word_and (v l)

/-- The row index is below 800 and the lane index below 128. -/
theorem chk_ok (v : IVec SL 32) (hv : ∀ l, (v l).toNat ≤ 99999) :
    ∀ (a : Fin 2) (l : SL.Idx),
      ((![shrsi v (broadcast SL 7#32), andi v (broadcast SL 127#32)] : Fin 2 → IVec SL 32) a l).toNat < SH.size a := by
  intro a l
  have h := hv l
  fin_cases a
  · show (shrsi v (broadcast SL 7#32) l).toNat < 800
    rw [shr_lane v l h]; omega
  · show (andi v (broadcast SL 127#32) l).toNat < 128
    rw [and_lane v l]; omega

end Cert.Hist

end
-- ==== Proof.HistStep.lean ====
/-
  One indexed add, as counting. An indexed add with every mask bit set adds, at each entry of the table, the
  stored values of the lanes whose index vectors name that entry (the lanes are taken in ascending order, and
  addition of words commutes). With index vectors `v >>> 7`, `v &&& 127` and sixteen ones stored, lane `l` names
  the entry `q` exactly when `v l = 128 q₀ + q₁`; so if the words `v l` are those of sixteen distinct positions
  outside a set `A`, the add takes the counts of `A` to the counts of `A` with those positions. The counts of the
  empty set are zero, counts over disjoint sets add, and the counts of a worker's whole band of rows are the
  specification's partial counts.
-/
import proofs.«217704_g70050916598121_cont_9to1_m_91_37_alg».proof.Proof.IdxArith
import proofs.«217704_g70050916598121_cont_9to1_m_91_37_alg».proof.Proof.ShareSets

noncomputable section

namespace Cert.Hist

open Idealize.ShloMosaic

variable {F : FTy → Type} [FloatOps F]

/-- The lanes folded one after another: each adds its value at the entry it names. -/
theorem storeIdx_foldl_add {s : Shape} {d : Fin 1 → Nat} (idxs : Fin s.rank → IVec ⟨1, d⟩ 32)
    (v : IVec ⟨1, d⟩ 32) (h : ∀ a x, (idxs a x).toNat < s.size a) (L : List (Fin (d 0))) (f : IVec s 32) :
    L.foldl (fun (g : IVec s 32) k =>
      let x := Shape.ofLane k
      if (fun _ => 1#1 : IVec ⟨1, d⟩ 1) x = 1 then
        let i := idxAt idxs h x
        let y := if true then Elt.idxAdd (F := F) .i32 (g i) (v x) else v x
        fun j => if (∀ a, (j a).val = (i a).val) then y else g j
      else g) f
    = fun j => f j + (L.map fun k => if (∀ a, (j a).val = (idxAt idxs h (Shape.ofLane k) a).val) then v (Shape.ofLane k) else 0#32).sum := by
  induction L generalizing f with
  | nil => funext j; simp
  | cons k L ih =>
    rw [List.foldl_cons, ih]
    funext j
    have h1 : (1#1 : BitVec 1) = 1 := rfl
    simp only [List.map_cons, List.sum_cons, if_true, Elt.idxAdd_i32]
    rw [if_pos h1]
    by_cases hj : ∀ a, (j a).val = (idxAt idxs h (Shape.ofLane k) a).val
    · have : j = idxAt idxs h (Shape.ofLane k) := funext fun a => Fin.ext (hj a)
      rw [if_pos hj, if_pos hj, this, add_assoc]
    · rw [if_neg hj, if_neg hj, BitVec.zero_add]

/-- An indexed add with every mask bit set adds at each entry the values of the lanes naming it. -/
theorem storeIdx_add_eq_sum {s : Shape} {d : Fin 1 → Nat} (f : IVec s 32) (idxs : Fin s.rank → IVec ⟨1, d⟩ 32)
    (v : IVec ⟨1, d⟩ 32) (h : ∀ a x, (idxs a x).toNat < s.size a) :
    storeIdx (F := F) (e := .i32) f idxs v (fun _ => 1#1) true h
    = fun j => f j + ∑ k : Fin (d 0), if (∀ a, (j a).val = (idxAt idxs h (Shape.ofLane k) a).val) then v (Shape.ofLane k) else 0#32 := by
  unfold storeIdx
  rw [storeIdx_foldl_add]
  funext j
  rw [Fin.sum_univ_def]

/-- The lanes of a rank-one shape are its indices. -/
theorem ofLane_bijective (d : Fin 1 → Nat) : Function.Bijective (Shape.ofLane (d := d)) := by
  constructor
  · intro k k' hk
    have := congrArg (fun l => (l 0).val) hk
    exact Fin.ext this
  · intro l
    refine ⟨l 0, ?_⟩
    funext a
    have ha : a = 0 := Fin.eq_zero a
    subst ha
    exact Fin.ext rfl

/-- The empty set of positions counts nothing. -/
theorem histOf_empty (x : IVec ST 32) : histOf x ∅ = fun _ => 0#32 := by
  funext q; simp [histOf]

/-- Counting over a disjoint union adds. -/
theorem histOf_union (x : IVec ST 32) (A B : Finset ST.Idx) (hAB : Disjoint A B) :
    histOf x (A ∪ B) = fun q => histOf x A q + histOf x B q := by
  funext q; unfold histOf; rw [Finset.sum_union hAB]

/-- The entry named by lane `l` of the index vectors `v >>> 7`, `v &&& 127` is `q` exactly when the word
    `v l` is `128 q₀ + q₁`. -/
theorem idx_match (v : IVec SL 32) (hv : ∀ l, (v l).toNat ≤ 99999)
    (h : ∀ (a : Fin 2) (l : SL.Idx),
      ((![shrsi v (broadcast SL 7#32), andi v (broadcast SL 127#32)] : Fin 2 → IVec SL 32) a l).toNat < SH.size a)
    (q : SH.Idx) (l : SL.Idx) :
    (∀ a : Fin 2, (q a).val = (idxAt (s := SH) ![shrsi v (broadcast SL 7#32), andi v (broadcast SL 127#32)] h l a).val)
      ↔ (v l).toNat = 128 * (q 0).val + (q 1).val := by
  rw [Fin.forall_fin_two]
  show (q 0).val = (shrsi v (broadcast SL 7#32) l).toNat ∧ (q 1).val = (andi v (broadcast SL 127#32) l).toNat ↔ _
  rw [shr_lane v l (hv l), and_lane]
  have : (q 1).val < 128 := (q 1).isLt
  omega

/-- One indexed add of sixteen ones, at the entries named by sixteen fresh positions' words, counts those positions. -/
theorem hist_step (x : IVec ST 32) (A : Finset ST.Idx) (pos : SL.Idx → ST.Idx) (hinj : Function.Injective pos)
    (hA : ∀ l, pos l ∉ A) (v : IVec SL 32) (hvx : ∀ l, v l = x (pos l)) (hv : ∀ l, (v l).toNat ≤ 99999)
    (h : ∀ (a : Fin 2) (l : SL.Idx),
      ((![shrsi v (broadcast SL 7#32), andi v (broadcast SL 127#32)] : Fin 2 → IVec SL 32) a l).toNat < SH.size a) :
    storeIdx (F := F) (s := SH) (e := .i32) (histOf x A) ![shrsi v (broadcast SL 7#32), andi v (broadcast SL 127#32)]
      (fun _ => 1#32) (fun _ => 1#1) true h
    = histOf x (A ∪ Finset.univ.image pos) := by
  have hd : Disjoint A (Finset.univ.image pos) := by
    rw [Finset.disjoint_right]
    intro p hp
    obtain ⟨l, _, rfl⟩ := Finset.mem_image.mp hp
    exact hA l
  rw [storeIdx_add_eq_sum, histOf_union x A _ hd]
  funext q
  refine congrArg (fun t => histOf x A q + t) ?_
  unfold histOf
  rw [Finset.sum_image (fun a _ b _ hab => hinj hab)]
  rw [← (ofLane_bijective _).sum_comp (fun l : SL.Idx => if (x (pos l)).toNat = 128 * (q 0).val + (q 1).val then 1#32 else 0#32)]
  refine Finset.sum_congr rfl fun k _ => ?_
  have := idx_match v hv h q (Shape.ofLane k)
  rw [hvx] at this
  by_cases hc : (x (pos (Shape.ofLane k))).toNat = 128 * (q 0).val + (q 1).val
  · rw [if_pos hc, if_pos (this.mpr hc)]
  · rw [if_neg hc, if_neg (fun hh => hc (this.mp hh))]

/-- Counting over a worker's band is the specification's partial count. -/
theorem histOf_band (x : IVec ST 32) (w : Fin 32) (q : SH.Idx) :
    histOf x (band w) q = cntW x w (128 * (q 0).val + (q 1).val) := by
  unfold histOf band cntW
  rw [Finset.sum_filter]
  refine Finset.sum_congr rfl fun p _ => ?_
  by_cases h1 : (p 0).val / 128 = w.val
  · by_cases h2 : (x p).toNat = 128 * (q 0).val + (q 1).val
    · rw [if_pos h1, if_pos h2, if_pos ⟨h1, h2⟩]
    · rw [if_pos h1, if_neg h2, if_neg (fun h => h2 h.2)]
  · rw [if_neg h1, if_neg (fun h => h1 h.1)]; rfl

end Cert.Hist

end
-- ==== Proof.ZeroTripI.lean ====
/-
  One trip of the zeroing loop. Trip `k` stores sixteen zeros at row `k / 8`, lanes `16 (k % 8) … 16 (k % 8) + 15` of the
  table of counts, that is at the entries numbered `16 k … 16 k + 15` in row-major order; so if the entries numbered
  below `16 k` were zero before the trip, those below `16 (k + 1)` are zero after it. A table that is zero everywhere
  is the table of counts of no position.
-/
import proofs.«217704_g70050916598121_cont_9to1_m_91_37_alg».proof.Proof.ChunkSetsI
import proofs.«217704_g70050916598121_cont_9to1_m_91_37_alg».proof.Proof.TileOffsI
import proofs.«217704_g70050916598121_cont_9to1_m_91_37_alg».proof.Proof.ShareSets
import proofs.«217704_g70050916598121_cont_9to1_m_91_37_alg».proof.Proof.HistStep
import Idealize.ShloMosaic.Lib.Pipeline.Value

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

open ValueIdx

local notation "hW" => (Memref.whole Cert.KernelIdeal.cc0_scratch3 : Memref Cert.KernelIdeal.sig Kind.scVector Space.vmem Cert.KernelIdeal.S800x128 EltTy.i32)

section Zero
variable (d : Dev nD) (L : grid0.Coords)

omit [FloatOps F] in
/-- After trip `k` of the zeroing loop the entries numbered below `16 (k + 1)` are zero, if those below `16 k` were. -/
theorem zero_trip (f : Buf (Elt F) ((V d (cV L) (jV L)).loc cc0_scratch3)) (k : Fin k0_t1_loop.trips)
    (hf : ∀ q : S800x128.Idx, 128 * (q 0).val + (q 1).val < 16 * k.val → f q = 0#32) :
    ∀ q : S800x128.Idx, 128 * (q 0).val + (q 1).val < 16 * (k.val + 1) →
      ((hW).view.writes (Elt F) f [⟨Rect.unit (s := S800x128) (k0_off1 k) S1x16.size (k0_off1_inb k),
        shapeCast S1x16 k0_pay229 shapeCasts_S16_S1x16⟩]) q = 0#32 := by
  intro q hq
  by_cases hm : q ∈ (Rect.unit (s := S800x128) (k0_off1 k) S1x16.size (k0_off1_inb k)).set
  · obtain ⟨x, rfl⟩ := (Rect.unit (s := S800x128) (k0_off1 k) S1x16.size (k0_off1_inb k)).exists_idx_of_mem hm
    exact View.read_writes_cons_emb (hW).view f (Rect.unit (s := S800x128) (k0_off1 k) S1x16.size (k0_off1_inb k))
      (shapeCast S1x16 k0_pay229 shapeCasts_S16_S1x16) [] x
  · refine (View.read_writes_apply_of_forall_not_mem (hW).view f q
      [⟨Rect.unit (s := S800x128) (k0_off1 k) S1x16.size (k0_off1_inb k), shapeCast S1x16 k0_pay229 shapeCasts_S16_S1x16⟩]
      (fun p hp => by rw [List.mem_singleton] at hp; subst hp; exact hm)).trans ?_
    refine hf q ?_
    rw [Rect.mem_set_unit, Fin.forall_fin_two, off1_eq] at hm
    have h1 : (q 1).val < 128 := (q 1).isLt
    have hm' : ¬ ((k.val / 8 ≤ (q 0).val ∧ (q 0).val < k.val / 8 + 1) ∧ (16 * (k.val % 8) ≤ (q 1).val ∧ (q 1).val < 16 * (k.val % 8) + 16)) := hm
    omega

omit [FloatOps F] in
/-- A table that is zero everywhere is the table of counts of no position. -/
theorem zero_hist (f : Buf (Elt F) ((V d (cV L) (jV L)).loc cc0_scratch3)) (hf : ∀ q : S800x128.Idx, f q = 0#32) :
    f = (Cert.Hist.histOf (xTab m d) ∅ : Buf (Elt F) ((V d (cV L) (jV L)).loc cc0_scratch3)) := by
  rw [Cert.Hist.histOf_empty]
  exact funext hf

end Zero

end Cert.Proof.HistI

end
-- ==== Proof.ShareLemmas.lean ====
/-
  The sets of positions of a worker's walk fit together: the chunks before `0` are empty and those before `32` are the
  whole band; a chunk's positions numbered below `0` are empty, those below `256 · 32` complete the chunk; the sixteen
  positions of a vector are distinct, new, and extend the positions numbered below `256 k + 16 j` to those below
  `256 k + 16 (j + 1)`. Each is a statement about the two coordinates of a position, settled by linear arithmetic with
  division and remainder by constants. Hence one indexed add of the walk, as counting (`lane_hist`).
-/
import proofs.«217704_g70050916598121_cont_9to1_m_91_37_alg».proof.Proof.HistStep

noncomputable section

namespace Cert.Hist

open Idealize.ShloMosaic Idealize.ShloMosaic.ValueIdx

theorem mem_tripPart (w ch : Fin 32) (k j : Nat) (p : ST.Idx) :
    p ∈ tripPart w ch k j ↔ (p 0).val / 128 = w.val
      ∧ 2 * ((p 0).val % 128 / 8) + (p 1).val / 1024 = ch.val
      ∧ 1024 * ((p 0).val % 8) + (p 1).val % 1024 < 256 * k + 16 * j := by
  unfold tripPart; rw [Finset.mem_filter]; exact and_iff_right (Finset.mem_univ p)

theorem mem_doneSet (w : Fin 32) (n : Nat) (p : ST.Idx) :
    p ∈ doneSet w n ↔ (p 0).val / 128 = w.val ∧ 2 * ((p 0).val % 128 / 8) + (p 1).val / 1024 < n := by
  unfold doneSet; rw [Finset.mem_filter]; exact and_iff_right (Finset.mem_univ p)

theorem mem_band (w : Fin 32) (p : ST.Idx) : p ∈ band w ↔ (p 0).val / 128 = w.val := by
  unfold band; rw [Finset.mem_filter]; exact and_iff_right (Finset.mem_univ p)

/-- The sixteen positions of a vector, by coordinates. -/
theorem mem_laneSet (w ch k : Fin 32) (j : Fin 16) (p : ST.Idx) :
    p ∈ laneSet w ch k j ↔ (p 0).val = 128 * w.val + 8 * (ch.val / 2) + k.val / 4
      ∧ 1024 * (ch.val % 2) + (256 * (k.val % 4) + 16 * j.val) ≤ (p 1).val
      ∧ (p 1).val < 1024 * (ch.val % 2) + (256 * (k.val % 4) + 16 * j.val) + 16 := by
  unfold laneSet
  rw [Finset.mem_image]
  constructor
  · rintro ⟨l, _, rfl⟩
    have : (l 0).val < 16 := (l 0).isLt
    rw [lanePos_row, lanePos_col]; omega
  · rintro ⟨h0, h1, h2⟩
    refine ⟨ix1 ⟨(p 1).val - (1024 * (ch.val % 2) + (256 * (k.val % 4) + 16 * j.val)), by omega⟩, Finset.mem_univ _, ?_⟩
    funext a
    match a with
    | ⟨0, _⟩ => exact Fin.ext ((lanePos_row w ch k j _).trans h0.symm)
    | ⟨1, _⟩ =>
      refine Fin.ext ((lanePos_col w ch k j _).trans ?_)
      show _ + (_ + ((p 1).val - _)) = (p 1).val
      omega

theorem lanePos_injective (w ch k : Fin 32) (j : Fin 16) : Function.Injective (lanePos w ch k j) := by
  intro l l' h
  have h1 := congrArg (fun p : ST.Idx => (p 1).val) h
  simp only [lanePos_col] at h1
  funext a
  have ha : a = 0 := Fin.eq_zero a
  subst ha
  exact Fin.ext (by omega)

theorem lanePos_not_mem (w ch k : Fin 32) (j : Fin 16) (l : SL.Idx) :
    lanePos w ch k j l ∉ doneSet w ch.val ∪ tripPart w ch k.val j.val := by
  have hl : (l 0).val < 16 := (l 0).isLt
  have := w.isLt; have := ch.isLt; have := k.isLt; have := j.isLt
  rw [Finset.mem_union, mem_doneSet, mem_tripPart, lanePos_row, lanePos_col]
  omega

theorem tripPart_succ (w ch k : Fin 32) (j : Fin 16) :
    tripPart w ch k.val (j.val + 1) = tripPart w ch k.val j.val ∪ laneSet w ch k j := by
  ext p
  have := w.isLt; have := ch.isLt; have := k.isLt; have := j.isLt
  have := idx2_lt0 p; have := idx2_lt1 p
  rw [Finset.mem_union, mem_tripPart, mem_tripPart, mem_laneSet]
  omega

theorem tripPart_next (w ch : Fin 32) (k : Nat) : tripPart w ch k 16 = tripPart w ch (k + 1) 0 := by
  ext p
  rw [mem_tripPart, mem_tripPart]
  omega

theorem tripPart_zero (w ch : Fin 32) : tripPart w ch 0 0 = ∅ := by
  ext p
  rw [mem_tripPart]
  simp only [Finset.notMem_empty, iff_false]
  omega

theorem doneSet_succ (w ch : Fin 32) : doneSet w ch.val ∪ tripPart w ch 32 0 = doneSet w (ch.val + 1) := by
  ext p
  have := idx2_lt0 p; have := idx2_lt1 p
  rw [Finset.mem_union, mem_doneSet, mem_doneSet, mem_tripPart]
  omega

theorem doneSet_zero (w : Fin 32) : doneSet w 0 = ∅ := by
  ext p
  rw [mem_doneSet]
  simp only [Finset.notMem_empty, iff_false]
  omega

theorem doneSet_all (w : Fin 32) : doneSet w 32 = band w := by
  ext p
  have := idx2_lt0 p; have := idx2_lt1 p
  rw [mem_doneSet, mem_band]
  omega

variable {F : FTy → Type} [FloatOps F]

/-- One indexed add of the kernel's walk: the sixteen words of vector `j` of trip `k` of chunk `ch` are counted. -/
theorem lane_hist (x : IVec ST 32) (hx : ∀ p, (x p).toNat ≤ 99999) (w ch k : Fin 32) (j : Fin 16)
    (v : IVec SL 32) (hvx : ∀ l, v l = x (lanePos w ch k j l))
    (h : ∀ (a : Fin 2) (l : SL.Idx),
      ((![shrsi v (broadcast SL 7#32), andi v (broadcast SL 127#32)] : Fin 2 → IVec SL 32) a l).toNat < SH.size a) :
    storeIdx (F := F) (s := SH) (e := .i32) (histOf x (doneSet w ch.val ∪ tripPart w ch k.val j.val))
      ![shrsi v (broadcast SL 7#32), andi v (broadcast SL 127#32)] (fun _ => 1#32) (fun _ => 1#1) true h
    = histOf x (doneSet w ch.val ∪ tripPart w ch k.val (j.val + 1)) := by
  rw [hist_step x _ (lanePos w ch k j) (lanePos_injective w ch k j) (lanePos_not_mem w ch k j) v hvx
    (fun l => by rw [hvx]; exact hx _) h]
  rw [tripPart_succ, ← Finset.union_assoc]
  rfl

end Cert.Hist

end
-- ==== Proof.TileZeroI.lean ====
/-
  The zeroing loop of one vector subcore. Before trip `k` the entries of the table of counts numbered below `16 k` (in
  row-major order) are zero; trip `k` stores sixteen zeros at the entries `16 k … 16 k + 15`. Before the first trip
  nothing is asked of the table; after the last one, trip 6399, every entry is zero: the table of counts of no
  position.
-/
import proofs.«217704_g70050916598121_cont_9to1_m_91_37_alg».proof.Proof.TileInvI
import proofs.«217704_g70050916598121_cont_9to1_m_91_37_alg».proof.Proof.ZeroTripI
import proofs.«217704_g70050916598121_cont_9to1_m_91_37_alg».proof.Proof.ShareLemmas

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.KernelIdeal.main_arg0_scv : Memref Cert.KernelIdeal.sig Kind.scVector Space.hbm Cert.KernelIdeal.S4096x2048 EltTy.i32)
local notation "pW" => (Memref.whole Cert.KernelIdeal.main_v0_scv : Memref Cert.KernelIdeal.sig Kind.scVector Space.hbm Cert.KernelIdeal.S32x800x128 EltTy.i32)
local notation "b0" => (Memref.whole Cert.KernelIdeal.cc0_scratch0 : Memref Cert.KernelIdeal.sig Kind.scVector Space.vmem Cert.KernelIdeal.S8x1024 EltTy.i32)
local notation "b1" => (Memref.whole Cert.KernelIdeal.cc0_scratch1 : Memref Cert.KernelIdeal.sig Kind.scVector Space.vmem Cert.KernelIdeal.S8x1024 EltTy.i32)
local notation "b2" => (Memref.whole Cert.KernelIdeal.cc0_scratch2 : Memref Cert.KernelIdeal.sig Kind.scVector Space.vmem Cert.KernelIdeal.S8x1024 EltTy.i32)
local notation "hW" => (Memref.whole Cert.KernelIdeal.cc0_scratch3 : Memref Cert.KernelIdeal.sig Kind.scVector Space.vmem Cert.KernelIdeal.S800x128 EltTy.i32)

section Tile
variable (d : Dev nD) (L : grid0.Coords)

/-- Before trip `k` of the zeroing loop: the table of counts is held, and its entries numbered below `16 k` are zero. -/
def zeroInv (k : Nat) (_ : Unit) : sProp 𝕄 :=
  iprop(∃ f, ((hW).view.loc (V d (cV L) (jV L)) ↦{fullShare} f) ∗ ⌜∀ q : S800x128.Idx, 128 * (q 0).val + (q 1).val < 16 * k → f q = 0#32⌝)

/-- One trip keeps the invariant. -/
theorem zero_region (k : Fin k0_t1_loop.trips) (acc : Unit) :
    zeroInv (F := F) d L k.val acc
      ⊢ wp frame (wpE (defs₀ (F := F)) 𝒱₀ (V d (cV L) (jV L)) none) Set.univ
          (k0_t1_body L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0 k acc)
          (zeroInv (F := F) d L (k.val + 1)) := by
  unfold zeroInv k0_t1_body
  iintro ⟨%f, Hh, %hf⟩
  sl_exec
  sl_step
  iexists _
  isplitl [Hh]
  · iexact Hh
  ipureintro
  exact zero_trip d L f k hf

omit [FloatOps F] in
/-- Nothing is asked before the first trip. -/
theorem zero_init (acc : Unit) :
    (iprop(∃ f, (V d (cV L) (jV L)).loc cc0_scratch3 ↦{fullShare} f) : sProp 𝕄) ⊢ zeroInv (F := F) d L 0 acc := by
  unfold zeroInv
  iintro ⟨%f, Hh⟩
  iexists f
  isplitl [Hh]
  · iexact Hh
  ipureintro
  intro q hq
  omega

omit [FloatOps F] in
/-- After the last trip the table is the table of counts of no position. -/
theorem zero_done (acc : Unit) :
    zeroInv (F := F) d L k0_t1_loop.trips acc
      ⊢ ((hW).view.loc (V d (cV L) (jV L)) ↦{fullShare} histBuf m d L (Cert.Hist.doneSet (wOf L) 0) : sProp 𝕄) := by
  unfold zeroInv
  iintro ⟨%f, Hh, %hf⟩
  have hz : ∀ q : S800x128.Idx, f q = 0#32 := fun q => hf q (by
    have h0 : (q 0).val < 800 := (q 0).isLt
    have h1 : (q 1).val < 128 := (q 1).isLt
    rw [trips1]; omega)
  have e : f = histBuf m d L ∅ := zero_hist m d L f hz
  rw [Cert.Hist.doneSet_zero, ← e]
  iexact Hh

end Tile

end Cert.Proof.HistI

end
-- ==== Proof.SlotReadsI.lean ====
/-
  What the walk over a slot reads and writes, as plain functions. A slot that holds chunk `ch` reads, at lane `l` of
  the vector loaded at row `k / 4` and columns `256 (k % 4) + 16 j …`, the table's word at lane `l` of vector `j` of trip
  `k` of the chunk; every word so read is at most 99999, so the row and lane indices computed from it are inside the
  800 × 128 table of counts; one indexed add of sixteen ones at those indices takes the counts of the positions walked
  so far to the counts with the sixteen positions of the vector added. Reading or writing the whole table of counts is
  the identity.
-/
import proofs.«217704_g70050916598121_cont_9to1_m_91_37_alg».proof.Proof.ChunkSetsI
import proofs.«217704_g70050916598121_cont_9to1_m_91_37_alg».proof.Proof.ShareSets
import proofs.«217704_g70050916598121_cont_9to1_m_91_37_alg».proof.Proof.HistStep
import proofs.«217704_g70050916598121_cont_9to1_m_91_37_alg».proof.Proof.ShareLemmas
import Idealize.ShloMosaic.Lib.Pipeline.Value

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

open ValueIdx

local notation "b0" => (Memref.whole Cert.KernelIdeal.cc0_scratch0 : Memref Cert.KernelIdeal.sig Kind.scVector Space.vmem Cert.KernelIdeal.S8x1024 EltTy.i32)
local notation "b1" => (Memref.whole Cert.KernelIdeal.cc0_scratch1 : Memref Cert.KernelIdeal.sig Kind.scVector Space.vmem Cert.KernelIdeal.S8x1024 EltTy.i32)
local notation "b2" => (Memref.whole Cert.KernelIdeal.cc0_scratch2 : Memref Cert.KernelIdeal.sig Kind.scVector Space.vmem Cert.KernelIdeal.S8x1024 EltTy.i32)
local notation "hW" => (Memref.whole Cert.KernelIdeal.cc0_scratch3 : Memref Cert.KernelIdeal.sig Kind.scVector Space.vmem Cert.KernelIdeal.S800x128 EltTy.i32)

section Whole
variable (d : Dev nD) (L : grid0.Coords)

omit [FloatOps F] in
/-- A write of the whole table replaces it. -/
theorem hW_writes_whole (f P : Buf (Elt F) ((V d (cV L) (jV L)).loc cc0_scratch3)) :
    (hW).view.writes (Elt F) f [⟨Rect.whole S800x128, P⟩] = P :=
  (View.write_univ_eq_writes_whole (hW).view f [] P).symm.trans
    (View.write_whole_univ (cc0_scratch3 : Ref sig .scVector) f P)

omit [FloatOps F] in
/-- The whole rectangle places every index at itself. -/
theorem whole_idx {s : Shape} (q : (LoadRect.whole s).shape.Idx) : (LoadRect.whole s).idx q = q := by
  funext a
  apply Fin.ext
  show 0 + 1 * (q a).val = (q a).val
  omega

omit [FloatOps F] in
/-- A read of the whole table reads it. -/
theorem hW_readAt_whole (f : Buf (Elt F) ((V d (cV L) (jV L)).loc cc0_scratch3)) :
    View.readAt (Elt F) (hW).view (LoadRect.whole S800x128) f = f := by
  funext q
  show f ((LoadRect.whole S800x128).idx q) = f q
  rw [whole_idx]

omit [FloatOps F] in
/-- A load from a whole slot reads the slot's contents at the load's positions. -/
theorem readAt_b0 (cb : Buf (Elt F) ((V d (cV L) (jV L)).loc cc0_scratch0)) (R : LoadRect S8x1024) (x : R.shape.Idx) :
    View.readAt (Elt F) (b0).view R cb x = cb (R.idx x) := rfl
omit [FloatOps F] in
theorem readAt_b1 (cb : Buf (Elt F) ((V d (cV L) (jV L)).loc cc0_scratch1)) (R : LoadRect S8x1024) (x : R.shape.Idx) :
    View.readAt (Elt F) (b1).view R cb x = cb (R.idx x) := rfl
omit [FloatOps F] in
theorem readAt_b2 (cb : Buf (Elt F) ((V d (cV L) (jV L)).loc cc0_scratch2)) (R : LoadRect S8x1024) (x : R.shape.Idx) :
    View.readAt (Elt F) (b2).view R cb x = cb (R.idx x) := rfl

end Whole

section Lane
variable (d : Dev nD) (L : grid0.Coords) (ch : Fin 32)

omit [FloatOps F] in
/-- The table position under element `(k / 4, 256 (k % 4) + 16 j + l)` of a chunk is lane `l` of vector `j` of trip `k`. -/
theorem xChunk_emb_lane (k : Fin 32) (j : Fin 16) (l : S16.Idx) (q : S8x1024.Idx)
    (h0 : (q 0).val = k.val / 4) (h1 : (q 1).val = 256 * (k.val % 4) + 16 * j.val + (l 0).val) :
    ((xChunk L ch).view.emb q : S4096x2048.Idx) = Cert.Hist.lanePos (wOf L) ch k j l := by
  funext a
  apply Fin.ext
  match a with
  | ⟨0, _⟩ =>
    refine (xChunk_emb0 L ch q).trans ?_
    rw [h0]; rfl
  | ⟨1, _⟩ =>
    refine (xChunk_emb1 L ch q).trans ?_
    rw [h1]; rfl

omit [FloatOps F] in
/-- Lane `l` of a row of sixteen, seen as a vector of sixteen. -/
theorem row16_read {α : Type} (y : S1x16.Idx → α) (sc : S1x16.ShapeCasts S16) (l : S16.Idx) :
    shapeCast S16 y sc l = y (ix2 (0 : Fin 1) (l 0 : Fin 16)) := by
  refine shapeCast_apply y sc l (ix2 (0 : Fin 1) (l 0 : Fin 16)) ?_
  refine (Shape.rowMajor_val_two (d := ![1, 16]) _).trans ((Shape.rowMajor_val_one (d := ![16]) l).symm ▸ ?_)
  show 0 * 16 + (l 0).val = (l 0).val
  omega

omit [FloatOps F] in
/-- Lane `l` of the vector loaded at row `k / 4`, columns `256 (k % 4) + 16 j …` of slot 0 holding chunk `ch`: the
    table's word at lane `l` of vector `j` of trip `k` of the chunk. -/
theorem lane0 (cb : Buf (Elt F) ((V d (cV L) (jV L)).loc cc0_scratch0))
    (hcb : ∀ q : S8x1024.Idx, cb q = m (xLoc d) ((xChunk L ch).view.emb q))
    (k : Fin 32) (j : Fin 16) (o : Fin 2 → Nat)
    (ho : o = ![k.val / 4, 256 * (k.val % 4) + 16 * j.val]) (inb : ∀ a, o a + S1x16.size a ≤ S8x1024.size a)
    (sc : S1x16.ShapeCasts S16) (l : S16.Idx) :
    shapeCast S16 (View.readAt (Elt F) (b0).view (Rect.unit (s := S8x1024) o S1x16.size inb).toLoadRect cb) sc l
      = m (xLoc d) (Cert.Hist.lanePos (wOf L) ch k j l) := by
  subst ho
  refine (row16_read _ sc l).trans ?_
  refine (readAt_b0 d L cb _ _).trans ?_
  refine (hcb _).trans ?_
  refine congrArg (m (xLoc d)) (xChunk_emb_lane L ch k j l _ ?_ ?_)
  · show k.val / 4 + 1 * 0 = k.val / 4; omega
  · show 256 * (k.val % 4) + 16 * j.val + 1 * (l 0).val = 256 * (k.val % 4) + 16 * j.val + (l 0).val; omega

omit [FloatOps F] in
/-- Every word read from slot 0 holding a chunk is a word of the table, so at most 99999. -/
theorem lane_le0 (cb : Buf (Elt F) ((V d (cV L) (jV L)).loc cc0_scratch0))
    (hcb : ∀ q : S8x1024.Idx, cb q = m (xLoc d) ((xChunk L ch).view.emb q))
    (hpre : ∀ p, (m (xLoc d) p).toNat ≤ 99999) (R : LoadRect S8x1024) (sc : R.shape.ShapeCasts S16) (l : S16.Idx) :
    ((shapeCast S16 (View.readAt (Elt F) (b0).view R cb) sc) l).toNat ≤ 99999 := by
  show (View.readAt (Elt F) (b0).view R cb (Shape.reshapeEquiv sc l)).toNat ≤ 99999
  rw [readAt_b0, hcb]
  exact hpre _

omit [FloatOps F] in
/-- The row and lane indices computed from a vector read from slot 0 are inside the 800 × 128 table. -/
theorem chk0 (cb : Buf (Elt F) ((V d (cV L) (jV L)).loc cc0_scratch0))
    (hcb : ∀ q : S8x1024.Idx, cb q = m (xLoc d) ((xChunk L ch).view.emb q))
    (hpre : ∀ p, (m (xLoc d) p).toNat ≤ 99999) (R : LoadRect S8x1024) (sc : R.shape.ShapeCasts S16) :
    ∀ (a : Fin 2) (l : S16.Idx),
      ((![shrsi (shapeCast S16 (View.readAt (Elt F) (b0).view R cb) sc) (broadcast S16 7#32),
          andi (shapeCast S16 (View.readAt (Elt F) (b0).view R cb) sc) (broadcast S16 127#32)] : Fin 2 → IVec S16 32) a l).toNat
        < S800x128.size a :=
  Cert.Hist.chk_ok (shapeCast S16 (View.readAt (Elt F) (b0).view R cb) sc) (lane_le0 m d L ch cb hcb hpre R sc)

/-- One indexed add of the walk over slot 0: the whole table of counts read, the sixteen words of vector `j` of trip
    `k` of chunk `ch` counted into it, the whole table written back. -/
theorem scatter_step0 (cb : Buf (Elt F) ((V d (cV L) (jV L)).loc cc0_scratch0))
    (hcb : ∀ q : S8x1024.Idx, cb q = m (xLoc d) ((xChunk L ch).view.emb q))
    (k : Fin 32) (j : Fin 16) (o : Fin 2 → Nat)
    (ho : o = ![k.val / 4, 256 * (k.val % 4) + 16 * j.val]) (inb : ∀ a, o a + S1x16.size a ≤ S8x1024.size a)
    (sc : S1x16.ShapeCasts S16) (hx : ∀ p, (xTab m d p).toNat ≤ 99999)
    (h : ∀ (a : Fin 2) (l : S16.Idx),
      ((![shrsi (shapeCast S16 (View.readAt (Elt F) (b0).view (Rect.unit (s := S8x1024) o S1x16.size inb).toLoadRect cb) sc) (broadcast S16 7#32),
          andi (shapeCast S16 (View.readAt (Elt F) (b0).view (Rect.unit (s := S8x1024) o S1x16.size inb).toLoadRect cb) sc) (broadcast S16 127#32)] : Fin 2 → IVec S16 32) a l).toNat
        < S800x128.size a) :
    (hW).view.writes (Elt F) (Cert.Hist.histOf (xTab m d) (Cert.Hist.doneSet (wOf L) ch.val ∪ Cert.Hist.tripPart (wOf L) ch k.val j.val) : Buf (Elt F) ((V d (cV L) (jV L)).loc cc0_scratch3))
      [⟨Rect.whole S800x128, storeIdx (F := F) (s := S800x128) (e := .i32)
        (View.readAt (Elt F) (hW).view (LoadRect.whole S800x128)
          (Cert.Hist.histOf (xTab m d) (Cert.Hist.doneSet (wOf L) ch.val ∪ Cert.Hist.tripPart (wOf L) ch k.val j.val) : Buf (Elt F) ((V d (cV L) (jV L)).loc cc0_scratch3)))
        ![shrsi (shapeCast S16 (View.readAt (Elt F) (b0).view (Rect.unit (s := S8x1024) o S1x16.size inb).toLoadRect cb) sc) (broadcast S16 7#32),
          andi (shapeCast S16 (View.readAt (Elt F) (b0).view (Rect.unit (s := S8x1024) o S1x16.size inb).toLoadRect cb) sc) (broadcast S16 127#32)]
        (fun _ => 1#32) (fun _ => 1#1) true h⟩]
      = (Cert.Hist.histOf (xTab m d) (Cert.Hist.doneSet (wOf L) ch.val ∪ Cert.Hist.tripPart (wOf L) ch k.val (j.val + 1)) : Buf (Elt F) ((V d (cV L) (jV L)).loc cc0_scratch3)) := by
  refine (hW_writes_whole d L _ _).trans ?_
  rw [hW_readAt_whole d L]
  exact Cert.Hist.lane_hist (F := F) (xTab m d) hx (wOf L) ch k j _ (fun l => lane0 m d L ch cb hcb k j o ho inb sc l) h

omit [FloatOps F] in
/-- Holding slot 0 at what landed is holding it at the chunk's words. -/
theorem slot_pts0 (dp cb : Buf (Elt F) ((V d (cV L) (jV L)).loc cc0_scratch0))
    (hcb : ∀ q : S8x1024.Idx, cb q = m (xLoc d) ((xChunk L ch).view.emb q)) :
    ((b0).view.loc (V d (cV L) (jV L)) ↦[(b0).view.set]{fullShare}
        ((b0).view.writes (Elt F) dp [⟨Rect.whole S8x1024, ReadAs.same.apply ((xChunk L ch).view.read (Elt F) (m (xLoc d)))⟩]) : sProp 𝕄)
      = ((b0).view.loc (V d (cV L) (jV L)) ↦[(b0).view.set]{fullShare} cb) := by
  have e : (b0).view.writes (Elt F) dp [⟨Rect.whole S8x1024, ReadAs.same.apply ((xChunk L ch).view.read (Elt F) (m (xLoc d)))⟩] = cb :=
    funext fun q => (landed0 d L ch dp (m (xLoc d)) q).trans (hcb q).symm
  rw [e]

omit [FloatOps F] in
/-- Lane `l` of the vector loaded at row `k / 4`, columns `256 (k % 4) + 16 j …` of slot 1 holding chunk `ch`: the
    table's word at lane `l` of vector `j` of trip `k` of the chunk. -/
theorem lane1 (cb : Buf (Elt F) ((V d (cV L) (jV L)).loc cc0_scratch1))
    (hcb : ∀ q : S8x1024.Idx, cb q = m (xLoc d) ((xChunk L ch).view.emb q))
    (k : Fin 32) (j : Fin 16) (o : Fin 2 → Nat)
    (ho : o = ![k.val / 4, 256 * (k.val % 4) + 16 * j.val]) (inb : ∀ a, o a + S1x16.size a ≤ S8x1024.size a)
    (sc : S1x16.ShapeCasts S16) (l : S16.Idx) :
    shapeCast S16 (View.readAt (Elt F) (b1).view (Rect.unit (s := S8x1024) o S1x16.size inb).toLoadRect cb) sc l
      = m (xLoc d) (Cert.Hist.lanePos (wOf L) ch k j l) := by
  subst ho
  refine (row16_read _ sc l).trans ?_
  refine (readAt_b1 d L cb _ _).trans ?_
  refine (hcb _).trans ?_
  refine congrArg (m (xLoc d)) (xChunk_emb_lane L ch k j l _ ?_ ?_)
  · show k.val / 4 + 1 * 0 = k.val / 4; omega
  · show 256 * (k.val % 4) + 16 * j.val + 1 * (l 0).val = 256 * (k.val % 4) + 16 * j.val + (l 0).val; omega

omit [FloatOps F] in
/-- Every word read from slot 1 holding a chunk is a word of the table, so at most 99999. -/
theorem lane_le1 (cb : Buf (Elt F) ((V d (cV L) (jV L)).loc cc0_scratch1))
    (hcb : ∀ q : S8x1024.Idx, cb q = m (xLoc d) ((xChunk L ch).view.emb q))
    (hpre : ∀ p, (m (xLoc d) p).toNat ≤ 99999) (R : LoadRect S8x1024) (sc : R.shape.ShapeCasts S16) (l : S16.Idx) :
    ((shapeCast S16 (View.readAt (Elt F) (b1).view R cb) sc) l).toNat ≤ 99999 := by
  show (View.readAt (Elt F) (b1).view R cb (Shape.reshapeEquiv sc l)).toNat ≤ 99999
  rw [readAt_b1, hcb]
  exact hpre _

omit [FloatOps F] in
/-- The row and lane indices computed from a vector read from slot 1 are inside the 800 × 128 table. -/
theorem chk1 (cb : Buf (Elt F) ((V d (cV L) (jV L)).loc cc0_scratch1))
    (hcb : ∀ q : S8x1024.Idx, cb q = m (xLoc d) ((xChunk L ch).view.emb q))
    (hpre : ∀ p, (m (xLoc d) p).toNat ≤ 99999) (R : LoadRect S8x1024) (sc : R.shape.ShapeCasts S16) :
    ∀ (a : Fin 2) (l : S16.Idx),
      ((![shrsi (shapeCast S16 (View.readAt (Elt F) (b1).view R cb) sc) (broadcast S16 7#32),
          andi (shapeCast S16 (View.readAt (Elt F) (b1).view R cb) sc) (broadcast S16 127#32)] : Fin 2 → IVec S16 32) a l).toNat
        < S800x128.size a :=
  Cert.Hist.chk_ok (shapeCast S16 (View.readAt (Elt F) (b1).view R cb) sc) (lane_le1 m d L ch cb hcb hpre R sc)

/-- One indexed add of the walk over slot 1: the whole table of counts read, the sixteen words of vector `j` of trip
    `k` of chunk `ch` counted into it, the whole table written back. -/
theorem scatter_step1 (cb : Buf (Elt F) ((V d (cV L) (jV L)).loc cc0_scratch1))
    (hcb : ∀ q : S8x1024.Idx, cb q = m (xLoc d) ((xChunk L ch).view.emb q))
    (k : Fin 32) (j : Fin 16) (o : Fin 2 → Nat)
    (ho : o = ![k.val / 4, 256 * (k.val % 4) + 16 * j.val]) (inb : ∀ a, o a + S1x16.size a ≤ S8x1024.size a)
    (sc : S1x16.ShapeCasts S16) (hx : ∀ p, (xTab m d p).toNat ≤ 99999)
    (h : ∀ (a : Fin 2) (l : S16.Idx),
      ((![shrsi (shapeCast S16 (View.readAt (Elt F) (b1).view (Rect.unit (s := S8x1024) o S1x16.size inb).toLoadRect cb) sc) (broadcast S16 7#32),
          andi (shapeCast S16 (View.readAt (Elt F) (b1).view (Rect.unit (s := S8x1024) o S1x16.size inb).toLoadRect cb) sc) (broadcast S16 127#32)] : Fin 2 → IVec S16 32) a l).toNat
        < S800x128.size a) :
    (hW).view.writes (Elt F) (Cert.Hist.histOf (xTab m d) (Cert.Hist.doneSet (wOf L) ch.val ∪ Cert.Hist.tripPart (wOf L) ch k.val j.val) : Buf (Elt F) ((V d (cV L) (jV L)).loc cc0_scratch3))
      [⟨Rect.whole S800x128, storeIdx (F := F) (s := S800x128) (e := .i32)
        (View.readAt (Elt F) (hW).view (LoadRect.whole S800x128)
          (Cert.Hist.histOf (xTab m d) (Cert.Hist.doneSet (wOf L) ch.val ∪ Cert.Hist.tripPart (wOf L) ch k.val j.val) : Buf (Elt F) ((V d (cV L) (jV L)).loc cc0_scratch3)))
        ![shrsi (shapeCast S16 (View.readAt (Elt F) (b1).view (Rect.unit (s := S8x1024) o S1x16.size inb).toLoadRect cb) sc) (broadcast S16 7#32),
          andi (shapeCast S16 (View.readAt (Elt F) (b1).view (Rect.unit (s := S8x1024) o S1x16.size inb).toLoadRect cb) sc) (broadcast S16 127#32)]
        (fun _ => 1#32) (fun _ => 1#1) true h⟩]
      = (Cert.Hist.histOf (xTab m d) (Cert.Hist.doneSet (wOf L) ch.val ∪ Cert.Hist.tripPart (wOf L) ch k.val (j.val + 1)) : Buf (Elt F) ((V d (cV L) (jV L)).loc cc0_scratch3)) := by
  refine (hW_writes_whole d L _ _).trans ?_
  rw [hW_readAt_whole d L]
  exact Cert.Hist.lane_hist (F := F) (xTab m d) hx (wOf L) ch k j _ (fun l => lane1 m d L ch cb hcb k j o ho inb sc l) h

omit [FloatOps F] in
/-- Holding slot 1 at what landed is holding it at the chunk's words. -/
theorem slot_pts1 (dp cb : Buf (Elt F) ((V d (cV L) (jV L)).loc cc0_scratch1))
    (hcb : ∀ q : S8x1024.Idx, cb q = m (xLoc d) ((xChunk L ch).view.emb q)) :
    ((b1).view.loc (V d (cV L) (jV L)) ↦[(b1).view.set]{fullShare}
        ((b1).view.writes (Elt F) dp [⟨Rect.whole S8x1024, ReadAs.same.apply ((xChunk L ch).view.read (Elt F) (m (xLoc d)))⟩]) : sProp 𝕄)
      = ((b1).view.loc (V d (cV L) (jV L)) ↦[(b1).view.set]{fullShare} cb) := by
  have e : (b1).view.writes (Elt F) dp [⟨Rect.whole S8x1024, ReadAs.same.apply ((xChunk L ch).view.read (Elt F) (m (xLoc d)))⟩] = cb :=
    funext fun q => (landed1 d L ch dp (m (xLoc d)) q).trans (hcb q).symm
  rw [e]

omit [FloatOps F] in
/-- Lane `l` of the vector loaded at row `k / 4`, columns `256 (k % 4) + 16 j …` of slot 2 holding chunk `ch`: the
    table's word at lane `l` of vector `j` of trip `k` of the chunk. -/
theorem lane2 (cb : Buf (Elt F) ((V d (cV L) (jV L)).loc cc0_scratch2))
    (hcb : ∀ q : S8x1024.Idx, cb q = m (xLoc d) ((xChunk L ch).view.emb q))
    (k : Fin 32) (j : Fin 16) (o : Fin 2 → Nat)
    (ho : o = ![k.val / 4, 256 * (k.val % 4) + 16 * j.val]) (inb : ∀ a, o a + S1x16.size a ≤ S8x1024.size a)
    (sc : S1x16.ShapeCasts S16) (l : S16.Idx) :
    shapeCast S16 (View.readAt (Elt F) (b2).view (Rect.unit (s := S8x1024) o S1x16.size inb).toLoadRect cb) sc l
      = m (xLoc d) (Cert.Hist.lanePos (wOf L) ch k j l) := by
  subst ho
  refine (row16_read _ sc l).trans ?_
  refine (readAt_b2 d L cb _ _).trans ?_
  refine (hcb _).trans ?_
  refine congrArg (m (xLoc d)) (xChunk_emb_lane L ch k j l _ ?_ ?_)
  · show k.val / 4 + 1 * 0 = k.val / 4; omega
  · show 256 * (k.val % 4) + 16 * j.val + 1 * (l 0).val = 256 * (k.val % 4) + 16 * j.val + (l 0).val; omega

omit [FloatOps F] in
/-- Every word read from slot 2 holding a chunk is a word of the table, so at most 99999. -/
theorem lane_le2 (cb : Buf (Elt F) ((V d (cV L) (jV L)).loc cc0_scratch2))
    (hcb : ∀ q : S8x1024.Idx, cb q = m (xLoc d) ((xChunk L ch).view.emb q))
    (hpre : ∀ p, (m (xLoc d) p).toNat ≤ 99999) (R : LoadRect S8x1024) (sc : R.shape.ShapeCasts S16) (l : S16.Idx) :
    ((shapeCast S16 (View.readAt (Elt F) (b2).view R cb) sc) l).toNat ≤ 99999 := by
  show (View.readAt (Elt F) (b2).view R cb (Shape.reshapeEquiv sc l)).toNat ≤ 99999
  rw [readAt_b2, hcb]
  exact hpre _

omit [FloatOps F] in
/-- The row and lane indices computed from a vector read from slot 2 are inside the 800 × 128 table. -/
theorem chk2 (cb : Buf (Elt F) ((V d (cV L) (jV L)).loc cc0_scratch2))
    (hcb : ∀ q : S8x1024.Idx, cb q = m (xLoc d) ((xChunk L ch).view.emb q))
    (hpre : ∀ p, (m (xLoc d) p).toNat ≤ 99999) (R : LoadRect S8x1024) (sc : R.shape.ShapeCasts S16) :
    ∀ (a : Fin 2) (l : S16.Idx),
      ((![shrsi (shapeCast S16 (View.readAt (Elt F) (b2).view R cb) sc) (broadcast S16 7#32),
          andi (shapeCast S16 (View.readAt (Elt F) (b2).view R cb) sc) (broadcast S16 127#32)] : Fin 2 → IVec S16 32) a l).toNat
        < S800x128.size a :=
  Cert.Hist.chk_ok (shapeCast S16 (View.readAt (Elt F) (b2).view R cb) sc) (lane_le2 m d L ch cb hcb hpre R sc)

/-- One indexed add of the walk over slot 2: the whole table of counts read, the sixteen words of vector `j` of trip
    `k` of chunk `ch` counted into it, the whole table written back. -/
theorem scatter_step2 (cb : Buf (Elt F) ((V d (cV L) (jV L)).loc cc0_scratch2))
    (hcb : ∀ q : S8x1024.Idx, cb q = m (xLoc d) ((xChunk L ch).view.emb q))
    (k : Fin 32) (j : Fin 16) (o : Fin 2 → Nat)
    (ho : o = ![k.val / 4, 256 * (k.val % 4) + 16 * j.val]) (inb : ∀ a, o a + S1x16.size a ≤ S8x1024.size a)
    (sc : S1x16.ShapeCasts S16) (hx : ∀ p, (xTab m d p).toNat ≤ 99999)
    (h : ∀ (a : Fin 2) (l : S16.Idx),
      ((![shrsi (shapeCast S16 (View.readAt (Elt F) (b2).view (Rect.unit (s := S8x1024) o S1x16.size inb).toLoadRect cb) sc) (broadcast S16 7#32),
          andi (shapeCast S16 (View.readAt (Elt F) (b2).view (Rect.unit (s := S8x1024) o S1x16.size inb).toLoadRect cb) sc) (broadcast S16 127#32)] : Fin 2 → IVec S16 32) a l).toNat
        < S800x128.size a) :
    (hW).view.writes (Elt F) (Cert.Hist.histOf (xTab m d) (Cert.Hist.doneSet (wOf L) ch.val ∪ Cert.Hist.tripPart (wOf L) ch k.val j.val) : Buf (Elt F) ((V d (cV L) (jV L)).loc cc0_scratch3))
      [⟨Rect.whole S800x128, storeIdx (F := F) (s := S800x128) (e := .i32)
        (View.readAt (Elt F) (hW).view (LoadRect.whole S800x128)
          (Cert.Hist.histOf (xTab m d) (Cert.Hist.doneSet (wOf L) ch.val ∪ Cert.Hist.tripPart (wOf L) ch k.val j.val) : Buf (Elt F) ((V d (cV L) (jV L)).loc cc0_scratch3)))
        ![shrsi (shapeCast S16 (View.readAt (Elt F) (b2).view (Rect.unit (s := S8x1024) o S1x16.size inb).toLoadRect cb) sc) (broadcast S16 7#32),
          andi (shapeCast S16 (View.readAt (Elt F) (b2).view (Rect.unit (s := S8x1024) o S1x16.size inb).toLoadRect cb) sc) (broadcast S16 127#32)]
        (fun _ => 1#32) (fun _ => 1#1) true h⟩]
      = (Cert.Hist.histOf (xTab m d) (Cert.Hist.doneSet (wOf L) ch.val ∪ Cert.Hist.tripPart (wOf L) ch k.val (j.val + 1)) : Buf (Elt F) ((V d (cV L) (jV L)).loc cc0_scratch3)) := by
  refine (hW_writes_whole d L _ _).trans ?_
  rw [hW_readAt_whole d L]
  exact Cert.Hist.lane_hist (F := F) (xTab m d) hx (wOf L) ch k j _ (fun l => lane2 m d L ch cb hcb k j o ho inb sc l) h

omit [FloatOps F] in
/-- Holding slot 2 at what landed is holding it at the chunk's words. -/
theorem slot_pts2 (dp cb : Buf (Elt F) ((V d (cV L) (jV L)).loc cc0_scratch2))
    (hcb : ∀ q : S8x1024.Idx, cb q = m (xLoc d) ((xChunk L ch).view.emb q)) :
    ((b2).view.loc (V d (cV L) (jV L)) ↦[(b2).view.set]{fullShare}
        ((b2).view.writes (Elt F) dp [⟨Rect.whole S8x1024, ReadAs.same.apply ((xChunk L ch).view.read (Elt F) (m (xLoc d)))⟩]) : sProp 𝕄)
      = ((b2).view.loc (V d (cV L) (jV L)) ↦[(b2).view.set]{fullShare} cb) := by
  have e : (b2).view.writes (Elt F) dp [⟨Rect.whole S8x1024, ReadAs.same.apply ((xChunk L ch).view.read (Elt F) (m (xLoc d)))⟩] = cb :=
    funext fun q => (landed2 d L ch dp (m (xLoc d)) q).trans (hcb q).symm
  rw [e]

end Lane

end Cert.Proof.HistI

end
-- ==== Proof.TileProc3I.lean ====
/-
  One trip of a counting loop: sixteen vectors of sixteen tokens are read off the slot and added into the table of
  counts, one indexed add each; after vector `j` the table holds the counts of the chunks done, of the earlier trips
  of this chunk, and of the first `16 (j + 1)` tokens of this trip.
-/
import proofs.«217704_g70050916598121_cont_9to1_m_91_37_alg».proof.Proof.TileInvI
import proofs.«217704_g70050916598121_cont_9to1_m_91_37_alg».proof.Proof.TileOffsI
import proofs.«217704_g70050916598121_cont_9to1_m_91_37_alg».proof.Proof.SlotReadsI

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.KernelIdeal.main_arg0_scv : Memref Cert.KernelIdeal.sig Kind.scVector Space.hbm Cert.KernelIdeal.S4096x2048 EltTy.i32)
local notation "pW" => (Memref.whole Cert.KernelIdeal.main_v0_scv : Memref Cert.KernelIdeal.sig Kind.scVector Space.hbm Cert.KernelIdeal.S32x800x128 EltTy.i32)
local notation "b0" => (Memref.whole Cert.KernelIdeal.cc0_scratch0 : Memref Cert.KernelIdeal.sig Kind.scVector Space.vmem Cert.KernelIdeal.S8x1024 EltTy.i32)
local notation "b1" => (Memref.whole Cert.KernelIdeal.cc0_scratch1 : Memref Cert.KernelIdeal.sig Kind.scVector Space.vmem Cert.KernelIdeal.S8x1024 EltTy.i32)
local notation "b2" => (Memref.whole Cert.KernelIdeal.cc0_scratch2 : Memref Cert.KernelIdeal.sig Kind.scVector Space.vmem Cert.KernelIdeal.S8x1024 EltTy.i32)
local notation "hW" => (Memref.whole Cert.KernelIdeal.cc0_scratch3 : Memref Cert.KernelIdeal.sig Kind.scVector Space.vmem Cert.KernelIdeal.S800x128 EltTy.i32)

section Tile
variable (d : Dev nD) (L : grid0.Coords)

theorem proc3_trip (hx : PreOK m) (ch : Fin 32) (v2 c0 c1 : BitVec 32) (t : Fin k0_t2_loop.trips) (k : Fin k0_t3_loop.trips) (acc : Unit) :
    procInv m d L b0 ch (chunkTab m d L ch) k.val acc
      ⊢ wp frame (wpE (defs₀ (F := F)) 𝒱₀ (V d (cV L) (jV L)) none) Set.univ
          (k0_t3_body L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0 v2 k0_pay230 c0 c1 t k acc)
          (procInv m d L b0 ch (chunkTab m d L ch) (k.val + 1)) := by
  unfold procInv k0_t3_body
  have hk : k.val < 32 := by have := trips3; omega
  iintro ⟨Hh, Hb⟩
  sl_exec (disch := exact chk0 m d L ch (chunkTab m d L ch) (fun _ => rfl) (hx d) _ _)
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 1)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 0 _ (off5_eq k 0) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 2)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 1 _ (off5_eq k 1) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 3)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 2 _ (off5_eq k 2) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 4)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 3 _ (off5_eq k 3) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 5)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 4 _ (off5_eq k 4) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 6)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 5 _ (off5_eq k 5) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 7)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 6 _ (off5_eq k 6) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 8)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 7 _ (off5_eq k 7) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 9)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 8 _ (off5_eq k 8) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 10)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 9 _ (off5_eq k 9) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 11)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 10 _ (off5_eq k 10) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 12)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 11 _ (off5_eq k 11) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 13)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 12 _ (off5_eq k 12) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 14)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 13 _ (off5_eq k 13) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 15)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 14 _ (off5_eq k 14) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 16)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 15 _ (off5_eq k 15) _ _ (hx d) _))
  sl_step
  rw [← Cert.Hist.tripPart_next]
  isplitl [Hh]; · iexact Hh
  iexact Hb

end Tile
end Cert.Proof.HistI
end
-- ==== Proof.TileProc4I.lean ====
/-
  One trip of a counting loop: sixteen vectors of sixteen tokens are read off the slot and added into the table of
  counts, one indexed add each; after vector `j` the table holds the counts of the chunks done, of the earlier trips
  of this chunk, and of the first `16 (j + 1)` tokens of this trip.
-/
import proofs.«217704_g70050916598121_cont_9to1_m_91_37_alg».proof.Proof.TileInvI
import proofs.«217704_g70050916598121_cont_9to1_m_91_37_alg».proof.Proof.TileOffsI
import proofs.«217704_g70050916598121_cont_9to1_m_91_37_alg».proof.Proof.SlotReadsI

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.KernelIdeal.main_arg0_scv : Memref Cert.KernelIdeal.sig Kind.scVector Space.hbm Cert.KernelIdeal.S4096x2048 EltTy.i32)
local notation "pW" => (Memref.whole Cert.KernelIdeal.main_v0_scv : Memref Cert.KernelIdeal.sig Kind.scVector Space.hbm Cert.KernelIdeal.S32x800x128 EltTy.i32)
local notation "b0" => (Memref.whole Cert.KernelIdeal.cc0_scratch0 : Memref Cert.KernelIdeal.sig Kind.scVector Space.vmem Cert.KernelIdeal.S8x1024 EltTy.i32)
local notation "b1" => (Memref.whole Cert.KernelIdeal.cc0_scratch1 : Memref Cert.KernelIdeal.sig Kind.scVector Space.vmem Cert.KernelIdeal.S8x1024 EltTy.i32)
local notation "b2" => (Memref.whole Cert.KernelIdeal.cc0_scratch2 : Memref Cert.KernelIdeal.sig Kind.scVector Space.vmem Cert.KernelIdeal.S8x1024 EltTy.i32)
local notation "hW" => (Memref.whole Cert.KernelIdeal.cc0_scratch3 : Memref Cert.KernelIdeal.sig Kind.scVector Space.vmem Cert.KernelIdeal.S800x128 EltTy.i32)

section Tile
variable (d : Dev nD) (L : grid0.Coords)

theorem proc4_trip (hx : PreOK m) (ch : Fin 32) (v2 : BitVec 32) (t : Fin k0_t2_loop.trips) (a11 v64 : BitVec 32) (k : Fin k0_t4_loop.trips) (acc : Unit) :
    procInv m d L b1 ch (chunkTab m d L ch) k.val acc
      ⊢ wp frame (wpE (defs₀ (F := F)) 𝒱₀ (V d (cV L) (jV L)) none) Set.univ
          (k0_t4_body L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0 v2 k0_pay230 t a11 v64 k acc)
          (procInv m d L b1 ch (chunkTab m d L ch) (k.val + 1)) := by
  unfold procInv k0_t4_body
  have hk : k.val < 32 := by have := trips4; omega
  iintro ⟨Hh, Hb⟩
  sl_exec (disch := exact chk1 m d L ch (chunkTab m d L ch) (fun _ => rfl) (hx d) _ _)
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 1)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 0 _ (off7_eq k 0) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 2)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 1 _ (off7_eq k 1) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 3)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 2 _ (off7_eq k 2) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 4)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 3 _ (off7_eq k 3) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 5)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 4 _ (off7_eq k 4) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 6)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 5 _ (off7_eq k 5) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 7)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 6 _ (off7_eq k 6) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 8)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 7 _ (off7_eq k 7) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 9)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 8 _ (off7_eq k 8) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 10)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 9 _ (off7_eq k 9) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 11)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 10 _ (off7_eq k 10) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 12)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 11 _ (off7_eq k 11) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 13)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 12 _ (off7_eq k 12) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 14)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 13 _ (off7_eq k 13) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 15)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 14 _ (off7_eq k 14) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 16)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 15 _ (off7_eq k 15) _ _ (hx d) _))
  sl_step
  rw [← Cert.Hist.tripPart_next]
  isplitl [Hh]; · iexact Hh
  iexact Hb

end Tile
end Cert.Proof.HistI
end
-- ==== Proof.TileProc5I.lean ====
/-
  One trip of a counting loop: sixteen vectors of sixteen tokens are read off the slot and added into the table of
  counts, one indexed add each; after vector `j` the table holds the counts of the chunks done, of the earlier trips
  of this chunk, and of the first `16 (j + 1)` tokens of this trip.
-/
import proofs.«217704_g70050916598121_cont_9to1_m_91_37_alg».proof.Proof.TileInvI
import proofs.«217704_g70050916598121_cont_9to1_m_91_37_alg».proof.Proof.TileOffsI
import proofs.«217704_g70050916598121_cont_9to1_m_91_37_alg».proof.Proof.SlotReadsI

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.KernelIdeal.main_arg0_scv : Memref Cert.KernelIdeal.sig Kind.scVector Space.hbm Cert.KernelIdeal.S4096x2048 EltTy.i32)
local notation "pW" => (Memref.whole Cert.KernelIdeal.main_v0_scv : Memref Cert.KernelIdeal.sig Kind.scVector Space.hbm Cert.KernelIdeal.S32x800x128 EltTy.i32)
local notation "b0" => (Memref.whole Cert.KernelIdeal.cc0_scratch0 : Memref Cert.KernelIdeal.sig Kind.scVector Space.vmem Cert.KernelIdeal.S8x1024 EltTy.i32)
local notation "b1" => (Memref.whole Cert.KernelIdeal.cc0_scratch1 : Memref Cert.KernelIdeal.sig Kind.scVector Space.vmem Cert.KernelIdeal.S8x1024 EltTy.i32)
local notation "b2" => (Memref.whole Cert.KernelIdeal.cc0_scratch2 : Memref Cert.KernelIdeal.sig Kind.scVector Space.vmem Cert.KernelIdeal.S8x1024 EltTy.i32)
local notation "hW" => (Memref.whole Cert.KernelIdeal.cc0_scratch3 : Memref Cert.KernelIdeal.sig Kind.scVector Space.vmem Cert.KernelIdeal.S800x128 EltTy.i32)

section Tile
variable (d : Dev nD) (L : grid0.Coords)

theorem proc5_trip (hx : PreOK m) (ch : Fin 32)  (k : Fin k0_t5_loop.trips) (acc : Unit) :
    procInv m d L b2 ch (chunkTab m d L ch) k.val acc
      ⊢ wp frame (wpE (defs₀ (F := F)) 𝒱₀ (V d (cV L) (jV L)) none) Set.univ
          (k0_t5_body L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0  k acc)
          (procInv m d L b2 ch (chunkTab m d L ch) (k.val + 1)) := by
  unfold procInv k0_t5_body
  have hk : k.val < 32 := by have := trips5; omega
  iintro ⟨Hh, Hb⟩
  sl_exec (disch := exact chk2 m d L ch (chunkTab m d L ch) (fun _ => rfl) (hx d) _ _)
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 1)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 0 _ (off9_eq k 0) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 2)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 1 _ (off9_eq k 1) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 3)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 2 _ (off9_eq k 2) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 4)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 3 _ (off9_eq k 3) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 5)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 4 _ (off9_eq k 4) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 6)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 5 _ (off9_eq k 5) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 7)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 6 _ (off9_eq k 6) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 8)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 7 _ (off9_eq k 7) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 9)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 8 _ (off9_eq k 8) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 10)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 9 _ (off9_eq k 9) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 11)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 10 _ (off9_eq k 10) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 12)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 11 _ (off9_eq k 11) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 13)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 12 _ (off9_eq k 12) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 14)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 13 _ (off9_eq k 13) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 15)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 14 _ (off9_eq k 14) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 16)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 15 _ (off9_eq k 15) _ _ (hx d) _))
  sl_step
  rw [← Cert.Hist.tripPart_next]
  isplitl [Hh]; · iexact Hh
  iexact Hb

end Tile
end Cert.Proof.HistI
end
-- ==== Proof.TileOuterI.lean ====
/-
  One trip of the loop over the chunks, three at a time. Before trip `g` chunks `3 g`, `3 g + 1`, `3 g + 2` are in flight
  into the three slots. The trip waits for each in turn, counts its slot, and starts the chunk three further on into the
  slot just counted (on the last trip there is no chunk `3 g + 5`, and the third slot stays idle).
-/
import proofs.«217704_g70050916598121_cont_9to1_m_91_37_alg».proof.Proof.TileProc3I
import proofs.«217704_g70050916598121_cont_9to1_m_91_37_alg».proof.Proof.TileProc4I
import proofs.«217704_g70050916598121_cont_9to1_m_91_37_alg».proof.Proof.TileProc5I
import proofs.«217704_g70050916598121_cont_9to1_m_91_37_alg».proof.Proof.ShareLemmas
import proofs.«217704_g70050916598121_cont_9to1_m_91_37_alg».proof.Proof.ChunkSetsI

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.KernelIdeal.main_arg0_scv : Memref Cert.KernelIdeal.sig Kind.scVector Space.hbm Cert.KernelIdeal.S4096x2048 EltTy.i32)
local notation "pW" => (Memref.whole Cert.KernelIdeal.main_v0_scv : Memref Cert.KernelIdeal.sig Kind.scVector Space.hbm Cert.KernelIdeal.S32x800x128 EltTy.i32)
local notation "b0" => (Memref.whole Cert.KernelIdeal.cc0_scratch0 : Memref Cert.KernelIdeal.sig Kind.scVector Space.vmem Cert.KernelIdeal.S8x1024 EltTy.i32)
local notation "b1" => (Memref.whole Cert.KernelIdeal.cc0_scratch1 : Memref Cert.KernelIdeal.sig Kind.scVector Space.vmem Cert.KernelIdeal.S8x1024 EltTy.i32)
local notation "b2" => (Memref.whole Cert.KernelIdeal.cc0_scratch2 : Memref Cert.KernelIdeal.sig Kind.scVector Space.vmem Cert.KernelIdeal.S8x1024 EltTy.i32)
local notation "hW" => (Memref.whole Cert.KernelIdeal.cc0_scratch3 : Memref Cert.KernelIdeal.sig Kind.scVector Space.vmem Cert.KernelIdeal.S800x128 EltTy.i32)

section Tile
variable (d : Dev nD) (L : grid0.Coords)

omit [FloatOps F] in
theorem chOf_lt (n : Nat) (h : n < 32) : (chOf n).val = n := Nat.mod_eq_of_lt h

omit [FloatOps F] in
/-- Entering the count of chunk `n`: nothing of it is counted yet. -/
theorem hist_in (n : Nat) (hn : n < 32) :
    histBuf (F := F) m d L (Cert.Hist.doneSet (wOf L) n)
      = histBuf m d L (Cert.Hist.doneSet (wOf L) (chOf n).val ∪ Cert.Hist.tripPart (wOf L) (chOf n) 0 0) := by
  rw [Cert.Hist.tripPart_zero, Finset.union_empty, chOf_lt n hn]
omit [FloatOps F] in
/-- Leaving it: all of it is counted. -/
theorem hist_out (n : Nat) (hn : n < 32) :
    histBuf (F := F) m d L (Cert.Hist.doneSet (wOf L) (chOf n).val ∪ Cert.Hist.tripPart (wOf L) (chOf n) 32 0)
      = histBuf m d L (Cert.Hist.doneSet (wOf L) (n + 1)) := by
  rw [Cert.Hist.doneSet_succ, chOf_lt n hn]

omit [FloatOps F] in
theorem ring_next9 (Φ : Fin 32 → sProp 𝕄) (g : Nat) (hg : g = 9) :
    ringHeld Φ g = iprop(Φ (chOf (3 * g + 3)) ∗ Φ (chOf (3 * g + 4)) ∗ ringRest Φ g) := by
  subst hg; exact ring_next_last Φ

theorem outer_trip (hx : PreOK m) (O : CellTallies nD τ sig (HIx 1)) (W : Waits sig (HIx 1)) (v2 : BitVec 32) (g : Fin k0_t2_loop.trips) (acc : Unit) :
    outInv m d L O W g.val acc
      ⊢ wp frame (wpE (defs₀ (F := F)) 𝒱₀ (V d (cV L) (jV L)) none) Set.univ
          (k0_t2_body L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0 v2 g acc)
          (outInv m d L O W (g.val + 1)) := by
  by_cases hg9 : g.val < 9
  ·
    have hg10 : g.val < 10 := by omega
    unfold outInv k0_t2_body
    have h1 := cond1_all g
    have h2 := cond2_all g
    have h3 : k0_cond3 g = 1#1 := (cond3_iff g).mpr hg9
    rw [if_pos (by omega : 3 * g.val + 2 < 32), if_pos (by omega : 3 * (g.val + 1) + 2 < 32), ring_next _ g.val hg9, ring_back _ g.val hg10]
    unfold inflight
    iintro ⟨Hmw, Hh, ⟨Hn0, Hn1, Hn2, Hrest⟩, ⟨%dp0, Hf0⟩, ⟨%dp1, Hf1⟩, ⟨%dp2, Hf2⟩, %W', %hW', HO⟩
    sl_exec
    ihave Hb0 := (Entails.of_eq (slot_pts0 m d L (chOf (3 * g.val)) _ (chunkTab m d L (chOf (3 * g.val))) (fun _ => rfl))) $$ Hf0_dst
    ihave Hh : ((((hW).view.loc (V d (cV L) (jV L)) ↦{fullShare} histBuf m d L (Cert.Hist.doneSet (wOf L) (chOf (3 * g.val)).val ∪ Cert.Hist.tripPart (wOf L) (chOf (3 * g.val)) 0 0)) : sProp 𝕄)) $$ [Hh]
    · istop; exact Entails.of_eq (congrArg (fun f => (((hW).view.loc (V d (cV L) (jV L)) ↦{fullShare} f) : sProp 𝕄)) (hist_in m d L (3 * g.val) (by omega)))
    sl_for (procInv m d L b0 (chOf (3 * g.val)) (chunkTab m d L (chOf (3 * g.val)))) $$ [Hh Hb0]
    case region => intro k acc; exact proc3_trip m d L hx _ _ _ _ _ k acc
    · unfold procInv; isplitl [Hh]; · iexact Hh
      iexact Hb0
    iintro %u1 HI
    ihave HI : (procInv m d L b0 (chOf (3 * g.val)) (chunkTab m d L (chOf (3 * g.val))) 32 u1) $$ [HI]
    · istop; exact Entails.of_eq (congrArg (fun n => procInv m d L b0 (chOf (3 * g.val)) (chunkTab m d L (chOf (3 * g.val))) n u1) trips3)
    unfold procInv
    icases HI with ⟨Hh, Hb0⟩
    ihave Hh : ((((hW).view.loc (V d (cV L) (jV L)) ↦{fullShare} histBuf m d L (Cert.Hist.doneSet (wOf L) (3 * g.val + 1))) : sProp 𝕄)) $$ [Hh]
    · istop; exact Entails.of_eq (congrArg (fun f => (((hW).view.loc (V d (cV L) (jV L)) ↦{fullShare} f) : sProp 𝕄)) (hist_out m d L (3 * g.val) (by omega)))
    sl_exec
    ihave Hb1 := (Entails.of_eq (slot_pts1 m d L (chOf (3 * g.val + 1)) _ (chunkTab m d L (chOf (3 * g.val + 1))) (fun _ => rfl))) $$ Hf1_dst
    ihave Hh : ((((hW).view.loc (V d (cV L) (jV L)) ↦{fullShare} histBuf m d L (Cert.Hist.doneSet (wOf L) (chOf (3 * g.val + 1)).val ∪ Cert.Hist.tripPart (wOf L) (chOf (3 * g.val + 1)) 0 0)) : sProp 𝕄)) $$ [Hh]
    · istop; exact Entails.of_eq (congrArg (fun f => (((hW).view.loc (V d (cV L) (jV L)) ↦{fullShare} f) : sProp 𝕄)) (hist_in m d L (3 * g.val + 1) (by omega)))
    sl_for (procInv m d L b1 (chOf (3 * g.val + 1)) (chunkTab m d L (chOf (3 * g.val + 1)))) $$ [Hh Hb1]
    case region => intro k acc; exact proc4_trip m d L hx _ _ _ _ _ k acc
    · unfold procInv; isplitl [Hh]; · iexact Hh
      iexact Hb1
    iintro %u2 HI
    ihave HI : (procInv m d L b1 (chOf (3 * g.val + 1)) (chunkTab m d L (chOf (3 * g.val + 1))) 32 u2) $$ [HI]
    · istop; exact Entails.of_eq (congrArg (fun n => procInv m d L b1 (chOf (3 * g.val + 1)) (chunkTab m d L (chOf (3 * g.val + 1))) n u2) trips4)
    unfold procInv
    icases HI with ⟨Hh, Hb1⟩
    ihave Hh : ((((hW).view.loc (V d (cV L) (jV L)) ↦{fullShare} histBuf m d L (Cert.Hist.doneSet (wOf L) (3 * g.val + 1 + 1))) : sProp 𝕄)) $$ [Hh]
    · istop; exact Entails.of_eq (congrArg (fun f => (((hW).view.loc (V d (cV L) (jV L)) ↦{fullShare} f) : sProp 𝕄)) (hist_out m d L (3 * g.val + 1) (by omega)))
    sl_exec
    ihave Hb2 := (Entails.of_eq (slot_pts2 m d L (chOf (3 * g.val + 2)) _ (chunkTab m d L (chOf (3 * g.val + 2))) (fun _ => rfl))) $$ Hf2_dst
    ihave Hh : ((((hW).view.loc (V d (cV L) (jV L)) ↦{fullShare} histBuf m d L (Cert.Hist.doneSet (wOf L) (chOf (3 * g.val + 2)).val ∪ Cert.Hist.tripPart (wOf L) (chOf (3 * g.val + 2)) 0 0)) : sProp 𝕄)) $$ [Hh]
    · istop; exact Entails.of_eq (congrArg (fun f => (((hW).view.loc (V d (cV L) (jV L)) ↦{fullShare} f) : sProp 𝕄)) (hist_in m d L (3 * g.val + 2) (by omega)))
    sl_for (procInv m d L b2 (chOf (3 * g.val + 2)) (chunkTab m d L (chOf (3 * g.val + 2)))) $$ [Hh Hb2]
    case region => intro k acc; exact proc5_trip m d L hx _ k acc
    · unfold procInv; isplitl [Hh]; · iexact Hh
      iexact Hb2
    iintro %u3 HI
    ihave HI : (procInv m d L b2 (chOf (3 * g.val + 2)) (chunkTab m d L (chOf (3 * g.val + 2))) 32 u3) $$ [HI]
    · istop; exact Entails.of_eq (congrArg (fun n => procInv m d L b2 (chOf (3 * g.val + 2)) (chunkTab m d L (chOf (3 * g.val + 2))) n u3) trips5)
    unfold procInv
    icases HI with ⟨Hh, Hb2⟩
    ihave Hh : ((((hW).view.loc (V d (cV L) (jV L)) ↦{fullShare} histBuf m d L (Cert.Hist.doneSet (wOf L) (3 * g.val + 2 + 1))) : sProp 𝕄)) $$ [Hh]
    · istop; exact Entails.of_eq (congrArg (fun f => (((hW).view.loc (V d (cV L) (jV L)) ↦{fullShare} f) : sProp 𝕄)) (hist_out m d L (3 * g.val + 2) (by omega)))
    sl_exec
    sl_step
    have e3 : 3 * (g.val + 1) = 3 * g.val + 3 := by omega
    have e4 : 3 * (g.val + 1) + 1 = 3 * g.val + 4 := by omega
    have e5 : 3 * (g.val + 1) + 2 = 3 * g.val + 5 := by omega
    have e6 : 3 * g.val + 2 + 1 = 3 * g.val + 3 := by omega
    rw [e4, e5, e3, e6]
    isplitl [Hmw]; · iexact Hmw
    isplitl [Hh]; · iexact Hh
    isplitl [Hf0_src Hf1_src Hf2_src Hrest]
    · isplitl [Hf0_src]; · iexact Hf0_src
      isplitl [Hf1_src]; · iexact Hf1_src
      isplitl [Hf2_src]; · iexact Hf2_src
      iexact Hrest
    isplitl [Hf0]
    · iexists (chunkTab m d L (chOf (3 * g.val))); istop; exact BI.Entails.refl _
    isplitl [Hf1]
    · iexists (chunkTab m d L (chOf (3 * g.val + 1))); istop; exact BI.Entails.refl _
    isplitl [Hf2]
    · iexists (chunkTab m d L (chOf (3 * g.val + 2))); istop; exact BI.Entails.refl _
    iexists (insert (SemLoc.dma cc0_scratch6.sem, (default : HIx 1)) (insert (SemLoc.dma cc0_scratch5.sem, (default : HIx 1)) (insert (SemLoc.dma cc0_scratch4.sem, (default : HIx 1)) W'))); isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      exact hW' p hp
    · iexact HO

  ·
    have hg : g.val = 9 := by have := trips2; have := g.isLt; omega
    have hg10 : g.val < 10 := by omega
    unfold outInv k0_t2_body
    have h1 := cond1_all g
    have h2 := cond2_all g
    have h3 : ¬ k0_cond3 g = 1#1 := fun h => by have := (cond3_iff g).mp h; omega
    rw [if_pos (by omega : 3 * g.val + 2 < 32), if_neg (by omega : ¬ 3 * (g.val + 1) + 2 < 32), ring_next9 _ g.val hg, ring_back _ g.val hg10]
    unfold inflight
    iintro ⟨Hmw, Hh, ⟨Hn0, Hn1, Hrest⟩, ⟨%dp0, Hf0⟩, ⟨%dp1, Hf1⟩, ⟨%dp2, Hf2⟩, %W', %hW', HO⟩
    sl_exec
    ihave Hb0 := (Entails.of_eq (slot_pts0 m d L (chOf (3 * g.val)) _ (chunkTab m d L (chOf (3 * g.val))) (fun _ => rfl))) $$ Hf0_dst
    ihave Hh : ((((hW).view.loc (V d (cV L) (jV L)) ↦{fullShare} histBuf m d L (Cert.Hist.doneSet (wOf L) (chOf (3 * g.val)).val ∪ Cert.Hist.tripPart (wOf L) (chOf (3 * g.val)) 0 0)) : sProp 𝕄)) $$ [Hh]
    · istop; exact Entails.of_eq (congrArg (fun f => (((hW).view.loc (V d (cV L) (jV L)) ↦{fullShare} f) : sProp 𝕄)) (hist_in m d L (3 * g.val) (by omega)))
    sl_for (procInv m d L b0 (chOf (3 * g.val)) (chunkTab m d L (chOf (3 * g.val)))) $$ [Hh Hb0]
    case region => intro k acc; exact proc3_trip m d L hx _ _ _ _ _ k acc
    · unfold procInv; isplitl [Hh]; · iexact Hh
      iexact Hb0
    iintro %u1 HI
    ihave HI : (procInv m d L b0 (chOf (3 * g.val)) (chunkTab m d L (chOf (3 * g.val))) 32 u1) $$ [HI]
    · istop; exact Entails.of_eq (congrArg (fun n => procInv m d L b0 (chOf (3 * g.val)) (chunkTab m d L (chOf (3 * g.val))) n u1) trips3)
    unfold procInv
    icases HI with ⟨Hh, Hb0⟩
    ihave Hh : ((((hW).view.loc (V d (cV L) (jV L)) ↦{fullShare} histBuf m d L (Cert.Hist.doneSet (wOf L) (3 * g.val + 1))) : sProp 𝕄)) $$ [Hh]
    · istop; exact Entails.of_eq (congrArg (fun f => (((hW).view.loc (V d (cV L) (jV L)) ↦{fullShare} f) : sProp 𝕄)) (hist_out m d L (3 * g.val) (by omega)))
    sl_exec
    ihave Hb1 := (Entails.of_eq (slot_pts1 m d L (chOf (3 * g.val + 1)) _ (chunkTab m d L (chOf (3 * g.val + 1))) (fun _ => rfl))) $$ Hf1_dst
    ihave Hh : ((((hW).view.loc (V d (cV L) (jV L)) ↦{fullShare} histBuf m d L (Cert.Hist.doneSet (wOf L) (chOf (3 * g.val + 1)).val ∪ Cert.Hist.tripPart (wOf L) (chOf (3 * g.val + 1)) 0 0)) : sProp 𝕄)) $$ [Hh]
    · istop; exact Entails.of_eq (congrArg (fun f => (((hW).view.loc (V d (cV L) (jV L)) ↦{fullShare} f) : sProp 𝕄)) (hist_in m d L (3 * g.val + 1) (by omega)))
    sl_for (procInv m d L b1 (chOf (3 * g.val + 1)) (chunkTab m d L (chOf (3 * g.val + 1)))) $$ [Hh Hb1]
    case region => intro k acc; exact proc4_trip m d L hx _ _ _ _ _ k acc
    · unfold procInv; isplitl [Hh]; · iexact Hh
      iexact Hb1
    iintro %u2 HI
    ihave HI : (procInv m d L b1 (chOf (3 * g.val + 1)) (chunkTab m d L (chOf (3 * g.val + 1))) 32 u2) $$ [HI]
    · istop; exact Entails.of_eq (congrArg (fun n => procInv m d L b1 (chOf (3 * g.val + 1)) (chunkTab m d L (chOf (3 * g.val + 1))) n u2) trips4)
    unfold procInv
    icases HI with ⟨Hh, Hb1⟩
    ihave Hh : ((((hW).view.loc (V d (cV L) (jV L)) ↦{fullShare} histBuf m d L (Cert.Hist.doneSet (wOf L) (3 * g.val + 1 + 1))) : sProp 𝕄)) $$ [Hh]
    · istop; exact Entails.of_eq (congrArg (fun f => (((hW).view.loc (V d (cV L) (jV L)) ↦{fullShare} f) : sProp 𝕄)) (hist_out m d L (3 * g.val + 1) (by omega)))
    sl_exec
    ihave Hb2 := (Entails.of_eq (slot_pts2 m d L (chOf (3 * g.val + 2)) _ (chunkTab m d L (chOf (3 * g.val + 2))) (fun _ => rfl))) $$ Hf2_dst
    ihave Hh : ((((hW).view.loc (V d (cV L) (jV L)) ↦{fullShare} histBuf m d L (Cert.Hist.doneSet (wOf L) (chOf (3 * g.val + 2)).val ∪ Cert.Hist.tripPart (wOf L) (chOf (3 * g.val + 2)) 0 0)) : sProp 𝕄)) $$ [Hh]
    · istop; exact Entails.of_eq (congrArg (fun f => (((hW).view.loc (V d (cV L) (jV L)) ↦{fullShare} f) : sProp 𝕄)) (hist_in m d L (3 * g.val + 2) (by omega)))
    sl_for (procInv m d L b2 (chOf (3 * g.val + 2)) (chunkTab m d L (chOf (3 * g.val + 2)))) $$ [Hh Hb2]
    case region => intro k acc; exact proc5_trip m d L hx _ k acc
    · unfold procInv; isplitl [Hh]; · iexact Hh
      iexact Hb2
    iintro %u3 HI
    ihave HI : (procInv m d L b2 (chOf (3 * g.val + 2)) (chunkTab m d L (chOf (3 * g.val + 2))) 32 u3) $$ [HI]
    · istop; exact Entails.of_eq (congrArg (fun n => procInv m d L b2 (chOf (3 * g.val + 2)) (chunkTab m d L (chOf (3 * g.val + 2))) n u3) trips5)
    unfold procInv
    icases HI with ⟨Hh, Hb2⟩
    ihave Hh : ((((hW).view.loc (V d (cV L) (jV L)) ↦{fullShare} histBuf m d L (Cert.Hist.doneSet (wOf L) (3 * g.val + 2 + 1))) : sProp 𝕄)) $$ [Hh]
    · istop; exact Entails.of_eq (congrArg (fun f => (((hW).view.loc (V d (cV L) (jV L)) ↦{fullShare} f) : sProp 𝕄)) (hist_out m d L (3 * g.val + 2) (by omega)))
    sl_exec
    sl_step
    have e3 : 3 * (g.val + 1) = 3 * g.val + 3 := by omega
    have e4 : 3 * (g.val + 1) + 1 = 3 * g.val + 4 := by omega
    have e6 : 3 * g.val + 2 + 1 = 3 * g.val + 3 := by omega
    rw [e4, e3, e6]
    isplitl [Hmw]; · iexact Hmw
    isplitl [Hh]; · iexact Hh
    isplitl [Hf0_src Hf1_src Hf2_src Hrest]
    · isplitl [Hf0_src]; · iexact Hf0_src
      isplitl [Hf1_src]; · iexact Hf1_src
      isplitl [Hf2_src]; · iexact Hf2_src
      iexact Hrest
    isplitl [Hf0]
    · iexists (chunkTab m d L (chOf (3 * g.val))); istop; exact BI.Entails.refl _
    isplitl [Hf1]
    · iexists (chunkTab m d L (chOf (3 * g.val + 1))); istop; exact BI.Entails.refl _
    isplitl [Hb2 Hf2]
    · isplitl [Hb2]; · iexists _; iexact Hb2
      iexact Hf2
    iexists (insert (SemLoc.dma cc0_scratch6.sem, (default : HIx 1)) (insert (SemLoc.dma cc0_scratch5.sem, (default : HIx 1)) (insert (SemLoc.dma cc0_scratch4.sem, (default : HIx 1)) W'))); isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      exact hW' p hp
    · iexact HO

end Tile
end Cert.Proof.HistI
end
-- ==== Proof.TileProc6I.lean ====
/-
  One trip of a counting loop: sixteen vectors of sixteen tokens are read off the slot and added into the table of
  counts, one indexed add each; after vector `j` the table holds the counts of the chunks done, of the earlier trips
  of this chunk, and of the first `16 (j + 1)` tokens of this trip.
-/
import proofs.«217704_g70050916598121_cont_9to1_m_91_37_alg».proof.Proof.TileInvI
import proofs.«217704_g70050916598121_cont_9to1_m_91_37_alg».proof.Proof.TileOffsI
import proofs.«217704_g70050916598121_cont_9to1_m_91_37_alg».proof.Proof.SlotReadsI

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.KernelIdeal.main_arg0_scv : Memref Cert.KernelIdeal.sig Kind.scVector Space.hbm Cert.KernelIdeal.S4096x2048 EltTy.i32)
local notation "pW" => (Memref.whole Cert.KernelIdeal.main_v0_scv : Memref Cert.KernelIdeal.sig Kind.scVector Space.hbm Cert.KernelIdeal.S32x800x128 EltTy.i32)
local notation "b0" => (Memref.whole Cert.KernelIdeal.cc0_scratch0 : Memref Cert.KernelIdeal.sig Kind.scVector Space.vmem Cert.KernelIdeal.S8x1024 EltTy.i32)
local notation "b1" => (Memref.whole Cert.KernelIdeal.cc0_scratch1 : Memref Cert.KernelIdeal.sig Kind.scVector Space.vmem Cert.KernelIdeal.S8x1024 EltTy.i32)
local notation "b2" => (Memref.whole Cert.KernelIdeal.cc0_scratch2 : Memref Cert.KernelIdeal.sig Kind.scVector Space.vmem Cert.KernelIdeal.S8x1024 EltTy.i32)
local notation "hW" => (Memref.whole Cert.KernelIdeal.cc0_scratch3 : Memref Cert.KernelIdeal.sig Kind.scVector Space.vmem Cert.KernelIdeal.S800x128 EltTy.i32)

section Tile
variable (d : Dev nD) (L : grid0.Coords)

theorem proc6_trip (hx : PreOK m) (ch : Fin 32)  (k : Fin k0_t6_loop.trips) (acc : Unit) :
    procInv m d L b0 ch (chunkTab m d L ch) k.val acc
      ⊢ wp frame (wpE (defs₀ (F := F)) 𝒱₀ (V d (cV L) (jV L)) none) Set.univ
          (k0_t6_body L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0  k acc)
          (procInv m d L b0 ch (chunkTab m d L ch) (k.val + 1)) := by
  unfold procInv k0_t6_body
  have hk : k.val < 32 := by have := trips6; omega
  iintro ⟨Hh, Hb⟩
  sl_exec (disch := exact chk0 m d L ch (chunkTab m d L ch) (fun _ => rfl) (hx d) _ _)
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 1)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 0 _ (off11_eq k 0) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 2)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 1 _ (off11_eq k 1) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 3)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 2 _ (off11_eq k 2) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 4)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 3 _ (off11_eq k 3) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 5)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 4 _ (off11_eq k 4) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 6)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 5 _ (off11_eq k 5) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 7)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 6 _ (off11_eq k 6) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 8)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 7 _ (off11_eq k 7) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 9)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 8 _ (off11_eq k 8) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 10)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 9 _ (off11_eq k 9) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 11)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 10 _ (off11_eq k 10) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 12)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 11 _ (off11_eq k 11) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 13)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 12 _ (off11_eq k 12) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 14)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 13 _ (off11_eq k 13) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 15)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 14 _ (off11_eq k 14) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 16)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 15 _ (off11_eq k 15) _ _ (hx d) _))
  sl_step
  rw [← Cert.Hist.tripPart_next]
  isplitl [Hh]; · iexact Hh
  iexact Hb

end Tile
end Cert.Proof.HistI
end
-- ==== Proof.TileProc7I.lean ====
/-
  One trip of a counting loop: sixteen vectors of sixteen tokens are read off the slot and added into the table of
  counts, one indexed add each; after vector `j` the table holds the counts of the chunks done, of the earlier trips
  of this chunk, and of the first `16 (j + 1)` tokens of this trip.
-/
import proofs.«217704_g70050916598121_cont_9to1_m_91_37_alg».proof.Proof.TileInvI
import proofs.«217704_g70050916598121_cont_9to1_m_91_37_alg».proof.Proof.TileOffsI
import proofs.«217704_g70050916598121_cont_9to1_m_91_37_alg».proof.Proof.SlotReadsI

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.KernelIdeal.main_arg0_scv : Memref Cert.KernelIdeal.sig Kind.scVector Space.hbm Cert.KernelIdeal.S4096x2048 EltTy.i32)
local notation "pW" => (Memref.whole Cert.KernelIdeal.main_v0_scv : Memref Cert.KernelIdeal.sig Kind.scVector Space.hbm Cert.KernelIdeal.S32x800x128 EltTy.i32)
local notation "b0" => (Memref.whole Cert.KernelIdeal.cc0_scratch0 : Memref Cert.KernelIdeal.sig Kind.scVector Space.vmem Cert.KernelIdeal.S8x1024 EltTy.i32)
local notation "b1" => (Memref.whole Cert.KernelIdeal.cc0_scratch1 : Memref Cert.KernelIdeal.sig Kind.scVector Space.vmem Cert.KernelIdeal.S8x1024 EltTy.i32)
local notation "b2" => (Memref.whole Cert.KernelIdeal.cc0_scratch2 : Memref Cert.KernelIdeal.sig Kind.scVector Space.vmem Cert.KernelIdeal.S8x1024 EltTy.i32)
local notation "hW" => (Memref.whole Cert.KernelIdeal.cc0_scratch3 : Memref Cert.KernelIdeal.sig Kind.scVector Space.vmem Cert.KernelIdeal.S800x128 EltTy.i32)

section Tile
variable (d : Dev nD) (L : grid0.Coords)

theorem proc7_trip (hx : PreOK m) (ch : Fin 32)  (k : Fin k0_t7_loop.trips) (acc : Unit) :
    procInv m d L b1 ch (chunkTab m d L ch) k.val acc
      ⊢ wp frame (wpE (defs₀ (F := F)) 𝒱₀ (V d (cV L) (jV L)) none) Set.univ
          (k0_t7_body L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0 k0_pay230 k acc)
          (procInv m d L b1 ch (chunkTab m d L ch) (k.val + 1)) := by
  unfold procInv k0_t7_body
  have hk : k.val < 32 := by have := trips7; omega
  iintro ⟨Hh, Hb⟩
  sl_exec (disch := exact chk1 m d L ch (chunkTab m d L ch) (fun _ => rfl) (hx d) _ _)
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 1)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 0 _ (off12_eq k 0) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 2)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 1 _ (off12_eq k 1) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 3)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 2 _ (off12_eq k 2) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 4)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 3 _ (off12_eq k 3) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 5)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 4 _ (off12_eq k 4) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 6)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 5 _ (off12_eq k 5) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 7)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 6 _ (off12_eq k 6) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 8)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 7 _ (off12_eq k 7) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 9)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 8 _ (off12_eq k 8) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 10)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 9 _ (off12_eq k 9) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 11)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 10 _ (off12_eq k 10) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 12)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 11 _ (off12_eq k 11) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 13)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 12 _ (off12_eq k 12) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 14)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 13 _ (off12_eq k 13) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 15)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 14 _ (off12_eq k 14) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 16)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 15 _ (off12_eq k 15) _ _ (hx d) _))
  sl_step
  rw [← Cert.Hist.tripPart_next]
  isplitl [Hh]; · iexact Hh
  iexact Hb

end Tile
end Cert.Proof.HistI
end
-- ==== Proof.TileBodyI.lean ====
/-
  The task of one vector subcore, whole. The subcore is handed band `w` of the token table and plane `w` of the partial
  counts; it zeroes its table of counts, starts the first three chunks of its band into its three slots, walks the
  chunks three at a time (each counted into the table as it lands, the slot refilled with the chunk three ahead),
  counts the last two chunks, and writes the table out to its plane: the plane then holds, at row `r` and lane `l`,
  the number of tokens of the band equal to `128 r + l`. The band and the scratch storage are handed back as they
  came, every semaphore at zero.
-/
import proofs.«217704_g70050916598121_cont_9to1_m_91_37_alg».proof.Proof.TileInvI
import proofs.«217704_g70050916598121_cont_9to1_m_91_37_alg».proof.Proof.ZeroTripI
import proofs.«217704_g70050916598121_cont_9to1_m_91_37_alg».proof.Proof.ShareLemmas
import proofs.«217704_g70050916598121_cont_9to1_m_91_37_alg».proof.Proof.TileZeroI
import proofs.«217704_g70050916598121_cont_9to1_m_91_37_alg».proof.Proof.TileOuterI
import proofs.«217704_g70050916598121_cont_9to1_m_91_37_alg».proof.Proof.TileProc6I
import proofs.«217704_g70050916598121_cont_9to1_m_91_37_alg».proof.Proof.TileProc7I
import proofs.«217704_g70050916598121_cont_9to1_m_91_37_alg».proof.Proof.SlotReadsI
import proofs.«217704_g70050916598121_cont_9to1_m_91_37_alg».proof.Proof.RingSepI
import proofs.«217704_g70050916598121_cont_9to1_m_91_37_alg».proof.Proof.ChunkSetsI
import proofs.«217704_g70050916598121_cont_9to1_m_91_37_alg».proof.Proof.TileOffsI

noncomputable section

namespace Cert.Proof.HistI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.KernelIdeal.main_arg0_scv : Memref Cert.KernelIdeal.sig Kind.scVector Space.hbm Cert.KernelIdeal.S4096x2048 EltTy.i32)
local notation "pW" => (Memref.whole Cert.KernelIdeal.main_v0_scv : Memref Cert.KernelIdeal.sig Kind.scVector Space.hbm Cert.KernelIdeal.S32x800x128 EltTy.i32)
local notation "b0" => (Memref.whole Cert.KernelIdeal.cc0_scratch0 : Memref Cert.KernelIdeal.sig Kind.scVector Space.vmem Cert.KernelIdeal.S8x1024 EltTy.i32)
local notation "b1" => (Memref.whole Cert.KernelIdeal.cc0_scratch1 : Memref Cert.KernelIdeal.sig Kind.scVector Space.vmem Cert.KernelIdeal.S8x1024 EltTy.i32)
local notation "b2" => (Memref.whole Cert.KernelIdeal.cc0_scratch2 : Memref Cert.KernelIdeal.sig Kind.scVector Space.vmem Cert.KernelIdeal.S8x1024 EltTy.i32)
local notation "hW" => (Memref.whole Cert.KernelIdeal.cc0_scratch3 : Memref Cert.KernelIdeal.sig Kind.scVector Space.vmem Cert.KernelIdeal.S800x128 EltTy.i32)

section Tile
variable (d : Dev nD) (L : grid0.Coords)

omit [FloatOps F] in
/-- The finished table of counts written through the worker's plane is the finished plane. -/
theorem plane_done (g : Buf (Elt F) (pLoc d)) (h : IVec S800x128 32)
    (hh : ∀ q : S800x128.Idx, h q = Cert.Hist.cntW (xTab m d) (wOf L) (128 * (q 0).val + (q 1).val)) :
    (heldOwn (F := F) d L (pOut L) ((pOut L).view.writes (Elt F) g [⟨Rect.whole S800x128, h⟩]) : sProp 𝕄)
      = pPlanePts d (wOf L) (partsDone m d) := by
  show ((pOut L).view.loc (V d (cV L) (jV L)) ↦[(pOut L).view.set]{fullShare} _ : sProp 𝕄) = _
  rw [pOut_set]
  exact pOut_done_writes m d L g h hh

omit [FloatOps F] in
/-- Holding the worker's plane is holding its partial table. -/
theorem pts_plane (g : Buf (Elt F) (pLoc d)) :
    (pPlanePts d (wOf L) g : sProp 𝕄) = heldOwn (F := F) d L (pOut L) g := by
  show _ = ((pOut L).view.loc (V d (cV L) (jV L)) ↦[(pOut L).view.set]{fullShare} g : sProp 𝕄)
  rw [pOut_set]

omit [FloatOps F] in
theorem pts_b0 (f : Buf (Elt F) ((V d (cV L) (jV L)).loc cc0_scratch0)) :
    ((V d (cV L) (jV L)).loc cc0_scratch0 ↦{fullShare} f : sProp 𝕄) = heldOwn (F := F) d L b0 f := by
  show _ = ((b0).view.loc (V d (cV L) (jV L)) ↦[(b0).view.set]{fullShare} f : sProp 𝕄)
  simp only [Memref.view_whole, View.set_whole]
omit [FloatOps F] in
theorem pts_b1 (f : Buf (Elt F) ((V d (cV L) (jV L)).loc cc0_scratch1)) :
    ((V d (cV L) (jV L)).loc cc0_scratch1 ↦{fullShare} f : sProp 𝕄) = heldOwn (F := F) d L b1 f := by
  show _ = ((b1).view.loc (V d (cV L) (jV L)) ↦[(b1).view.set]{fullShare} f : sProp 𝕄)
  simp only [Memref.view_whole, View.set_whole]
omit [FloatOps F] in
theorem pts_b2 (f : Buf (Elt F) ((V d (cV L) (jV L)).loc cc0_scratch2)) :
    ((V d (cV L) (jV L)).loc cc0_scratch2 ↦{fullShare} f : sProp 𝕄) = heldOwn (F := F) d L b2 f := by
  show _ = ((b2).view.loc (V d (cV L) (jV L)) ↦[(b2).view.set]{fullShare} f : sProp 𝕄)
  simp only [Memref.view_whole, View.set_whole]

set_option maxHeartbeats 1600000 in
/-- The task on the vector subcore at `L` of device `d`. -/
theorem tile_body (hF : (K (F := F)).Facts) (hx : PreOK m) (O : CellTallies nD τ sig (HIx 1)) (W : Waits sig (HIx 1)) (hO : ∀ g, O g none = 0) :
    iprop(levAts (K (F := F)).L (K (F := F)).lev ∗ emp
        ∗ (xBandPts m d (wOf L) ∗ ∃ f, pPlanePts d (wOf L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__hist_kernel L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0)
          fun _ => iprop((xBandPts m d (wOf L) ∗ pPlanePts d (wOf L) (partsDone m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__hist_kernel_eq_skeleton]; unfold cc0__hist_kernel_skel
  simp only [k0_part24_eq_skeleton]; unfold k0_part24_skel
  rw [(K (F := F)).scopedBufs_V hF d (cV L) (jV L), SparseCore.Cfg.scopedSems0_V (Val := Elt F) d (cV L) (jV L), ownSems0_V, ownBufs_V]
  iintro ⟨#Hlv, -, ⟨Hxb, ⟨%g, Hp⟩⟩, ⟨⟨%f0, Hb0⟩, ⟨%f1, Hb1⟩, ⟨%f2, Hb2⟩, ⟨%fh, Hh⟩, Hbufs⟩, ⟨Hs0, Hs1, Hs2, Hs3, Hsems⟩, HO⟩
  ihave #Hmw := ((K (F := F)).mayWaits_none (thr := V d (cV L) (jV L)) hO) $$ Hlv
  iclear Hlv
  ihave Hx := (Entails.of_eq (xBand_chunks d L (m (xLoc d)))) $$ Hxb
  ihave Hp := (Entails.of_eq (pts_plane (F := F) d L g)) $$ Hp
  ihave Hb0 := (Entails.of_eq (pts_b0 (F := F) d L f0)) $$ Hb0
  ihave Hb1 := (Entails.of_eq (pts_b1 (F := F) d L f1)) $$ Hb1
  ihave Hb2 := (Entails.of_eq (pts_b2 (F := F) d L f2)) $$ Hb2
  sl_exec
  rw [Prog.bind_assoc]
  sl_for (zeroInv (F := F) d L) $$ [Hh]
  case region => intro k acc; exact zero_region d L k acc
  · iapply (zero_init (F := F) d L ⟨⟩); iexists _; iexact Hh
  iintro %u0 HI
  ihave Hh := (zero_done m d L u0) $$ HI
  ihave Hx' := (Entails.of_eq (ring_take (fun ch : Fin 32 => heldOwn (F := F) d L (xChunk L ch) (m (xLoc d))))) $$ Hx
  icases Hx' with ⟨Hc0, Hc1, Hc2, Hx⟩
  sl_exec
  rw [Prog.bind_assoc]
  sl_for (outInv m d L O W) $$ [Hh Hx Hs0 Hs1 Hs2 HO]
  case region => intro g acc; exact outer_trip m d L hx O W _ g acc
  · unfold outInv
    rw [if_pos (by omega : 3 * 0 + 2 < 32)]
    isplitr; · iexact Hmw
    isplitl [Hh]; · iexact Hh
    isplitl [Hx]; · iexact Hx
    isplitl [Hs0]; · unfold inflight; iexists _; iexact Hs0
    isplitl [Hs1]; · unfold inflight; iexists _; iexact Hs1
    isplitl [Hs2]; · unfold inflight; iexists _; iexact Hs2
    iexists W; isplitr; · ipureintro; exact fun p hp => .inl hp
    iexact HO
  iintro %u1 HI
  ihave HI : (outInv m d L O W 10 u1) $$ [HI]
  · iclear Hmw; istop; exact Entails.of_eq (congrArg (fun n => outInv m d L O W n u1) trips2)
  unfold outInv
  rw [if_neg (by omega : ¬ 3 * 10 + 2 < 32)]
  unfold inflight
  icases HI with ⟨-, Hh, Hx, ⟨%dp0, Hf0⟩, ⟨%dp1, Hf1⟩, ⟨⟨%f2', Hb2⟩, Hs2⟩, %W', %hW', HO⟩
  sl_exec
  ihave Hb0 := (Entails.of_eq (slot_pts0 m d L (chOf (3 * 10)) dp0 (chunkTab m d L (chOf (3 * 10))) (fun _ => rfl))) $$ Hf0_dst
  ihave Hh := (Entails.of_eq (congrArg (fun f => (((hW).view.loc (V d (cV L) (jV L)) ↦{fullShare} f) : sProp 𝕄)) (hist_in m d L (3 * 10) (by omega)))) $$ Hh
  rw [Prog.bind_assoc]
  sl_for (procInv m d L b0 (chOf (3 * 10)) (chunkTab m d L (chOf (3 * 10)))) $$ [Hh Hb0]
  case region => intro k acc; exact proc6_trip m d L hx _ k acc
  · unfold procInv; isplitl [Hh]; · iexact Hh
    iexact Hb0
  iintro %u2 HI
  ihave HI : (procInv m d L b0 (chOf (3 * 10)) (chunkTab m d L (chOf (3 * 10))) 32 u2) $$ [HI]
  · iclear Hmw; istop; exact Entails.of_eq (congrArg (fun n => procInv m d L b0 (chOf (3 * 10)) (chunkTab m d L (chOf (3 * 10))) n u2) trips6)
  unfold procInv
  icases HI with ⟨Hh, Hb0⟩
  ihave Hh : ((((hW).view.loc (V d (cV L) (jV L)) ↦{fullShare} histBuf m d L (Cert.Hist.doneSet (wOf L) (3 * 10 + 1))) : sProp 𝕄)) $$ [Hh]
  · iclear Hmw; istop; exact Entails.of_eq (congrArg (fun f => (((hW).view.loc (V d (cV L) (jV L)) ↦{fullShare} f) : sProp 𝕄)) (hist_out m d L (3 * 10) (by omega)))
  sl_exec
  ihave Hb1 := (Entails.of_eq (slot_pts1 m d L (chOf (3 * 10 + 1)) _ (chunkTab m d L (chOf (3 * 10 + 1))) (fun _ => rfl))) $$ Hf1_dst
  ihave Hh := (Entails.of_eq (congrArg (fun f => (((hW).view.loc (V d (cV L) (jV L)) ↦{fullShare} f) : sProp 𝕄)) (hist_in m d L (3 * 10 + 1) (by omega)))) $$ Hh
  sl_for (procInv m d L b1 (chOf (3 * 10 + 1)) (chunkTab m d L (chOf (3 * 10 + 1)))) $$ [Hh Hb1]
  case region => intro k acc; exact proc7_trip m d L hx _ k acc
  · unfold procInv; isplitl [Hh]; · iexact Hh
    iexact Hb1
  iintro %u3 HI
  ihave HI : (procInv m d L b1 (chOf (3 * 10 + 1)) (chunkTab m d L (chOf (3 * 10 + 1))) 32 u3) $$ [HI]
  · iclear Hmw; istop; exact Entails.of_eq (congrArg (fun n => procInv m d L b1 (chOf (3 * 10 + 1)) (chunkTab m d L (chOf (3 * 10 + 1))) n u3) trips7)
  unfold procInv
  icases HI with ⟨Hh, Hb1⟩
  ihave Hh : ((((hW).view.loc (V d (cV L) (jV L)) ↦{fullShare} histBuf m d L (Cert.Hist.doneSet (wOf L) (3 * 10 + 1 + 1))) : sProp 𝕄)) $$ [Hh]
  · iclear Hmw; istop; exact Entails.of_eq (congrArg (fun f => (((hW).view.loc (V d (cV L) (jV L)) ↦{fullShare} f) : sProp 𝕄)) (hist_out m d L (3 * 10 + 1) (by omega)))
  sl_exec
  sl_step
  ihave Hx : (bigSep Finset.univ fun ch : Fin 32 => heldOwn (F := F) d L (xChunk L ch) (m (xLoc d))) $$ [Hf0_src Hf1_src Hx]
  · iapply (Entails.of_eq (ring_done (fun ch : Fin 32 => heldOwn (F := F) d L (xChunk L ch) (m (xLoc d)))))
    isplitl [Hf0_src]; · iexact Hf0_src
    isplitl [Hf1_src]; · iexact Hf1_src
    iexact Hx
  ihave Hp : (pPlanePts d (wOf L) (partsDone m d)) $$ [Hp]
  · iclear Hmw; istop
    refine Entails.of_eq (plane_done m d L g _ ?_)
    intro q
    show Cert.Hist.histOf (xTab m d) (Cert.Hist.doneSet (wOf L) 32) q = _
    rw [Cert.Hist.doneSet_all]
    exact Cert.Hist.histOf_band _ _ q
  ihave Hxb := (Entails.of_eq (xBand_chunks d L (m (xLoc d))).symm) $$ Hx
  isplitl [Hxb Hp]
  · isplitl [Hxb]; · iexact Hxb
    iexact Hp
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  isplitl [Hb0 Hb1 Hb2 Hh Hbufs]
  · isplitl [Hb0]
    · iexists _; iexact Hb0
    isplitl [Hb1]
    · iexists _; iexact Hb1
    isplitl [Hb2]
    · iexists _; iexact Hb2
    isplitl [Hh]
    · iexists _; iexact Hh
    iexact Hbufs
  isplitl [Hf0 Hf1 Hs2 Hs3 Hsems]
  · isplitl [Hf0]; · iexact Hf0
    isplitl [Hf1]; · iexact Hf1
    isplitl [Hs2]; · iexact Hs2
    isplitl [Hs3]; · iexact Hs3
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp

end Tile

/-! ## The launch theorem's obligation for the vector subcores -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__hist_kernel (coordsV c s)
          xW (Memref.isWhole_whole _) pW (Memref.isWhole_whole _)
          b0 (Memref.isWhole_whole _) b1 (Memref.isWhole_whole _) b2 (Memref.isWhole_whole _) hW (Memref.isWhole_whole _)
          cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task meets the launch theorem's obligation: handed its band and its plane, it hands them back
    with the plane at the finished partial counts. -/
theorem tileObl (hF : (K (F := F)).Facts) (hx : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hx O W hO).trans (wp_mono frame _ _ fun _ => obl_post)

end Cert.Proof.HistI
end
-- ==== Proof.TileResB.lean ====
/-
  One vector subcore's view of its task: the subcore at grid point `L` is worker `w = 2 (L 1) + (L 0)`; its share of the
  token table is cut into thirty-two chunks of 8 rows × 1024 columns, chunk `ch` at rows `128 w + 8 (ch / 2)`, columns
  `1024 (ch % 2)`; every slice of the table the printed body takes is one of these chunks (the offset chains decided
  once over the grid and the trips); the subcore's own scratch buffers and DMA semaphores taken out of its scoped
  storage.
-/
import proofs.«217704_g70050916598121_cont_9to1_m_91_37_alg».proof.Proof.CommonB

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The subcore and its worker number -/

abbrev cV (L : grid0.Coords) : Fin τ.nSC := (L 0).castLE hcore0
abbrev jV (L : grid0.Coords) : Fin τ.nSub := (L 1).castLE hsub0

theorem L0_lt (L : grid0.Coords) : (L 0).val < 2 := (L 0).isLt
theorem L1_lt (L : grid0.Coords) : (L 1).val < 16 := (L 1).isLt

/-- The worker number of the subcore at `L`. -/
def wOf (L : grid0.Coords) : Fin 32 := ⟨2 * (L 1).val + (L 0).val, by have := L0_lt L; have := L1_lt L; omega⟩

local notation "xW" => (Memref.whole Cert.Kernel.main_arg0_scv : Memref Cert.Kernel.sig Kind.scVector Space.hbm Cert.Kernel.S4096x2048 EltTy.i32)
local notation "pW" => (Memref.whole Cert.Kernel.main_v0_scv : Memref Cert.Kernel.sig Kind.scVector Space.hbm Cert.Kernel.S32x800x128 EltTy.i32)
local notation "b0" => (Memref.whole Cert.Kernel.cc0_scratch0 : Memref Cert.Kernel.sig Kind.scVector Space.vmem Cert.Kernel.S8x1024 EltTy.i32)
local notation "b1" => (Memref.whole Cert.Kernel.cc0_scratch1 : Memref Cert.Kernel.sig Kind.scVector Space.vmem Cert.Kernel.S8x1024 EltTy.i32)
local notation "b2" => (Memref.whole Cert.Kernel.cc0_scratch2 : Memref Cert.Kernel.sig Kind.scVector Space.vmem Cert.Kernel.S8x1024 EltTy.i32)
local notation "hW" => (Memref.whole Cert.Kernel.cc0_scratch3 : Memref Cert.Kernel.sig Kind.scVector Space.vmem Cert.Kernel.S800x128 EltTy.i32)

/-! ## The chunks of a worker's share -/

/-- Where chunk `ch` of the worker at `L` starts. -/
def coff (L : grid0.Coords) (ch : Fin 32) : Fin 2 → Nat :=
  ![256 * (L 1).val + 128 * (L 0).val + 8 * (ch.val / 2), 1024 * (ch.val % 2)]

theorem coff_inb (L : grid0.Coords) (ch : Fin 32) : ∀ a, coff L ch a + S8x1024.size a ≤ S4096x2048.size a := by
  have := L0_lt L; have := L1_lt L; have := ch.isLt
  intro a; fin_cases a
  · show 256 * (L 1).val + 128 * (L 0).val + 8 * (ch.val / 2) + 8 ≤ 4096; omega
  · show 1024 * (ch.val % 2) + 1024 ≤ 2048; omega

/-- Chunk `ch` of the token table, as the worker at `L` addresses it. -/
abbrev xChunk (L : grid0.Coords) (ch : Fin 32) : Memref sig .scVector .hbm S8x1024 .i32 :=
  (xW).slice (Rect.unit (s := S4096x2048) (coff L ch) S8x1024.size (coff_inb L ch)) (fun _ => rfl)

/-! ## The printed offset chains are these chunks -/

theorem off2_eq : ∀ (L : grid0.Coords) (r : Fin 3), k0_off2 L (k0_off2_at r) = coff L (![0, 2, 30] r) := by decide +kernel
theorem off3_eq : ∀ (L : grid0.Coords) (r : Fin 2), k0_off3 L (BitVec.ofNat 32 (120 * r.val)) = coff L (![1, 31] r) := by decide +kernel
theorem off4_eq : ∀ (L : grid0.Coords) (t : Fin k0_t2_loop.trips) (r : Fin 3),
    k0_off4 L t (BitVec.ofNat 32 r.val) = coff L ⟨(3 * t.val + r.val) % 32, Nat.mod_lt _ (by decide)⟩ := by decide +kernel
theorem off6_eq : ∀ (L : grid0.Coords) (t : Fin k0_t2_loop.trips), k0_off6 L t = coff L ⟨(3 * t.val + 3) % 32, Nat.mod_lt _ (by decide)⟩ := by decide +kernel
theorem off8_eq : ∀ (L : grid0.Coords) (t : Fin k0_t2_loop.trips), k0_off8 L t = coff L ⟨(3 * t.val + 4) % 32, Nat.mod_lt _ (by decide)⟩ := by decide +kernel
theorem off10_eq : ∀ (L : grid0.Coords) (t : Fin k0_t2_loop.trips), k0_cond3 t = 1#1 → k0_off10 L t = coff L ⟨(3 * t.val + 5) % 32, Nat.mod_lt _ (by decide)⟩ := by decide +kernel

theorem cond1_all : ∀ t : Fin k0_t2_loop.trips, k0_cond1 t = 1#1 := by decide +kernel
theorem cond2_all : ∀ t : Fin k0_t2_loop.trips, k0_cond2 t = 1#1 := by decide +kernel
theorem cond3_iff : ∀ t : Fin k0_t2_loop.trips, k0_cond3 t = 1#1 ↔ t.val < 9 := by decide +kernel

/-- Chunk number `n` (taken modulo 32, so that it is a chunk for every `n`). -/
def chOf (n : Nat) : Fin 32 := ⟨n % 32, Nat.mod_lt _ (by decide)⟩

@[sl_canon] theorem canon_c0 (L : grid0.Coords) :
    (xW).slice (Rect.unit (s := S4096x2048) (k0_off2 L 0#32) S8x1024.size (k0_off2_inb L 0)) (fun _ => rfl) = xChunk L 0 :=
  Memref.slice_unit_congr _ (off2_eq L 0) _ _ (fun _ => rfl) (fun _ => rfl)
@[sl_canon] theorem canon_c1 (L : grid0.Coords) :
    (xW).slice (Rect.unit (s := S4096x2048) (k0_off3 L 0#32) S8x1024.size (k0_off3_inb L 0)) (fun _ => rfl) = xChunk L 1 :=
  Memref.slice_unit_congr _ (off3_eq L 0) _ _ (fun _ => rfl) (fun _ => rfl)
@[sl_canon] theorem canon_c2 (L : grid0.Coords) :
    (xW).slice (Rect.unit (s := S4096x2048) (k0_off2 L 8#32) S8x1024.size (k0_off2_inb L 1)) (fun _ => rfl) = xChunk L 2 :=
  Memref.slice_unit_congr _ (off2_eq L 1) _ _ (fun _ => rfl) (fun _ => rfl)
@[sl_canon] theorem canon_c30 (L : grid0.Coords) :
    (xW).slice (Rect.unit (s := S4096x2048) (k0_off2 L 120#32) S8x1024.size (k0_off2_inb L 2)) (fun _ => rfl) = xChunk L 30 :=
  Memref.slice_unit_congr _ (off2_eq L 2) _ _ (fun _ => rfl) (fun _ => rfl)
@[sl_canon] theorem canon_c31 (L : grid0.Coords) :
    (xW).slice (Rect.unit (s := S4096x2048) (k0_off3 L 120#32) S8x1024.size (k0_off3_inb L 1)) (fun _ => rfl) = xChunk L 31 :=
  Memref.slice_unit_congr _ (off3_eq L 1) _ _ (fun _ => rfl) (fun _ => rfl)
@[sl_canon] theorem canon_w0 (L : grid0.Coords) (t : Fin k0_t2_loop.trips) :
    (xW).slice (Rect.unit (s := S4096x2048) (k0_off4 L t 0#32) S8x1024.size (k0_off4_inb L t 0)) (fun _ => rfl) = xChunk L (chOf (3 * t.val + 0)) :=
  Memref.slice_unit_congr _ (off4_eq L t 0) _ _ (fun _ => rfl) (fun _ => rfl)
@[sl_canon] theorem canon_w1 (L : grid0.Coords) (t : Fin k0_t2_loop.trips) :
    (xW).slice (Rect.unit (s := S4096x2048) (k0_off4 L t 1#32) S8x1024.size (k0_off4_inb L t 1)) (fun _ => rfl) = xChunk L (chOf (3 * t.val + 1)) :=
  Memref.slice_unit_congr _ (off4_eq L t 1) _ _ (fun _ => rfl) (fun _ => rfl)
@[sl_canon] theorem canon_w2 (L : grid0.Coords) (t : Fin k0_t2_loop.trips) :
    (xW).slice (Rect.unit (s := S4096x2048) (k0_off4 L t 2#32) S8x1024.size (k0_off4_inb L t 2)) (fun _ => rfl) = xChunk L (chOf (3 * t.val + 2)) :=
  Memref.slice_unit_congr _ (off4_eq L t 2) _ _ (fun _ => rfl) (fun _ => rfl)
@[sl_canon] theorem canon_s0 (L : grid0.Coords) (t : Fin k0_t2_loop.trips) (h : k0_cond1 t = 1#1) :
    (xW).slice (Rect.unit (s := S4096x2048) (k0_off6 L t) S8x1024.size (k0_off6_inb L t h)) (fun _ => rfl) = xChunk L (chOf (3 * t.val + 3)) :=
  Memref.slice_unit_congr _ (off6_eq L t) _ _ (fun _ => rfl) (fun _ => rfl)
@[sl_canon] theorem canon_s1 (L : grid0.Coords) (t : Fin k0_t2_loop.trips) (h : k0_cond2 t = 1#1) :
    (xW).slice (Rect.unit (s := S4096x2048) (k0_off8 L t) S8x1024.size (k0_off8_inb L t h)) (fun _ => rfl) = xChunk L (chOf (3 * t.val + 4)) :=
  Memref.slice_unit_congr _ (off8_eq L t) _ _ (fun _ => rfl) (fun _ => rfl)
@[sl_canon] theorem canon_s2 (L : grid0.Coords) (t : Fin k0_t2_loop.trips) (h : k0_cond3 t = 1#1) :
    (xW).slice (Rect.unit (s := S4096x2048) (k0_off10 L t) S8x1024.size (k0_off10_inb L t h)) (fun _ => rfl) = xChunk L (chOf (3 * t.val + 5)) :=
  Memref.slice_unit_congr _ (off10_eq L t h) _ _ (fun _ => rfl) (fun _ => rfl)

/-! ## The subcore's own scratch and semaphores -/

section Own
variable (d : Dev nD) (L : grid0.Coords)

abbrev thr : Thread nD τ := V d (cV L) (jV L)

abbrev cell0 : GSem nD τ sig := (V d (cV L) (jV L), .dma cc0_scratch4.sem)
abbrev cell1 : GSem nD τ sig := (V d (cV L) (jV L), .dma cc0_scratch5.sem)
abbrev cell2 : GSem nD τ sig := (V d (cV L) (jV L), .dma cc0_scratch6.sem)
abbrev cell3 : GSem nD τ sig := (V d (cV L) (jV L), .dma cc0_scoped0.sem)

omit [FloatOps F] in
theorem ownSems0_V :
    (ownSems0 (V d (cV L) (jV L)) : sProp 𝕄)
      = iprop(semVal (cell0 d L) 0 ∗ semVal (cell1 d L) 0 ∗ semVal (cell2 d L) 0 ∗ semVal (cell3 d L) 0
          ∗ bigSep (((((ownCells (V d (cV L) (jV L))).erase (cell0 d L)).erase (cell1 d L)).erase (cell2 d L)).erase (cell3 d L))
              fun g => semVal g 0) := by
  unfold SparseCore.Cfg.ownSems0
  rw [SparseCore.bigSep_erase' ((mem_ownCells (g := cell0 d L)).mpr ⟨rfl, by
      show (SemLoc.dma cc0_scratch4.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scratch5.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scratch6.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d L)).mpr ⟨rfl, by show (SemLoc.dma cc0_scoped0.sem : SemLoc sig).isScoped .scVector = true; decide⟩⟩⟩⟩)]

omit [FloatOps F] in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

end Own

end Cert.Proof.HistB

end
-- ==== Proof.RingSepB.lean ====
/-
  Thirty-two resources, three at a time. For resources `Φ ch` indexed by the chunk, `ringHeld Φ g` is all of them but
  the three numbered `3 g, 3 g + 1, 3 g + 2`, and `ringRest Φ g` all but the six from `3 g` on. Taking three out of the
  whole, passing from one window of three to the next, and putting the last two back are identities between iterated
  separating conjunctions: each splits an index set into a few named members and the rest.
-/
import proofs.«217704_g70050916598121_cont_9to1_m_91_37_alg».proof.Proof.TileResB

noncomputable section

namespace Cert.Proof.HistB

open Idealize.SL Idealize.SL.RA Idealize.SL.BI
open scoped Idealize.SL.BI
open Idealize.SL.BI.BIBase Idealize.SL.BI.Laws Idealize.SL.ProofMode Idealize.SL.Sem

variable {M : Type} [URA M]

/-- Every chunk's resource but those of the three chunks `3 g, 3 g + 1, 3 g + 2`. -/
def ringHeld (Φ : Fin 32 → sProp M) (g : Nat) : sProp M :=
  bigSep Finset.univ fun ch : Fin 32 => if 3 * g ≤ ch.val ∧ ch.val < 3 * g + 3 then iprop(emp) else Φ ch

/-- Every chunk's resource but those of the six chunks `3 g … 3 g + 5`. -/
def ringRest (Φ : Fin 32 → sProp M) (g : Nat) : sProp M :=
  bigSep (Finset.univ.filter fun ch : Fin 32 => ¬ (3 * g ≤ ch.val ∧ ch.val < 3 * g + 6)) Φ

theorem chOf_val (n : Nat) : (chOf n).val = n % 32 := rfl

/-- Three named members and the rest. -/
theorem bigSep_ins3 {S T : Finset (Fin 32)} {a b c : Fin 32} (Φ : Fin 32 → sProp M)
    (h : S = insert a (insert b (insert c T))) (ha : a ∉ insert b (insert c T)) (hb : b ∉ insert c T) (hc : c ∉ T) :
    bigSep S Φ = iprop(Φ a ∗ Φ b ∗ Φ c ∗ bigSep T Φ) := by
  rw [h, bigSep_insert ha, bigSep_insert hb, bigSep_insert hc]; rfl

/-- Two named members and the rest. -/
theorem bigSep_ins2 {S T : Finset (Fin 32)} {a b : Fin 32} (Φ : Fin 32 → sProp M)
    (h : S = insert a (insert b T)) (ha : a ∉ insert b T) (hb : b ∉ T) :
    bigSep S Φ = iprop(Φ a ∗ Φ b ∗ bigSep T Φ) := by
  rw [h, bigSep_insert ha, bigSep_insert hb]; rfl

/-- The held resources are those of the chunks outside the window of three. -/
theorem ringHeld_eq (Φ : Fin 32 → sProp M) (g : Nat) :
    ringHeld Φ g = bigSep (Finset.univ.filter fun ch : Fin 32 => ¬ (3 * g ≤ ch.val ∧ ch.val < 3 * g + 3)) Φ := by
  unfold ringHeld
  rw [bigSep_filter]
  refine bigSep_congr fun ch _ => ?_
  by_cases hc : 3 * g ≤ ch.val ∧ ch.val < 3 * g + 3
  · rw [if_pos hc, if_neg (not_not.mpr hc)]; rfl
  · rw [if_neg hc, if_pos hc]

theorem ring_take (Φ : Fin 32 → sProp M) :
    bigSep Finset.univ Φ = iprop(Φ 0 ∗ Φ 1 ∗ Φ 2 ∗ ringHeld Φ 0) := by
  rw [ringHeld_eq]
  have e0 : ((0 : Fin 32)).val = 0 := rfl
  have e1 : ((1 : Fin 32)).val = 1 := rfl
  have e2 : ((2 : Fin 32)).val = 2 := rfl
  refine bigSep_ins3 Φ ?_ ?_ ?_ ?_
  · ext ch
    simp only [Finset.mem_univ, Finset.mem_insert, Finset.mem_filter, _root_.true_and, _root_.true_iff, Fin.ext_iff, e0, e1, e2]
    omega
  · simp only [Finset.mem_univ, Finset.mem_insert, Finset.mem_filter, _root_.true_and, Fin.ext_iff, e0, e1, e2]
    omega
  · simp only [Finset.mem_univ, Finset.mem_insert, Finset.mem_filter, _root_.true_and, Fin.ext_iff, e0, e1, e2]
    omega
  · simp only [Finset.mem_univ, Finset.mem_insert, Finset.mem_filter, _root_.true_and, Fin.ext_iff, e0, e1, e2]
    omega

theorem ring_next (Φ : Fin 32 → sProp M) (g : Nat) (hg : g < 9) :
    ringHeld Φ g = iprop(Φ (chOf (3 * g + 3)) ∗ Φ (chOf (3 * g + 4)) ∗ Φ (chOf (3 * g + 5)) ∗ ringRest Φ g) := by
  rw [ringHeld_eq]
  unfold ringRest
  refine bigSep_ins3 Φ ?_ ?_ ?_ ?_
  · ext ch
    simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega

theorem ring_next_last (Φ : Fin 32 → sProp M) :
    ringHeld Φ 9 = iprop(Φ (chOf 30) ∗ Φ (chOf 31) ∗ ringRest Φ 9) := by
  rw [ringHeld_eq]
  unfold ringRest
  refine bigSep_ins2 Φ ?_ ?_ ?_
  · ext ch
    have := ch.isLt
    simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega

theorem ring_back (Φ : Fin 32 → sProp M) (g : Nat) (hg : g < 10) :
    ringHeld Φ (g + 1) = iprop(Φ (chOf (3 * g)) ∗ Φ (chOf (3 * g + 1)) ∗ Φ (chOf (3 * g + 2)) ∗ ringRest Φ g) := by
  rw [ringHeld_eq]
  unfold ringRest
  refine bigSep_ins3 Φ ?_ ?_ ?_ ?_
  · ext ch
    simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega

theorem ring_done (Φ : Fin 32 → sProp M) :
    iprop(Φ (chOf 30) ∗ Φ (chOf 31) ∗ ringHeld Φ 10) = bigSep Finset.univ Φ := by
  rw [ringHeld_eq]
  refine (bigSep_ins2 Φ ?_ ?_ ?_).symm
  · ext ch
    have := ch.isLt
    simp only [Finset.mem_univ, Finset.mem_insert, Finset.mem_filter, _root_.true_and, _root_.true_iff, Fin.ext_iff, chOf_val]
    omega
  · simp only [Finset.mem_univ, Finset.mem_insert, Finset.mem_filter, _root_.true_and, Fin.ext_iff, chOf_val]
    omega
  · simp only [Finset.mem_univ, Finset.mem_insert, Finset.mem_filter, _root_.true_and, Fin.ext_iff, chOf_val]
    omega

end Cert.Proof.HistB

end
-- ==== Proof.TileInvB.lean ====
/-
  The invariants of one vector subcore's task. A slot that a chunk has landed in holds the chunk's tokens (over
  whatever it held before); a transfer in flight on a slot's semaphore carries the slot at those contents and the
  chunk of the table back; while a slot is being counted, the table of counts holds the counts of the chunks already
  done and of the tokens of this chunk before the current trip.
-/
import proofs.«217704_g70050916598121_cont_9to1_m_91_37_alg».proof.Proof.TileResB
import proofs.«217704_g70050916598121_cont_9to1_m_91_37_alg».proof.Proof.ShareSets
import proofs.«217704_g70050916598121_cont_9to1_m_91_37_alg».proof.Proof.RingSepB

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.Kernel.main_arg0_scv : Memref Cert.Kernel.sig Kind.scVector Space.hbm Cert.Kernel.S4096x2048 EltTy.i32)
local notation "pW" => (Memref.whole Cert.Kernel.main_v0_scv : Memref Cert.Kernel.sig Kind.scVector Space.hbm Cert.Kernel.S32x800x128 EltTy.i32)
local notation "b0" => (Memref.whole Cert.Kernel.cc0_scratch0 : Memref Cert.Kernel.sig Kind.scVector Space.vmem Cert.Kernel.S8x1024 EltTy.i32)
local notation "b1" => (Memref.whole Cert.Kernel.cc0_scratch1 : Memref Cert.Kernel.sig Kind.scVector Space.vmem Cert.Kernel.S8x1024 EltTy.i32)
local notation "b2" => (Memref.whole Cert.Kernel.cc0_scratch2 : Memref Cert.Kernel.sig Kind.scVector Space.vmem Cert.Kernel.S8x1024 EltTy.i32)
local notation "hW" => (Memref.whole Cert.Kernel.cc0_scratch3 : Memref Cert.Kernel.sig Kind.scVector Space.vmem Cert.Kernel.S800x128 EltTy.i32)

section Inv
variable (d : Dev nD) (L : grid0.Coords)

/-- A view held by exactly its own elements, by the subcore at `L`. -/
abbrev heldOwn {sp : Space} {S : Shape} {e : EltTy} (M : Memref sig .scVector sp S e) (f : Buf (Elt F) (M.view.loc (V d (cV L) (jV L)))) : sProp 𝕄 :=
  M.view.loc (V d (cV L) (jV L)) ↦[M.view.set]{fullShare} f

/-- What a slot holds once chunk `ch` has landed in it, over its prior contents `dp`. -/
abbrev landed (b : Memref sig .scVector .vmem S8x1024 .i32) (ch : Fin 32) (dp : Buf (Elt F) (b.view.loc (V d (cV L) (jV L)))) :
    Buf (Elt F) (b.view.loc (V d (cV L) (jV L))) :=
  b.view.writes (Elt F) dp [⟨Rect.whole S8x1024, ReadAs.same.apply ((xChunk L ch).view.read (Elt F) (m (xLoc d)))⟩]

/-- Chunk `ch` in flight into slot `b` on semaphore `sem`. -/
def inflight (b : Memref sig .scVector .vmem S8x1024 .i32) (sem : DmaSem sig) (ch : Fin 32) : sProp 𝕄 :=
  iprop(∃ dp, Transfers.Flight (countersEmb (U := UU)) (V d (cV L) (jV L)) (SemLoc.dma sem) (default : HIx 1) 262144
    iprop(heldOwn (F := F) d L b (landed m d L b ch dp) ∗ heldOwn (F := F) d L (xChunk L ch) (m (xLoc d))))

/-- The tokens of chunk `ch`, as a slot holds them. -/
def chunkTab (ch : Fin 32) : S8x1024.Idx → BitVec 32 := fun q => m (xLoc d) ((xChunk L ch).view.emb q)

/-- The table of counts as a buffer of the subcore's fourth scratch. -/
abbrev histBuf (A : Finset Cert.Hist.ST.Idx) : Buf (Elt F) ((hW).view.loc (V d (cV L) (jV L))) :=
  Cert.Hist.histOf (xTab m d) A

/-- While slot `b` (holding chunk `ch`) is counted: before trip `k`. -/
def procInv (b : Memref sig .scVector .vmem S8x1024 .i32) (ch : Fin 32) (cb : Buf (Elt F) (b.view.loc (V d (cV L) (jV L))))
    (k : Nat) (_ : Unit) : sProp 𝕄 :=
  iprop(((hW).view.loc (V d (cV L) (jV L)) ↦{fullShare} histBuf m d L (Cert.Hist.doneSet (wOf L) ch.val ∪ Cert.Hist.tripPart (wOf L) ch k 0))
    ∗ heldOwn (F := F) d L b cb)

/-- Between two trips of the loop over the chunks, three at a time: before trip `g` the chunks before `3 g` are counted,
    chunks `3 g`, `3 g + 1` (and `3 g + 2`, while there is one) are in flight into the three slots, every other chunk
    of the share is held. -/
def outInv (O : CellTallies nD τ sig (HIx 1)) (W : Waits sig (HIx 1)) (g : Nat) (_ : Unit) : sProp 𝕄 :=
  iprop(Transfers.MayWaits (V d (cV L) (jV L)) (none : HIx 1) O
    ∗ ((hW).view.loc (V d (cV L) (jV L)) ↦{fullShare} histBuf m d L (Cert.Hist.doneSet (wOf L) (3 * g)))
    ∗ ringHeld (fun ch => heldOwn (F := F) d L (xChunk L ch) (m (xLoc d))) g
    ∗ inflight m d L b0 cc0_scratch4.sem (chOf (3 * g)) ∗ inflight m d L b1 cc0_scratch5.sem (chOf (3 * g + 1))
    ∗ (if 3 * g + 2 < 32 then inflight m d L b2 cc0_scratch6.sem (chOf (3 * g + 2))
        else iprop((∃ f, heldOwn (F := F) d L b2 f) ∗ semVal (cell2 d L) 0))
    ∗ ∃ W', ⌜∀ p ∈ W', p ∈ W ∨ p.2 = none⌝ ∗ owes (V d (cV L) (jV L)) O W')

end Inv

/-- What the proofs ask of the launch memory: every token is at most 99999 (the precondition says so). -/
def PreOK : Prop := ∀ (d : Dev nD) (p : Cert.Hist.ST.Idx), (xTab m d p).toNat ≤ 99999

end Cert.Proof.HistB

end
-- ==== Proof.ChunkSetsB.lean ====
/-
  One worker's share as sets of positions. Chunk `ch` of worker `w` is the 8 rows from `128 w + 8 (ch / 2)` and the
  1024 columns from `1024 (ch % 2)` of the token table; the thirty-two chunks are pairwise disjoint and make up the
  band of rows `128 w … 128 w + 127`, so holding the band is holding the thirty-two chunks. The worker's partial
  table is plane `w` of the partial counts; writing the finished table of counts through it gives the finished
  plane. A scratch buffer a chunk has landed in reads as the table under the chunk.
-/
import proofs.«217704_g70050916598121_cont_9to1_m_91_37_alg».proof.Proof.TileResB

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Chunk
variable (d : Dev nD) (L : grid0.Coords) (ch : Fin 32)

omit [FloatOps F] in
/-- The row of the table under position `q` of a chunk. -/
theorem xChunk_emb0 (q : S8x1024.Idx) :
    (((xChunk L ch).view.emb q) 0 : Fin 4096).val = 128 * (wOf L).val + 8 * (ch.val / 2) + (q 0).val := by
  show (coff L ch 0) + 1 * (q 0).val = _
  show 256 * (L 1).val + 128 * (L 0).val + 8 * (ch.val / 2) + 1 * (q 0).val = 128 * (2 * (L 1).val + (L 0).val) + 8 * (ch.val / 2) + (q 0).val
  omega

omit [FloatOps F] in
/-- The column of the table under position `q` of a chunk. -/
theorem xChunk_emb1 (q : S8x1024.Idx) :
    (((xChunk L ch).view.emb q) 1 : Fin 2048).val = 1024 * (ch.val % 2) + (q 1).val := by
  show (coff L ch 1) + 1 * (q 1).val = _
  show 1024 * (ch.val % 2) + 1 * (q 1).val = _
  omega

omit [FloatOps F] in
/-- Reading a chunk reads the table under it. -/
theorem xChunk_read (f : Buf (Elt F) (xLoc d)) (q : S8x1024.Idx) :
    (xChunk L ch).view.read (Elt F) f q = f ((xChunk L ch).view.emb q) :=
  (View.read_apply _ _).trans (cast_eq _ _)

omit [FloatOps F] in
/-- A chunk's positions: 8 rows from `128 w + 8 (ch / 2)`, 1024 columns from `1024 (ch % 2)`. -/
theorem mem_xChunk_set (p : S4096x2048.Idx) :
    p ∈ (xChunk L ch).view.set ↔
      (128 * (wOf L).val + 8 * (ch.val / 2) ≤ (p 0).val ∧ (p 0).val < 128 * (wOf L).val + 8 * (ch.val / 2) + 8)
      ∧ (1024 * (ch.val % 2) ≤ (p 1).val ∧ (p 1).val < 1024 * (ch.val % 2) + 1024) := by
  have hs : (xChunk L ch).view.set = (Rect.unit (s := S4096x2048) (coff L ch) S8x1024.size (coff_inb L ch)).set := by
    show ((View.whole (main_arg0_scv : Ref sig .scVector)).slice _).set = _
    rw [View.set_slice]; exact Finset.map_refl
  rw [hs, LoadRect.mem_set]
  constructor
  · intro h
    obtain ⟨j0, hj0, e0⟩ := h 0
    obtain ⟨j1, hj1, e1⟩ := h 1
    have hj0' : j0 < 8 := hj0
    have hj1' : j1 < 1024 := hj1
    have e0' : (p 0).val = 256 * (L 1).val + 128 * (L 0).val + 8 * (ch.val / 2) + 1 * j0 := e0
    have e1' : (p 1).val = 1024 * (ch.val % 2) + 1 * j1 := e1
    show (128 * (2 * (L 1).val + (L 0).val) + 8 * (ch.val / 2) ≤ (p 0).val ∧ (p 0).val < 128 * (2 * (L 1).val + (L 0).val) + 8 * (ch.val / 2) + 8) ∧ _
    omega
  · intro h a
    have h' : (128 * (2 * (L 1).val + (L 0).val) + 8 * (ch.val / 2) ≤ (p 0).val ∧ (p 0).val < 128 * (2 * (L 1).val + (L 0).val) + 8 * (ch.val / 2) + 8)
      ∧ (1024 * (ch.val % 2) ≤ (p 1).val ∧ (p 1).val < 1024 * (ch.val % 2) + 1024) := h
    match a with
    | ⟨0, _⟩ =>
      refine ⟨(p 0).val - (256 * (L 1).val + 128 * (L 0).val + 8 * (ch.val / 2)), ?_, ?_⟩
      · show _ < 8; omega
      · show (p 0).val = 256 * (L 1).val + 128 * (L 0).val + 8 * (ch.val / 2) + 1 * _; omega
    | ⟨1, _⟩ =>
      refine ⟨(p 1).val - 1024 * (ch.val % 2), ?_, ?_⟩
      · show _ < 1024; omega
      · show (p 1).val = 1024 * (ch.val % 2) + 1 * _; omega

omit [FloatOps F] in
/-- Two different chunks of one worker share no position. -/
theorem xChunk_disjoint : ∀ ch ∈ (Finset.univ : Finset (Fin 32)), ∀ ch' ∈ (Finset.univ : Finset (Fin 32)), ch ≠ ch' →
    Disjoint (xChunk L ch).view.set (xChunk L ch').view.set := by
  intro ch _ ch' _ hne
  rw [Finset.disjoint_left]
  intro p h1 h2
  rw [mem_xChunk_set] at h1 h2
  have : ch.val ≠ ch'.val := fun e => hne (Fin.ext e)
  omega

omit [FloatOps F] in
/-- The thirty-two chunks of a worker make up its band of 128 rows. -/
theorem xChunk_cover : (Finset.univ : Finset (Fin 32)).biUnion (fun ch => (xChunk L ch).view.set) = xBand (wOf L) := by
  ext p
  rw [Finset.mem_biUnion]
  unfold xBand
  rw [Finset.mem_filter]
  constructor
  · rintro ⟨ch, _, h⟩
    rw [mem_xChunk_set] at h
    refine ⟨Finset.mem_univ _, ?_⟩
    have := ch.isLt
    omega
  · rintro ⟨_, h⟩
    have hp1 : (p 1).val < 2048 := (p 1).isLt
    refine ⟨⟨2 * ((p 0).val % 128 / 8) + (p 1).val / 1024, by omega⟩, Finset.mem_univ _, ?_⟩
    rw [mem_xChunk_set]
    show (128 * (wOf L).val + 8 * ((2 * ((p 0).val % 128 / 8) + (p 1).val / 1024) / 2) ≤ (p 0).val ∧ (p 0).val < 128 * (wOf L).val + 8 * ((2 * ((p 0).val % 128 / 8) + (p 1).val / 1024) / 2) + 8)
      ∧ (1024 * ((2 * ((p 0).val % 128 / 8) + (p 1).val / 1024) % 2) ≤ (p 1).val ∧ (p 1).val < 1024 * ((2 * ((p 0).val % 128 / 8) + (p 1).val / 1024) % 2) + 1024)
    omega

omit [FloatOps F] in
/-- A worker's band of the token table, as its thirty-two chunks. -/
theorem xBand_chunks (f : Buf (Elt F) (xLoc d)) :
    (xLoc d ↦[xBand (wOf L)]{fullShare} f : sProp 𝕄)
      = bigSep Finset.univ fun ch : Fin 32 => (xChunk L ch).view.loc (V d (cV L) (jV L)) ↦[(xChunk L ch).view.set]{fullShare} f := by
  rw [← xChunk_cover L]
  exact pointsTo_biUnion Finset.univ (ℓ := xLoc d) (fun ch => (xChunk L ch).view.set) (xChunk_disjoint L)

end Chunk

open ValueIdx

local notation "pW" => (Memref.whole Cert.Kernel.main_v0_scv : Memref Cert.Kernel.sig Kind.scVector Space.hbm Cert.Kernel.S32x800x128 EltTy.i32)

/-- The worker's partial table, as its write-out addresses it: plane `w` of the partial counts, as 800 × 128. -/
abbrev pOut (L : grid0.Coords) : Memref sig .scVector .hbm S800x128 .i32 :=
  ((pW).slice (Rect.unit (s := S32x800x128) (k0_off13 L) S1x800x128.size (k0_off13_inb L)) (fun _ => rfl)).squeeze S800x128 squeezes_S1x800x128_S800x128

section Plane
variable (d : Dev nD) (L : grid0.Coords)

omit [FloatOps F] in
/-- Position `q` of the worker's partial table is plane `w`, row `q 0`, lane `q 1` of the partial counts. -/
theorem pOut_emb (q : S800x128.Idx) :
    ((pOut L).view.emb q : S32x800x128.Idx) = ix3 (wOf L) (q 0 : Fin 800) (q 1 : Fin 128) := by
  have hq : Shape.reshapeEquiv (s := S1x800x128) (s' := S800x128) squeezes_S1x800x128_S800x128.numel_eq q
      = (ix3 (0 : Fin 1) (q 0 : Fin 800) (q 1 : Fin 128) : S1x800x128.Idx) := by
    refine Shape.reshapeEquiv_eq_of_rowMajor _ ?_
    refine (Shape.rowMajor_val_three (d := ![1, 800, 128]) _).trans ((Shape.rowMajor_val_two (d := ![800, 128]) q).symm ▸ ?_)
    show (0 * 800 + (q 0).val) * 128 + (q 1).val = (q 0).val * 128 + (q 1).val
    omega
  show (Rect.unit (s := S32x800x128) (k0_off13 L) S1x800x128.size (k0_off13_inb L)).emb
    (Shape.reshapeEquiv (s := S1x800x128) (s' := S800x128) squeezes_S1x800x128_S800x128.numel_eq q) = _
  rw [hq]
  funext a
  apply Fin.ext
  show k0_off13 L a + 1 * ((ix3 (0 : Fin 1) (q 0 : Fin 800) (q 1 : Fin 128) : S1x800x128.Idx) a).val = _
  rw [k0_off13_eq]
  match a with
  | ⟨0, _⟩ => show 2 * (L 1).val + (L 0).val + 1 * 0 = 2 * (L 1).val + (L 0).val; omega
  | ⟨1, _⟩ => show 0 + 1 * (q 0).val = (q 0).val; omega
  | ⟨2, _⟩ => show 0 + 1 * (q 1).val = (q 1).val; omega

omit [FloatOps F] in
/-- The worker's partial table covers exactly plane `w`. -/
theorem pOut_set : (pOut L).view.set = pPlane (wOf L) := by
  ext p
  unfold pPlane
  rw [Finset.mem_filter]
  show p ∈ Finset.univ.map (pOut L).view.emb ↔ _
  rw [Finset.mem_map]
  constructor
  · rintro ⟨q, _, rfl⟩
    refine ⟨Finset.mem_univ _, ?_⟩
    rw [pOut_emb]
  · rintro ⟨_, h⟩
    refine ⟨ix2 (p 1 : Fin 800) (p 2 : Fin 128), Finset.mem_univ _, ?_⟩
    rw [pOut_emb]
    funext a
    match a with
    | ⟨0, _⟩ => exact Fin.ext h.symm
    | ⟨1, _⟩ => rfl
    | ⟨2, _⟩ => rfl

omit [FloatOps F] in
/-- The finished table of counts, written through the worker's plane, is the finished plane there. -/
theorem pOut_write_emb (g : Buf (Elt F) (pLoc d)) (h : IVec S800x128 32)
    (hh : ∀ q : S800x128.Idx, h q = Cert.Hist.cntW (xTab m d) (wOf L) (128 * (q 0).val + (q 1).val)) (q : S800x128.Idx) :
    (pOut L).view.write (Elt F) g h Finset.univ ((pOut L).view.emb q) = partsDone m d ((pOut L).view.emb q) := by
  rw [View.write_emb_of_mem _ _ (Finset.mem_univ _), cast_eq, hh]
  have e := pOut_emb L q
  unfold partsDone
  show _ = Cert.Hist.cntW (xTab m d) ⟨(((pOut L).view.emb q : S32x800x128.Idx) 0).val, _⟩
    (128 * (((pOut L).view.emb q : S32x800x128.Idx) 1).val + (((pOut L).view.emb q : S32x800x128.Idx) 2).val)
  rw [e]
  rfl

omit [FloatOps F] in
/-- Holding the worker's plane at the finished table written through it is holding it at the finished partial counts. -/
theorem pOut_done (g : Buf (Elt F) (pLoc d)) (h : IVec S800x128 32)
    (hh : ∀ q : S800x128.Idx, h q = Cert.Hist.cntW (xTab m d) (wOf L) (128 * (q 0).val + (q 1).val)) :
    (pLoc d ↦[pPlane (wOf L)]{fullShare} ((pOut L).view.write (Elt F) g h Finset.univ) : sProp 𝕄)
      = pLoc d ↦[pPlane (wOf L)]{fullShare} partsDone m d := by
  refine pointsTo_congr fun p hp => ?_
  rw [← pOut_set L] at hp
  obtain ⟨q, -, rfl⟩ := Finset.mem_map.mp hp
  exact pOut_write_emb m d L g h hh q

omit [FloatOps F] in
/-- The same, with the write spelt as one piece over the whole table. -/
theorem pOut_done_writes (g : Buf (Elt F) (pLoc d)) (h : IVec S800x128 32)
    (hh : ∀ q : S800x128.Idx, h q = Cert.Hist.cntW (xTab m d) (wOf L) (128 * (q 0).val + (q 1).val)) :
    (pLoc d ↦[pPlane (wOf L)]{fullShare} ((pOut L).view.writes (Elt F) g [⟨Rect.whole S800x128, h⟩]) : sProp 𝕄)
      = pLoc d ↦[pPlane (wOf L)]{fullShare} partsDone m d := by
  rw [← View.write_univ_eq_writes_whole (pOut L).view g [] h]
  exact pOut_done m d L g h hh

end Plane

section Landed
variable (d : Dev nD) (L : grid0.Coords) (ch : Fin 32)

local notation "b0" => (Memref.whole Cert.Kernel.cc0_scratch0 : Memref Cert.Kernel.sig Kind.scVector Space.vmem Cert.Kernel.S8x1024 EltTy.i32)
local notation "b1" => (Memref.whole Cert.Kernel.cc0_scratch1 : Memref Cert.Kernel.sig Kind.scVector Space.vmem Cert.Kernel.S8x1024 EltTy.i32)
local notation "b2" => (Memref.whole Cert.Kernel.cc0_scratch2 : Memref Cert.Kernel.sig Kind.scVector Space.vmem Cert.Kernel.S8x1024 EltTy.i32)

omit [FloatOps F] in
/-- A scratch buffer a chunk has landed in holds, at `q`, the table under position `q` of the chunk. -/
theorem landed0 (dp : Buf (Elt F) ((V d (cV L) (jV L)).loc cc0_scratch0)) (xm : Buf (Elt F) (xLoc d)) (q : S8x1024.Idx) :
    ((b0).view.writes (Elt F) dp [⟨Rect.whole S8x1024, ReadAs.same.apply ((xChunk L ch).view.read (Elt F) xm)⟩]) q
      = xm ((xChunk L ch).view.emb q) := by
  refine (congrFun (View.write_univ_eq_writes_whole (b0).view dp [] ((xChunk L ch).view.read (Elt F) xm)).symm q).trans ?_
  refine (congrFun (View.write_whole_univ (cc0_scratch0 : Ref sig .scVector) dp ((xChunk L ch).view.read (Elt F) xm)) q).trans ?_
  exact (View.read_apply _ _).trans (cast_eq _ _)

omit [FloatOps F] in
/-- The same for the second scratch buffer. -/
theorem landed1 (dp : Buf (Elt F) ((V d (cV L) (jV L)).loc cc0_scratch1)) (xm : Buf (Elt F) (xLoc d)) (q : S8x1024.Idx) :
    ((b1).view.writes (Elt F) dp [⟨Rect.whole S8x1024, ReadAs.same.apply ((xChunk L ch).view.read (Elt F) xm)⟩]) q
      = xm ((xChunk L ch).view.emb q) := by
  refine (congrFun (View.write_univ_eq_writes_whole (b1).view dp [] ((xChunk L ch).view.read (Elt F) xm)).symm q).trans ?_
  refine (congrFun (View.write_whole_univ (cc0_scratch1 : Ref sig .scVector) dp ((xChunk L ch).view.read (Elt F) xm)) q).trans ?_
  exact (View.read_apply _ _).trans (cast_eq _ _)

omit [FloatOps F] in
/-- The same for the third scratch buffer. -/
theorem landed2 (dp : Buf (Elt F) ((V d (cV L) (jV L)).loc cc0_scratch2)) (xm : Buf (Elt F) (xLoc d)) (q : S8x1024.Idx) :
    ((b2).view.writes (Elt F) dp [⟨Rect.whole S8x1024, ReadAs.same.apply ((xChunk L ch).view.read (Elt F) xm)⟩]) q
      = xm ((xChunk L ch).view.emb q) := by
  refine (congrFun (View.write_univ_eq_writes_whole (b2).view dp [] ((xChunk L ch).view.read (Elt F) xm)).symm q).trans ?_
  refine (congrFun (View.write_whole_univ (cc0_scratch2 : Ref sig .scVector) dp ((xChunk L ch).view.read (Elt F) xm)) q).trans ?_
  exact (View.read_apply _ _).trans (cast_eq _ _)

end Landed

end Cert.Proof.HistB

end
-- ==== Proof.TileOffsB.lean ====
/-
  The printed offset chains of the loops, in closed form, decided once over all trips: trip `k` of the zeroing loop
  addresses row `k / 8`, lanes `16 (k % 8) …`; trip `k` of a counting loop, vector `j`, addresses row `k / 4` of the slot,
  columns `256 (k % 4) + 16 j …`.
-/
import proofs.«217704_g70050916598121_cont_9to1_m_91_37_alg».proof.Proof.TileResB

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

set_option maxRecDepth 100000 in
theorem off1_eq : ∀ k : Fin k0_t1_loop.trips, k0_off1 k = ![k.val / 8, 16 * (k.val % 8)] := by decide +kernel
theorem trips1 : k0_t1_loop.trips = 6400 := by decide +kernel
theorem trips2 : k0_t2_loop.trips = 10 := by decide +kernel
theorem trips3 : k0_t3_loop.trips = 32 := by decide +kernel
theorem trips4 : k0_t4_loop.trips = 32 := by decide +kernel
theorem trips5 : k0_t5_loop.trips = 32 := by decide +kernel
theorem trips6 : k0_t6_loop.trips = 32 := by decide +kernel
theorem trips7 : k0_t7_loop.trips = 32 := by decide +kernel
theorem off5_eq : ∀ (k : Fin k0_t3_loop.trips) (r : Fin 16), k0_off5 k (BitVec.ofNat 32 (16 * r.val)) = ![k.val / 4, 256 * (k.val % 4) + 16 * r.val] := by decide +kernel
theorem off7_eq : ∀ (k : Fin k0_t4_loop.trips) (r : Fin 16), k0_off7 k (BitVec.ofNat 32 (16 * r.val)) = ![k.val / 4, 256 * (k.val % 4) + 16 * r.val] := by decide +kernel
theorem off9_eq : ∀ (k : Fin k0_t5_loop.trips) (r : Fin 16), k0_off9 k (BitVec.ofNat 32 (16 * r.val)) = ![k.val / 4, 256 * (k.val % 4) + 16 * r.val] := by decide +kernel
theorem off11_eq : ∀ (k : Fin k0_t6_loop.trips) (r : Fin 16), k0_off11 k (BitVec.ofNat 32 (16 * r.val)) = ![k.val / 4, 256 * (k.val % 4) + 16 * r.val] := by decide +kernel
theorem off12_eq : ∀ (k : Fin k0_t7_loop.trips) (r : Fin 16), k0_off12 k (BitVec.ofNat 32 (16 * r.val)) = ![k.val / 4, 256 * (k.val % 4) + 16 * r.val] := by decide +kernel

end Cert.Proof.HistB

end
-- ==== Proof.ZeroTripB.lean ====
/-
  One trip of the zeroing loop. Trip `k` stores sixteen zeros at row `k / 8`, lanes `16 (k % 8) … 16 (k % 8) + 15` of the
  table of counts, that is at the entries numbered `16 k … 16 k + 15` in row-major order; so if the entries numbered
  below `16 k` were zero before the trip, those below `16 (k + 1)` are zero after it. A table that is zero everywhere
  is the table of counts of no position.
-/
import proofs.«217704_g70050916598121_cont_9to1_m_91_37_alg».proof.Proof.ChunkSetsB
import proofs.«217704_g70050916598121_cont_9to1_m_91_37_alg».proof.Proof.TileOffsB
import proofs.«217704_g70050916598121_cont_9to1_m_91_37_alg».proof.Proof.ShareSets
import proofs.«217704_g70050916598121_cont_9to1_m_91_37_alg».proof.Proof.HistStep
import Idealize.ShloMosaic.Lib.Pipeline.Value

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

open ValueIdx

local notation "hW" => (Memref.whole Cert.Kernel.cc0_scratch3 : Memref Cert.Kernel.sig Kind.scVector Space.vmem Cert.Kernel.S800x128 EltTy.i32)

section Zero
variable (d : Dev nD) (L : grid0.Coords)

omit [FloatOps F] in
/-- After trip `k` of the zeroing loop the entries numbered below `16 (k + 1)` are zero, if those below `16 k` were. -/
theorem zero_trip (f : Buf (Elt F) ((V d (cV L) (jV L)).loc cc0_scratch3)) (k : Fin k0_t1_loop.trips)
    (hf : ∀ q : S800x128.Idx, 128 * (q 0).val + (q 1).val < 16 * k.val → f q = 0#32) :
    ∀ q : S800x128.Idx, 128 * (q 0).val + (q 1).val < 16 * (k.val + 1) →
      ((hW).view.writes (Elt F) f [⟨Rect.unit (s := S800x128) (k0_off1 k) S1x16.size (k0_off1_inb k),
        shapeCast S1x16 k0_pay229 shapeCasts_S16_S1x16⟩]) q = 0#32 := by
  intro q hq
  by_cases hm : q ∈ (Rect.unit (s := S800x128) (k0_off1 k) S1x16.size (k0_off1_inb k)).set
  · obtain ⟨x, rfl⟩ := (Rect.unit (s := S800x128) (k0_off1 k) S1x16.size (k0_off1_inb k)).exists_idx_of_mem hm
    exact View.read_writes_cons_emb (hW).view f (Rect.unit (s := S800x128) (k0_off1 k) S1x16.size (k0_off1_inb k))
      (shapeCast S1x16 k0_pay229 shapeCasts_S16_S1x16) [] x
  · refine (View.read_writes_apply_of_forall_not_mem (hW).view f q
      [⟨Rect.unit (s := S800x128) (k0_off1 k) S1x16.size (k0_off1_inb k), shapeCast S1x16 k0_pay229 shapeCasts_S16_S1x16⟩]
      (fun p hp => by rw [List.mem_singleton] at hp; subst hp; exact hm)).trans ?_
    refine hf q ?_
    rw [Rect.mem_set_unit, Fin.forall_fin_two, off1_eq] at hm
    have h1 : (q 1).val < 128 := (q 1).isLt
    have hm' : ¬ ((k.val / 8 ≤ (q 0).val ∧ (q 0).val < k.val / 8 + 1) ∧ (16 * (k.val % 8) ≤ (q 1).val ∧ (q 1).val < 16 * (k.val % 8) + 16)) := hm
    omega

omit [FloatOps F] in
/-- A table that is zero everywhere is the table of counts of no position. -/
theorem zero_hist (f : Buf (Elt F) ((V d (cV L) (jV L)).loc cc0_scratch3)) (hf : ∀ q : S800x128.Idx, f q = 0#32) :
    f = (Cert.Hist.histOf (xTab m d) ∅ : Buf (Elt F) ((V d (cV L) (jV L)).loc cc0_scratch3)) := by
  rw [Cert.Hist.histOf_empty]
  exact funext hf

end Zero

end Cert.Proof.HistB

end
-- ==== Proof.TileZeroB.lean ====
/-
  The zeroing loop of one vector subcore. Before trip `k` the entries of the table of counts numbered below `16 k` (in
  row-major order) are zero; trip `k` stores sixteen zeros at the entries `16 k … 16 k + 15`. Before the first trip
  nothing is asked of the table; after the last one, trip 6399, every entry is zero: the table of counts of no
  position.
-/
import proofs.«217704_g70050916598121_cont_9to1_m_91_37_alg».proof.Proof.TileInvB
import proofs.«217704_g70050916598121_cont_9to1_m_91_37_alg».proof.Proof.ZeroTripB
import proofs.«217704_g70050916598121_cont_9to1_m_91_37_alg».proof.Proof.ShareLemmas

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.Kernel.main_arg0_scv : Memref Cert.Kernel.sig Kind.scVector Space.hbm Cert.Kernel.S4096x2048 EltTy.i32)
local notation "pW" => (Memref.whole Cert.Kernel.main_v0_scv : Memref Cert.Kernel.sig Kind.scVector Space.hbm Cert.Kernel.S32x800x128 EltTy.i32)
local notation "b0" => (Memref.whole Cert.Kernel.cc0_scratch0 : Memref Cert.Kernel.sig Kind.scVector Space.vmem Cert.Kernel.S8x1024 EltTy.i32)
local notation "b1" => (Memref.whole Cert.Kernel.cc0_scratch1 : Memref Cert.Kernel.sig Kind.scVector Space.vmem Cert.Kernel.S8x1024 EltTy.i32)
local notation "b2" => (Memref.whole Cert.Kernel.cc0_scratch2 : Memref Cert.Kernel.sig Kind.scVector Space.vmem Cert.Kernel.S8x1024 EltTy.i32)
local notation "hW" => (Memref.whole Cert.Kernel.cc0_scratch3 : Memref Cert.Kernel.sig Kind.scVector Space.vmem Cert.Kernel.S800x128 EltTy.i32)

section Tile
variable (d : Dev nD) (L : grid0.Coords)

/-- Before trip `k` of the zeroing loop: the table of counts is held, and its entries numbered below `16 k` are zero. -/
def zeroInv (k : Nat) (_ : Unit) : sProp 𝕄 :=
  iprop(∃ f, ((hW).view.loc (V d (cV L) (jV L)) ↦{fullShare} f) ∗ ⌜∀ q : S800x128.Idx, 128 * (q 0).val + (q 1).val < 16 * k → f q = 0#32⌝)

/-- One trip keeps the invariant. -/
theorem zero_region (k : Fin k0_t1_loop.trips) (acc : Unit) :
    zeroInv (F := F) d L k.val acc
      ⊢ wp frame (wpE (defs₀ (F := F)) 𝒱₀ (V d (cV L) (jV L)) none) Set.univ
          (k0_t1_body L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0 k acc)
          (zeroInv (F := F) d L (k.val + 1)) := by
  unfold zeroInv k0_t1_body
  iintro ⟨%f, Hh, %hf⟩
  sl_exec
  sl_step
  iexists _
  isplitl [Hh]
  · iexact Hh
  ipureintro
  exact zero_trip d L f k hf

omit [FloatOps F] in
/-- Nothing is asked before the first trip. -/
theorem zero_init (acc : Unit) :
    (iprop(∃ f, (V d (cV L) (jV L)).loc cc0_scratch3 ↦{fullShare} f) : sProp 𝕄) ⊢ zeroInv (F := F) d L 0 acc := by
  unfold zeroInv
  iintro ⟨%f, Hh⟩
  iexists f
  isplitl [Hh]
  · iexact Hh
  ipureintro
  intro q hq
  omega

omit [FloatOps F] in
/-- After the last trip the table is the table of counts of no position. -/
theorem zero_done (acc : Unit) :
    zeroInv (F := F) d L k0_t1_loop.trips acc
      ⊢ ((hW).view.loc (V d (cV L) (jV L)) ↦{fullShare} histBuf m d L (Cert.Hist.doneSet (wOf L) 0) : sProp 𝕄) := by
  unfold zeroInv
  iintro ⟨%f, Hh, %hf⟩
  have hz : ∀ q : S800x128.Idx, f q = 0#32 := fun q => hf q (by
    have h0 : (q 0).val < 800 := (q 0).isLt
    have h1 : (q 1).val < 128 := (q 1).isLt
    rw [trips1]; omega)
  have e : f = histBuf m d L ∅ := zero_hist m d L f hz
  rw [Cert.Hist.doneSet_zero, ← e]
  iexact Hh

end Tile

end Cert.Proof.HistB

end
-- ==== Proof.SlotReadsB.lean ====
/-
  What the walk over a slot reads and writes, as plain functions. A slot that holds chunk `ch` reads, at lane `l` of
  the vector loaded at row `k / 4` and columns `256 (k % 4) + 16 j …`, the table's word at lane `l` of vector `j` of trip
  `k` of the chunk; every word so read is at most 99999, so the row and lane indices computed from it are inside the
  800 × 128 table of counts; one indexed add of sixteen ones at those indices takes the counts of the positions walked
  so far to the counts with the sixteen positions of the vector added. Reading or writing the whole table of counts is
  the identity.
-/
import proofs.«217704_g70050916598121_cont_9to1_m_91_37_alg».proof.Proof.ChunkSetsB
import proofs.«217704_g70050916598121_cont_9to1_m_91_37_alg».proof.Proof.ShareSets
import proofs.«217704_g70050916598121_cont_9to1_m_91_37_alg».proof.Proof.HistStep
import proofs.«217704_g70050916598121_cont_9to1_m_91_37_alg».proof.Proof.ShareLemmas
import Idealize.ShloMosaic.Lib.Pipeline.Value

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

open ValueIdx

local notation "b0" => (Memref.whole Cert.Kernel.cc0_scratch0 : Memref Cert.Kernel.sig Kind.scVector Space.vmem Cert.Kernel.S8x1024 EltTy.i32)
local notation "b1" => (Memref.whole Cert.Kernel.cc0_scratch1 : Memref Cert.Kernel.sig Kind.scVector Space.vmem Cert.Kernel.S8x1024 EltTy.i32)
local notation "b2" => (Memref.whole Cert.Kernel.cc0_scratch2 : Memref Cert.Kernel.sig Kind.scVector Space.vmem Cert.Kernel.S8x1024 EltTy.i32)
local notation "hW" => (Memref.whole Cert.Kernel.cc0_scratch3 : Memref Cert.Kernel.sig Kind.scVector Space.vmem Cert.Kernel.S800x128 EltTy.i32)

section Whole
variable (d : Dev nD) (L : grid0.Coords)

omit [FloatOps F] in
/-- A write of the whole table replaces it. -/
theorem hW_writes_whole (f P : Buf (Elt F) ((V d (cV L) (jV L)).loc cc0_scratch3)) :
    (hW).view.writes (Elt F) f [⟨Rect.whole S800x128, P⟩] = P :=
  (View.write_univ_eq_writes_whole (hW).view f [] P).symm.trans
    (View.write_whole_univ (cc0_scratch3 : Ref sig .scVector) f P)

omit [FloatOps F] in
/-- The whole rectangle places every index at itself. -/
theorem whole_idx {s : Shape} (q : (LoadRect.whole s).shape.Idx) : (LoadRect.whole s).idx q = q := by
  funext a
  apply Fin.ext
  show 0 + 1 * (q a).val = (q a).val
  omega

omit [FloatOps F] in
/-- A read of the whole table reads it. -/
theorem hW_readAt_whole (f : Buf (Elt F) ((V d (cV L) (jV L)).loc cc0_scratch3)) :
    View.readAt (Elt F) (hW).view (LoadRect.whole S800x128) f = f := by
  funext q
  show f ((LoadRect.whole S800x128).idx q) = f q
  rw [whole_idx]

omit [FloatOps F] in
/-- A load from a whole slot reads the slot's contents at the load's positions. -/
theorem readAt_b0 (cb : Buf (Elt F) ((V d (cV L) (jV L)).loc cc0_scratch0)) (R : LoadRect S8x1024) (x : R.shape.Idx) :
    View.readAt (Elt F) (b0).view R cb x = cb (R.idx x) := rfl
omit [FloatOps F] in
theorem readAt_b1 (cb : Buf (Elt F) ((V d (cV L) (jV L)).loc cc0_scratch1)) (R : LoadRect S8x1024) (x : R.shape.Idx) :
    View.readAt (Elt F) (b1).view R cb x = cb (R.idx x) := rfl
omit [FloatOps F] in
theorem readAt_b2 (cb : Buf (Elt F) ((V d (cV L) (jV L)).loc cc0_scratch2)) (R : LoadRect S8x1024) (x : R.shape.Idx) :
    View.readAt (Elt F) (b2).view R cb x = cb (R.idx x) := rfl

end Whole

section Lane
variable (d : Dev nD) (L : grid0.Coords) (ch : Fin 32)

omit [FloatOps F] in
/-- The table position under element `(k / 4, 256 (k % 4) + 16 j + l)` of a chunk is lane `l` of vector `j` of trip `k`. -/
theorem xChunk_emb_lane (k : Fin 32) (j : Fin 16) (l : S16.Idx) (q : S8x1024.Idx)
    (h0 : (q 0).val = k.val / 4) (h1 : (q 1).val = 256 * (k.val % 4) + 16 * j.val + (l 0).val) :
    ((xChunk L ch).view.emb q : S4096x2048.Idx) = Cert.Hist.lanePos (wOf L) ch k j l := by
  funext a
  apply Fin.ext
  match a with
  | ⟨0, _⟩ =>
    refine (xChunk_emb0 L ch q).trans ?_
    rw [h0]; rfl
  | ⟨1, _⟩ =>
    refine (xChunk_emb1 L ch q).trans ?_
    rw [h1]; rfl

omit [FloatOps F] in
/-- Lane `l` of a row of sixteen, seen as a vector of sixteen. -/
theorem row16_read {α : Type} (y : S1x16.Idx → α) (sc : S1x16.ShapeCasts S16) (l : S16.Idx) :
    shapeCast S16 y sc l = y (ix2 (0 : Fin 1) (l 0 : Fin 16)) := by
  refine shapeCast_apply y sc l (ix2 (0 : Fin 1) (l 0 : Fin 16)) ?_
  refine (Shape.rowMajor_val_two (d := ![1, 16]) _).trans ((Shape.rowMajor_val_one (d := ![16]) l).symm ▸ ?_)
  show 0 * 16 + (l 0).val = (l 0).val
  omega

omit [FloatOps F] in
/-- Lane `l` of the vector loaded at row `k / 4`, columns `256 (k % 4) + 16 j …` of slot 0 holding chunk `ch`: the
    table's word at lane `l` of vector `j` of trip `k` of the chunk. -/
theorem lane0 (cb : Buf (Elt F) ((V d (cV L) (jV L)).loc cc0_scratch0))
    (hcb : ∀ q : S8x1024.Idx, cb q = m (xLoc d) ((xChunk L ch).view.emb q))
    (k : Fin 32) (j : Fin 16) (o : Fin 2 → Nat)
    (ho : o = ![k.val / 4, 256 * (k.val % 4) + 16 * j.val]) (inb : ∀ a, o a + S1x16.size a ≤ S8x1024.size a)
    (sc : S1x16.ShapeCasts S16) (l : S16.Idx) :
    shapeCast S16 (View.readAt (Elt F) (b0).view (Rect.unit (s := S8x1024) o S1x16.size inb).toLoadRect cb) sc l
      = m (xLoc d) (Cert.Hist.lanePos (wOf L) ch k j l) := by
  subst ho
  refine (row16_read _ sc l).trans ?_
  refine (readAt_b0 d L cb _ _).trans ?_
  refine (hcb _).trans ?_
  refine congrArg (m (xLoc d)) (xChunk_emb_lane L ch k j l _ ?_ ?_)
  · show k.val / 4 + 1 * 0 = k.val / 4; omega
  · show 256 * (k.val % 4) + 16 * j.val + 1 * (l 0).val = 256 * (k.val % 4) + 16 * j.val + (l 0).val; omega

omit [FloatOps F] in
/-- Every word read from slot 0 holding a chunk is a word of the table, so at most 99999. -/
theorem lane_le0 (cb : Buf (Elt F) ((V d (cV L) (jV L)).loc cc0_scratch0))
    (hcb : ∀ q : S8x1024.Idx, cb q = m (xLoc d) ((xChunk L ch).view.emb q))
    (hpre : ∀ p, (m (xLoc d) p).toNat ≤ 99999) (R : LoadRect S8x1024) (sc : R.shape.ShapeCasts S16) (l : S16.Idx) :
    ((shapeCast S16 (View.readAt (Elt F) (b0).view R cb) sc) l).toNat ≤ 99999 := by
  show (View.readAt (Elt F) (b0).view R cb (Shape.reshapeEquiv sc l)).toNat ≤ 99999
  rw [readAt_b0, hcb]
  exact hpre _

omit [FloatOps F] in
/-- The row and lane indices computed from a vector read from slot 0 are inside the 800 × 128 table. -/
theorem chk0 (cb : Buf (Elt F) ((V d (cV L) (jV L)).loc cc0_scratch0))
    (hcb : ∀ q : S8x1024.Idx, cb q = m (xLoc d) ((xChunk L ch).view.emb q))
    (hpre : ∀ p, (m (xLoc d) p).toNat ≤ 99999) (R : LoadRect S8x1024) (sc : R.shape.ShapeCasts S16) :
    ∀ (a : Fin 2) (l : S16.Idx),
      ((![shrsi (shapeCast S16 (View.readAt (Elt F) (b0).view R cb) sc) (broadcast S16 7#32),
          andi (shapeCast S16 (View.readAt (Elt F) (b0).view R cb) sc) (broadcast S16 127#32)] : Fin 2 → IVec S16 32) a l).toNat
        < S800x128.size a :=
  Cert.Hist.chk_ok (shapeCast S16 (View.readAt (Elt F) (b0).view R cb) sc) (lane_le0 m d L ch cb hcb hpre R sc)

/-- One indexed add of the walk over slot 0: the whole table of counts read, the sixteen words of vector `j` of trip
    `k` of chunk `ch` counted into it, the whole table written back. -/
theorem scatter_step0 (cb : Buf (Elt F) ((V d (cV L) (jV L)).loc cc0_scratch0))
    (hcb : ∀ q : S8x1024.Idx, cb q = m (xLoc d) ((xChunk L ch).view.emb q))
    (k : Fin 32) (j : Fin 16) (o : Fin 2 → Nat)
    (ho : o = ![k.val / 4, 256 * (k.val % 4) + 16 * j.val]) (inb : ∀ a, o a + S1x16.size a ≤ S8x1024.size a)
    (sc : S1x16.ShapeCasts S16) (hx : ∀ p, (xTab m d p).toNat ≤ 99999)
    (h : ∀ (a : Fin 2) (l : S16.Idx),
      ((![shrsi (shapeCast S16 (View.readAt (Elt F) (b0).view (Rect.unit (s := S8x1024) o S1x16.size inb).toLoadRect cb) sc) (broadcast S16 7#32),
          andi (shapeCast S16 (View.readAt (Elt F) (b0).view (Rect.unit (s := S8x1024) o S1x16.size inb).toLoadRect cb) sc) (broadcast S16 127#32)] : Fin 2 → IVec S16 32) a l).toNat
        < S800x128.size a) :
    (hW).view.writes (Elt F) (Cert.Hist.histOf (xTab m d) (Cert.Hist.doneSet (wOf L) ch.val ∪ Cert.Hist.tripPart (wOf L) ch k.val j.val) : Buf (Elt F) ((V d (cV L) (jV L)).loc cc0_scratch3))
      [⟨Rect.whole S800x128, storeIdx (F := F) (s := S800x128) (e := .i32)
        (View.readAt (Elt F) (hW).view (LoadRect.whole S800x128)
          (Cert.Hist.histOf (xTab m d) (Cert.Hist.doneSet (wOf L) ch.val ∪ Cert.Hist.tripPart (wOf L) ch k.val j.val) : Buf (Elt F) ((V d (cV L) (jV L)).loc cc0_scratch3)))
        ![shrsi (shapeCast S16 (View.readAt (Elt F) (b0).view (Rect.unit (s := S8x1024) o S1x16.size inb).toLoadRect cb) sc) (broadcast S16 7#32),
          andi (shapeCast S16 (View.readAt (Elt F) (b0).view (Rect.unit (s := S8x1024) o S1x16.size inb).toLoadRect cb) sc) (broadcast S16 127#32)]
        (fun _ => 1#32) (fun _ => 1#1) true h⟩]
      = (Cert.Hist.histOf (xTab m d) (Cert.Hist.doneSet (wOf L) ch.val ∪ Cert.Hist.tripPart (wOf L) ch k.val (j.val + 1)) : Buf (Elt F) ((V d (cV L) (jV L)).loc cc0_scratch3)) := by
  refine (hW_writes_whole d L _ _).trans ?_
  rw [hW_readAt_whole d L]
  exact Cert.Hist.lane_hist (F := F) (xTab m d) hx (wOf L) ch k j _ (fun l => lane0 m d L ch cb hcb k j o ho inb sc l) h

omit [FloatOps F] in
/-- Holding slot 0 at what landed is holding it at the chunk's words. -/
theorem slot_pts0 (dp cb : Buf (Elt F) ((V d (cV L) (jV L)).loc cc0_scratch0))
    (hcb : ∀ q : S8x1024.Idx, cb q = m (xLoc d) ((xChunk L ch).view.emb q)) :
    ((b0).view.loc (V d (cV L) (jV L)) ↦[(b0).view.set]{fullShare}
        ((b0).view.writes (Elt F) dp [⟨Rect.whole S8x1024, ReadAs.same.apply ((xChunk L ch).view.read (Elt F) (m (xLoc d)))⟩]) : sProp 𝕄)
      = ((b0).view.loc (V d (cV L) (jV L)) ↦[(b0).view.set]{fullShare} cb) := by
  have e : (b0).view.writes (Elt F) dp [⟨Rect.whole S8x1024, ReadAs.same.apply ((xChunk L ch).view.read (Elt F) (m (xLoc d)))⟩] = cb :=
    funext fun q => (landed0 d L ch dp (m (xLoc d)) q).trans (hcb q).symm
  rw [e]

omit [FloatOps F] in
/-- Lane `l` of the vector loaded at row `k / 4`, columns `256 (k % 4) + 16 j …` of slot 1 holding chunk `ch`: the
    table's word at lane `l` of vector `j` of trip `k` of the chunk. -/
theorem lane1 (cb : Buf (Elt F) ((V d (cV L) (jV L)).loc cc0_scratch1))
    (hcb : ∀ q : S8x1024.Idx, cb q = m (xLoc d) ((xChunk L ch).view.emb q))
    (k : Fin 32) (j : Fin 16) (o : Fin 2 → Nat)
    (ho : o = ![k.val / 4, 256 * (k.val % 4) + 16 * j.val]) (inb : ∀ a, o a + S1x16.size a ≤ S8x1024.size a)
    (sc : S1x16.ShapeCasts S16) (l : S16.Idx) :
    shapeCast S16 (View.readAt (Elt F) (b1).view (Rect.unit (s := S8x1024) o S1x16.size inb).toLoadRect cb) sc l
      = m (xLoc d) (Cert.Hist.lanePos (wOf L) ch k j l) := by
  subst ho
  refine (row16_read _ sc l).trans ?_
  refine (readAt_b1 d L cb _ _).trans ?_
  refine (hcb _).trans ?_
  refine congrArg (m (xLoc d)) (xChunk_emb_lane L ch k j l _ ?_ ?_)
  · show k.val / 4 + 1 * 0 = k.val / 4; omega
  · show 256 * (k.val % 4) + 16 * j.val + 1 * (l 0).val = 256 * (k.val % 4) + 16 * j.val + (l 0).val; omega

omit [FloatOps F] in
/-- Every word read from slot 1 holding a chunk is a word of the table, so at most 99999. -/
theorem lane_le1 (cb : Buf (Elt F) ((V d (cV L) (jV L)).loc cc0_scratch1))
    (hcb : ∀ q : S8x1024.Idx, cb q = m (xLoc d) ((xChunk L ch).view.emb q))
    (hpre : ∀ p, (m (xLoc d) p).toNat ≤ 99999) (R : LoadRect S8x1024) (sc : R.shape.ShapeCasts S16) (l : S16.Idx) :
    ((shapeCast S16 (View.readAt (Elt F) (b1).view R cb) sc) l).toNat ≤ 99999 := by
  show (View.readAt (Elt F) (b1).view R cb (Shape.reshapeEquiv sc l)).toNat ≤ 99999
  rw [readAt_b1, hcb]
  exact hpre _

omit [FloatOps F] in
/-- The row and lane indices computed from a vector read from slot 1 are inside the 800 × 128 table. -/
theorem chk1 (cb : Buf (Elt F) ((V d (cV L) (jV L)).loc cc0_scratch1))
    (hcb : ∀ q : S8x1024.Idx, cb q = m (xLoc d) ((xChunk L ch).view.emb q))
    (hpre : ∀ p, (m (xLoc d) p).toNat ≤ 99999) (R : LoadRect S8x1024) (sc : R.shape.ShapeCasts S16) :
    ∀ (a : Fin 2) (l : S16.Idx),
      ((![shrsi (shapeCast S16 (View.readAt (Elt F) (b1).view R cb) sc) (broadcast S16 7#32),
          andi (shapeCast S16 (View.readAt (Elt F) (b1).view R cb) sc) (broadcast S16 127#32)] : Fin 2 → IVec S16 32) a l).toNat
        < S800x128.size a :=
  Cert.Hist.chk_ok (shapeCast S16 (View.readAt (Elt F) (b1).view R cb) sc) (lane_le1 m d L ch cb hcb hpre R sc)

/-- One indexed add of the walk over slot 1: the whole table of counts read, the sixteen words of vector `j` of trip
    `k` of chunk `ch` counted into it, the whole table written back. -/
theorem scatter_step1 (cb : Buf (Elt F) ((V d (cV L) (jV L)).loc cc0_scratch1))
    (hcb : ∀ q : S8x1024.Idx, cb q = m (xLoc d) ((xChunk L ch).view.emb q))
    (k : Fin 32) (j : Fin 16) (o : Fin 2 → Nat)
    (ho : o = ![k.val / 4, 256 * (k.val % 4) + 16 * j.val]) (inb : ∀ a, o a + S1x16.size a ≤ S8x1024.size a)
    (sc : S1x16.ShapeCasts S16) (hx : ∀ p, (xTab m d p).toNat ≤ 99999)
    (h : ∀ (a : Fin 2) (l : S16.Idx),
      ((![shrsi (shapeCast S16 (View.readAt (Elt F) (b1).view (Rect.unit (s := S8x1024) o S1x16.size inb).toLoadRect cb) sc) (broadcast S16 7#32),
          andi (shapeCast S16 (View.readAt (Elt F) (b1).view (Rect.unit (s := S8x1024) o S1x16.size inb).toLoadRect cb) sc) (broadcast S16 127#32)] : Fin 2 → IVec S16 32) a l).toNat
        < S800x128.size a) :
    (hW).view.writes (Elt F) (Cert.Hist.histOf (xTab m d) (Cert.Hist.doneSet (wOf L) ch.val ∪ Cert.Hist.tripPart (wOf L) ch k.val j.val) : Buf (Elt F) ((V d (cV L) (jV L)).loc cc0_scratch3))
      [⟨Rect.whole S800x128, storeIdx (F := F) (s := S800x128) (e := .i32)
        (View.readAt (Elt F) (hW).view (LoadRect.whole S800x128)
          (Cert.Hist.histOf (xTab m d) (Cert.Hist.doneSet (wOf L) ch.val ∪ Cert.Hist.tripPart (wOf L) ch k.val j.val) : Buf (Elt F) ((V d (cV L) (jV L)).loc cc0_scratch3)))
        ![shrsi (shapeCast S16 (View.readAt (Elt F) (b1).view (Rect.unit (s := S8x1024) o S1x16.size inb).toLoadRect cb) sc) (broadcast S16 7#32),
          andi (shapeCast S16 (View.readAt (Elt F) (b1).view (Rect.unit (s := S8x1024) o S1x16.size inb).toLoadRect cb) sc) (broadcast S16 127#32)]
        (fun _ => 1#32) (fun _ => 1#1) true h⟩]
      = (Cert.Hist.histOf (xTab m d) (Cert.Hist.doneSet (wOf L) ch.val ∪ Cert.Hist.tripPart (wOf L) ch k.val (j.val + 1)) : Buf (Elt F) ((V d (cV L) (jV L)).loc cc0_scratch3)) := by
  refine (hW_writes_whole d L _ _).trans ?_
  rw [hW_readAt_whole d L]
  exact Cert.Hist.lane_hist (F := F) (xTab m d) hx (wOf L) ch k j _ (fun l => lane1 m d L ch cb hcb k j o ho inb sc l) h

omit [FloatOps F] in
/-- Holding slot 1 at what landed is holding it at the chunk's words. -/
theorem slot_pts1 (dp cb : Buf (Elt F) ((V d (cV L) (jV L)).loc cc0_scratch1))
    (hcb : ∀ q : S8x1024.Idx, cb q = m (xLoc d) ((xChunk L ch).view.emb q)) :
    ((b1).view.loc (V d (cV L) (jV L)) ↦[(b1).view.set]{fullShare}
        ((b1).view.writes (Elt F) dp [⟨Rect.whole S8x1024, ReadAs.same.apply ((xChunk L ch).view.read (Elt F) (m (xLoc d)))⟩]) : sProp 𝕄)
      = ((b1).view.loc (V d (cV L) (jV L)) ↦[(b1).view.set]{fullShare} cb) := by
  have e : (b1).view.writes (Elt F) dp [⟨Rect.whole S8x1024, ReadAs.same.apply ((xChunk L ch).view.read (Elt F) (m (xLoc d)))⟩] = cb :=
    funext fun q => (landed1 d L ch dp (m (xLoc d)) q).trans (hcb q).symm
  rw [e]

omit [FloatOps F] in
/-- Lane `l` of the vector loaded at row `k / 4`, columns `256 (k % 4) + 16 j …` of slot 2 holding chunk `ch`: the
    table's word at lane `l` of vector `j` of trip `k` of the chunk. -/
theorem lane2 (cb : Buf (Elt F) ((V d (cV L) (jV L)).loc cc0_scratch2))
    (hcb : ∀ q : S8x1024.Idx, cb q = m (xLoc d) ((xChunk L ch).view.emb q))
    (k : Fin 32) (j : Fin 16) (o : Fin 2 → Nat)
    (ho : o = ![k.val / 4, 256 * (k.val % 4) + 16 * j.val]) (inb : ∀ a, o a + S1x16.size a ≤ S8x1024.size a)
    (sc : S1x16.ShapeCasts S16) (l : S16.Idx) :
    shapeCast S16 (View.readAt (Elt F) (b2).view (Rect.unit (s := S8x1024) o S1x16.size inb).toLoadRect cb) sc l
      = m (xLoc d) (Cert.Hist.lanePos (wOf L) ch k j l) := by
  subst ho
  refine (row16_read _ sc l).trans ?_
  refine (readAt_b2 d L cb _ _).trans ?_
  refine (hcb _).trans ?_
  refine congrArg (m (xLoc d)) (xChunk_emb_lane L ch k j l _ ?_ ?_)
  · show k.val / 4 + 1 * 0 = k.val / 4; omega
  · show 256 * (k.val % 4) + 16 * j.val + 1 * (l 0).val = 256 * (k.val % 4) + 16 * j.val + (l 0).val; omega

omit [FloatOps F] in
/-- Every word read from slot 2 holding a chunk is a word of the table, so at most 99999. -/
theorem lane_le2 (cb : Buf (Elt F) ((V d (cV L) (jV L)).loc cc0_scratch2))
    (hcb : ∀ q : S8x1024.Idx, cb q = m (xLoc d) ((xChunk L ch).view.emb q))
    (hpre : ∀ p, (m (xLoc d) p).toNat ≤ 99999) (R : LoadRect S8x1024) (sc : R.shape.ShapeCasts S16) (l : S16.Idx) :
    ((shapeCast S16 (View.readAt (Elt F) (b2).view R cb) sc) l).toNat ≤ 99999 := by
  show (View.readAt (Elt F) (b2).view R cb (Shape.reshapeEquiv sc l)).toNat ≤ 99999
  rw [readAt_b2, hcb]
  exact hpre _

omit [FloatOps F] in
/-- The row and lane indices computed from a vector read from slot 2 are inside the 800 × 128 table. -/
theorem chk2 (cb : Buf (Elt F) ((V d (cV L) (jV L)).loc cc0_scratch2))
    (hcb : ∀ q : S8x1024.Idx, cb q = m (xLoc d) ((xChunk L ch).view.emb q))
    (hpre : ∀ p, (m (xLoc d) p).toNat ≤ 99999) (R : LoadRect S8x1024) (sc : R.shape.ShapeCasts S16) :
    ∀ (a : Fin 2) (l : S16.Idx),
      ((![shrsi (shapeCast S16 (View.readAt (Elt F) (b2).view R cb) sc) (broadcast S16 7#32),
          andi (shapeCast S16 (View.readAt (Elt F) (b2).view R cb) sc) (broadcast S16 127#32)] : Fin 2 → IVec S16 32) a l).toNat
        < S800x128.size a :=
  Cert.Hist.chk_ok (shapeCast S16 (View.readAt (Elt F) (b2).view R cb) sc) (lane_le2 m d L ch cb hcb hpre R sc)

/-- One indexed add of the walk over slot 2: the whole table of counts read, the sixteen words of vector `j` of trip
    `k` of chunk `ch` counted into it, the whole table written back. -/
theorem scatter_step2 (cb : Buf (Elt F) ((V d (cV L) (jV L)).loc cc0_scratch2))
    (hcb : ∀ q : S8x1024.Idx, cb q = m (xLoc d) ((xChunk L ch).view.emb q))
    (k : Fin 32) (j : Fin 16) (o : Fin 2 → Nat)
    (ho : o = ![k.val / 4, 256 * (k.val % 4) + 16 * j.val]) (inb : ∀ a, o a + S1x16.size a ≤ S8x1024.size a)
    (sc : S1x16.ShapeCasts S16) (hx : ∀ p, (xTab m d p).toNat ≤ 99999)
    (h : ∀ (a : Fin 2) (l : S16.Idx),
      ((![shrsi (shapeCast S16 (View.readAt (Elt F) (b2).view (Rect.unit (s := S8x1024) o S1x16.size inb).toLoadRect cb) sc) (broadcast S16 7#32),
          andi (shapeCast S16 (View.readAt (Elt F) (b2).view (Rect.unit (s := S8x1024) o S1x16.size inb).toLoadRect cb) sc) (broadcast S16 127#32)] : Fin 2 → IVec S16 32) a l).toNat
        < S800x128.size a) :
    (hW).view.writes (Elt F) (Cert.Hist.histOf (xTab m d) (Cert.Hist.doneSet (wOf L) ch.val ∪ Cert.Hist.tripPart (wOf L) ch k.val j.val) : Buf (Elt F) ((V d (cV L) (jV L)).loc cc0_scratch3))
      [⟨Rect.whole S800x128, storeIdx (F := F) (s := S800x128) (e := .i32)
        (View.readAt (Elt F) (hW).view (LoadRect.whole S800x128)
          (Cert.Hist.histOf (xTab m d) (Cert.Hist.doneSet (wOf L) ch.val ∪ Cert.Hist.tripPart (wOf L) ch k.val j.val) : Buf (Elt F) ((V d (cV L) (jV L)).loc cc0_scratch3)))
        ![shrsi (shapeCast S16 (View.readAt (Elt F) (b2).view (Rect.unit (s := S8x1024) o S1x16.size inb).toLoadRect cb) sc) (broadcast S16 7#32),
          andi (shapeCast S16 (View.readAt (Elt F) (b2).view (Rect.unit (s := S8x1024) o S1x16.size inb).toLoadRect cb) sc) (broadcast S16 127#32)]
        (fun _ => 1#32) (fun _ => 1#1) true h⟩]
      = (Cert.Hist.histOf (xTab m d) (Cert.Hist.doneSet (wOf L) ch.val ∪ Cert.Hist.tripPart (wOf L) ch k.val (j.val + 1)) : Buf (Elt F) ((V d (cV L) (jV L)).loc cc0_scratch3)) := by
  refine (hW_writes_whole d L _ _).trans ?_
  rw [hW_readAt_whole d L]
  exact Cert.Hist.lane_hist (F := F) (xTab m d) hx (wOf L) ch k j _ (fun l => lane2 m d L ch cb hcb k j o ho inb sc l) h

omit [FloatOps F] in
/-- Holding slot 2 at what landed is holding it at the chunk's words. -/
theorem slot_pts2 (dp cb : Buf (Elt F) ((V d (cV L) (jV L)).loc cc0_scratch2))
    (hcb : ∀ q : S8x1024.Idx, cb q = m (xLoc d) ((xChunk L ch).view.emb q)) :
    ((b2).view.loc (V d (cV L) (jV L)) ↦[(b2).view.set]{fullShare}
        ((b2).view.writes (Elt F) dp [⟨Rect.whole S8x1024, ReadAs.same.apply ((xChunk L ch).view.read (Elt F) (m (xLoc d)))⟩]) : sProp 𝕄)
      = ((b2).view.loc (V d (cV L) (jV L)) ↦[(b2).view.set]{fullShare} cb) := by
  have e : (b2).view.writes (Elt F) dp [⟨Rect.whole S8x1024, ReadAs.same.apply ((xChunk L ch).view.read (Elt F) (m (xLoc d)))⟩] = cb :=
    funext fun q => (landed2 d L ch dp (m (xLoc d)) q).trans (hcb q).symm
  rw [e]

end Lane

end Cert.Proof.HistB

end
-- ==== Proof.TileProc3B.lean ====
/-
  One trip of a counting loop: sixteen vectors of sixteen tokens are read off the slot and added into the table of
  counts, one indexed add each; after vector `j` the table holds the counts of the chunks done, of the earlier trips
  of this chunk, and of the first `16 (j + 1)` tokens of this trip.
-/
import proofs.«217704_g70050916598121_cont_9to1_m_91_37_alg».proof.Proof.TileInvB
import proofs.«217704_g70050916598121_cont_9to1_m_91_37_alg».proof.Proof.TileOffsB
import proofs.«217704_g70050916598121_cont_9to1_m_91_37_alg».proof.Proof.SlotReadsB

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.Kernel.main_arg0_scv : Memref Cert.Kernel.sig Kind.scVector Space.hbm Cert.Kernel.S4096x2048 EltTy.i32)
local notation "pW" => (Memref.whole Cert.Kernel.main_v0_scv : Memref Cert.Kernel.sig Kind.scVector Space.hbm Cert.Kernel.S32x800x128 EltTy.i32)
local notation "b0" => (Memref.whole Cert.Kernel.cc0_scratch0 : Memref Cert.Kernel.sig Kind.scVector Space.vmem Cert.Kernel.S8x1024 EltTy.i32)
local notation "b1" => (Memref.whole Cert.Kernel.cc0_scratch1 : Memref Cert.Kernel.sig Kind.scVector Space.vmem Cert.Kernel.S8x1024 EltTy.i32)
local notation "b2" => (Memref.whole Cert.Kernel.cc0_scratch2 : Memref Cert.Kernel.sig Kind.scVector Space.vmem Cert.Kernel.S8x1024 EltTy.i32)
local notation "hW" => (Memref.whole Cert.Kernel.cc0_scratch3 : Memref Cert.Kernel.sig Kind.scVector Space.vmem Cert.Kernel.S800x128 EltTy.i32)

section Tile
variable (d : Dev nD) (L : grid0.Coords)

theorem proc3_trip (hx : PreOK m) (ch : Fin 32) (v2 c0 c1 : BitVec 32) (t : Fin k0_t2_loop.trips) (k : Fin k0_t3_loop.trips) (acc : Unit) :
    procInv m d L b0 ch (chunkTab m d L ch) k.val acc
      ⊢ wp frame (wpE (defs₀ (F := F)) 𝒱₀ (V d (cV L) (jV L)) none) Set.univ
          (k0_t3_body L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0 v2 k0_pay230 c0 c1 t k acc)
          (procInv m d L b0 ch (chunkTab m d L ch) (k.val + 1)) := by
  unfold procInv k0_t3_body
  have hk : k.val < 32 := by have := trips3; omega
  iintro ⟨Hh, Hb⟩
  sl_exec (disch := exact chk0 m d L ch (chunkTab m d L ch) (fun _ => rfl) (hx d) _ _)
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 1)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 0 _ (off5_eq k 0) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 2)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 1 _ (off5_eq k 1) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 3)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 2 _ (off5_eq k 2) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 4)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 3 _ (off5_eq k 3) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 5)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 4 _ (off5_eq k 4) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 6)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 5 _ (off5_eq k 5) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 7)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 6 _ (off5_eq k 6) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 8)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 7 _ (off5_eq k 7) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 9)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 8 _ (off5_eq k 8) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 10)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 9 _ (off5_eq k 9) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 11)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 10 _ (off5_eq k 10) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 12)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 11 _ (off5_eq k 11) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 13)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 12 _ (off5_eq k 12) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 14)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 13 _ (off5_eq k 13) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 15)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 14 _ (off5_eq k 14) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 16)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 15 _ (off5_eq k 15) _ _ (hx d) _))
  sl_step
  rw [← Cert.Hist.tripPart_next]
  isplitl [Hh]; · iexact Hh
  iexact Hb

end Tile
end Cert.Proof.HistB
end
-- ==== Proof.TileProc4B.lean ====
/-
  One trip of a counting loop: sixteen vectors of sixteen tokens are read off the slot and added into the table of
  counts, one indexed add each; after vector `j` the table holds the counts of the chunks done, of the earlier trips
  of this chunk, and of the first `16 (j + 1)` tokens of this trip.
-/
import proofs.«217704_g70050916598121_cont_9to1_m_91_37_alg».proof.Proof.TileInvB
import proofs.«217704_g70050916598121_cont_9to1_m_91_37_alg».proof.Proof.TileOffsB
import proofs.«217704_g70050916598121_cont_9to1_m_91_37_alg».proof.Proof.SlotReadsB

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.Kernel.main_arg0_scv : Memref Cert.Kernel.sig Kind.scVector Space.hbm Cert.Kernel.S4096x2048 EltTy.i32)
local notation "pW" => (Memref.whole Cert.Kernel.main_v0_scv : Memref Cert.Kernel.sig Kind.scVector Space.hbm Cert.Kernel.S32x800x128 EltTy.i32)
local notation "b0" => (Memref.whole Cert.Kernel.cc0_scratch0 : Memref Cert.Kernel.sig Kind.scVector Space.vmem Cert.Kernel.S8x1024 EltTy.i32)
local notation "b1" => (Memref.whole Cert.Kernel.cc0_scratch1 : Memref Cert.Kernel.sig Kind.scVector Space.vmem Cert.Kernel.S8x1024 EltTy.i32)
local notation "b2" => (Memref.whole Cert.Kernel.cc0_scratch2 : Memref Cert.Kernel.sig Kind.scVector Space.vmem Cert.Kernel.S8x1024 EltTy.i32)
local notation "hW" => (Memref.whole Cert.Kernel.cc0_scratch3 : Memref Cert.Kernel.sig Kind.scVector Space.vmem Cert.Kernel.S800x128 EltTy.i32)

section Tile
variable (d : Dev nD) (L : grid0.Coords)

theorem proc4_trip (hx : PreOK m) (ch : Fin 32) (v2 : BitVec 32) (t : Fin k0_t2_loop.trips) (a11 v64 : BitVec 32) (k : Fin k0_t4_loop.trips) (acc : Unit) :
    procInv m d L b1 ch (chunkTab m d L ch) k.val acc
      ⊢ wp frame (wpE (defs₀ (F := F)) 𝒱₀ (V d (cV L) (jV L)) none) Set.univ
          (k0_t4_body L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0 v2 k0_pay230 t a11 v64 k acc)
          (procInv m d L b1 ch (chunkTab m d L ch) (k.val + 1)) := by
  unfold procInv k0_t4_body
  have hk : k.val < 32 := by have := trips4; omega
  iintro ⟨Hh, Hb⟩
  sl_exec (disch := exact chk1 m d L ch (chunkTab m d L ch) (fun _ => rfl) (hx d) _ _)
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 1)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 0 _ (off7_eq k 0) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 2)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 1 _ (off7_eq k 1) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 3)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 2 _ (off7_eq k 2) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 4)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 3 _ (off7_eq k 3) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 5)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 4 _ (off7_eq k 4) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 6)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 5 _ (off7_eq k 5) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 7)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 6 _ (off7_eq k 6) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 8)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 7 _ (off7_eq k 7) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 9)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 8 _ (off7_eq k 8) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 10)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 9 _ (off7_eq k 9) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 11)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 10 _ (off7_eq k 10) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 12)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 11 _ (off7_eq k 11) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 13)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 12 _ (off7_eq k 12) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 14)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 13 _ (off7_eq k 13) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 15)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 14 _ (off7_eq k 14) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 16)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 15 _ (off7_eq k 15) _ _ (hx d) _))
  sl_step
  rw [← Cert.Hist.tripPart_next]
  isplitl [Hh]; · iexact Hh
  iexact Hb

end Tile
end Cert.Proof.HistB
end
-- ==== Proof.TileProc5B.lean ====
/-
  One trip of a counting loop: sixteen vectors of sixteen tokens are read off the slot and added into the table of
  counts, one indexed add each; after vector `j` the table holds the counts of the chunks done, of the earlier trips
  of this chunk, and of the first `16 (j + 1)` tokens of this trip.
-/
import proofs.«217704_g70050916598121_cont_9to1_m_91_37_alg».proof.Proof.TileInvB
import proofs.«217704_g70050916598121_cont_9to1_m_91_37_alg».proof.Proof.TileOffsB
import proofs.«217704_g70050916598121_cont_9to1_m_91_37_alg».proof.Proof.SlotReadsB

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.Kernel.main_arg0_scv : Memref Cert.Kernel.sig Kind.scVector Space.hbm Cert.Kernel.S4096x2048 EltTy.i32)
local notation "pW" => (Memref.whole Cert.Kernel.main_v0_scv : Memref Cert.Kernel.sig Kind.scVector Space.hbm Cert.Kernel.S32x800x128 EltTy.i32)
local notation "b0" => (Memref.whole Cert.Kernel.cc0_scratch0 : Memref Cert.Kernel.sig Kind.scVector Space.vmem Cert.Kernel.S8x1024 EltTy.i32)
local notation "b1" => (Memref.whole Cert.Kernel.cc0_scratch1 : Memref Cert.Kernel.sig Kind.scVector Space.vmem Cert.Kernel.S8x1024 EltTy.i32)
local notation "b2" => (Memref.whole Cert.Kernel.cc0_scratch2 : Memref Cert.Kernel.sig Kind.scVector Space.vmem Cert.Kernel.S8x1024 EltTy.i32)
local notation "hW" => (Memref.whole Cert.Kernel.cc0_scratch3 : Memref Cert.Kernel.sig Kind.scVector Space.vmem Cert.Kernel.S800x128 EltTy.i32)

section Tile
variable (d : Dev nD) (L : grid0.Coords)

theorem proc5_trip (hx : PreOK m) (ch : Fin 32)  (k : Fin k0_t5_loop.trips) (acc : Unit) :
    procInv m d L b2 ch (chunkTab m d L ch) k.val acc
      ⊢ wp frame (wpE (defs₀ (F := F)) 𝒱₀ (V d (cV L) (jV L)) none) Set.univ
          (k0_t5_body L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0  k acc)
          (procInv m d L b2 ch (chunkTab m d L ch) (k.val + 1)) := by
  unfold procInv k0_t5_body
  have hk : k.val < 32 := by have := trips5; omega
  iintro ⟨Hh, Hb⟩
  sl_exec (disch := exact chk2 m d L ch (chunkTab m d L ch) (fun _ => rfl) (hx d) _ _)
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 1)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 0 _ (off9_eq k 0) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 2)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 1 _ (off9_eq k 1) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 3)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 2 _ (off9_eq k 2) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 4)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 3 _ (off9_eq k 3) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 5)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 4 _ (off9_eq k 4) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 6)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 5 _ (off9_eq k 5) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 7)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 6 _ (off9_eq k 6) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 8)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 7 _ (off9_eq k 7) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 9)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 8 _ (off9_eq k 8) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 10)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 9 _ (off9_eq k 9) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 11)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 10 _ (off9_eq k 10) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 12)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 11 _ (off9_eq k 11) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 13)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 12 _ (off9_eq k 12) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 14)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 13 _ (off9_eq k 13) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 15)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 14 _ (off9_eq k 14) _ _ (hx d) _))
  rw [SparseCore.vectorStoreIdx_bind (c := V d (cV L) (jV L))]
  sl_exec (disch := exact chk2 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 16)) : sProp 𝕄)) $$ [Hh]
  · istop
    exact Entails.of_eq (congrArg (fun f => (((hW).view.loc (V d (cV L) (jV L)) ↦{fullShare} f) : sProp 𝕄))
      (scatter_step2 m d L ch (chunkTab m d L ch) (fun _ => rfl) ⟨k.val, hk⟩ 15 _ (off9_eq k 15) _ _ (hx d) _))
  sl_step
  rw [← Cert.Hist.tripPart_next]
  isplitl [Hh]; · iexact Hh
  iexact Hb

end Tile
end Cert.Proof.HistB
end
-- ==== Proof.TileOuterB.lean ====
/-
  One trip of the loop over the chunks, three at a time. Before trip `g` chunks `3 g`, `3 g + 1`, `3 g + 2` are in flight
  into the three slots. The trip waits for each in turn, counts its slot, and starts the chunk three further on into the
  slot just counted (on the last trip there is no chunk `3 g + 5`, and the third slot stays idle).
-/
import proofs.«217704_g70050916598121_cont_9to1_m_91_37_alg».proof.Proof.TileProc3B
import proofs.«217704_g70050916598121_cont_9to1_m_91_37_alg».proof.Proof.TileProc4B
import proofs.«217704_g70050916598121_cont_9to1_m_91_37_alg».proof.Proof.TileProc5B
import proofs.«217704_g70050916598121_cont_9to1_m_91_37_alg».proof.Proof.ShareLemmas
import proofs.«217704_g70050916598121_cont_9to1_m_91_37_alg».proof.Proof.ChunkSetsB

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.Kernel.main_arg0_scv : Memref Cert.Kernel.sig Kind.scVector Space.hbm Cert.Kernel.S4096x2048 EltTy.i32)
local notation "pW" => (Memref.whole Cert.Kernel.main_v0_scv : Memref Cert.Kernel.sig Kind.scVector Space.hbm Cert.Kernel.S32x800x128 EltTy.i32)
local notation "b0" => (Memref.whole Cert.Kernel.cc0_scratch0 : Memref Cert.Kernel.sig Kind.scVector Space.vmem Cert.Kernel.S8x1024 EltTy.i32)
local notation "b1" => (Memref.whole Cert.Kernel.cc0_scratch1 : Memref Cert.Kernel.sig Kind.scVector Space.vmem Cert.Kernel.S8x1024 EltTy.i32)
local notation "b2" => (Memref.whole Cert.Kernel.cc0_scratch2 : Memref Cert.Kernel.sig Kind.scVector Space.vmem Cert.Kernel.S8x1024 EltTy.i32)
local notation "hW" => (Memref.whole Cert.Kernel.cc0_scratch3 : Memref Cert.Kernel.sig Kind.scVector Space.vmem Cert.Kernel.S800x128 EltTy.i32)

section Tile
variable (d : Dev nD) (L : grid0.Coords)

omit [FloatOps F] in
theorem chOf_lt (n : Nat) (h : n < 32) : (chOf n).val = n := Nat.mod_eq_of_lt h

omit [FloatOps F] in
/-- Entering the count of chunk `n`: nothing of it is counted yet. -/
theorem hist_in (n : Nat) (hn : n < 32) :
    histBuf (F := F) m d L (Cert.Hist.doneSet (wOf L) n)
      = histBuf m d L (Cert.Hist.doneSet (wOf L) (chOf n).val ∪ Cert.Hist.tripPart (wOf L) (chOf n) 0 0) := by
  rw [Cert.Hist.tripPart_zero, Finset.union_empty, chOf_lt n hn]
omit [FloatOps F] in
/-- Leaving it: all of it is counted. -/
theorem hist_out (n : Nat) (hn : n < 32) :
    histBuf (F := F) m d L (Cert.Hist.doneSet (wOf L) (chOf n).val ∪ Cert.Hist.tripPart (wOf L) (chOf n) 32 0)
      = histBuf m d L (Cert.Hist.doneSet (wOf L) (n + 1)) := by
  rw [Cert.Hist.doneSet_succ, chOf_lt n hn]

omit [FloatOps F] in
theorem ring_next9 (Φ : Fin 32 → sProp 𝕄) (g : Nat) (hg : g = 9) :
    ringHeld Φ g = iprop(Φ (chOf (3 * g + 3)) ∗ Φ (chOf (3 * g + 4)) ∗ ringRest Φ g) := by
  subst hg; exact ring_next_last Φ

theorem outer_trip (hx : PreOK m) (O : CellTallies nD τ sig (HIx 1)) (W : Waits sig (HIx 1)) (v2 : BitVec 32) (g : Fin k0_t2_loop.trips) (acc : Unit) :
    outInv m d L O W g.val acc
      ⊢ wp frame (wpE (defs₀ (F := F)) 𝒱₀ (V d (cV L) (jV L)) none) Set.univ
          (k0_t2_body L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0 v2 g acc)
          (outInv m d L O W (g.val + 1)) := by
  by_cases hg9 : g.val < 9
  ·
    have hg10 : g.val < 10 := by omega
    unfold outInv k0_t2_body
    have h1 := cond1_all g
    have h2 := cond2_all g
    have h3 : k0_cond3 g = 1#1 := (cond3_iff g).mpr hg9
    rw [if_pos (by omega : 3 * g.val + 2 < 32), if_pos (by omega : 3 * (g.val + 1) + 2 < 32), ring_next _ g.val hg9, ring_back _ g.val hg10]
    unfold inflight
    iintro ⟨Hmw, Hh, ⟨Hn0, Hn1, Hn2, Hrest⟩, ⟨%dp0, Hf0⟩, ⟨%dp1, Hf1⟩, ⟨%dp2, Hf2⟩, %W', %hW', HO⟩
    sl_exec
    ihave Hb0 := (Entails.of_eq (slot_pts0 m d L (chOf (3 * g.val)) _ (chunkTab m d L (chOf (3 * g.val))) (fun _ => rfl))) $$ Hf0_dst
    ihave Hh : ((((hW).view.loc (V d (cV L) (jV L)) ↦{fullShare} histBuf m d L (Cert.Hist.doneSet (wOf L) (chOf (3 * g.val)).val ∪ Cert.Hist.tripPart (wOf L) (chOf (3 * g.val)) 0 0)) : sProp 𝕄)) $$ [Hh]
    · istop; exact Entails.of_eq (congrArg (fun f => (((hW).view.loc (V d (cV L) (jV L)) ↦{fullShare} f) : sProp 𝕄)) (hist_in m d L (3 * g.val) (by omega)))
    sl_for (procInv m d L b0 (chOf (3 * g.val)) (chunkTab m d L (chOf (3 * g.val)))) $$ [Hh Hb0]
    case region => intro k acc; exact proc3_trip m d L hx _ _ _ _ _ k acc
    · unfold procInv; isplitl [Hh]; · iexact Hh
      iexact Hb0
    iintro %u1 HI
    ihave HI : (procInv m d L b0 (chOf (3 * g.val)) (chunkTab m d L (chOf (3 * g.val))) 32 u1) $$ [HI]
    · istop; exact Entails.of_eq (congrArg (fun n => procInv m d L b0 (chOf (3 * g.val)) (chunkTab m d L (chOf (3 * g.val))) n u1) trips3)
    unfold procInv
    icases HI with ⟨Hh, Hb0⟩
    ihave Hh : ((((hW).view.loc (V d (cV L) (jV L)) ↦{fullShare} histBuf m d L (Cert.Hist.doneSet (wOf L) (3 * g.val + 1))) : sProp 𝕄)) $$ [Hh]
    · istop; exact Entails.of_eq (congrArg (fun f => (((hW).view.loc (V d (cV L) (jV L)) ↦{fullShare} f) : sProp 𝕄)) (hist_out m d L (3 * g.val) (by omega)))
    sl_exec
    ihave Hb1 := (Entails.of_eq (slot_pts1 m d L (chOf (3 * g.val + 1)) _ (chunkTab m d L (chOf (3 * g.val + 1))) (fun _ => rfl))) $$ Hf1_dst
    ihave Hh : ((((hW).view.loc (V d (cV L) (jV L)) ↦{fullShare} histBuf m d L (Cert.Hist.doneSet (wOf L) (chOf (3 * g.val + 1)).val ∪ Cert.Hist.tripPart (wOf L) (chOf (3 * g.val + 1)) 0 0)) : sProp 𝕄)) $$ [Hh]
    · istop; exact Entails.of_eq (congrArg (fun f => (((hW).view.loc (V d (cV L) (jV L)) ↦{fullShare} f) : sProp 𝕄)) (hist_in m d L (3 * g.val + 1) (by omega)))
    sl_for (procInv m d L b1 (chOf (3 * g.val + 1)) (chunkTab m d L (chOf (3 * g.val + 1)))) $$ [Hh Hb1]
    case region => intro k acc; exact proc4_trip m d L hx _ _ _ _ _ k acc
    · unfold procInv; isplitl [Hh]; · iexact Hh
      iexact Hb1
    iintro %u2 HI
    ihave HI : (procInv m d L b1 (chOf (3 * g.val + 1)) (chunkTab m d L (chOf (3 * g.val + 1))) 32 u2) $$ [HI]
    · istop; exact Entails.of_eq (congrArg (fun n => procInv m d L b1 (chOf (3 * g.val + 1)) (chunkTab m d L (chOf (3 * g.val + 1))) n u2) trips4)
    unfold procInv
    icases HI with ⟨Hh, Hb1⟩
    ihave Hh : ((((hW).view.loc (V d (cV L) (jV L)) ↦{fullShare} histBuf m d L (Cert.Hist.doneSet (wOf L) (3 * g.val + 1 + 1))) : sProp 𝕄)) $$ [Hh]
    · istop; exact Entails.of_eq (congrArg (fun f => (((hW).view.loc (V d (cV L) (jV L)) ↦{fullShare} f) : sProp 𝕄)) (hist_out m d L (3 * g.val + 1) (by omega)))
    sl_exec
    ihave Hb2 := (Entails.of_eq (slot_pts2 m d L (chOf (3 * g.val + 2)) _ (chunkTab m d L (chOf (3 * g.val + 2))) (fun _ => rfl))) $$ Hf2_dst
    ihave Hh : ((((hW).view.loc (V d (cV L) (jV L)) ↦{fullShare} histBuf m d L (Cert.Hist.doneSet (wOf L) (chOf (3 * g.val + 2)).val ∪ Cert.Hist.tripPart (wOf L) (chOf (3 * g.val + 2)) 0 0)) : sProp 𝕄)) $$ [Hh]
    · istop; exact Entails.of_eq (congrArg (fun f => (((hW).view.loc (V d (cV L) (jV L)) ↦{fullShare} f) : sProp 𝕄)) (hist_in m d L (3 * g.val + 2) (by omega)))
    sl_for (procInv m d L b2 (chOf (3 * g.val + 2)) (chunkTab m d L (chOf (3 * g.val + 2)))) $$ [Hh Hb2]
    case region => intro k acc; exact proc5_trip m d L hx _ k acc
    · unfold procInv; isplitl [Hh]; · iexact Hh
      iexact Hb2
    iintro %u3 HI
    ihave HI : (procInv m d L b2 (chOf (3 * g.val + 2)) (chunkTab m d L (chOf (3 * g.val + 2))) 32 u3) $$ [HI]
    · istop; exact Entails.of_eq (congrArg (fun n => procInv m d L b2 (chOf (3 * g.val + 2)) (chunkTab m d L (chOf (3 * g.val + 2))) n u3) trips5)
    unfold procInv
    icases HI with ⟨Hh, Hb2⟩
    ihave Hh : ((((hW).view.loc (V d (cV L) (jV L)) ↦{fullShare} histBuf m d L (Cert.Hist.doneSet (wOf L) (3 * g.val + 2 + 1))) : sProp 𝕄)) $$ [Hh]
    · istop; exact Entails.of_eq (congrArg (fun f => (((hW).view.loc (V d (cV L) (jV L)) ↦{fullShare} f) : sProp 𝕄)) (hist_out m d L (3 * g.val + 2) (by omega)))
    sl_exec
    sl_step
    have e3 : 3 * (g.val + 1) = 3 * g.val + 3 := by omega
    have e4 : 3 * (g.val + 1) + 1 = 3 * g.val + 4 := by omega
    have e5 : 3 * (g.val + 1) + 2 = 3 * g.val + 5 := by omega
    have e6 : 3 * g.val + 2 + 1 = 3 * g.val + 3 := by omega
    rw [e4, e5, e3, e6]
    isplitl [Hmw]; · iexact Hmw
    isplitl [Hh]; · iexact Hh
    isplitl [Hf0_src Hf1_src Hf2_src Hrest]
    · isplitl [Hf0_src]; · iexact Hf0_src
      isplitl [Hf1_src]; · iexact Hf1_src
      isplitl [Hf2_src]; · iexact Hf2_src
      iexact Hrest
    isplitl [Hf0]
    · iexists (chunkTab m d L (chOf (3 * g.val))); istop; exact BI.Entails.refl _
    isplitl [Hf1]
    · iexists (chunkTab m d L (chOf (3 * g.val + 1))); istop; exact BI.Entails.refl _
    isplitl [Hf2]
    · iexists (chunkTab m d L (chOf (3 * g.val + 2))); istop; exact BI.Entails.refl _
    iexists (insert (SemLoc.dma cc0_scratch6.sem, (default : HIx 1)) (insert (SemLoc.dma cc0_scratch5.sem, (default : HIx 1)) (insert (SemLoc.dma cc0_scratch4.sem, (default : HIx 1)) W'))); isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      exact hW' p hp
    · iexact HO

  ·
    have hg : g.val = 9 := by have := trips2; have := g.isLt; omega
    have hg10 : g.val < 10 := by omega
    unfold outInv k0_t2_body
    have h1 := cond1_all g
    have h2 := cond2_all g
    have h3 : ¬ k0_cond3 g = 1#1 := fun h => by have := (cond3_iff g).mp h; omega
    rw [if_pos (by omega : 3 * g.val + 2 < 32), if_neg (by omega : ¬ 3 * (g.val + 1) + 2 < 32), ring_next9 _ g.val hg, ring_back _ g.val hg10]
    unfold inflight
    iintro ⟨Hmw, Hh, ⟨Hn0, Hn1, Hrest⟩, ⟨%dp0, Hf0⟩, ⟨%dp1, Hf1⟩, ⟨%dp2, Hf2⟩, %W', %hW', HO⟩
    sl_exec
    ihave Hb0 := (Entails.of_eq (slot_pts0 m d L (chOf (3 * g.val)) _ (chunkTab m d L (chOf (3 * g.val))) (fun _ => rfl))) $$ Hf0_dst
    ihave Hh : ((((hW).view.loc (V d (cV L) (jV L)) ↦{fullShare} histBuf m d L (Cert.Hist.doneSet (wOf L) (chOf (3 * g.val)).val ∪ Cert.Hist.tripPart (wOf L) (chOf (3 * g.val)) 0 0)) : sProp 𝕄)) $$ [Hh]
    · istop; exact Entails.of_eq (congrArg (fun f => (((hW).view.loc (V d (cV L) (jV L)) ↦{fullShare} f) : sProp 𝕄)) (hist_in m d L (3 * g.val) (by omega)))
    sl_for (procInv m d L b0 (chOf (3 * g.val)) (chunkTab m d L (chOf (3 * g.val)))) $$ [Hh Hb0]
    case region => intro k acc; exact proc3_trip m d L hx _ _ _ _ _ k acc
    · unfold procInv; isplitl [Hh]; · iexact Hh
      iexact Hb0
    iintro %u1 HI
    ihave HI : (procInv m d L b0 (chOf (3 * g.val)) (chunkTab m d L (chOf (3 * g.val))) 32 u1) $$ [HI]
    · istop; exact Entails.of_eq (congrArg (fun n => procInv m d L b0 (chOf (3 * g.val)) (chunkTab m d L (chOf (3 * g.val))) n u1) trips3)
    unfold procInv
    icases HI with ⟨Hh, Hb0⟩
    ihave Hh : ((((hW).view.loc (V d (cV L) (jV L)) ↦{fullShare} histBuf m d L (Cert.Hist.doneSet (wOf L) (3 * g.val + 1))) : sProp 𝕄)) $$ [Hh]
    · istop; exact Entails.of_eq (congrArg (fun f => (((hW).view.loc (V d (cV L) (jV L)) ↦{fullShare} f) : sProp 𝕄)) (hist_out m d L (3 * g.val) (by omega)))
    sl_exec
    ihave Hb1 := (Entails.of_eq (slot_pts1 m d L (chOf (3 * g.val + 1)) _ (chunkTab m d L (chOf (3 * g.val + 1))) (fun _ => rfl))) $$ Hf1_dst
    ihave Hh : ((((hW).view.loc (V d (cV L) (jV L)) ↦{fullShare} histBuf m d L (Cert.Hist.doneSet (wOf L) (chOf (3 * g.val + 1)).val ∪ Cert.Hist.tripPart (wOf L) (chOf (3 * g.val + 1)) 0 0)) : sProp 𝕄)) $$ [Hh]
    · istop; exact Entails.of_eq (congrArg (fun f => (((hW).view.loc (V d (cV L) (jV L)) ↦{fullShare} f) : sProp 𝕄)) (hist_in m d L (3 * g.val + 1) (by omega)))
    sl_for (procInv m d L b1 (chOf (3 * g.val + 1)) (chunkTab m d L (chOf (3 * g.val + 1)))) $$ [Hh Hb1]
    case region => intro k acc; exact proc4_trip m d L hx _ _ _ _ _ k acc
    · unfold procInv; isplitl [Hh]; · iexact Hh
      iexact Hb1
    iintro %u2 HI
    ihave HI : (procInv m d L b1 (chOf (3 * g.val + 1)) (chunkTab m d L (chOf (3 * g.val + 1))) 32 u2) $$ [HI]
    · istop; exact Entails.of_eq (congrArg (fun n => procInv m d L b1 (chOf (3 * g.val + 1)) (chunkTab m d L (chOf (3 * g.val + 1))) n u2) trips4)
    unfold procInv
    icases HI with ⟨Hh, Hb1⟩
    ihave Hh : ((((hW).view.loc (V d (cV L) (jV L)) ↦{fullShare} histBuf m d L (Cert.Hist.doneSet (wOf L) (3 * g.val + 1 + 1))) : sProp 𝕄)) $$ [Hh]
    · istop; exact Entails.of_eq (congrArg (fun f => (((hW).view.loc (V d (cV L) (jV L)) ↦{fullShare} f) : sProp 𝕄)) (hist_out m d L (3 * g.val + 1) (by omega)))
    sl_exec
    ihave Hb2 := (Entails.of_eq (slot_pts2 m d L (chOf (3 * g.val + 2)) _ (chunkTab m d L (chOf (3 * g.val + 2))) (fun _ => rfl))) $$ Hf2_dst
    ihave Hh : ((((hW).view.loc (V d (cV L) (jV L)) ↦{fullShare} histBuf m d L (Cert.Hist.doneSet (wOf L) (chOf (3 * g.val + 2)).val ∪ Cert.Hist.tripPart (wOf L) (chOf (3 * g.val + 2)) 0 0)) : sProp 𝕄)) $$ [Hh]
    · istop; exact Entails.of_eq (congrArg (fun f => (((hW).view.loc (V d (cV L) (jV L)) ↦{fullShare} f) : sProp 𝕄)) (hist_in m d L (3 * g.val + 2) (by omega)))
    sl_for (procInv m d L b2 (chOf (3 * g.val + 2)) (chunkTab m d L (chOf (3 * g.val + 2)))) $$ [Hh Hb2]
    case region => intro k acc; exact proc5_trip m d L hx _ k acc
    · unfold procInv; isplitl [Hh]; · iexact Hh
      iexact Hb2
    iintro %u3 HI
    ihave HI : (procInv m d L b2 (chOf (3 * g.val + 2)) (chunkTab m d L (chOf (3 * g.val + 2))) 32 u3) $$ [HI]
    · istop; exact Entails.of_eq (congrArg (fun n => procInv m d L b2 (chOf (3 * g.val + 2)) (chunkTab m d L (chOf (3 * g.val + 2))) n u3) trips5)
    unfold procInv
    icases HI with ⟨Hh, Hb2⟩
    ihave Hh : ((((hW).view.loc (V d (cV L) (jV L)) ↦{fullShare} histBuf m d L (Cert.Hist.doneSet (wOf L) (3 * g.val + 2 + 1))) : sProp 𝕄)) $$ [Hh]
    · istop; exact Entails.of_eq (congrArg (fun f => (((hW).view.loc (V d (cV L) (jV L)) ↦{fullShare} f) : sProp 𝕄)) (hist_out m d L (3 * g.val + 2) (by omega)))
    sl_exec
    sl_step
    have e3 : 3 * (g.val + 1) = 3 * g.val + 3 := by omega
    have e4 : 3 * (g.val + 1) + 1 = 3 * g.val + 4 := by omega
    have e6 : 3 * g.val + 2 + 1 = 3 * g.val + 3 := by omega
    rw [e4, e3, e6]
    isplitl [Hmw]; · iexact Hmw
    isplitl [Hh]; · iexact Hh
    isplitl [Hf0_src Hf1_src Hf2_src Hrest]
    · isplitl [Hf0_src]; · iexact Hf0_src
      isplitl [Hf1_src]; · iexact Hf1_src
      isplitl [Hf2_src]; · iexact Hf2_src
      iexact Hrest
    isplitl [Hf0]
    · iexists (chunkTab m d L (chOf (3 * g.val))); istop; exact BI.Entails.refl _
    isplitl [Hf1]
    · iexists (chunkTab m d L (chOf (3 * g.val + 1))); istop; exact BI.Entails.refl _
    isplitl [Hb2 Hf2]
    · isplitl [Hb2]; · iexists _; iexact Hb2
      iexact Hf2
    iexists (insert (SemLoc.dma cc0_scratch6.sem, (default : HIx 1)) (insert (SemLoc.dma cc0_scratch5.sem, (default : HIx 1)) (insert (SemLoc.dma cc0_scratch4.sem, (default : HIx 1)) W'))); isplitr
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      exact hW' p hp
    · iexact HO

end Tile
end Cert.Proof.HistB
end
-- ==== Proof.TileProc6B.lean ====
/-
  One trip of a counting loop: sixteen vectors of sixteen tokens are read off the slot and added into the table of
  counts, one indexed add each; after vector `j` the table holds the counts of the chunks done, of the earlier trips
  of this chunk, and of the first `16 (j + 1)` tokens of this trip.
-/
import proofs.«217704_g70050916598121_cont_9to1_m_91_37_alg».proof.Proof.TileInvB
import proofs.«217704_g70050916598121_cont_9to1_m_91_37_alg».proof.Proof.TileOffsB
import proofs.«217704_g70050916598121_cont_9to1_m_91_37_alg».proof.Proof.SlotReadsB

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.Kernel.main_arg0_scv : Memref Cert.Kernel.sig Kind.scVector Space.hbm Cert.Kernel.S4096x2048 EltTy.i32)
local notation "pW" => (Memref.whole Cert.Kernel.main_v0_scv : Memref Cert.Kernel.sig Kind.scVector Space.hbm Cert.Kernel.S32x800x128 EltTy.i32)
local notation "b0" => (Memref.whole Cert.Kernel.cc0_scratch0 : Memref Cert.Kernel.sig Kind.scVector Space.vmem Cert.Kernel.S8x1024 EltTy.i32)
local notation "b1" => (Memref.whole Cert.Kernel.cc0_scratch1 : Memref Cert.Kernel.sig Kind.scVector Space.vmem Cert.Kernel.S8x1024 EltTy.i32)
local notation "b2" => (Memref.whole Cert.Kernel.cc0_scratch2 : Memref Cert.Kernel.sig Kind.scVector Space.vmem Cert.Kernel.S8x1024 EltTy.i32)
local notation "hW" => (Memref.whole Cert.Kernel.cc0_scratch3 : Memref Cert.Kernel.sig Kind.scVector Space.vmem Cert.Kernel.S800x128 EltTy.i32)

section Tile
variable (d : Dev nD) (L : grid0.Coords)

theorem proc6_trip (hx : PreOK m) (ch : Fin 32)  (k : Fin k0_t6_loop.trips) (acc : Unit) :
    procInv m d L b0 ch (chunkTab m d L ch) k.val acc
      ⊢ wp frame (wpE (defs₀ (F := F)) 𝒱₀ (V d (cV L) (jV L)) none) Set.univ
          (k0_t6_body L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0  k acc)
          (procInv m d L b0 ch (chunkTab m d L ch) (k.val + 1)) := by
  unfold procInv k0_t6_body
  have hk : k.val < 32 := by have := trips6; omega
  iintro ⟨Hh, Hb⟩
  sl_exec (disch := exact chk0 m d L ch (chunkTab m d L ch) (fun _ => rfl) (hx d) _ _)
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 1)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 0 _ (off11_eq k 0) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 2)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 1 _ (off11_eq k 1) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 3)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 2 _ (off11_eq k 2) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 4)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 3 _ (off11_eq k 3) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 5)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 4 _ (off11_eq k 4) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 6)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 5 _ (off11_eq k 5) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 7)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 6 _ (off11_eq k 6) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 8)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 7 _ (off11_eq k 7) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 9)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 8 _ (off11_eq k 8) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 10)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 9 _ (off11_eq k 9) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 11)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 10 _ (off11_eq k 10) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 12)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 11 _ (off11_eq k 11) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 13)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 12 _ (off11_eq k 12) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 14)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 13 _ (off11_eq k 13) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 15)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 14 _ (off11_eq k 14) _ _ (hx d) _))
  rw [SparseCore.vectorStoreIdx_bind (c := V d (cV L) (jV L))]
  sl_exec (disch := exact chk0 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 16)) : sProp 𝕄)) $$ [Hh]
  · istop
    exact Entails.of_eq (congrArg (fun f => (((hW).view.loc (V d (cV L) (jV L)) ↦{fullShare} f) : sProp 𝕄))
      (scatter_step0 m d L ch (chunkTab m d L ch) (fun _ => rfl) ⟨k.val, hk⟩ 15 _ (off11_eq k 15) _ _ (hx d) _))
  sl_step
  rw [← Cert.Hist.tripPart_next]
  isplitl [Hh]; · iexact Hh
  iexact Hb

end Tile
end Cert.Proof.HistB
end
-- ==== Proof.TileProc7B.lean ====
/-
  One trip of a counting loop: sixteen vectors of sixteen tokens are read off the slot and added into the table of
  counts, one indexed add each; after vector `j` the table holds the counts of the chunks done, of the earlier trips
  of this chunk, and of the first `16 (j + 1)` tokens of this trip.
-/
import proofs.«217704_g70050916598121_cont_9to1_m_91_37_alg».proof.Proof.TileInvB
import proofs.«217704_g70050916598121_cont_9to1_m_91_37_alg».proof.Proof.TileOffsB
import proofs.«217704_g70050916598121_cont_9to1_m_91_37_alg».proof.Proof.SlotReadsB

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.Kernel.main_arg0_scv : Memref Cert.Kernel.sig Kind.scVector Space.hbm Cert.Kernel.S4096x2048 EltTy.i32)
local notation "pW" => (Memref.whole Cert.Kernel.main_v0_scv : Memref Cert.Kernel.sig Kind.scVector Space.hbm Cert.Kernel.S32x800x128 EltTy.i32)
local notation "b0" => (Memref.whole Cert.Kernel.cc0_scratch0 : Memref Cert.Kernel.sig Kind.scVector Space.vmem Cert.Kernel.S8x1024 EltTy.i32)
local notation "b1" => (Memref.whole Cert.Kernel.cc0_scratch1 : Memref Cert.Kernel.sig Kind.scVector Space.vmem Cert.Kernel.S8x1024 EltTy.i32)
local notation "b2" => (Memref.whole Cert.Kernel.cc0_scratch2 : Memref Cert.Kernel.sig Kind.scVector Space.vmem Cert.Kernel.S8x1024 EltTy.i32)
local notation "hW" => (Memref.whole Cert.Kernel.cc0_scratch3 : Memref Cert.Kernel.sig Kind.scVector Space.vmem Cert.Kernel.S800x128 EltTy.i32)

section Tile
variable (d : Dev nD) (L : grid0.Coords)

theorem proc7_trip (hx : PreOK m) (ch : Fin 32)  (k : Fin k0_t7_loop.trips) (acc : Unit) :
    procInv m d L b1 ch (chunkTab m d L ch) k.val acc
      ⊢ wp frame (wpE (defs₀ (F := F)) 𝒱₀ (V d (cV L) (jV L)) none) Set.univ
          (k0_t7_body L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0 k0_pay230 k acc)
          (procInv m d L b1 ch (chunkTab m d L ch) (k.val + 1)) := by
  unfold procInv k0_t7_body
  have hk : k.val < 32 := by have := trips7; omega
  iintro ⟨Hh, Hb⟩
  sl_exec (disch := exact chk1 m d L ch (chunkTab m d L ch) (fun _ => rfl) (hx d) _ _)
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 1)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 0 _ (off12_eq k 0) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 2)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 1 _ (off12_eq k 1) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 3)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 2 _ (off12_eq k 2) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 4)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 3 _ (off12_eq k 3) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 5)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 4 _ (off12_eq k 4) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 6)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 5 _ (off12_eq k 5) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 7)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 6 _ (off12_eq k 6) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 8)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 7 _ (off12_eq k 7) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 9)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 8 _ (off12_eq k 8) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 10)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 9 _ (off12_eq k 9) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 11)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 10 _ (off12_eq k 10) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 12)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 11 _ (off12_eq k 11) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 13)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 12 _ (off12_eq k 12) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 14)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 13 _ (off12_eq k 13) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 15)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 14 _ (off12_eq k 14) _ _ (hx d) _))
  rw [SparseCore.vectorStoreIdx_bind (c := V d (cV L) (jV L))]
  sl_exec (disch := exact chk1 m d L ch (chunkTab m d L ch) (fun _ => rfl) (hx d) _ _)
  ihave Hh : ((((hW).view.loc (V d (cV L) (jV L)) ↦{fullShare} histBuf m d L (Cert.Hist.doneSet (wOf L) ch.val ∪ Cert.Hist.tripPart (wOf L) ch k.val 16)) : sProp 𝕄)) $$ [Hh]
  · istop
    exact Entails.of_eq (congrArg (fun f => (((hW).view.loc (V d (cV L) (jV L)) ↦{fullShare} f) : sProp 𝕄))
      (scatter_step1 m d L ch (chunkTab m d L ch) (fun _ => rfl) ⟨k.val, hk⟩ 15 _ (off12_eq k 15) _ _ (hx d) _))
  sl_step
  rw [← Cert.Hist.tripPart_next]
  isplitl [Hh]; · iexact Hh
  iexact Hb

end Tile
end Cert.Proof.HistB
end
-- ==== Proof.TileBodyB.lean ====
/-
  The task of one vector subcore, whole. The subcore is handed band `w` of the token table and plane `w` of the partial
  counts; it zeroes its table of counts, starts the first three chunks of its band into its three slots, walks the
  chunks three at a time (each counted into the table as it lands, the slot refilled with the chunk three ahead),
  counts the last two chunks, and writes the table out to its plane: the plane then holds, at row `r` and lane `l`,
  the number of tokens of the band equal to `128 r + l`. The band and the scratch storage are handed back as they
  came, every semaphore at zero.
-/
import proofs.«217704_g70050916598121_cont_9to1_m_91_37_alg».proof.Proof.TileInvB
import proofs.«217704_g70050916598121_cont_9to1_m_91_37_alg».proof.Proof.ZeroTripB
import proofs.«217704_g70050916598121_cont_9to1_m_91_37_alg».proof.Proof.ShareLemmas
import proofs.«217704_g70050916598121_cont_9to1_m_91_37_alg».proof.Proof.TileZeroB
import proofs.«217704_g70050916598121_cont_9to1_m_91_37_alg».proof.Proof.TileOuterB
import proofs.«217704_g70050916598121_cont_9to1_m_91_37_alg».proof.Proof.TileProc6B
import proofs.«217704_g70050916598121_cont_9to1_m_91_37_alg».proof.Proof.TileProc7B
import proofs.«217704_g70050916598121_cont_9to1_m_91_37_alg».proof.Proof.SlotReadsB
import proofs.«217704_g70050916598121_cont_9to1_m_91_37_alg».proof.Proof.RingSepB
import proofs.«217704_g70050916598121_cont_9to1_m_91_37_alg».proof.Proof.ChunkSetsB
import proofs.«217704_g70050916598121_cont_9to1_m_91_37_alg».proof.Proof.TileOffsB

noncomputable section

namespace Cert.Proof.HistB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.Kernel.main_arg0_scv : Memref Cert.Kernel.sig Kind.scVector Space.hbm Cert.Kernel.S4096x2048 EltTy.i32)
local notation "pW" => (Memref.whole Cert.Kernel.main_v0_scv : Memref Cert.Kernel.sig Kind.scVector Space.hbm Cert.Kernel.S32x800x128 EltTy.i32)
local notation "b0" => (Memref.whole Cert.Kernel.cc0_scratch0 : Memref Cert.Kernel.sig Kind.scVector Space.vmem Cert.Kernel.S8x1024 EltTy.i32)
local notation "b1" => (Memref.whole Cert.Kernel.cc0_scratch1 : Memref Cert.Kernel.sig Kind.scVector Space.vmem Cert.Kernel.S8x1024 EltTy.i32)
local notation "b2" => (Memref.whole Cert.Kernel.cc0_scratch2 : Memref Cert.Kernel.sig Kind.scVector Space.vmem Cert.Kernel.S8x1024 EltTy.i32)
local notation "hW" => (Memref.whole Cert.Kernel.cc0_scratch3 : Memref Cert.Kernel.sig Kind.scVector Space.vmem Cert.Kernel.S800x128 EltTy.i32)

section Tile
variable (d : Dev nD) (L : grid0.Coords)

omit [FloatOps F] in
/-- The finished table of counts written through the worker's plane is the finished plane. -/
theorem plane_done (g : Buf (Elt F) (pLoc d)) (h : IVec S800x128 32)
    (hh : ∀ q : S800x128.Idx, h q = Cert.Hist.cntW (xTab m d) (wOf L) (128 * (q 0).val + (q 1).val)) :
    (heldOwn (F := F) d L (pOut L) ((pOut L).view.writes (Elt F) g [⟨Rect.whole S800x128, h⟩]) : sProp 𝕄)
      = pPlanePts d (wOf L) (partsDone m d) := by
  show ((pOut L).view.loc (V d (cV L) (jV L)) ↦[(pOut L).view.set]{fullShare} _ : sProp 𝕄) = _
  rw [pOut_set]
  exact pOut_done_writes m d L g h hh

omit [FloatOps F] in
/-- Holding the worker's plane is holding its partial table. -/
theorem pts_plane (g : Buf (Elt F) (pLoc d)) :
    (pPlanePts d (wOf L) g : sProp 𝕄) = heldOwn (F := F) d L (pOut L) g := by
  show _ = ((pOut L).view.loc (V d (cV L) (jV L)) ↦[(pOut L).view.set]{fullShare} g : sProp 𝕄)
  rw [pOut_set]

omit [FloatOps F] in
theorem pts_b0 (f : Buf (Elt F) ((V d (cV L) (jV L)).loc cc0_scratch0)) :
    ((V d (cV L) (jV L)).loc cc0_scratch0 ↦{fullShare} f : sProp 𝕄) = heldOwn (F := F) d L b0 f := by
  show _ = ((b0).view.loc (V d (cV L) (jV L)) ↦[(b0).view.set]{fullShare} f : sProp 𝕄)
  simp only [Memref.view_whole, View.set_whole]
omit [FloatOps F] in
theorem pts_b1 (f : Buf (Elt F) ((V d (cV L) (jV L)).loc cc0_scratch1)) :
    ((V d (cV L) (jV L)).loc cc0_scratch1 ↦{fullShare} f : sProp 𝕄) = heldOwn (F := F) d L b1 f := by
  show _ = ((b1).view.loc (V d (cV L) (jV L)) ↦[(b1).view.set]{fullShare} f : sProp 𝕄)
  simp only [Memref.view_whole, View.set_whole]
omit [FloatOps F] in
theorem pts_b2 (f : Buf (Elt F) ((V d (cV L) (jV L)).loc cc0_scratch2)) :
    ((V d (cV L) (jV L)).loc cc0_scratch2 ↦{fullShare} f : sProp 𝕄) = heldOwn (F := F) d L b2 f := by
  show _ = ((b2).view.loc (V d (cV L) (jV L)) ↦[(b2).view.set]{fullShare} f : sProp 𝕄)
  simp only [Memref.view_whole, View.set_whole]

set_option maxHeartbeats 1600000 in
/-- The task on the vector subcore at `L` of device `d`. -/
theorem tile_body (hF : (K (F := F)).Facts) (hx : PreOK m) (O : CellTallies nD τ sig (HIx 1)) (W : Waits sig (HIx 1)) (hO : ∀ g, O g none = 0) :
    iprop(levAts (K (F := F)).L (K (F := F)).lev ∗ emp
        ∗ (xBandPts m d (wOf L) ∗ ∃ f, pPlanePts d (wOf L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__hist_kernel L xW (Memref.isWhole_whole _) pW (Memref.isWhole_whole _)
            b0 (Memref.isWhole_whole _) b1 (Memref.isWhole_whole _) b2 (Memref.isWhole_whole _) hW (Memref.isWhole_whole _)
            cc0_scratch4 cc0_scratch5 cc0_scratch6 cc0_scoped0)
          fun _ => iprop((xBandPts m d (wOf L) ∗ pPlanePts d (wOf L) (partsDone m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__hist_kernel_eq_skeleton]; unfold cc0__hist_kernel_skel
  simp only [k0_part24_eq_skeleton]; unfold k0_part24_skel
  rw [(K (F := F)).scopedBufs_V hF d (cV L) (jV L), SparseCore.Cfg.scopedSems0_V (Val := Elt F) d (cV L) (jV L), ownSems0_V, ownBufs_V]
  iintro ⟨#Hlv, -, ⟨Hxb, ⟨%g, Hp⟩⟩, ⟨⟨%f0, Hb0⟩, ⟨%f1, Hb1⟩, ⟨%f2, Hb2⟩, ⟨%fh, Hh⟩, Hbufs⟩, ⟨Hs0, Hs1, Hs2, Hs3, Hsems⟩, HO⟩
  ihave #Hmw := ((K (F := F)).mayWaits_none (thr := V d (cV L) (jV L)) hO) $$ Hlv
  iclear Hlv
  ihave Hx := (Entails.of_eq (xBand_chunks d L (m (xLoc d)))) $$ Hxb
  ihave Hp := (Entails.of_eq (pts_plane (F := F) d L g)) $$ Hp
  ihave Hb0 := (Entails.of_eq (pts_b0 (F := F) d L f0)) $$ Hb0
  ihave Hb1 := (Entails.of_eq (pts_b1 (F := F) d L f1)) $$ Hb1
  ihave Hb2 := (Entails.of_eq (pts_b2 (F := F) d L f2)) $$ Hb2
  sl_exec
  rw [Prog.bind_assoc]
  sl_for (zeroInv (F := F) d L) $$ [Hh]
  case region => intro k acc; exact zero_region d L k acc
  · iapply (zero_init (F := F) d L ⟨⟩); iexists _; iexact Hh
  iintro %u0 HI
  ihave Hh := (zero_done m d L u0) $$ HI
  ihave Hx' := (Entails.of_eq (ring_take (fun ch : Fin 32 => heldOwn (F := F) d L (xChunk L ch) (m (xLoc d))))) $$ Hx
  icases Hx' with ⟨Hc0, Hc1, Hc2, Hx⟩
  sl_exec
  rw [Prog.bind_assoc]
  sl_for (outInv m d L O W) $$ [Hh Hx Hs0 Hs1 Hs2 HO]
  case region => intro g acc; exact outer_trip m d L hx O W _ g acc
  · unfold outInv
    rw [if_pos (by omega : 3 * 0 + 2 < 32)]
    isplitr; · iexact Hmw
    isplitl [Hh]; · iexact Hh
    isplitl [Hx]; · iexact Hx
    isplitl [Hs0]; · unfold inflight; iexists _; iexact Hs0
    isplitl [Hs1]; · unfold inflight; iexists _; iexact Hs1
    isplitl [Hs2]; · unfold inflight; iexists _; iexact Hs2
    iexists W; isplitr; · ipureintro; exact fun p hp => .inl hp
    iexact HO
  iintro %u1 HI
  ihave HI : (outInv m d L O W 10 u1) $$ [HI]
  · iclear Hmw; istop; exact Entails.of_eq (congrArg (fun n => outInv m d L O W n u1) trips2)
  unfold outInv
  rw [if_neg (by omega : ¬ 3 * 10 + 2 < 32)]
  unfold inflight
  icases HI with ⟨-, Hh, Hx, ⟨%dp0, Hf0⟩, ⟨%dp1, Hf1⟩, ⟨⟨%f2', Hb2⟩, Hs2⟩, %W', %hW', HO⟩
  sl_exec
  ihave Hb0 := (Entails.of_eq (slot_pts0 m d L (chOf (3 * 10)) dp0 (chunkTab m d L (chOf (3 * 10))) (fun _ => rfl))) $$ Hf0_dst
  ihave Hh := (Entails.of_eq (congrArg (fun f => (((hW).view.loc (V d (cV L) (jV L)) ↦{fullShare} f) : sProp 𝕄)) (hist_in m d L (3 * 10) (by omega)))) $$ Hh
  rw [Prog.bind_assoc]
  sl_for (procInv m d L b0 (chOf (3 * 10)) (chunkTab m d L (chOf (3 * 10)))) $$ [Hh Hb0]
  case region => intro k acc; exact proc6_trip m d L hx _ k acc
  · unfold procInv; isplitl [Hh]; · iexact Hh
    iexact Hb0
  iintro %u2 HI
  ihave HI : (procInv m d L b0 (chOf (3 * 10)) (chunkTab m d L (chOf (3 * 10))) 32 u2) $$ [HI]
  · iclear Hmw; istop; exact Entails.of_eq (congrArg (fun n => procInv m d L b0 (chOf (3 * 10)) (chunkTab m d L (chOf (3 * 10))) n u2) trips6)
  unfold procInv
  icases HI with ⟨Hh, Hb0⟩
  ihave Hh : ((((hW).view.loc (V d (cV L) (jV L)) ↦{fullShare} histBuf m d L (Cert.Hist.doneSet (wOf L) (3 * 10 + 1))) : sProp 𝕄)) $$ [Hh]
  · iclear Hmw; istop; exact Entails.of_eq (congrArg (fun f => (((hW).view.loc (V d (cV L) (jV L)) ↦{fullShare} f) : sProp 𝕄)) (hist_out m d L (3 * 10) (by omega)))
  sl_exec
  ihave Hb1 := (Entails.of_eq (slot_pts1 m d L (chOf (3 * 10 + 1)) _ (chunkTab m d L (chOf (3 * 10 + 1))) (fun _ => rfl))) $$ Hf1_dst
  ihave Hh := (Entails.of_eq (congrArg (fun f => (((hW).view.loc (V d (cV L) (jV L)) ↦{fullShare} f) : sProp 𝕄)) (hist_in m d L (3 * 10 + 1) (by omega)))) $$ Hh
  sl_for (procInv m d L b1 (chOf (3 * 10 + 1)) (chunkTab m d L (chOf (3 * 10 + 1)))) $$ [Hh Hb1]
  case region => intro k acc; exact proc7_trip m d L hx _ k acc
  · unfold procInv; isplitl [Hh]; · iexact Hh
    iexact Hb1
  iintro %u3 HI
  ihave HI : (procInv m d L b1 (chOf (3 * 10 + 1)) (chunkTab m d L (chOf (3 * 10 + 1))) 32 u3) $$ [HI]
  · iclear Hmw; istop; exact Entails.of_eq (congrArg (fun n => procInv m d L b1 (chOf (3 * 10 + 1)) (chunkTab m d L (chOf (3 * 10 + 1))) n u3) trips7)
  unfold procInv
  icases HI with ⟨Hh, Hb1⟩
  ihave Hh : ((((hW).view.loc (V d (cV L) (jV L)) ↦{fullShare} histBuf m d L (Cert.Hist.doneSet (wOf L) (3 * 10 + 1 + 1))) : sProp 𝕄)) $$ [Hh]
  · iclear Hmw; istop; exact Entails.of_eq (congrArg (fun f => (((hW).view.loc (V d (cV L) (jV L)) ↦{fullShare} f) : sProp 𝕄)) (hist_out m d L (3 * 10 + 1) (by omega)))
  sl_exec
  sl_step
  ihave Hx : (bigSep Finset.univ fun ch : Fin 32 => heldOwn (F := F) d L (xChunk L ch) (m (xLoc d))) $$ [Hf0_src Hf1_src Hx]
  · iapply (Entails.of_eq (ring_done (fun ch : Fin 32 => heldOwn (F := F) d L (xChunk L ch) (m (xLoc d)))))
    isplitl [Hf0_src]; · iexact Hf0_src
    isplitl [Hf1_src]; · iexact Hf1_src
    iexact Hx
  ihave Hp : (pPlanePts d (wOf L) (partsDone m d)) $$ [Hp]
  · iclear Hmw; istop
    refine Entails.of_eq (plane_done m d L g _ ?_)
    intro q
    show Cert.Hist.histOf (xTab m d) (Cert.Hist.doneSet (wOf L) 32) q = _
    rw [Cert.Hist.doneSet_all]
    exact Cert.Hist.histOf_band _ _ q
  ihave Hxb := (Entails.of_eq (xBand_chunks d L (m (xLoc d))).symm) $$ Hx
  isplitl [Hxb Hp]
  · isplitl [Hxb]; · iexact Hxb
    iexact Hp
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  isplitl [Hb0 Hb1 Hb2 Hh Hbufs]
  · isplitl [Hb0]
    · iexists _; iexact Hb0
    isplitl [Hb1]
    · iexists _; iexact Hb1
    isplitl [Hb2]
    · iexists _; iexact Hb2
    isplitl [Hh]
    · iexists _; iexact Hh
    iexact Hbufs
  isplitl [Hf0 Hf1 Hs2 Hs3 Hsems]
  · isplitl [Hf0]; · iexact Hf0
    isplitl [Hf1]; · iexact Hf1
    isplitl [Hs2]; · iexact Hs2
    isplitl [Hs3]; · iexact Hs3
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp

end Tile

/-! ## The launch theorem's obligation for the vector subcores -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__hist_kernel (coordsV c s)
          xW (Memref.isWhole_whole _) pW (Memref.isWhole_whole _)
          b0 (Memref.isWhole_whole _) b1 (Memref.isWhole_whole _) b2 (Memref.isWhole_whole _) hW (Memref.isWhole_whole _)
          cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task meets the launch theorem's obligation: handed its band and its plane, it hands them back
    with the plane at the finished partial counts. -/
theorem tileObl (hF : (K (F := F)).Facts) (hx : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hx O W hO).trans (wp_mono frame _ _ fun _ => obl_post)

end Cert.Proof.HistB
end
-- ==== Proof.PreRange.lean ====
/-
  What the precondition says of the table. The predicate `(0 ≤ x) ∧ (x ≤ 99999)` holds at every position (the two
  comparisons are signed, and the conjunction over all positions is 1), so every word, non-negative as a signed
  number, is its own unsigned value, and that value is at most 99999.
-/
import proofs.«217704_g70050916598121_cont_9to1_m_91_37_alg».proof.Proof.Gen.Pre_input_domain
import proofs.«217704_g70050916598121_cont_9to1_m_91_37_alg».proof.Proof.Spec
import Idealize.ShloMosaic.Lib.ReduceAll

noncomputable section

namespace Cert.Hist

open Idealize.ShloMosaic

variable {F : FTy → Type} [FloatOps F]

/-- A word that is at least 0 and at most 99999 as a signed number has unsigned value at most 99999. -/
theorem word_le_of_signed (v : BitVec 32)
    (h0 : (0#32 : BitVec 32).toInt ≤ v.toInt) (h1 : v.toInt ≤ (99999#32 : BitVec 32).toInt) : v.toNat ≤ 99999 := by
  simp only [BitVec.toInt_eq_toNat_cond, BitVec.toNat_ofNat, Nat.reducePow, Nat.reduceMod] at h0 h1
  omega

/-- The precondition gives the range of every word of the table. -/
theorem pre_range (x : IVec ST 32) (u : FVec F SV .f32)
    (h : Cert.Pre_input_domain.fn (F := F) x u = fun _ => 1#1) : ∀ p, (x p).toNat ≤ 99999 := by
  intro p
  haveI : Subsingleton Cert.Pre_input_domain.S_.Idx := ⟨fun a b => funext fun d => d.elim0⟩
  have e := congrFun h ValueIdx.ix0
  dsimp only [Cert.Pre_input_domain.fn] at e
  have e2 := (IntOp.andi_eq_one.1 e).2
  have e3 := Host.reduce_andi_all _ _ _ _ _ e2 p
  obtain ⟨ha, hb⟩ := IntOp.andi_eq_one.1 e3
  exact word_le_of_signed _ (IntOp.cmpi_sge.1 ha) (IntOp.cmpi_sle.1 hb)

end Cert.Hist

end
-- ==== Proof.ScatterAdd.lean ====
/-
  A scatter that adds. The scatter of the updates `upd` into `x` by 32-bit addition leaves, at the index `i`, the
  element `x i` plus the sum of the updates whose result index is `i`: addition is commutative and associative, so
  the order in which the updates are taken is immaterial.
-/
import Idealize.ShloMosaic.PureOps
import Idealize.ShloMosaic.Lib.ValueIdx
import Mathlib.Algebra.BigOperators.Group.Finset.Basic
import Mathlib.Algebra.BigOperators.Fin
import Mathlib.Data.BitVec

noncomputable section

namespace Cert.Hist

open Idealize.ShloMosaic

/-- The fold of the scatter's step over any list of update positions, read at `i`. -/
theorem foldl_scatter_addi {s si u : Shape} {w : Nat} (d : ScatterDims s si u) (idx : IVec si w)
    (upd : u.Idx → BitVec 32) (i : s.Idx) :
    ∀ (l : List (Fin u.numel)) (x : s.Idx → BitVec 32),
      l.foldl (fun r n => match d.resultIdx? (u.rowMajor.symm n) idx with
        | some i0 => fun i' => if i' = i0 then IntOp.addi (r i0) (upd (u.rowMajor.symm n)) else r i'
        | none => r) x i
      = x i + (l.map fun n => if d.resultIdx? (u.rowMajor.symm n) idx = some i then upd (u.rowMajor.symm n) else 0#32).sum
  | [], x => by simp
  | n :: l, x => by
    rw [List.foldl_cons, foldl_scatter_addi d idx upd i l, List.map_cons, List.sum_cons, ← add_assoc]
    congr 1
    cases h : d.resultIdx? (u.rowMajor.symm n) idx with
    | none => simp
    | some i0 =>
      dsimp only
      by_cases e : i = i0
      · subst e; simp [IntOp.addi]
      · rw [if_neg e, if_neg (by simpa using fun h => e h.symm)]; simp

/-- A scatter by addition, read at an index: the operand's element plus the updates that land there. -/
theorem scatter_addi_apply {s si u : Shape} {w : Nat} (d : ScatterDims s si u) (x : s.Idx → BitVec 32) (idx : IVec si w)
    (upd : u.Idx → BitVec 32) (i : s.Idx) :
    Host.scatter d IntOp.addi x idx upd i = x i + ∑ j : u.Idx, if d.resultIdx? j idx = some i then upd j else 0#32 := by
  unfold Host.scatter
  refine (foldl_scatter_addi d idx upd i (List.finRange u.numel) x).trans ?_
  congr 1
  rw [← Fin.sum_univ_def]
  exact Equiv.sum_comp u.rowMajor.symm (fun j => if d.resultIdx? j idx = some i then upd j else 0#32)

end Cert.Hist

end
-- ==== Proof.RefValue.lean ====
/-
  The reference computes the specification. Its scatter adds a one, for every position of the flattened table, at
  the index that position holds (the clip and wrap stages before it are the identity on words between 0 and 99999),
  so the element `v` of its result is the number of positions holding `v`; the flat positions and the positions
  `(row, column)` of the table correspond one to one. The conversion to floats and the addition of `u` are the
  specification's own.
-/
import proofs.«217704_g70050916598121_cont_9to1_m_91_37_alg».proof.Proof.Gen.ReferenceIdeal.Read
import proofs.«217704_g70050916598121_cont_9to1_m_91_37_alg».proof.Proof.ScatterAdd
import proofs.«217704_g70050916598121_cont_9to1_m_91_37_alg».proof.Proof.Spec
import Idealize.ShloMosaic.Lib.ValueIdx

noncomputable section

namespace Cert.Hist

open Cert.ReferenceIdeal Cert.ReferenceIdeal.Gen Idealize.ShloMosaic Idealize.ShloMosaic.TcCoe Idealize.SL.Sem Idealize.ShloMosaic.StableHlo ValueIdx

variable {F : FTy → Type} [FloatOps F]

/-- The reference's scatter record: one scatter index per update, into the one axis of the counts. -/
abbrev dS : ScatterDims S100002 S8388608x1 S8388608 := scatter_S100002_S8388608x1_S8388608_n_0_0_1

/-- Update `j` starts at the word the indices hold at row `j`, read signed. -/
theorem start_eq (idx : IVec S8388608x1 32) (j : S8388608.Idx) (a : Fin 1) :
    dS.start j idx a = (idx (ix2 (j 0) 0)).toInt := by
  have ha : a = 0 := Subsingleton.elim _ _
  subst ha
  unfold ScatterDims.start
  rw [dif_pos (by decide)]
  congr 2
  funext b
  unfold ScatterDims.siIdx
  match b with
  | ⟨0, hb⟩ =>
    have h0 : ¬ ((⟨0, hb⟩ : Fin S8388608x1.rank).val = dS.indexVectorDim) := fun h => Nat.zero_ne_one h
    rw [dif_neg h0]
    apply Fin.ext
    unfold ScatterDims.siCoord
    show (j _).val = (j 0).val
    congr 2
  | ⟨1, hb⟩ =>
    have h1 : (⟨1, hb⟩ : Fin S8388608x1.rank).val = dS.indexVectorDim := rfl
    rw [dif_pos h1]
    apply Fin.ext
    show List.idxOf (0 : Fin 1) [0] = 0
    decide

/-- The window is a single element. -/
theorem window_eq (j : S8388608.Idx) (a : Fin 1) : dS.window j a = 0 := by
  have ha : a = 0 := Subsingleton.elim _ _
  subst ha
  unfold ScatterDims.window
  rw [dif_neg (by decide)]

/-- Update `j` lands on `i` exactly when the word at row `j`, read signed, is `i`. -/
theorem resultIdx_iff (idx : IVec S8388608x1 32) (j : S8388608.Idx) (i : S100002.Idx) :
    dS.resultIdx? j idx = some i ↔ (idx (ix2 (j 0) 0)).toInt = ((i 0).val : Int) := by
  have hs := start_eq idx j
  have hw := window_eq j
  have hi : (i 0).val < 100002 := (i 0).isLt
  unfold ScatterDims.resultIdx?
  constructor
  · intro h
    split at h
    · rename_i hc
      have h1 := Option.some.inj h
      have h2 : (dS.start j idx 0 + ((dS.window j 0 : Nat) : Int)).toNat = (i 0).val := congrArg Fin.val (congrFun h1 0)
      have h3 := (hc 0).1
      rw [hs, hw] at h2 h3
      omega
    · cases h
  · intro e
    have hc : ∀ a, 0 ≤ dS.start j idx a + ((dS.window j a : Nat) : Int) ∧ dS.start j idx a + ((dS.window j a : Nat) : Int) < ((S100002.size a : Nat) : Int) := by
      intro a
      rw [hs, hw]
      have : a = 0 := Subsingleton.elim _ _
      subst this
      show 0 ≤ _ + ((0:Nat):Int) ∧ _ + ((0:Nat):Int) < ((100002 : Nat) : Int)
      omega
    rw [dif_pos hc]
    congr 1
    funext a
    have : a = 0 := Subsingleton.elim _ _
    subst this
    apply Fin.ext
    show (dS.start j idx 0 + ((dS.window j 0 : Nat) : Int)).toNat = (i 0).val
    rw [hs, hw]
    omega

/-- The clip and wrap stages leave a word in range as it is, and its signed value is its unsigned one. -/
theorem word_id (y : BitVec 32) (hy : y.toNat ≤ 99999) :
    Scalar.select (IntOp.cmpi .slt (IntOp.maxsi 0#32 y) 0#32) (IntOp.addi (IntOp.maxsi 0#32 y) 100002#32) (IntOp.maxsi 0#32 y) = y
    ∧ y.toInt = (y.toNat : Int) := by
  have h1 : y.toInt = (y.toNat : Int) := by
    rw [BitVec.toInt_eq_toNat_cond]; split <;> omega
  have h2 : IntOp.maxsi 0#32 y = y := by
    unfold IntOp.maxsi
    rw [if_neg]
    rw [BitVec.slt_iff_toInt_lt, h1]; simp
  refine ⟨?_, h1⟩
  rw [h2]
  have h3 : IntOp.cmpi .slt y 0#32 = 0#1 := by
    have : ¬ (IntOp.cmpi .slt y 0#32 = 1#1) := by
      rw [IntOp.cmpi_slt, h1]; simp
    revert this; generalize IntOp.cmpi .slt y 0#32 = c; revert c; decide
  rw [h3]
  rfl

/-- The scatter stage of the reference, at the index `i`: the number of positions of the table that hold `i`. -/
theorem ref_count (x : IVec ST 32) (h : ∀ p, (x p).toNat ≤ 99999) (i : S100002.Idx) :
    Read.val_main_v10 (F := F) x i = cnt x (i 0).val := by
  unfold Read.val_main_v10
  rw [scatter_addi_apply, Read.val_main_v1_apply, Read.val_main_c_apply, BitVec.zero_add]
  unfold cnt
  refine (Finset.sum_congr rfl fun j _ => ?_).trans
    (Equiv.sum_comp (Shape.reshapeEquiv shapeCasts_S4096x2048_S8388608) fun p : ST.Idx => if (x p).toNat = (i 0).val then 1#32 else 0#32)
  have hj : Read.idx_main_v8 (ix2 (j 0) 0) = j := by
    funext a
    match a with
    | ⟨0, _⟩ => rfl
  have e0 : Read.val_main_v0 (F := F) x j = x (Shape.reshapeEquiv shapeCasts_S4096x2048_S8388608 j) := rfl
  have e8 : Read.val_main_v8 (F := F) x (ix2 (j 0) 0) = x (Shape.reshapeEquiv shapeCasts_S4096x2048_S8388608 j) := by
    rw [Read.val_main_v8_apply, hj, Read.val_main_v7_apply, Read.val_main_v4_apply, Read.val_main_v6_apply, Read.val_main_v2_apply,
      Read.val_main_call0_v1_apply, Read.val_main_call0_v0_apply, Read.val_main_c_0_apply, Read.val_main_v3_apply, Read.val_main_c_1_apply,
      Read.val_main_v5_apply, Read.val_main_c_2_apply, e0]
    exact (word_id _ (h _)).1
  refine if_congr ?_ (by rw [Read.val_main_v9_apply, Read.val_main_c_3_apply]) rfl
  rw [resultIdx_iff, e8, (word_id _ (h _)).2]
  exact Nat.cast_inj

/-- The reference's result is the specification's. -/
theorem ref_value (x : IVec ST 32) (u : FVec F SV .f32) (h : ∀ p, (x p).toNat ≤ 99999) :
    Read.val_main_v12 (F := F) x u = G x u := by
  have e : Read.val_main_v10 (F := F) x = fun j : SV.Idx => cnt x (j 0).val := funext (ref_count x h)
  unfold Read.val_main_v12 Read.val_main_v11 G
  rw [e]

/-- The reference's run, from a table whose words lie between 0 and 99999: it ends with the specification's value
    and leaves its arguments as they were. -/
theorem ref_run (m' : (ℓ : Loc nD τ sig) → Buf (Elt Ideal) ℓ) (ρ' : Dev nD → PrngReg)
    (h : ∀ (c : Dev nD) p, (m' ((c.tc : Thread nD τ).loc main_arg0) p).toNat ≤ 99999) :
    θ_run defs (onTc (τ := τ) (main (F := Ideal))) ⟨m', fun _ => 0, ρ'⟩ fun r => ∀ c : Dev nD,
      r.2.mem ((c.tc : Thread nD τ).loc main_v12)
          = G (F := Ideal) (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  (θ_run defs _ _).mono (fun _ hr c => ⟨by rw [(hr c).1, Read.val_main_v12_eq, ref_value _ _ (h c)], (hr c).2⟩)
    (Cert.ReferenceIdeal.Value.run (F := Ideal) m' ρ')

end Cert.Hist

end
-- ==== Proof.lean ====
/-
  The five claims. Under the precondition every word of the token table lies between 0 and 99999 (`Cert.Hist.pre_range`).
  The kernel program, at either instance, runs from the vector subcores' task and ends with its result at the running
  counts plus the count of every word, its two arguments unchanged (`run_main` with `tileObl` and `res_eq`: the frames
  `frame_p`, `frame_pi` and the kernel's half of `algebraic`); the reference ends with the same value
  (`Cert.Hist.ref_run`: `frame_ri` and the reference's half of `algebraic`, the value being
  `Cert.Hist.G` of the launch arrays on both sides). No operation of the kernel was rewritten for the ideal reading, so
  `preserves` is the true proposition.
-/
import proofs.«217704_g70050916598121_cont_9to1_m_91_37_alg».proof.Defs
import proofs.«217704_g70050916598121_cont_9to1_m_91_37_alg».proof.Proof.Gen.Kernel
import proofs.«217704_g70050916598121_cont_9to1_m_91_37_alg».proof.Proof.Gen.KernelIdeal
import proofs.«217704_g70050916598121_cont_9to1_m_91_37_alg».proof.Proof.Gen.ReferenceIdeal
import proofs.«217704_g70050916598121_cont_9to1_m_91_37_alg».proof.Proof.Gen.Pre_input_domain
import proofs.«217704_g70050916598121_cont_9to1_m_91_37_alg».proof.Proof.MainI
import proofs.«217704_g70050916598121_cont_9to1_m_91_37_alg».proof.Proof.MainB
import proofs.«217704_g70050916598121_cont_9to1_m_91_37_alg».proof.Proof.ResI
import proofs.«217704_g70050916598121_cont_9to1_m_91_37_alg».proof.Proof.ResB
import proofs.«217704_g70050916598121_cont_9to1_m_91_37_alg».proof.Proof.TileBodyI
import proofs.«217704_g70050916598121_cont_9to1_m_91_37_alg».proof.Proof.TileBodyB
import proofs.«217704_g70050916598121_cont_9to1_m_91_37_alg».proof.Proof.PreRange
import proofs.«217704_g70050916598121_cont_9to1_m_91_37_alg».proof.Proof.RefValue
import Idealize.ShloMosaic.Adequacy
import Idealize.ShloMosaic.Init

noncomputable section

open Idealize.ShloMosaic Idealize.SL.Sem

namespace Cert.Proof

/-- Under the precondition every word of the table is at most 99999 (ideal copy of the kernel). -/
theorem range_pi (m : (ℓ : Loc Cert.KernelIdeal.nD Cert.KernelIdeal.τ Cert.KernelIdeal.sig) → Buf (Elt Ideal) ℓ)
    (h : Cert.Pre_KernelIdeal m) : ∀ d p, (HistI.xTab m d p).toNat ≤ 99999 :=
  fun d => Cert.Hist.pre_range (F := Ideal) (HistI.xTab m d) (m (HistI.uLoc d)) (h d)

/-- The same for the bit-exact copy. -/
theorem range_p (m : (ℓ : Loc Cert.Kernel.nD Cert.Kernel.τ Cert.Kernel.sig) → Buf (Elt Bits) ℓ)
    (h : Cert.Pre_Kernel m) : ∀ d p, (HistB.xTab m d p).toNat ≤ 99999 :=
  fun d => Cert.Hist.pre_range (F := Bits) (HistB.xTab m d) (m (HistB.uLoc d)) (h d)

theorem frame_p : Cert.frame_Kernel := fun m ρ hpre =>
  (θ_run Cert.Kernel.defs _ _).mono (fun _ h c => (h c).2)
    (HistB.run_main (F := Bits) m ρ (HistB.tileObl m HistB.facts (range_p m hpre)))

theorem frame_pi : Cert.frame_KernelIdeal := fun m ρ hpre =>
  (θ_run Cert.KernelIdeal.defs _ _).mono (fun _ h c => (h c).2)
    (HistI.run_main (F := Ideal) m ρ (HistI.tileObl m HistI.facts (range_pi m hpre)))

theorem frame_ri : Cert.frame_ReferenceIdeal := fun m' ρ' hpre =>
  (θ_run Cert.ReferenceIdeal.defs _ _).mono (fun _ h c => (h c).2)
    (Cert.Hist.ref_run m' ρ' fun c => Cert.Hist.pre_range (F := Ideal) _ _ (hpre c))

theorem preserves : Cert.preserves_Kernel_KernelIdeal := trivial

/-- At the ideal instance both programs end with the running counts plus the count of every word. -/
theorem algebraic : Cert.algebraic_KernelIdeal_ReferenceIdeal := by
  intro m ρ m' ρ' hpre hagree
  refine ⟨fun c => Cert.Hist.G (F := Ideal) (HistI.xTab m c) (m (HistI.uLoc c)), ?_, ?_⟩
  · exact (θ_run Cert.KernelIdeal.defs _ _).mono (fun _ h c => ⟨(h c).1.trans (HistI.res_eq m c), (h c).2⟩)
      (HistI.run_main (F := Ideal) m ρ (HistI.tileObl m HistI.facts (range_pi m hpre)))
  · have hr : ∀ (c : Dev Cert.ReferenceIdeal.nD) p,
        (m' ((c.tc : Thread Cert.ReferenceIdeal.nD Cert.ReferenceIdeal.τ).loc Cert.ReferenceIdeal.main_arg0) p).toNat ≤ 99999 := by
      intro c p
      rw [(hagree c).1]
      exact range_pi m hpre c p
    refine (θ_run Cert.ReferenceIdeal.defs _ _).mono (fun _ h c => ⟨(h c).1.trans ?_, (h c).2⟩) (Cert.Hist.ref_run m' ρ' hr)
    rw [(hagree c).1, (hagree c).2]

theorem claim : Cert.Claim :=
  ⟨Cert.Kernel.Gen.facts, Cert.KernelIdeal.Gen.facts, Cert.ReferenceIdeal.Gen.facts, Cert.Pre_input_domain.Gen.facts,
    frame_p, frame_pi, frame_ri, preserves, algebraic⟩

end Cert.Proof

end
